-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x32 : Shape := ⟨4, ![32, 512, 512, 32]⟩
abbrev S_ : Shape := ⟨0, ![]⟩

class Facts : Prop where
  bcast_S_S32x512x512x32 : S_.BroadcastsInDim S32x512x512x32 (![] : Fin 0 → Fin S32x512x512x32.rank)
  reducesTo_S32x512x512x32_S_d0_1_2_3 : S32x512x512x32.ReducesTo [0, 1, 2, 3] S_
  h_S_ : 0 < S_.numel

variable [Facts]

def fn {F : FTy → Type} [FloatOps F] (main_arg0 : FVec F S32x512x512x32 .f32) : IVec S_ 1 :=
  let main_v0 : FVec F S32x512x512x32 .f32 := Host.absf main_arg0
  let main_cst : FVec F S_ .f32 := constant S_ .f32 0x7F800000#32
  let main_v1 : FVec F S32x512x512x32 .f32 := broadcastInDim S32x512x512x32 ![] bcast_S_S32x512x512x32 main_cst
  let main_v2 : IVec S32x512x512x32 1 := cmpf .olt main_v0 main_v1
  let main_c : IVec S_ 1 := constantI S_ 1 1#1
  let main_v3 : IVec S_ 1 := (fun x v => Host.reduce IntOp.andi x v reducesTo_S32x512x512x32_S_d0_1_2_3 h_S_) main_v2 main_c
  main_v3
-- ==== Kernel.lean ====
abbrev S32x512x512x32 : Shape := ⟨4, ![32, 512, 512, 32]⟩
abbrev S32x284x512x32 : Shape := ⟨4, ![32, 284, 512, 32]⟩
abbrev S1x512x32x32 : Shape := ⟨4, ![1, 512, 32, 32]⟩
abbrev S1x284x32x32 : Shape := ⟨4, ![1, 284, 32, 32]⟩
abbrev S1x1x32x32 : Shape := ⟨4, ![1, 1, 32, 32]⟩
abbrev S32x32 : Shape := ⟨2, ![32, 32]⟩
abbrev S32x284x205x32 : Shape := ⟨4, ![32, 284, 205, 32]⟩
abbrev S1x48x512x32 : Shape := ⟨4, ![1, 48, 512, 32]⟩
abbrev S1x48x205x32 : Shape := ⟨4, ![1, 48, 205, 32]⟩
abbrev S1x48x1x32 : Shape := ⟨4, ![1, 48, 1, 32]⟩
abbrev S48x32 : Shape := ⟨2, ![48, 32]⟩

abbrev nBuf : Space → Nat
  | .hbm => 3
  | .vmem => 8
  | .smem => 0
  | _ => 0

abbrev bufTy : (tb : Table) → Fin (tcTables nBuf tb) → BufTy
  | .hbm, ⟨0, _⟩ => ⟨S32x512x512x32, .f32⟩
  | .hbm, ⟨1, _⟩ => ⟨S32x284x512x32, .f32⟩
  | .hbm, ⟨2, _⟩ => ⟨S32x284x205x32, .f32⟩
  | .local _ .vmem, ⟨0, _⟩ => ⟨S1x512x32x32, .f32⟩
  | .local _ .vmem, ⟨1, _⟩ => ⟨S1x512x32x32, .f32⟩
  | .local _ .vmem, ⟨2, _⟩ => ⟨S1x284x32x32, .f32⟩
  | .local _ .vmem, ⟨3, _⟩ => ⟨S1x284x32x32, .f32⟩
  | .local _ .vmem, ⟨4, _⟩ => ⟨S1x48x512x32, .f32⟩
  | .local _ .vmem, ⟨5, _⟩ => ⟨S1x48x512x32, .f32⟩
  | .local _ .vmem, ⟨6, _⟩ => ⟨S1x48x205x32, .f32⟩
  | .local _ .vmem, ⟨7, _⟩ => ⟨S1x48x205x32, .f32⟩
  | _, _ => ⟨S32x512x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![32, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x284x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![32, 6], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x48x512x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x48x205x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x32x32.size a ≤ S32x512x512x32.size a
  hwx0_0 : ∀ i : grid0.Coords, EltTy.bits .f32 = 32 ∨ (Rect.block (s := S32x512x512x32) S1x512x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x284x32x32.size a ≤ S32x284x512x32.size a
  hwx0_1 : ∀ i : grid0.Coords, EltTy.bits .f32 = 32 ∨ (Rect.block (s := S32x284x512x32) S1x284x32x32.size (cc0_transform_1 i) (hinb0_1 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1x48x512x32.size a < S32x284x512x32.size a
  hwx1_0 : ∀ i : grid1.Coords, EltTy.bits .f32 = 32 ∨ (Rect.unit (s := S32x284x512x32) (fun a => cc1_transform_0 i a * S1x48x512x32.size a) (fun a => (Pipeline.Clip.of (cc1_transform_0 i a) (S1x48x512x32.size a) (S32x284x512x32.size a)).extent (S1x48x512x32.size a)) fun a => Pipeline.Clip.inb (Pipeline.Clip.ok_of (hstart1_0 i a))).WholeWords (EltTy.packing .f32)
  hwxs1_0 : ∀ i : grid1.Coords, EltTy.bits .f32 = 32 ∨ (Rect.unit (s := S1x48x512x32) (fun _ => 0) (fun a => (Pipeline.Clip.of (cc1_transform_0 i a) (S1x48x512x32.size a) (S32x284x512x32.size a)).extent (S1x48x512x32.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1x48x205x32.size a < S32x284x205x32.size a
  hwx1_1 : ∀ i : grid1.Coords, EltTy.bits .f32 = 32 ∨ (Rect.unit (s := S32x284x205x32) (fun a => cc1_transform_1 i a * S1x48x205x32.size a) (fun a => (Pipeline.Clip.of (cc1_transform_1 i a) (S1x48x205x32.size a) (S32x284x205x32.size a)).extent (S1x48x205x32.size a)) fun a => Pipeline.Clip.inb (Pipeline.Clip.ok_of (hstart1_1 i a))).WholeWords (EltTy.packing .f32)
  hwxs1_1 : ∀ i : grid1.Coords, EltTy.bits .f32 = 32 ∨ (Rect.unit (s := S1x48x205x32) (fun _ => 0) (fun a => (Pipeline.Clip.of (cc1_transform_1 i a) (S1x48x205x32.size a) (S32x284x205x32.size a)).extent (S1x48x205x32.size a)) fun a => (Nat.zero_add _).trans_le (Pipeline.Clip.extent_le (Pipeline.Clip.ok_of (hstart1_1 i a)))).WholeWords (EltTy.packing .f32)

class Shapes1.Facts₀ : Prop where
  inb_S1x512x32x32_S1x1x32x32_0_0_0_0 : ∀ a, (![0, 0, 0, 0] : Fin 4 → Nat) a + S1x1x32x32.size a ≤ S1x512x32x32.size a
  h_S1x1x32x32 : 0 < S1x1x32x32.numel
  shapeCasts_S1x1x32x32_S32x32 : S1x1x32x32.ShapeCasts S32x32
  inb_S1x512x32x32_S1x1x32x32_0_1_0_0 : ∀ a, (![0, 1, 0, 0] : Fin 4 → Nat) a + S1x1x32x32.size a ≤ S1x512x32x32.size a
  inb_S1x512x32x32_S1x1x32x32_0_2_0_0 : ∀ a, (![0, 2, 0, 0] : Fin 4 → Nat) a + S1x1x32x32.size a ≤ S1x512x32x32.size a
  inb_S1x284x32x32_S1x1x32x32_0_0_0_0 : ∀ a, (![0, 0, 0, 0] : Fin 4 → Nat) a + S1x1x32x32.size a ≤ S1x284x32x32.size a
  shapeCasts_S32x32_S1x1x32x32 : S32x32.ShapeCasts S1x1x32x32
  inb_S1x512x32x32_S1x1x32x32_0_3_0_0 : ∀ a, (![0, 3, 0, 0] : Fin 4 → Nat) a + S1x1x32x32.size a ≤ S1x512x32x32.size a
  inb_S1x512x32x32_S1x1x32x32_0_4_0_0 : ∀ a, (![0, 4, 0, 0] : Fin 4 → Nat) a + S1x1x32x32.size a ≤ S1x512x32x32.size a
  inb_S1x512x32x32_S1x1x32x32_0_5_0_0 : ∀ a, (![0, 5, 0, 0] : Fin 4 → Nat) a + S1x1x32x32.size a ≤ S1x512x32x32.size a
  inb_S1x284x32x32_S1x1x32x32_0_1_0_0 : ∀ a, (![0, 1, 0, 0] : Fin 4 → Nat) a + S1x1x32x32.size a ≤ S1x284x32x32.size a
  inb_S1x512x32x32_S1x1x32x32_0_6_0_0 : ∀ a, (![0, 6, 0, 0] : Fin 4 → Nat) a + S1x1x32x32.size a ≤ S1x512x32x32.size a
  inb_S1x512x32x32_S1x1x32x32_0_7_0_0 : ∀ a, (![0, 7, 0, 0] : Fin 4 → Nat) a + S1x1x32x32.size a ≤ S1x512x32x32.size a
  inb_S1x512x32x32_S1x1x32x32_0_8_0_0 : ∀ a, (![0, 8, 0, 0] : Fin 4 → Nat) a + S1x1x32x32.size a ≤ S1x512x32x32.size a
  inb_S1x284x32x32_S1x1x32x32_0_2_0_0 : ∀ a, (![0, 2, 0, 0] : Fin 4 → Nat) a + S1x1x32x32.size a ≤ S1x284x32x32.size a
  inb_S1x512x32x32_S1x1x32x32_0_9_0_0 : ∀ a, (![0, 9, 0, 0] : Fin 4 → Nat) a + S1x1x32x32.size a ≤ S1x512x32x32.size a
  inb_S1x512x32x32_S1x1x32x32_0_10_0_0 : ∀ a, (![0, 10, 0, 0] : Fin 4 → Nat) a + S1x1x32x32.size a ≤ S1x512x32x32.size a
  inb_S1x512x32x32_S1x1x32x32_0_11_0_0 : ∀ a, (![0, 11, 0, 0] : Fin 4 → Nat) a + S1x1x32x32.size a ≤ S1x512x32x32.size a
  inb_S1x284x32x32_S1x1x32x32_0_3_0_0 : ∀ a, (![0, 3, 0, 0] : Fin 4 → Nat) a + S1x1x32x32.size a ≤ S1x284x32x32.size a
  inb_S1x512x32x32_S1x1x32x32_0_12_0_0 : ∀ a, (![0, 12, 0, 0] : Fin 4 → Nat) a + S1x1x32x32.size a ≤ S1x512x32x32.size a
  inb_S1x512x32x32_S1x1x32x32_0_13_0_0 : ∀ a, (![0, 13, 0, 0] : Fin 4 → Nat) a + S1x1x32x32.size a ≤ S1x512x32x32.size a
  inb_S1x512x32x32_S1x1x32x32_0_14_0_0 : ∀ a, (![0, 14, 0, 0] : Fin 4 → Nat) a + S1x1x32x32.size a ≤ S1x512x32x32.size a
  inb_S1x284x32x32_S1x1x32x32_0_4_0_0 : ∀ a, (![0, 4, 0, 0] : Fin 4 → Nat) a + S1x1x32x32.size a ≤ S1x284x32x32.size a
  inb_S1x512x32x32_S1x1x32x32_0_15_0_0 : ∀ a, (![0, 15, 0, 0] : Fin 4 → Nat) a + S1x1x32x32.size a ≤ S1x512x32x32.size a
  inb_S1x512x32x32_S1x1x32x32_0_16_0_0 : ∀ a, (![0, 16, 0, 0] : Fin 4 → Nat) a + S1x1x32x32.size a ≤ S1x512x32x32.size a
  inb_S1x512x32x32_S1x1x32x32_0_17_0_0 : ∀ a, (![0, 17, 0, 0] : Fin 4 → Nat) a + S1x1x32x32.size a ≤ S1x512x32x32.size a
  inb_S1x284x32x32_S1x1x32x32_0_5_0_0 : ∀ a, (![0, 5, 0, 0] : Fin 4 → Nat) a + S1x1x32x32.size a ≤ S1x284x32x32.size a
  inb_S1x512x32x32_S1x1x32x32_0_18_0_0 : ∀ a, (![0, 18, 0, 0] : Fin 4 → Nat) a + S1x1x32x32.size a ≤ S1x512x32x32.size a
  inb_S1x512x32x32_S1x1x32x32_0_19_0_0 : ∀ a, (![0, 19, 0, 0] : Fin 4 → Nat) a + S1x1x32x32.size a ≤ S1x512x32x32.size a
  inb_S1x512x32x32_S1x1x32x32_0_20_0_0 : ∀ a, (![0, 20, 0, 0] : Fin 4 → Nat) a + S1x1x32x32.size a ≤ S1x512x32x32.size a
  inb_S1x284x32x32_S1x1x32x32_0_6_0_0 : ∀ a, (![0, 6, 0, 0] : Fin 4 → Nat) a + S1x1x32x32.size a ≤ S1x284x32x32.size a
  inb_S1x512x32x32_S1x1x32x32_0_21_0_0 : ∀ a, (![0, 21, 0, 0] : Fin 4 → Nat) a + S1x1x32x32.size a ≤ S1x512x32x32.size a
  inb_S1x512x32x32_S1x1x32x32_0_22_0_0 : ∀ a, (![0, 22, 0, 0] : Fin 4 → Nat) a + S1x1x32x32.size a ≤ S1x512x32x32.size a
  inb_S1x512x32x32_S1x1x32x32_0_23_0_0 : ∀ a, (![0, 23, 0, 0] : Fin 4 → Nat) a + S1x1x32x32.size a ≤ S1x512x32x32.size a
  inb_S1x284x32x32_S1x1x32x32_0_7_0_0 : ∀ a, (![0, 7, 0, 0] : Fin 4 → Nat) a + S1x1x32x32.size a ≤ S1x284x32x32.size a
  inb_S1x512x32x32_S1x1x32x32_0_24_0_0 : ∀ a, (![0, 24, 0, 0] : Fin 4 → Nat) a + S1x1x32x32.size a ≤ S1x512x32x32.size a
  inb_S1x512x32x32_S1x1x32x32_0_25_0_0 : ∀ a, (![0, 25, 0, 0] : Fin 4 → Nat) a + S1x1x32x32.size a ≤ S1x512x32x32.size a
  inb_S1x512x32x32_S1x1x32x32_0_26_0_0 : ∀ a, (![0, 26, 0, 0] : Fin 4 → Nat) a + S1x1x32x32.size a ≤ S1x512x32x32.size a
  inb_S1x284x32x32_S1x1x32x32_0_8_0_0 : ∀ a, (![0, 8, 0, 0] : Fin 4 → Nat) a + S1x1x32x32.size a ≤ S1x284x32x32.size a
  inb_S1x512x32x32_S1x1x32x32_0_27_0_0 : ∀ a, (![0, 27, 0, 0] : Fin 4 → Nat) a + S1x1x32x32.size a ≤ S1x512x32x32.size a
  inb_S1x512x32x32_S1x1x32x32_0_28_0_0 : ∀ a, (![0, 28, 0, 0] : Fin 4 → Nat) a + S1x1x32x32.size a ≤ S1x512x32x32.size a
  inb_S1x512x32x32_S1x1x32x32_0_29_0_0 : ∀ a, (![0, 29, 0, 0] : Fin 4 → Nat) a + S1x1x32x32.size a ≤ S1x512x32x32.size a
  inb_S1x284x32x32_S1x1x32x32_0_9_0_0 : ∀ a, (![0, 9, 0, 0] : Fin 4 → Nat) a + S1x1x32x32.size a ≤ S1x284x32x32.size a
  inb_S1x512x32x32_S1x1x32x32_0_30_0_0 : ∀ a, (![0, 30, 0, 0] : Fin 4 → Nat) a + S1x1x32x32.size a ≤ S1x512x32x32.size a
  inb_S1x512x32x32_S1x1x32x32_0_31_0_0 : ∀ a, (![0, 31, 0, 0] : Fin 4 → Nat) a + S1x1x32x32.size a ≤ S1x512x32x32.size a
  inb_S1x512x32x32_S1x1x32x32_0_32_0_0 : ∀ a, (![0, 32, 0, 0] : Fin 4 → Nat) a + S1x1x32x32.size a ≤ S1x512x32x32.size a
  inb_S1x284x32x32_S1x1x32x32_0_10_0_0 : ∀ a, (![0, 10, 0, 0] : Fin 4 → Nat) a + S1x1x32x32.size a ≤ S1x284x32x32.size a
  inb_S1x512x32x32_S1x1x32x32_0_33_0_0 : ∀ a, (![0, 33, 0, 0] : Fin 4 → Nat) a + S1x1x32x32.size a ≤ S1x512x32x32.size a
  inb_S1x512x32x32_S1x1x32x32_0_34_0_0 : ∀ a, (![0, 34, 0, 0] : Fin 4 → Nat) a + S1x1x32x32.size a ≤ S1x512x32x32.size a
  inb_S1x512x32x32_S1x1x32x32_0_35_0_0 : ∀ a, (![0, 35, 0, 0] : Fin 4 → Nat) a + S1x1x32x32.size a ≤ S1x512x32x32.size a
  inb_S1x284x32x32_S1x1x32x32_0_11_0_0 : ∀ a, (![0, 11, 0, 0] : Fin 4 → Nat) a + S1x1x32x32.size a ≤ S1x284x32x32.size a
  inb_S1x512x32x32_S1x1x32x32_0_36_0_0 : ∀ a, (![0, 36, 0, 0] : Fin 4 → Nat) a + S1x1x32x32.size a ≤ S1x512x32x32.size a
  inb_S1x512x32x32_S1x1x32x32_0_37_0_0 : ∀ a, (![0, 37, 0, 0] : Fin 4 → Nat) a + S1x1x32x32.size a ≤ S1x512x32x32.size a
  inb_S1x512x32x32_S1x1x32x32_0_38_0_0 : ∀ a, (![0, 38, 0, 0] : Fin 4 → Nat) a + S1x1x32x32.size a ≤ S1x512x32x32.size a
  inb_S1x284x32x32_S1x1x32x32_0_12_0_0 : ∀ a, (![0, 12, 0, 0] : Fin 4 → Nat) a + S1x1x32x32.size a ≤ S1x284x32x32.size a
  inb_S1x512x32x32_S1x1x32x32_0_39_0_0 : ∀ a, (![0, 39, 0, 0] : Fin 4 → Nat) a + S1x1x32x32.size a ≤ S1x512x32x32.size a
  inb_S1x512x32x32_S1x1x32x32_0_40_0_0 : ∀ a, (![0, 40, 0, 0] : Fin 4 → Nat) a + S1x1x32x32.size a ≤ S1x512x32x32.size a
  inb_S1x512x32x32_S1x1x32x32_0_41_0_0 : ∀ a, (![0, 41, 0, 0] : Fin 4 → Nat) a + S1x1x32x32.size a ≤ S1x512x32x32.size a
  inb_S1x284x32x32_S1x1x32x32_0_13_0_0 : ∀ a, (![0, 13, 0, 0] : Fin 4 → Nat) a + S1x1x32x32.size a ≤ S1x284x32x32.size a
  inb_S1x512x32x32_S1x1x32x32_0_42_0_0 : ∀ a, (![0, 42, 0, 0] : Fin 4 → Nat) a + S1x1x32x32.size a ≤ S1x512x32x32.size a
  inb_S1x512x32x32_S1x1x32x32_0_43_0_0 : ∀ a, (![0, 43, 0, 0] : Fin 4 → Nat) a + S1x1x32x32.size a ≤ S1x512x32x32.size a
  inb_S1x512x32x32_S1x1x32x32_0_44_0_0 : ∀ a, (![0, 44, 0, 0] : Fin 4 → Nat) a + S1x1x32x32.size a ≤ S1x512x32x32.size a
  inb_S1x284x32x32_S1x1x32x32_0_14_0_0 : ∀ a, (![0, 14, 0, 0] : Fin 4 → Nat) a + S1x1x32x32.size a ≤ S1x284x32x32.size a
  inb_S1x512x32x32_S1x1x32x32_0_45_0_0 : ∀ a, (![0, 45, 0, 0] : Fin 4 → Nat) a + S1x1x32x32.size a ≤ S1x512x32x32.size a
  inb_S1x512x32x32_S1x1x32x32_0_46_0_0 : ∀ a, (![0, 46, 0, 0] : Fin 4 → Nat) a + S1x1x32x32.size a ≤ S1x512x32x32.size a
  inb_S1x512x32x32_S1x1x32x32_0_47_0_0 : ∀ a, (![0, 47, 0, 0] : Fin 4 → Nat) a + S1x1x32x32.size a ≤ S1x512x32x32.size a
  inb_S1x284x32x32_S1x1x32x32_0_15_0_0 : ∀ a, (![0, 15, 0, 0] : Fin 4 → Nat) a + S1x1x32x32.size a ≤ S1x284x32x32.size a
  inb_S1x512x32x32_S1x1x32x32_0_48_0_0 : ∀ a, (![0, 48, 0, 0] : Fin 4 → Nat) a + S1x1x32x32.size a ≤ S1x512x32x32.size a
  inb_S1x512x32x32_S1x1x32x32_0_49_0_0 : ∀ a, (![0, 49, 0, 0] : Fin 4 → Nat) a + S1x1x32x32.size a ≤ S1x512x32x32.size a
  inb_S1x512x32x32_S1x1x32x32_0_50_0_0 : ∀ a, (![0, 50, 0, 0] : Fin 4 → Nat) a + S1x1x32x32.size a ≤ S1x512x32x32.size a
  inb_S1x284x32x32_S1x1x32x32_0_16_0_0 : ∀ a, (![0, 16, 0, 0] : Fin 4 → Nat) a + S1x1x32x32.size a ≤ S1x284x32x32.size a
  inb_S1x512x32x32_S1x1x32x32_0_51_0_0 : ∀ a, (![0, 51, 0, 0] : Fin 4 → Nat) a + S1x1x32x32.size a ≤ S1x512x32x32.size a
  inb_S1x512x32x32_S1x1x32x32_0_52_0_0 : ∀ a, (![0, 52, 0, 0] : Fin 4 → Nat) a + S1x1x32x32.size a ≤ S1x512x32x32.size a
  inb_S1x512x32x32_S1x1x32x32_0_53_0_0 : ∀ a, (![0, 53, 0, 0] : Fin 4 → Nat) a + S1x1x32x32.size a ≤ S1x512x32x32.size a
  inb_S1x284x32x32_S1x1x32x32_0_17_0_0 : ∀ a, (![0, 17, 0, 0] : Fin 4 → Nat) a + S1x1x32x32.size a ≤ S1x284x32x32.size a
  inb_S1x512x32x32_S1x1x32x32_0_54_0_0 : ∀ a, (![0, 54, 0, 0] : Fin 4 → Nat) a + S1x1x32x32.size a ≤ S1x512x32x32.size a
  inb_S1x512x32x32_S1x1x32x32_0_55_0_0 : ∀ a, (![0, 55, 0, 0] : Fin 4 → Nat) a + S1x1x32x32.size a ≤ S1x512x32x32.size a
  inb_S1x512x32x32_S1x1x32x32_0_56_0_0 : ∀ a, (![0, 56, 0, 0] : Fin 4 → Nat) a + S1x1x32x32.size a ≤ S1x512x32x32.size a
  inb_S1x284x32x32_S1x1x32x32_0_18_0_0 : ∀ a, (![0, 18, 0, 0] : Fin 4 → Nat) a + S1x1x32x32.size a ≤ S1x284x32x32.size a
  inb_S1x512x32x32_S1x1x32x32_0_57_0_0 : ∀ a, (![0, 57, 0, 0] : Fin 4 → Nat) a + S1x1x32x32.size a ≤ S1x512x32x32.size a
  inb_S1x512x32x32_S1x1x32x32_0_58_0_0 : ∀ a, (![0, 58, 0, 0] : Fin 4 → Nat) a + S1x1x32x32.size a ≤ S1x512x32x32.size a
  inb_S1x512x32x32_S1x1x32x32_0_59_0_0 : ∀ a, (![0, 59, 0, 0] : Fin 4 → Nat) a + S1x1x32x32.size a ≤ S1x512x32x32.size a
  inb_S1x284x32x32_S1x1x32x32_0_19_0_0 : ∀ a, (![0, 19, 0, 0] : Fin 4 → Nat) a + S1x1x32x32.size a ≤ S1x284x32x32.size a
  inb_S1x512x32x32_S1x1x32x32_0_60_0_0 : ∀ a, (![0, 60, 0, 0] : Fin 4 → Nat) a + S1x1x32x32.size a ≤ S1x512x32x32.size a
  inb_S1x512x32x32_S1x1x32x32_0_61_0_0 : ∀ a, (![0, 61, 0, 0] : Fin 4 → Nat) a + S1x1x32x32.size a ≤ S1x512x32x32.size a
  inb_S1x512x32x32_S1x1x32x32_0_62_0_0 : ∀ a, (![0, 62, 0, 0] : Fin 4 → Nat) a + S1x1x32x32.size a ≤ S1x512x32x32.size a
  inb_S1x284x32x32_S1x1x32x32_0_20_0_0 : ∀ a, (![0, 20, 0, 0] : Fin 4 → Nat) a + S1x1x32x32.size a ≤ S1x284x32x32.size a
  inb_S1x512x32x32_S1x1x32x32_0_63_0_0 : ∀ a, (![0, 63, 0, 0] : Fin 4 → Nat) a + S1x1x32x32.size a ≤ S1x512x32x32.size a
  inb_S1x512x32x32_S1x1x32x32_0_64_0_0 : ∀ a, (![0, 64, 0, 0] : Fin 4 → Nat) a + S1x1x32x32.size a ≤ S1x512x32x32.size a
  inb_S1x512x32x32_S1x1x32x32_0_65_0_0 : ∀ a, (![0, 65, 0, 0] : Fin 4 → Nat) a + S1x1x32x32.size a ≤ S1x512x32x32.size a
  inb_S1x284x32x32_S1x1x32x32_0_21_0_0 : ∀ a, (![0, 21, 0, 0] : Fin 4 → Nat) a + S1x1x32x32.size a ≤ S1x284x32x32.size a
  inb_S1x512x32x32_S1x1x32x32_0_66_0_0 : ∀ a, (![0, 66, 0, 0] : Fin 4 → Nat) a + S1x1x32x32.size a ≤ S1x512x32x32.size a
  inb_S1x512x32x32_S1x1x32x32_0_67_0_0 : ∀ a, (![0, 67, 0, 0] : Fin 4 → Nat) a + S1x1x32x32.size a ≤ S1x512x32x32.size a
  inb_S1x512x32x32_S1x1x32x32_0_68_0_0 : ∀ a, (![0, 68, 0, 0] : Fin 4 → Nat) a + S1x1x32x32.size a ≤ S1x512x32x32.size a
  inb_S1x284x32x32_S1x1x32x32_0_22_0_0 : ∀ a, (![0, 22, 0, 0] : Fin 4 → Nat) a + S1x1x32x32.size a ≤ S1x284x32x32.size a
  inb_S1x512x32x32_S1x1x32x32_0_69_0_0 : ∀ a, (![0, 69, 0, 0] : Fin 4 → Nat) a + S1x1x32x32.size a ≤ S1x512x32x32.size a
  inb_S1x512x32x32_S1x1x32x32_0_70_0_0 : ∀ a, (![0, 70, 0, 0] : Fin 4 → Nat) a + S1x1x32x32.size a ≤ S1x512x32x32.size a
  inb_S1x512x32x32_S1x1x32x32_0_71_0_0 : ∀ a, (![0, 71, 0, 0] : Fin 4 → Nat) a + S1x1x32x32.size a ≤ S1x512x32x32.size a
  inb_S1x284x32x32_S1x1x32x32_0_23_0_0 : ∀ a, (![0, 23, 0, 0] : Fin 4 → Nat) a + S1x1x32x32.size a ≤ S1x284x32x32.size a
  inb_S1x512x32x32_S1x1x32x32_0_72_0_0 : ∀ a, (![0, 72, 0, 0] : Fin 4 → Nat) a + S1x1x32x32.size a ≤ S1x512x32x32.size a
  inb_S1x512x32x32_S1x1x32x32_0_73_0_0 : ∀ a, (![0, 73, 0, 0] : Fin 4 → Nat) a + S1x1x32x32.size a ≤ S1x512x32x32.size a
  inb_S1x512x32x32_S1x1x32x32_0_74_0_0 : ∀ a, (![0, 74, 0, 0] : Fin 4 → Nat) a + S1x1x32x32.size a ≤ S1x512x32x32.size a
  inb_S1x284x32x32_S1x1x32x32_0_24_0_0 : ∀ a, (![0, 24, 0, 0] : Fin 4 → Nat) a + S1x1x32x32.size a ≤ S1x284x32x32.size a
  inb_S1x512x32x32_S1x1x32x32_0_75_0_0 : ∀ a, (![0, 75, 0, 0] : Fin 4 → Nat) a + S1x1x32x32.size a ≤ S1x512x32x32.size a
  inb_S1x512x32x32_S1x1x32x32_0_76_0_0 : ∀ a, (![0, 76, 0, 0] : Fin 4 → Nat) a + S1x1x32x32.size a ≤ S1x512x32x32.size a
  inb_S1x512x32x32_S1x1x32x32_0_77_0_0 : ∀ a, (![0, 77, 0, 0] : Fin 4 → Nat) a + S1x1x32x32.size a ≤ S1x512x32x32.size a
  inb_S1x284x32x32_S1x1x32x32_0_25_0_0 : ∀ a, (![0, 25, 0, 0] : Fin 4 → Nat) a + S1x1x32x32.size a ≤ S1x284x32x32.size a
  inb_S1x512x32x32_S1x1x32x32_0_78_0_0 : ∀ a, (![0, 78, 0, 0] : Fin 4 → Nat) a + S1x1x32x32.size a ≤ S1x512x32x32.size a
  inb_S1x512x32x32_S1x1x32x32_0_79_0_0 : ∀ a, (![0, 79, 0, 0] : Fin 4 → Nat) a + S1x1x32x32.size a ≤ S1x512x32x32.size a
  inb_S1x512x32x32_S1x1x32x32_0_80_0_0 : ∀ a, (![0, 80, 0, 0] : Fin 4 → Nat) a + S1x1x32x32.size a ≤ S1x512x32x32.size a
  inb_S1x284x32x32_S1x1x32x32_0_26_0_0 : ∀ a, (![0, 26, 0, 0] : Fin 4 → Nat) a + S1x1x32x32.size a ≤ S1x284x32x32.size a
  inb_S1x512x32x32_S1x1x32x32_0_81_0_0 : ∀ a, (![0, 81, 0, 0] : Fin 4 → Nat) a + S1x1x32x32.size a ≤ S1x512x32x32.size a
  inb_S1x512x32x32_S1x1x32x32_0_82_0_0 : ∀ a, (![0, 82, 0, 0] : Fin 4 → Nat) a + S1x1x32x32.size a ≤ S1x512x32x32.size a
  inb_S1x512x32x32_S1x1x32x32_0_83_0_0 : ∀ a, (![0, 83, 0, 0] : Fin 4 → Nat) a + S1x1x32x32.size a ≤ S1x512x32x32.size a
  inb_S1x284x32x32_S1x1x32x32_0_27_0_0 : ∀ a, (![0, 27, 0, 0] : Fin 4 → Nat) a + S1x1x32x32.size a ≤ S1x284x32x32.size a
  inb_S1x512x32x32_S1x1x32x32_0_84_0_0 : ∀ a, (![0, 84, 0, 0] : Fin 4 → Nat) a + S1x1x32x32.size a ≤ S1x512x32x32.size a
  inb_S1x512x32x32_S1x1x32x32_0_85_0_0 : ∀ a, (![0, 85, 0, 0] : Fin 4 → Nat) a + S1x1x32x32.size a ≤ S1x512x32x32.size a
  inb_S1x512x32x32_S1x1x32x32_0_86_0_0 : ∀ a, (![0, 86, 0, 0] : Fin 4 → Nat) a + S1x1x32x32.size a ≤ S1x512x32x32.size a
  inb_S1x284x32x32_S1x1x32x32_0_28_0_0 : ∀ a, (![0, 28, 0, 0] : Fin 4 → Nat) a + S1x1x32x32.size a ≤ S1x284x32x32.size a
  inb_S1x512x32x32_S1x1x32x32_0_87_0_0 : ∀ a, (![0, 87, 0, 0] : Fin 4 → Nat) a + S1x1x32x32.size a ≤ S1x512x32x32.size a
  inb_S1x512x32x32_S1x1x32x32_0_88_0_0 : ∀ a, (![0, 88, 0, 0] : Fin 4 → Nat) a + S1x1x32x32.size a ≤ S1x512x32x32.size a
  inb_S1x512x32x32_S1x1x32x32_0_89_0_0 : ∀ a, (![0, 89, 0, 0] : Fin 4 → Nat) a + S1x1x32x32.size a ≤ S1x512x32x32.size a
  inb_S1x284x32x32_S1x1x32x32_0_29_0_0 : ∀ a, (![0, 29, 0, 0] : Fin 4 → Nat) a + S1x1x32x32.size a ≤ S1x284x32x32.size a
  inb_S1x512x32x32_S1x1x32x32_0_90_0_0 : ∀ a, (![0, 90, 0, 0] : Fin 4 → Nat) a + S1x1x32x32.size a ≤ S1x512x32x32.size a
  inb_S1x512x32x32_S1x1x32x32_0_91_0_0 : ∀ a, (![0, 91, 0, 0] : Fin 4 → Nat) a + S1x1x32x32.size a ≤ S1x512x32x32.size a
  inb_S1x512x32x32_S1x1x32x32_0_92_0_0 : ∀ a, (![0, 92, 0, 0] : Fin 4 → Nat) a + S1x1x32x32.size a ≤ S1x512x32x32.size a
  inb_S1x284x32x32_S1x1x32x32_0_30_0_0 : ∀ a, (![0, 30, 0, 0] : Fin 4 → Nat) a + S1x1x32x32.size a ≤ S1x284x32x32.size a
  inb_S1x512x32x32_S1x1x32x32_0_93_0_0 : ∀ a, (![0, 93, 0, 0] : Fin 4 → Nat) a + S1x1x32x32.size a ≤ S1x512x32x32.size a
  inb_S1x512x32x32_S1x1x32x32_0_94_0_0 : ∀ a, (![0, 94, 0, 0] : Fin 4 → Nat) a + S1x1x32x32.size a ≤ S1x512x32x32.size a
  inb_S1x512x32x32_S1x1x32x32_0_95_0_0 : ∀ a, (![0, 95, 0, 0] : Fin 4 → Nat) a + S1x1x32x32.size a ≤ S1x512x32x32.size a
  inb_S1x284x32x32_S1x1x32x32_0_31_0_0 : ∀ a, (![0, 31, 0, 0] : Fin 4 → Nat) a + S1x1x32x32.size a ≤ S1x284x32x32.size a
  inb_S1x512x32x32_S1x1x32x32_0_96_0_0 : ∀ a, (![0, 96, 0, 0] : Fin 4 → Nat) a + S1x1x32x32.size a ≤ S1x512x32x32.size a
  inb_S1x512x32x32_S1x1x32x32_0_97_0_0 : ∀ a, (![0, 97, 0, 0] : Fin 4 → Nat) a + S1x1x32x32.size a ≤ S1x512x32x32.size a
  inb_S1x512x32x32_S1x1x32x32_0_98_0_0 : ∀ a, (![0, 98, 0, 0] : Fin 4 → Nat) a + S1x1x32x32.size a ≤ S1x512x32x32.size a
  inb_S1x284x32x32_S1x1x32x32_0_32_0_0 : ∀ a, (![0, 32, 0, 0] : Fin 4 → Nat) a + S1x1x32x32.size a ≤ S1x284x32x32.size a
  inb_S1x512x32x32_S1x1x32x32_0_99_0_0 : ∀ a, (![0, 99, 0, 0] : Fin 4 → Nat) a + S1x1x32x32.size a ≤ S1x512x32x32.size a
  inb_S1x512x32x32_S1x1x32x32_0_100_0_0 : ∀ a, (![0, 100, 0, 0] : Fin 4 → Nat) a + S1x1x32x32.size a ≤ S1x512x32x32.size a
  inb_S1x512x32x32_S1x1x32x32_0_101_0_0 : ∀ a, (![0, 101, 0, 0] : Fin 4 → Nat) a + S1x1x32x32.size a ≤ S1x512x32x32.size a
  inb_S1x284x32x32_S1x1x32x32_0_33_0_0 : ∀ a, (![0, 33, 0, 0] : Fin 4 → Nat) a + S1x1x32x32.size a ≤ S1x284x32x32.size a
  inb_S1x512x32x32_S1x1x32x32_0_102_0_0 : ∀ a, (![0, 102, 0, 0] : Fin 4 → Nat) a + S1x1x32x32.size a ≤ S1x512x32x32.size a
  inb_S1x512x32x32_S1x1x32x32_0_103_0_0 : ∀ a, (![0, 103, 0, 0] : Fin 4 → Nat) a + S1x1x32x32.size a ≤ S1x512x32x32.size a
  inb_S1x512x32x32_S1x1x32x32_0_104_0_0 : ∀ a, (![0, 104, 0, 0] : Fin 4 → Nat) a + S1x1x32x32.size a ≤ S1x512x32x32.size a
  inb_S1x284x32x32_S1x1x32x32_0_34_0_0 : ∀ a, (![0, 34, 0, 0] : Fin 4 → Nat) a + S1x1x32x32.size a ≤ S1x284x32x32.size a
  inb_S1x512x32x32_S1x1x32x32_0_105_0_0 : ∀ a, (![0, 105, 0, 0] : Fin 4 → Nat) a + S1x1x32x32.size a ≤ S1x512x32x32.size a
  inb_S1x512x32x32_S1x1x32x32_0_106_0_0 : ∀ a, (![0, 106, 0, 0] : Fin 4 → Nat) a + S1x1x32x32.size a ≤ S1x512x32x32.size a
  inb_S1x512x32x32_S1x1x32x32_0_107_0_0 : ∀ a, (![0, 107, 0, 0] : Fin 4 → Nat) a + S1x1x32x32.size a ≤ S1x512x32x32.size a
  inb_S1x284x32x32_S1x1x32x32_0_35_0_0 : ∀ a, (![0, 35, 0, 0] : Fin 4 → Nat) a + S1x1x32x32.size a ≤ S1x284x32x32.size a
  inb_S1x512x32x32_S1x1x32x32_0_108_0_0 : ∀ a, (![0, 108, 0, 0] : Fin 4 → Nat) a + S1x1x32x32.size a ≤ S1x512x32x32.size a
  inb_S1x512x32x32_S1x1x32x32_0_109_0_0 : ∀ a, (![0, 109, 0, 0] : Fin 4 → Nat) a + S1x1x32x32.size a ≤ S1x512x32x32.size a
  inb_S1x512x32x32_S1x1x32x32_0_110_0_0 : ∀ a, (![0, 110, 0, 0] : Fin 4 → Nat) a + S1x1x32x32.size a ≤ S1x512x32x32.size a
  inb_S1x284x32x32_S1x1x32x32_0_36_0_0 : ∀ a, (![0, 36, 0, 0] : Fin 4 → Nat) a + S1x1x32x32.size a ≤ S1x284x32x32.size a
  inb_S1x512x32x32_S1x1x32x32_0_111_0_0 : ∀ a, (![0, 111, 0, 0] : Fin 4 → Nat) a + S1x1x32x32.size a ≤ S1x512x32x32.size a
  inb_S1x512x32x32_S1x1x32x32_0_112_0_0 : ∀ a, (![0, 112, 0, 0] : Fin 4 → Nat) a + S1x1x32x32.size a ≤ S1x512x32x32.size a
  inb_S1x512x32x32_S1x1x32x32_0_113_0_0 : ∀ a, (![0, 113, 0, 0] : Fin 4 → Nat) a + S1x1x32x32.size a ≤ S1x512x32x32.size a
  inb_S1x284x32x32_S1x1x32x32_0_37_0_0 : ∀ a, (![0, 37, 0, 0] : Fin 4 → Nat) a + S1x1x32x32.size a ≤ S1x284x32x32.size a
  inb_S1x512x32x32_S1x1x32x32_0_114_0_0 : ∀ a, (![0, 114, 0, 0] : Fin 4 → Nat) a + S1x1x32x32.size a ≤ S1x512x32x32.size a
  inb_S1x512x32x32_S1x1x32x32_0_115_0_0 : ∀ a, (![0, 115, 0, 0] : Fin 4 → Nat) a + S1x1x32x32.size a ≤ S1x512x32x32.size a
  inb_S1x512x32x32_S1x1x32x32_0_116_0_0 : ∀ a, (![0, 116, 0, 0] : Fin 4 → Nat) a + S1x1x32x32.size a ≤ S1x512x32x32.size a
  inb_S1x284x32x32_S1x1x32x32_0_38_0_0 : ∀ a, (![0, 38, 0, 0] : Fin 4 → Nat) a + S1x1x32x32.size a ≤ S1x284x32x32.size a
  inb_S1x512x32x32_S1x1x32x32_0_117_0_0 : ∀ a, (![0, 117, 0, 0] : Fin 4 → Nat) a + S1x1x32x32.size a ≤ S1x512x32x32.size a
  inb_S1x512x32x32_S1x1x32x32_0_118_0_0 : ∀ a, (![0, 118, 0, 0] : Fin 4 → Nat) a + S1x1x32x32.size a ≤ S1x512x32x32.size a
  inb_S1x512x32x32_S1x1x32x32_0_119_0_0 : ∀ a, (![0, 119, 0, 0] : Fin 4 → Nat) a + S1x1x32x32.size a ≤ S1x512x32x32.size a
  inb_S1x284x32x32_S1x1x32x32_0_39_0_0 : ∀ a, (![0, 39, 0, 0] : Fin 4 → Nat) a + S1x1x32x32.size a ≤ S1x284x32x32.size a
  inb_S1x512x32x32_S1x1x32x32_0_120_0_0 : ∀ a, (![0, 120, 0, 0] : Fin 4 → Nat) a + S1x1x32x32.size a ≤ S1x512x32x32.size a
  inb_S1x512x32x32_S1x1x32x32_0_121_0_0 : ∀ a, (![0, 121, 0, 0] : Fin 4 → Nat) a + S1x1x32x32.size a ≤ S1x512x32x32.size a
  inb_S1x512x32x32_S1x1x32x32_0_122_0_0 : ∀ a, (![0, 122, 0, 0] : Fin 4 → Nat) a + S1x1x32x32.size a ≤ S1x512x32x32.size a
  inb_S1x284x32x32_S1x1x32x32_0_40_0_0 : ∀ a, (![0, 40, 0, 0] : Fin 4 → Nat) a + S1x1x32x32.size a ≤ S1x284x32x32.size a
  inb_S1x512x32x32_S1x1x32x32_0_123_0_0 : ∀ a, (![0, 123, 0, 0] : Fin 4 → Nat) a + S1x1x32x32.size a ≤ S1x512x32x32.size a
  inb_S1x512x32x32_S1x1x32x32_0_124_0_0 : ∀ a, (![0, 124, 0, 0] : Fin 4 → Nat) a + S1x1x32x32.size a ≤ S1x512x32x32.size a
  inb_S1x512x32x32_S1x1x32x32_0_125_0_0 : ∀ a, (![0, 125, 0, 0] : Fin 4 → Nat) a + S1x1x32x32.size a ≤ S1x512x32x32.size a
  inb_S1x284x32x32_S1x1x32x32_0_41_0_0 : ∀ a, (![0, 41, 0, 0] : Fin 4 → Nat) a + S1x1x32x32.size a ≤ S1x284x32x32.size a
  inb_S1x512x32x32_S1x1x32x32_0_126_0_0 : ∀ a, (![0, 126, 0, 0] : Fin 4 → Nat) a + S1x1x32x32.size a ≤ S1x512x32x32.size a
  inb_S1x512x32x32_S1x1x32x32_0_127_0_0 : ∀ a, (![0, 127, 0, 0] : Fin 4 → Nat) a + S1x1x32x32.size a ≤ S1x512x32x32.size a
  inb_S1x512x32x32_S1x1x32x32_0_128_0_0 : ∀ a, (![0, 128, 0, 0] : Fin 4 → Nat) a + S1x1x32x32.size a ≤ S1x512x32x32.size a
  inb_S1x284x32x32_S1x1x32x32_0_42_0_0 : ∀ a, (![0, 42, 0, 0] : Fin 4 → Nat) a + S1x1x32x32.size a ≤ S1x284x32x32.size a
  inb_S1x512x32x32_S1x1x32x32_0_129_0_0 : ∀ a, (![0, 129, 0, 0] : Fin 4 → Nat) a + S1x1x32x32.size a ≤ S1x512x32x32.size a
  inb_S1x512x32x32_S1x1x32x32_0_130_0_0 : ∀ a, (![0, 130, 0, 0] : Fin 4 → Nat) a + S1x1x32x32.size a ≤ S1x512x32x32.size a
  inb_S1x512x32x32_S1x1x32x32_0_131_0_0 : ∀ a, (![0, 131, 0, 0] : Fin 4 → Nat) a + S1x1x32x32.size a ≤ S1x512x32x32.size a
  inb_S1x284x32x32_S1x1x32x32_0_43_0_0 : ∀ a, (![0, 43, 0, 0] : Fin 4 → Nat) a + S1x1x32x32.size a ≤ S1x284x32x32.size a
  inb_S1x512x32x32_S1x1x32x32_0_132_0_0 : ∀ a, (![0, 132, 0, 0] : Fin 4 → Nat) a + S1x1x32x32.size a ≤ S1x512x32x32.size a
  inb_S1x512x32x32_S1x1x32x32_0_133_0_0 : ∀ a, (![0, 133, 0, 0] : Fin 4 → Nat) a + S1x1x32x32.size a ≤ S1x512x32x32.size a
  inb_S1x512x32x32_S1x1x32x32_0_134_0_0 : ∀ a, (![0, 134, 0, 0] : Fin 4 → Nat) a + S1x1x32x32.size a ≤ S1x512x32x32.size a
  inb_S1x284x32x32_S1x1x32x32_0_44_0_0 : ∀ a, (![0, 44, 0, 0] : Fin 4 → Nat) a + S1x1x32x32.size a ≤ S1x284x32x32.size a
  inb_S1x512x32x32_S1x1x32x32_0_135_0_0 : ∀ a, (![0, 135, 0, 0] : Fin 4 → Nat) a + S1x1x32x32.size a ≤ S1x512x32x32.size a
  inb_S1x512x32x32_S1x1x32x32_0_136_0_0 : ∀ a, (![0, 136, 0, 0] : Fin 4 → Nat) a + S1x1x32x32.size a ≤ S1x512x32x32.size a
  inb_S1x512x32x32_S1x1x32x32_0_137_0_0 : ∀ a, (![0, 137, 0, 0] : Fin 4 → Nat) a + S1x1x32x32.size a ≤ S1x512x32x32.size a
  inb_S1x284x32x32_S1x1x32x32_0_45_0_0 : ∀ a, (![0, 45, 0, 0] : Fin 4 → Nat) a + S1x1x32x32.size a ≤ S1x284x32x32.size a
  inb_S1x512x32x32_S1x1x32x32_0_138_0_0 : ∀ a, (![0, 138, 0, 0] : Fin 4 → Nat) a + S1x1x32x32.size a ≤ S1x512x32x32.size a
  inb_S1x512x32x32_S1x1x32x32_0_139_0_0 : ∀ a, (![0, 139, 0, 0] : Fin 4 → Nat) a + S1x1x32x32.size a ≤ S1x512x32x32.size a
  inb_S1x512x32x32_S1x1x32x32_0_140_0_0 : ∀ a, (![0, 140, 0, 0] : Fin 4 → Nat) a + S1x1x32x32.size a ≤ S1x512x32x32.size a
  inb_S1x284x32x32_S1x1x32x32_0_46_0_0 : ∀ a, (![0, 46, 0, 0] : Fin 4 → Nat) a + S1x1x32x32.size a ≤ S1x284x32x32.size a
  inb_S1x512x32x32_S1x1x32x32_0_141_0_0 : ∀ a, (![0, 141, 0, 0] : Fin 4 → Nat) a + S1x1x32x32.size a ≤ S1x512x32x32.size a
  inb_S1x512x32x32_S1x1x32x32_0_142_0_0 : ∀ a, (![0, 142, 0, 0] : Fin 4 → Nat) a + S1x1x32x32.size a ≤ S1x512x32x32.size a
  inb_S1x512x32x32_S1x1x32x32_0_143_0_0 : ∀ a, (![0, 143, 0, 0] : Fin 4 → Nat) a + S1x1x32x32.size a ≤ S1x512x32x32.size a
  inb_S1x284x32x32_S1x1x32x32_0_47_0_0 : ∀ a, (![0, 47, 0, 0] : Fin 4 → Nat) a + S1x1x32x32.size a ≤ S1x284x32x32.size a
  inb_S1x512x32x32_S1x1x32x32_0_144_0_0 : ∀ a, (![0, 144, 0, 0] : Fin 4 → Nat) a + S1x1x32x32.size a ≤ S1x512x32x32.size a
  inb_S1x512x32x32_S1x1x32x32_0_145_0_0 : ∀ a, (![0, 145, 0, 0] : Fin 4 → Nat) a + S1x1x32x32.size a ≤ S1x512x32x32.size a
  inb_S1x512x32x32_S1x1x32x32_0_146_0_0 : ∀ a, (![0, 146, 0, 0] : Fin 4 → Nat) a + S1x1x32x32.size a ≤ S1x512x32x32.size a
  inb_S1x284x32x32_S1x1x32x32_0_48_0_0 : ∀ a, (![0, 48, 0, 0] : Fin 4 → Nat) a + S1x1x32x32.size a ≤ S1x284x32x32.size a
  inb_S1x512x32x32_S1x1x32x32_0_147_0_0 : ∀ a, (![0, 147, 0, 0] : Fin 4 → Nat) a + S1x1x32x32.size a ≤ S1x512x32x32.size a
  inb_S1x512x32x32_S1x1x32x32_0_148_0_0 : ∀ a, (![0, 148, 0, 0] : Fin 4 → Nat) a + S1x1x32x32.size a ≤ S1x512x32x32.size a
  inb_S1x512x32x32_S1x1x32x32_0_149_0_0 : ∀ a, (![0, 149, 0, 0] : Fin 4 → Nat) a + S1x1x32x32.size a ≤ S1x512x32x32.size a
  inb_S1x284x32x32_S1x1x32x32_0_49_0_0 : ∀ a, (![0, 49, 0, 0] : Fin 4 → Nat) a + S1x1x32x32.size a ≤ S1x284x32x32.size a
  inb_S1x512x32x32_S1x1x32x32_0_150_0_0 : ∀ a, (![0, 150, 0, 0] : Fin 4 → Nat) a + S1x1x32x32.size a ≤ S1x512x32x32.size a
  inb_S1x512x32x32_S1x1x32x32_0_151_0_0 : ∀ a, (![0, 151, 0, 0] : Fin 4 → Nat) a + S1x1x32x32.size a ≤ S1x512x32x32.size a
  inb_S1x512x32x32_S1x1x32x32_0_152_0_0 : ∀ a, (![0, 152, 0, 0] : Fin 4 → Nat) a + S1x1x32x32.size a ≤ S1x512x32x32.size a
  inb_S1x284x32x32_S1x1x32x32_0_50_0_0 : ∀ a, (![0, 50, 0, 0] : Fin 4 → Nat) a + S1x1x32x32.size a ≤ S1x284x32x32.size a
  inb_S1x512x32x32_S1x1x32x32_0_153_0_0 : ∀ a, (![0, 153, 0, 0] : Fin 4 → Nat) a + S1x1x32x32.size a ≤ S1x512x32x32.size a
  inb_S1x512x32x32_S1x1x32x32_0_154_0_0 : ∀ a, (![0, 154, 0, 0] : Fin 4 → Nat) a + S1x1x32x32.size a ≤ S1x512x32x32.size a
  inb_S1x512x32x32_S1x1x32x32_0_155_0_0 : ∀ a, (![0, 155, 0, 0] : Fin 4 → Nat) a + S1x1x32x32.size a ≤ S1x512x32x32.size a
  inb_S1x284x32x32_S1x1x32x32_0_51_0_0 : ∀ a, (![0, 51, 0, 0] : Fin 4 → Nat) a + S1x1x32x32.size a ≤ S1x284x32x32.size a
  inb_S1x512x32x32_S1x1x32x32_0_156_0_0 : ∀ a, (![0, 156, 0, 0] : Fin 4 → Nat) a + S1x1x32x32.size a ≤ S1x512x32x32.size a
  inb_S1x512x32x32_S1x1x32x32_0_157_0_0 : ∀ a, (![0, 157, 0, 0] : Fin 4 → Nat) a + S1x1x32x32.size a ≤ S1x512x32x32.size a
  inb_S1x512x32x32_S1x1x32x32_0_158_0_0 : ∀ a, (![0, 158, 0, 0] : Fin 4 → Nat) a + S1x1x32x32.size a ≤ S1x512x32x32.size a
  inb_S1x284x32x32_S1x1x32x32_0_52_0_0 : ∀ a, (![0, 52, 0, 0] : Fin 4 → Nat) a + S1x1x32x32.size a ≤ S1x284x32x32.size a
  inb_S1x512x32x32_S1x1x32x32_0_159_0_0 : ∀ a, (![0, 159, 0, 0] : Fin 4 → Nat) a + S1x1x32x32.size a ≤ S1x512x32x32.size a
  inb_S1x512x32x32_S1x1x32x32_0_160_0_0 : ∀ a, (![0, 160, 0, 0] : Fin 4 → Nat) a + S1x1x32x32.size a ≤ S1x512x32x32.size a
  inb_S1x512x32x32_S1x1x32x32_0_161_0_0 : ∀ a, (![0, 161, 0, 0] : Fin 4 → Nat) a + S1x1x32x32.size a ≤ S1x512x32x32.size a
  inb_S1x284x32x32_S1x1x32x32_0_53_0_0 : ∀ a, (![0, 53, 0, 0] : Fin 4 → Nat) a + S1x1x32x32.size a ≤ S1x284x32x32.size a
  inb_S1x512x32x32_S1x1x32x32_0_162_0_0 : ∀ a, (![0, 162, 0, 0] : Fin 4 → Nat) a + S1x1x32x32.size a ≤ S1x512x32x32.size a
  inb_S1x512x32x32_S1x1x32x32_0_163_0_0 : ∀ a, (![0, 163, 0, 0] : Fin 4 → Nat) a + S1x1x32x32.size a ≤ S1x512x32x32.size a
  inb_S1x512x32x32_S1x1x32x32_0_164_0_0 : ∀ a, (![0, 164, 0, 0] : Fin 4 → Nat) a + S1x1x32x32.size a ≤ S1x512x32x32.size a
  inb_S1x284x32x32_S1x1x32x32_0_54_0_0 : ∀ a, (![0, 54, 0, 0] : Fin 4 → Nat) a + S1x1x32x32.size a ≤ S1x284x32x32.size a
  inb_S1x512x32x32_S1x1x32x32_0_165_0_0 : ∀ a, (![0, 165, 0, 0] : Fin 4 → Nat) a + S1x1x32x32.size a ≤ S1x512x32x32.size a
  inb_S1x512x32x32_S1x1x32x32_0_166_0_0 : ∀ a, (![0, 166, 0, 0] : Fin 4 → Nat) a + S1x1x32x32.size a ≤ S1x512x32x32.size a
  inb_S1x512x32x32_S1x1x32x32_0_167_0_0 : ∀ a, (![0, 167, 0, 0] : Fin 4 → Nat) a + S1x1x32x32.size a ≤ S1x512x32x32.size a
  inb_S1x284x32x32_S1x1x32x32_0_55_0_0 : ∀ a, (![0, 55, 0, 0] : Fin 4 → Nat) a + S1x1x32x32.size a ≤ S1x284x32x32.size a
  inb_S1x512x32x32_S1x1x32x32_0_168_0_0 : ∀ a, (![0, 168, 0, 0] : Fin 4 → Nat) a + S1x1x32x32.size a ≤ S1x512x32x32.size a
  inb_S1x512x32x32_S1x1x32x32_0_169_0_0 : ∀ a, (![0, 169, 0, 0] : Fin 4 → Nat) a + S1x1x32x32.size a ≤ S1x512x32x32.size a
  inb_S1x512x32x32_S1x1x32x32_0_170_0_0 : ∀ a, (![0, 170, 0, 0] : Fin 4 → Nat) a + S1x1x32x32.size a ≤ S1x512x32x32.size a
  inb_S1x284x32x32_S1x1x32x32_0_56_0_0 : ∀ a, (![0, 56, 0, 0] : Fin 4 → Nat) a + S1x1x32x32.size a ≤ S1x284x32x32.size a
  inb_S1x512x32x32_S1x1x32x32_0_171_0_0 : ∀ a, (![0, 171, 0, 0] : Fin 4 → Nat) a + S1x1x32x32.size a ≤ S1x512x32x32.size a
  inb_S1x512x32x32_S1x1x32x32_0_172_0_0 : ∀ a, (![0, 172, 0, 0] : Fin 4 → Nat) a + S1x1x32x32.size a ≤ S1x512x32x32.size a
  inb_S1x512x32x32_S1x1x32x32_0_173_0_0 : ∀ a, (![0, 173, 0, 0] : Fin 4 → Nat) a + S1x1x32x32.size a ≤ S1x512x32x32.size a
  inb_S1x284x32x32_S1x1x32x32_0_57_0_0 : ∀ a, (![0, 57, 0, 0] : Fin 4 → Nat) a + S1x1x32x32.size a ≤ S1x284x32x32.size a
  inb_S1x512x32x32_S1x1x32x32_0_174_0_0 : ∀ a, (![0, 174, 0, 0] : Fin 4 → Nat) a + S1x1x32x32.size a ≤ S1x512x32x32.size a
  inb_S1x284x32x32_S1x1x32x32_0_58_0_0 : ∀ a, (![0, 58, 0, 0] : Fin 4 → Nat) a + S1x1x32x32.size a ≤ S1x284x32x32.size a
  inb_S1x512x32x32_S1x1x32x32_0_175_0_0 : ∀ a, (![0, 175, 0, 0] : Fin 4 → Nat) a + S1x1x32x32.size a ≤ S1x512x32x32.size a
  inb_S1x284x32x32_S1x1x32x32_0_59_0_0 : ∀ a, (![0, 59, 0, 0] : Fin 4 → Nat) a + S1x1x32x32.size a ≤ S1x284x32x32.size a
  inb_S1x512x32x32_S1x1x32x32_0_176_0_0 : ∀ a, (![0, 176, 0, 0] : Fin 4 → Nat) a + S1x1x32x32.size a ≤ S1x512x32x32.size a
  inb_S1x284x32x32_S1x1x32x32_0_60_0_0 : ∀ a, (![0, 60, 0, 0] : Fin 4 → Nat) a + S1x1x32x32.size a ≤ S1x284x32x32.size a
  inb_S1x512x32x32_S1x1x32x32_0_177_0_0 : ∀ a, (![0, 177, 0, 0] : Fin 4 → Nat) a + S1x1x32x32.size a ≤ S1x512x32x32.size a
  inb_S1x284x32x32_S1x1x32x32_0_61_0_0 : ∀ a, (![0, 61, 0, 0] : Fin 4 → Nat) a + S1x1x32x32.size a ≤ S1x284x32x32.size a
  inb_S1x512x32x32_S1x1x32x32_0_178_0_0 : ∀ a, (![0, 178, 0, 0] : Fin 4 → Nat) a + S1x1x32x32.size a ≤ S1x512x32x32.size a
  inb_S1x284x32x32_S1x1x32x32_0_62_0_0 : ∀ a, (![0, 62, 0, 0] : Fin 4 → Nat) a + S1x1x32x32.size a ≤ S1x284x32x32.size a
  inb_S1x512x32x32_S1x1x32x32_0_179_0_0 : ∀ a, (![0, 179, 0, 0] : Fin 4 → Nat) a + S1x1x32x32.size a ≤ S1x512x32x32.size a
  inb_S1x284x32x32_S1x1x32x32_0_63_0_0 : ∀ a, (![0, 63, 0, 0] : Fin 4 → Nat) a + S1x1x32x32.size a ≤ S1x284x32x32.size a
  inb_S1x512x32x32_S1x1x32x32_0_180_0_0 : ∀ a, (![0, 180, 0, 0] : Fin 4 → Nat) a + S1x1x32x32.size a ≤ S1x512x32x32.size a
  inb_S1x284x32x32_S1x1x32x32_0_64_0_0 : ∀ a, (![0, 64, 0, 0] : Fin 4 → Nat) a + S1x1x32x32.size a ≤ S1x284x32x32.size a
  inb_S1x512x32x32_S1x1x32x32_0_181_0_0 : ∀ a, (![0, 181, 0, 0] : Fin 4 → Nat) a + S1x1x32x32.size a ≤ S1x512x32x32.size a
  inb_S1x284x32x32_S1x1x32x32_0_65_0_0 : ∀ a, (![0, 65, 0, 0] : Fin 4 → Nat) a + S1x1x32x32.size a ≤ S1x284x32x32.size a
  inb_S1x512x32x32_S1x1x32x32_0_182_0_0 : ∀ a, (![0, 182, 0, 0] : Fin 4 → Nat) a + S1x1x32x32.size a ≤ S1x512x32x32.size a
  inb_S1x284x32x32_S1x1x32x32_0_66_0_0 : ∀ a, (![0, 66, 0, 0] : Fin 4 → Nat) a + S1x1x32x32.size a ≤ S1x284x32x32.size a
  inb_S1x512x32x32_S1x1x32x32_0_183_0_0 : ∀ a, (![0, 183, 0, 0] : Fin 4 → Nat) a + S1x1x32x32.size a ≤ S1x512x32x32.size a
  inb_S1x284x32x32_S1x1x32x32_0_67_0_0 : ∀ a, (![0, 67, 0, 0] : Fin 4 → Nat) a + S1x1x32x32.size a ≤ S1x284x32x32.size a
  inb_S1x512x32x32_S1x1x32x32_0_184_0_0 : ∀ a, (![0, 184, 0, 0] : Fin 4 → Nat) a + S1x1x32x32.size a ≤ S1x512x32x32.size a
  inb_S1x284x32x32_S1x1x32x32_0_68_0_0 : ∀ a, (![0, 68, 0, 0] : Fin 4 → Nat) a + S1x1x32x32.size a ≤ S1x284x32x32.size a
  inb_S1x512x32x32_S1x1x32x32_0_185_0_0 : ∀ a, (![0, 185, 0, 0] : Fin 4 → Nat) a + S1x1x32x32.size a ≤ S1x512x32x32.size a
  inb_S1x284x32x32_S1x1x32x32_0_69_0_0 : ∀ a, (![0, 69, 0, 0] : Fin 4 → Nat) a + S1x1x32x32.size a ≤ S1x284x32x32.size a
  inb_S1x512x32x32_S1x1x32x32_0_186_0_0 : ∀ a, (![0, 186, 0, 0] : Fin 4 → Nat) a + S1x1x32x32.size a ≤ S1x512x32x32.size a
  inb_S1x284x32x32_S1x1x32x32_0_70_0_0 : ∀ a, (![0, 70, 0, 0] : Fin 4 → Nat) a + S1x1x32x32.size a ≤ S1x284x32x32.size a
  inb_S1x512x32x32_S1x1x32x32_0_187_0_0 : ∀ a, (![0, 187, 0, 0] : Fin 4 → Nat) a + S1x1x32x32.size a ≤ S1x512x32x32.size a
  inb_S1x284x32x32_S1x1x32x32_0_71_0_0 : ∀ a, (![0, 71, 0, 0] : Fin 4 → Nat) a + S1x1x32x32.size a ≤ S1x284x32x32.size a
  inb_S1x512x32x32_S1x1x32x32_0_188_0_0 : ∀ a, (![0, 188, 0, 0] : Fin 4 → Nat) a + S1x1x32x32.size a ≤ S1x512x32x32.size a
  inb_S1x284x32x32_S1x1x32x32_0_72_0_0 : ∀ a, (![0, 72, 0, 0] : Fin 4 → Nat) a + S1x1x32x32.size a ≤ S1x284x32x32.size a
  inb_S1x512x32x32_S1x1x32x32_0_189_0_0 : ∀ a, (![0, 189, 0, 0] : Fin 4 → Nat) a + S1x1x32x32.size a ≤ S1x512x32x32.size a
  inb_S1x284x32x32_S1x1x32x32_0_73_0_0 : ∀ a, (![0, 73, 0, 0] : Fin 4 → Nat) a + S1x1x32x32.size a ≤ S1x284x32x32.size a
  inb_S1x512x32x32_S1x1x32x32_0_190_0_0 : ∀ a, (![0, 190, 0, 0] : Fin 4 → Nat) a + S1x1x32x32.size a ≤ S1x512x32x32.size a
  inb_S1x284x32x32_S1x1x32x32_0_74_0_0 : ∀ a, (![0, 74, 0, 0] : Fin 4 → Nat) a + S1x1x32x32.size a ≤ S1x284x32x32.size a
  inb_S1x512x32x32_S1x1x32x32_0_191_0_0 : ∀ a, (![0, 191, 0, 0] : Fin 4 → Nat) a + S1x1x32x32.size a ≤ S1x512x32x32.size a
  inb_S1x284x32x32_S1x1x32x32_0_75_0_0 : ∀ a, (![0, 75, 0, 0] : Fin 4 → Nat) a + S1x1x32x32.size a ≤ S1x284x32x32.size a
  inb_S1x512x32x32_S1x1x32x32_0_192_0_0 : ∀ a, (![0, 192, 0, 0] : Fin 4 → Nat) a + S1x1x32x32.size a ≤ S1x512x32x32.size a
  inb_S1x284x32x32_S1x1x32x32_0_76_0_0 : ∀ a, (![0, 76, 0, 0] : Fin 4 → Nat) a + S1x1x32x32.size a ≤ S1x284x32x32.size a
  inb_S1x512x32x32_S1x1x32x32_0_193_0_0 : ∀ a, (![0, 193, 0, 0] : Fin 4 → Nat) a + S1x1x32x32.size a ≤ S1x512x32x32.size a
  inb_S1x284x32x32_S1x1x32x32_0_77_0_0 : ∀ a, (![0, 77, 0, 0] : Fin 4 → Nat) a + S1x1x32x32.size a ≤ S1x284x32x32.size a
  inb_S1x512x32x32_S1x1x32x32_0_194_0_0 : ∀ a, (![0, 194, 0, 0] : Fin 4 → Nat) a + S1x1x32x32.size a ≤ S1x512x32x32.size a
  inb_S1x284x32x32_S1x1x32x32_0_78_0_0 : ∀ a, (![0, 78, 0, 0] : Fin 4 → Nat) a + S1x1x32x32.size a ≤ S1x284x32x32.size a
  inb_S1x512x32x32_S1x1x32x32_0_195_0_0 : ∀ a, (![0, 195, 0, 0] : Fin 4 → Nat) a + S1x1x32x32.size a ≤ S1x512x32x32.size a
  inb_S1x284x32x32_S1x1x32x32_0_79_0_0 : ∀ a, (![0, 79, 0, 0] : Fin 4 → Nat) a + S1x1x32x32.size a ≤ S1x284x32x32.size a
  inb_S1x512x32x32_S1x1x32x32_0_196_0_0 : ∀ a, (![0, 196, 0, 0] : Fin 4 → Nat) a + S1x1x32x32.size a ≤ S1x512x32x32.size a
  inb_S1x284x32x32_S1x1x32x32_0_80_0_0 : ∀ a, (![0, 80, 0, 0] : Fin 4 → Nat) a + S1x1x32x32.size a ≤ S1x284x32x32.size a
  inb_S1x512x32x32_S1x1x32x32_0_197_0_0 : ∀ a, (![0, 197, 0, 0] : Fin 4 → Nat) a + S1x1x32x32.size a ≤ S1x512x32x32.size a
  inb_S1x284x32x32_S1x1x32x32_0_81_0_0 : ∀ a, (![0, 81, 0, 0] : Fin 4 → Nat) a + S1x1x32x32.size a ≤ S1x284x32x32.size a
  inb_S1x512x32x32_S1x1x32x32_0_198_0_0 : ∀ a, (![0, 198, 0, 0] : Fin 4 → Nat) a + S1x1x32x32.size a ≤ S1x512x32x32.size a
  inb_S1x284x32x32_S1x1x32x32_0_82_0_0 : ∀ a, (![0, 82, 0, 0] : Fin 4 → Nat) a + S1x1x32x32.size a ≤ S1x284x32x32.size a
  inb_S1x512x32x32_S1x1x32x32_0_199_0_0 : ∀ a, (![0, 199, 0, 0] : Fin 4 → Nat) a + S1x1x32x32.size a ≤ S1x512x32x32.size a
  inb_S1x284x32x32_S1x1x32x32_0_83_0_0 : ∀ a, (![0, 83, 0, 0] : Fin 4 → Nat) a + S1x1x32x32.size a ≤ S1x284x32x32.size a
  inb_S1x512x32x32_S1x1x32x32_0_200_0_0 : ∀ a, (![0, 200, 0, 0] : Fin 4 → Nat) a + S1x1x32x32.size a ≤ S1x512x32x32.size a
  inb_S1x284x32x32_S1x1x32x32_0_84_0_0 : ∀ a, (![0, 84, 0, 0] : Fin 4 → Nat) a + S1x1x32x32.size a ≤ S1x284x32x32.size a
  inb_S1x512x32x32_S1x1x32x32_0_201_0_0 : ∀ a, (![0, 201, 0, 0] : Fin 4 → Nat) a + S1x1x32x32.size a ≤ S1x512x32x32.size a
  inb_S1x284x32x32_S1x1x32x32_0_85_0_0 : ∀ a, (![0, 85, 0, 0] : Fin 4 → Nat) a + S1x1x32x32.size a ≤ S1x284x32x32.size a
  inb_S1x512x32x32_S1x1x32x32_0_202_0_0 : ∀ a, (![0, 202, 0, 0] : Fin 4 → Nat) a + S1x1x32x32.size a ≤ S1x512x32x32.size a
  inb_S1x284x32x32_S1x1x32x32_0_86_0_0 : ∀ a, (![0, 86, 0, 0] : Fin 4 → Nat) a + S1x1x32x32.size a ≤ S1x284x32x32.size a
  inb_S1x512x32x32_S1x1x32x32_0_203_0_0 : ∀ a, (![0, 203, 0, 0] : Fin 4 → Nat) a + S1x1x32x32.size a ≤ S1x512x32x32.size a
  inb_S1x284x32x32_S1x1x32x32_0_87_0_0 : ∀ a, (![0, 87, 0, 0] : Fin 4 → Nat) a + S1x1x32x32.size a ≤ S1x284x32x32.size a
  inb_S1x512x32x32_S1x1x32x32_0_204_0_0 : ∀ a, (![0, 204, 0, 0] : Fin 4 → Nat) a + S1x1x32x32.size a ≤ S1x512x32x32.size a
  inb_S1x284x32x32_S1x1x32x32_0_88_0_0 : ∀ a, (![0, 88, 0, 0] : Fin 4 → Nat) a + S1x1x32x32.size a ≤ S1x284x32x32.size a
  inb_S1x512x32x32_S1x1x32x32_0_205_0_0 : ∀ a, (![0, 205, 0, 0] : Fin 4 → Nat) a + S1x1x32x32.size a ≤ S1x512x32x32.size a
  inb_S1x284x32x32_S1x1x32x32_0_89_0_0 : ∀ a, (![0, 89, 0, 0] : Fin 4 → Nat) a + S1x1x32x32.size a ≤ S1x284x32x32.size a
  inb_S1x512x32x32_S1x1x32x32_0_206_0_0 : ∀ a, (![0, 206, 0, 0] : Fin 4 → Nat) a + S1x1x32x32.size a ≤ S1x512x32x32.size a
  inb_S1x284x32x32_S1x1x32x32_0_90_0_0 : ∀ a, (![0, 90, 0, 0] : Fin 4 → Nat) a + S1x1x32x32.size a ≤ S1x284x32x32.size a
  inb_S1x512x32x32_S1x1x32x32_0_207_0_0 : ∀ a, (![0, 207, 0, 0] : Fin 4 → Nat) a + S1x1x32x32.size a ≤ S1x512x32x32.size a
  inb_S1x284x32x32_S1x1x32x32_0_91_0_0 : ∀ a, (![0, 91, 0, 0] : Fin 4 → Nat) a + S1x1x32x32.size a ≤ S1x284x32x32.size a
  inb_S1x512x32x32_S1x1x32x32_0_208_0_0 : ∀ a, (![0, 208, 0, 0] : Fin 4 → Nat) a + S1x1x32x32.size a ≤ S1x512x32x32.size a
  inb_S1x284x32x32_S1x1x32x32_0_92_0_0 : ∀ a, (![0, 92, 0, 0] : Fin 4 → Nat) a + S1x1x32x32.size a ≤ S1x284x32x32.size a
  inb_S1x512x32x32_S1x1x32x32_0_209_0_0 : ∀ a, (![0, 209, 0, 0] : Fin 4 → Nat) a + S1x1x32x32.size a ≤ S1x512x32x32.size a
  inb_S1x284x32x32_S1x1x32x32_0_93_0_0 : ∀ a, (![0, 93, 0, 0] : Fin 4 → Nat) a + S1x1x32x32.size a ≤ S1x284x32x32.size a
  inb_S1x512x32x32_S1x1x32x32_0_210_0_0 : ∀ a, (![0, 210, 0, 0] : Fin 4 → Nat) a + S1x1x32x32.size a ≤ S1x512x32x32.size a
  inb_S1x284x32x32_S1x1x32x32_0_94_0_0 : ∀ a, (![0, 94, 0, 0] : Fin 4 → Nat) a + S1x1x32x32.size a ≤ S1x284x32x32.size a
  inb_S1x512x32x32_S1x1x32x32_0_211_0_0 : ∀ a, (![0, 211, 0, 0] : Fin 4 → Nat) a + S1x1x32x32.size a ≤ S1x512x32x32.size a
  inb_S1x284x32x32_S1x1x32x32_0_95_0_0 : ∀ a, (![0, 95, 0, 0] : Fin 4 → Nat) a + S1x1x32x32.size a ≤ S1x284x32x32.size a
  inb_S1x512x32x32_S1x1x32x32_0_212_0_0 : ∀ a, (![0, 212, 0, 0] : Fin 4 → Nat) a + S1x1x32x32.size a ≤ S1x512x32x32.size a
  inb_S1x284x32x32_S1x1x32x32_0_96_0_0 : ∀ a, (![0, 96, 0, 0] : Fin 4 → Nat) a + S1x1x32x32.size a ≤ S1x284x32x32.size a
  inb_S1x512x32x32_S1x1x32x32_0_213_0_0 : ∀ a, (![0, 213, 0, 0] : Fin 4 → Nat) a + S1x1x32x32.size a ≤ S1x512x32x32.size a
  inb_S1x284x32x32_S1x1x32x32_0_97_0_0 : ∀ a, (![0, 97, 0, 0] : Fin 4 → Nat) a + S1x1x32x32.size a ≤ S1x284x32x32.size a
  inb_S1x512x32x32_S1x1x32x32_0_214_0_0 : ∀ a, (![0, 214, 0, 0] : Fin 4 → Nat) a + S1x1x32x32.size a ≤ S1x512x32x32.size a
  inb_S1x284x32x32_S1x1x32x32_0_98_0_0 : ∀ a, (![0, 98, 0, 0] : Fin 4 → Nat) a + S1x1x32x32.size a ≤ S1x284x32x32.size a
  inb_S1x512x32x32_S1x1x32x32_0_215_0_0 : ∀ a, (![0, 215, 0, 0] : Fin 4 → Nat) a + S1x1x32x32.size a ≤ S1x512x32x32.size a
  inb_S1x284x32x32_S1x1x32x32_0_99_0_0 : ∀ a, (![0, 99, 0, 0] : Fin 4 → Nat) a + S1x1x32x32.size a ≤ S1x284x32x32.size a
  inb_S1x512x32x32_S1x1x32x32_0_216_0_0 : ∀ a, (![0, 216, 0, 0] : Fin 4 → Nat) a + S1x1x32x32.size a ≤ S1x512x32x32.size a
  inb_S1x284x32x32_S1x1x32x32_0_100_0_0 : ∀ a, (![0, 100, 0, 0] : Fin 4 → Nat) a + S1x1x32x32.size a ≤ S1x284x32x32.size a
  inb_S1x512x32x32_S1x1x32x32_0_217_0_0 : ∀ a, (![0, 217, 0, 0] : Fin 4 → Nat) a + S1x1x32x32.size a ≤ S1x512x32x32.size a
  inb_S1x284x32x32_S1x1x32x32_0_101_0_0 : ∀ a, (![0, 101, 0, 0] : Fin 4 → Nat) a + S1x1x32x32.size a ≤ S1x284x32x32.size a
  inb_S1x512x32x32_S1x1x32x32_0_218_0_0 : ∀ a, (![0, 218, 0, 0] : Fin 4 → Nat) a + S1x1x32x32.size a ≤ S1x512x32x32.size a
  inb_S1x284x32x32_S1x1x32x32_0_102_0_0 : ∀ a, (![0, 102, 0, 0] : Fin 4 → Nat) a + S1x1x32x32.size a ≤ S1x284x32x32.size a
  inb_S1x512x32x32_S1x1x32x32_0_219_0_0 : ∀ a, (![0, 219, 0, 0] : Fin 4 → Nat) a + S1x1x32x32.size a ≤ S1x512x32x32.size a
  inb_S1x284x32x32_S1x1x32x32_0_103_0_0 : ∀ a, (![0, 103, 0, 0] : Fin 4 → Nat) a + S1x1x32x32.size a ≤ S1x284x32x32.size a
  inb_S1x512x32x32_S1x1x32x32_0_220_0_0 : ∀ a, (![0, 220, 0, 0] : Fin 4 → Nat) a + S1x1x32x32.size a ≤ S1x512x32x32.size a
  inb_S1x284x32x32_S1x1x32x32_0_104_0_0 : ∀ a, (![0, 104, 0, 0] : Fin 4 → Nat) a + S1x1x32x32.size a ≤ S1x284x32x32.size a
  inb_S1x512x32x32_S1x1x32x32_0_221_0_0 : ∀ a, (![0, 221, 0, 0] : Fin 4 → Nat) a + S1x1x32x32.size a ≤ S1x512x32x32.size a
  inb_S1x284x32x32_S1x1x32x32_0_105_0_0 : ∀ a, (![0, 105, 0, 0] : Fin 4 → Nat) a + S1x1x32x32.size a ≤ S1x284x32x32.size a
  inb_S1x512x32x32_S1x1x32x32_0_222_0_0 : ∀ a, (![0, 222, 0, 0] : Fin 4 → Nat) a + S1x1x32x32.size a ≤ S1x512x32x32.size a
  inb_S1x284x32x32_S1x1x32x32_0_106_0_0 : ∀ a, (![0, 106, 0, 0] : Fin 4 → Nat) a + S1x1x32x32.size a ≤ S1x284x32x32.size a
  inb_S1x512x32x32_S1x1x32x32_0_223_0_0 : ∀ a, (![0, 223, 0, 0] : Fin 4 → Nat) a + S1x1x32x32.size a ≤ S1x512x32x32.size a
  inb_S1x284x32x32_S1x1x32x32_0_107_0_0 : ∀ a, (![0, 107, 0, 0] : Fin 4 → Nat) a + S1x1x32x32.size a ≤ S1x284x32x32.size a
  inb_S1x512x32x32_S1x1x32x32_0_224_0_0 : ∀ a, (![0, 224, 0, 0] : Fin 4 → Nat) a + S1x1x32x32.size a ≤ S1x512x32x32.size a
  inb_S1x284x32x32_S1x1x32x32_0_108_0_0 : ∀ a, (![0, 108, 0, 0] : Fin 4 → Nat) a + S1x1x32x32.size a ≤ S1x284x32x32.size a
  inb_S1x512x32x32_S1x1x32x32_0_225_0_0 : ∀ a, (![0, 225, 0, 0] : Fin 4 → Nat) a + S1x1x32x32.size a ≤ S1x512x32x32.size a
  inb_S1x284x32x32_S1x1x32x32_0_109_0_0 : ∀ a, (![0, 109, 0, 0] : Fin 4 → Nat) a + S1x1x32x32.size a ≤ S1x284x32x32.size a
  inb_S1x512x32x32_S1x1x32x32_0_226_0_0 : ∀ a, (![0, 226, 0, 0] : Fin 4 → Nat) a + S1x1x32x32.size a ≤ S1x512x32x32.size a
  inb_S1x284x32x32_S1x1x32x32_0_110_0_0 : ∀ a, (![0, 110, 0, 0] : Fin 4 → Nat) a + S1x1x32x32.size a ≤ S1x284x32x32.size a
  inb_S1x512x32x32_S1x1x32x32_0_227_0_0 : ∀ a, (![0, 227, 0, 0] : Fin 4 → Nat) a + S1x1x32x32.size a ≤ S1x512x32x32.size a
  inb_S1x284x32x32_S1x1x32x32_0_111_0_0 : ∀ a, (![0, 111, 0, 0] : Fin 4 → Nat) a + S1x1x32x32.size a ≤ S1x284x32x32.size a
  inb_S1x512x32x32_S1x1x32x32_0_228_0_0 : ∀ a, (![0, 228, 0, 0] : Fin 4 → Nat) a + S1x1x32x32.size a ≤ S1x512x32x32.size a
  inb_S1x284x32x32_S1x1x32x32_0_112_0_0 : ∀ a, (![0, 112, 0, 0] : Fin 4 → Nat) a + S1x1x32x32.size a ≤ S1x284x32x32.size a
  inb_S1x512x32x32_S1x1x32x32_0_229_0_0 : ∀ a, (![0, 229, 0, 0] : Fin 4 → Nat) a + S1x1x32x32.size a ≤ S1x512x32x32.size a
  inb_S1x284x32x32_S1x1x32x32_0_113_0_0 : ∀ a, (![0, 113, 0, 0] : Fin 4 → Nat) a + S1x1x32x32.size a ≤ S1x284x32x32.size a
  inb_S1x512x32x32_S1x1x32x32_0_230_0_0 : ∀ a, (![0, 230, 0, 0] : Fin 4 → Nat) a + S1x1x32x32.size a ≤ S1x512x32x32.size a
  inb_S1x284x32x32_S1x1x32x32_0_114_0_0 : ∀ a, (![0, 114, 0, 0] : Fin 4 → Nat) a + S1x1x32x32.size a ≤ S1x284x32x32.size a
  inb_S1x512x32x32_S1x1x32x32_0_231_0_0 : ∀ a, (![0, 231, 0, 0] : Fin 4 → Nat) a + S1x1x32x32.size a ≤ S1x512x32x32.size a
  inb_S1x284x32x32_S1x1x32x32_0_115_0_0 : ∀ a, (![0, 115, 0, 0] : Fin 4 → Nat) a + S1x1x32x32.size a ≤ S1x284x32x32.size a
  inb_S1x512x32x32_S1x1x32x32_0_232_0_0 : ∀ a, (![0, 232, 0, 0] : Fin 4 → Nat) a + S1x1x32x32.size a ≤ S1x512x32x32.size a
  inb_S1x284x32x32_S1x1x32x32_0_116_0_0 : ∀ a, (![0, 116, 0, 0] : Fin 4 → Nat) a + S1x1x32x32.size a ≤ S1x284x32x32.size a
  inb_S1x512x32x32_S1x1x32x32_0_233_0_0 : ∀ a, (![0, 233, 0, 0] : Fin 4 → Nat) a + S1x1x32x32.size a ≤ S1x512x32x32.size a
  inb_S1x284x32x32_S1x1x32x32_0_117_0_0 : ∀ a, (![0, 117, 0, 0] : Fin 4 → Nat) a + S1x1x32x32.size a ≤ S1x284x32x32.size a
  inb_S1x512x32x32_S1x1x32x32_0_234_0_0 : ∀ a, (![0, 234, 0, 0] : Fin 4 → Nat) a + S1x1x32x32.size a ≤ S1x512x32x32.size a
  inb_S1x284x32x32_S1x1x32x32_0_118_0_0 : ∀ a, (![0, 118, 0, 0] : Fin 4 → Nat) a + S1x1x32x32.size a ≤ S1x284x32x32.size a
  inb_S1x512x32x32_S1x1x32x32_0_235_0_0 : ∀ a, (![0, 235, 0, 0] : Fin 4 → Nat) a + S1x1x32x32.size a ≤ S1x512x32x32.size a
  inb_S1x284x32x32_S1x1x32x32_0_119_0_0 : ∀ a, (![0, 119, 0, 0] : Fin 4 → Nat) a + S1x1x32x32.size a ≤ S1x284x32x32.size a
  inb_S1x512x32x32_S1x1x32x32_0_236_0_0 : ∀ a, (![0, 236, 0, 0] : Fin 4 → Nat) a + S1x1x32x32.size a ≤ S1x512x32x32.size a
  inb_S1x284x32x32_S1x1x32x32_0_120_0_0 : ∀ a, (![0, 120, 0, 0] : Fin 4 → Nat) a + S1x1x32x32.size a ≤ S1x284x32x32.size a
  inb_S1x512x32x32_S1x1x32x32_0_237_0_0 : ∀ a, (![0, 237, 0, 0] : Fin 4 → Nat) a + S1x1x32x32.size a ≤ S1x512x32x32.size a
  inb_S1x284x32x32_S1x1x32x32_0_121_0_0 : ∀ a, (![0, 121, 0, 0] : Fin 4 → Nat) a + S1x1x32x32.size a ≤ S1x284x32x32.size a
  inb_S1x512x32x32_S1x1x32x32_0_238_0_0 : ∀ a, (![0, 238, 0, 0] : Fin 4 → Nat) a + S1x1x32x32.size a ≤ S1x512x32x32.size a
  inb_S1x284x32x32_S1x1x32x32_0_122_0_0 : ∀ a, (![0, 122, 0, 0] : Fin 4 → Nat) a + S1x1x32x32.size a ≤ S1x284x32x32.size a
  inb_S1x512x32x32_S1x1x32x32_0_239_0_0 : ∀ a, (![0, 239, 0, 0] : Fin 4 → Nat) a + S1x1x32x32.size a ≤ S1x512x32x32.size a
  inb_S1x284x32x32_S1x1x32x32_0_123_0_0 : ∀ a, (![0, 123, 0, 0] : Fin 4 → Nat) a + S1x1x32x32.size a ≤ S1x284x32x32.size a
  inb_S1x512x32x32_S1x1x32x32_0_240_0_0 : ∀ a, (![0, 240, 0, 0] : Fin 4 → Nat) a + S1x1x32x32.size a ≤ S1x512x32x32.size a
  inb_S1x284x32x32_S1x1x32x32_0_124_0_0 : ∀ a, (![0, 124, 0, 0] : Fin 4 → Nat) a + S1x1x32x32.size a ≤ S1x284x32x32.size a
  inb_S1x512x32x32_S1x1x32x32_0_241_0_0 : ∀ a, (![0, 241, 0, 0] : Fin 4 → Nat) a + S1x1x32x32.size a ≤ S1x512x32x32.size a
  inb_S1x284x32x32_S1x1x32x32_0_125_0_0 : ∀ a, (![0, 125, 0, 0] : Fin 4 → Nat) a + S1x1x32x32.size a ≤ S1x284x32x32.size a
  inb_S1x512x32x32_S1x1x32x32_0_242_0_0 : ∀ a, (![0, 242, 0, 0] : Fin 4 → Nat) a + S1x1x32x32.size a ≤ S1x512x32x32.size a
  inb_S1x284x32x32_S1x1x32x32_0_126_0_0 : ∀ a, (![0, 126, 0, 0] : Fin 4 → Nat) a + S1x1x32x32.size a ≤ S1x284x32x32.size a
  inb_S1x512x32x32_S1x1x32x32_0_243_0_0 : ∀ a, (![0, 243, 0, 0] : Fin 4 → Nat) a + S1x1x32x32.size a ≤ S1x512x32x32.size a
  inb_S1x284x32x32_S1x1x32x32_0_127_0_0 : ∀ a, (![0, 127, 0, 0] : Fin 4 → Nat) a + S1x1x32x32.size a ≤ S1x284x32x32.size a
  inb_S1x512x32x32_S1x1x32x32_0_244_0_0 : ∀ a, (![0, 244, 0, 0] : Fin 4 → Nat) a + S1x1x32x32.size a ≤ S1x512x32x32.size a
  inb_S1x284x32x32_S1x1x32x32_0_128_0_0 : ∀ a, (![0, 128, 0, 0] : Fin 4 → Nat) a + S1x1x32x32.size a ≤ S1x284x32x32.size a
  inb_S1x512x32x32_S1x1x32x32_0_245_0_0 : ∀ a, (![0, 245, 0, 0] : Fin 4 → Nat) a + S1x1x32x32.size a ≤ S1x512x32x32.size a
  inb_S1x284x32x32_S1x1x32x32_0_129_0_0 : ∀ a, (![0, 129, 0, 0] : Fin 4 → Nat) a + S1x1x32x32.size a ≤ S1x284x32x32.size a
  inb_S1x512x32x32_S1x1x32x32_0_246_0_0 : ∀ a, (![0, 246, 0, 0] : Fin 4 → Nat) a + S1x1x32x32.size a ≤ S1x512x32x32.size a
  inb_S1x284x32x32_S1x1x32x32_0_130_0_0 : ∀ a, (![0, 130, 0, 0] : Fin 4 → Nat) a + S1x1x32x32.size a ≤ S1x284x32x32.size a
  inb_S1x512x32x32_S1x1x32x32_0_247_0_0 : ∀ a, (![0, 247, 0, 0] : Fin 4 → Nat) a + S1x1x32x32.size a ≤ S1x512x32x32.size a
  inb_S1x284x32x32_S1x1x32x32_0_131_0_0 : ∀ a, (![0, 131, 0, 0] : Fin 4 → Nat) a + S1x1x32x32.size a ≤ S1x284x32x32.size a
  inb_S1x512x32x32_S1x1x32x32_0_248_0_0 : ∀ a, (![0, 248, 0, 0] : Fin 4 → Nat) a + S1x1x32x32.size a ≤ S1x512x32x32.size a
  inb_S1x284x32x32_S1x1x32x32_0_132_0_0 : ∀ a, (![0, 132, 0, 0] : Fin 4 → Nat) a + S1x1x32x32.size a ≤ S1x284x32x32.size a
  inb_S1x512x32x32_S1x1x32x32_0_249_0_0 : ∀ a, (![0, 249, 0, 0] : Fin 4 → Nat) a + S1x1x32x32.size a ≤ S1x512x32x32.size a
  inb_S1x284x32x32_S1x1x32x32_0_133_0_0 : ∀ a, (![0, 133, 0, 0] : Fin 4 → Nat) a + S1x1x32x32.size a ≤ S1x284x32x32.size a
  inb_S1x512x32x32_S1x1x32x32_0_250_0_0 : ∀ a, (![0, 250, 0, 0] : Fin 4 → Nat) a + S1x1x32x32.size a ≤ S1x512x32x32.size a
  inb_S1x284x32x32_S1x1x32x32_0_134_0_0 : ∀ a, (![0, 134, 0, 0] : Fin 4 → Nat) a + S1x1x32x32.size a ≤ S1x284x32x32.size a
  inb_S1x512x32x32_S1x1x32x32_0_251_0_0 : ∀ a, (![0, 251, 0, 0] : Fin 4 → Nat) a + S1x1x32x32.size a ≤ S1x512x32x32.size a
  inb_S1x284x32x32_S1x1x32x32_0_135_0_0 : ∀ a, (![0, 135, 0, 0] : Fin 4 → Nat) a + S1x1x32x32.size a ≤ S1x284x32x32.size a
  inb_S1x512x32x32_S1x1x32x32_0_252_0_0 : ∀ a, (![0, 252, 0, 0] : Fin 4 → Nat) a + S1x1x32x32.size a ≤ S1x512x32x32.size a
  inb_S1x284x32x32_S1x1x32x32_0_136_0_0 : ∀ a, (![0, 136, 0, 0] : Fin 4 → Nat) a + S1x1x32x32.size a ≤ S1x284x32x32.size a
  inb_S1x512x32x32_S1x1x32x32_0_253_0_0 : ∀ a, (![0, 253, 0, 0] : Fin 4 → Nat) a + S1x1x32x32.size a ≤ S1x512x32x32.size a
  inb_S1x284x32x32_S1x1x32x32_0_137_0_0 : ∀ a, (![0, 137, 0, 0] : Fin 4 → Nat) a + S1x1x32x32.size a ≤ S1x284x32x32.size a
  inb_S1x512x32x32_S1x1x32x32_0_254_0_0 : ∀ a, (![0, 254, 0, 0] : Fin 4 → Nat) a + S1x1x32x32.size a ≤ S1x512x32x32.size a
  inb_S1x284x32x32_S1x1x32x32_0_138_0_0 : ∀ a, (![0, 138, 0, 0] : Fin 4 → Nat) a + S1x1x32x32.size a ≤ S1x284x32x32.size a
  inb_S1x512x32x32_S1x1x32x32_0_255_0_0 : ∀ a, (![0, 255, 0, 0] : Fin 4 → Nat) a + S1x1x32x32.size a ≤ S1x512x32x32.size a
  inb_S1x284x32x32_S1x1x32x32_0_139_0_0 : ∀ a, (![0, 139, 0, 0] : Fin 4 → Nat) a + S1x1x32x32.size a ≤ S1x284x32x32.size a
  inb_S1x512x32x32_S1x1x32x32_0_256_0_0 : ∀ a, (![0, 256, 0, 0] : Fin 4 → Nat) a + S1x1x32x32.size a ≤ S1x512x32x32.size a
  inb_S1x284x32x32_S1x1x32x32_0_140_0_0 : ∀ a, (![0, 140, 0, 0] : Fin 4 → Nat) a + S1x1x32x32.size a ≤ S1x284x32x32.size a
  inb_S1x512x32x32_S1x1x32x32_0_257_0_0 : ∀ a, (![0, 257, 0, 0] : Fin 4 → Nat) a + S1x1x32x32.size a ≤ S1x512x32x32.size a
  inb_S1x284x32x32_S1x1x32x32_0_141_0_0 : ∀ a, (![0, 141, 0, 0] : Fin 4 → Nat) a + S1x1x32x32.size a ≤ S1x284x32x32.size a
  inb_S1x512x32x32_S1x1x32x32_0_258_0_0 : ∀ a, (![0, 258, 0, 0] : Fin 4 → Nat) a + S1x1x32x32.size a ≤ S1x512x32x32.size a
  inb_S1x284x32x32_S1x1x32x32_0_142_0_0 : ∀ a, (![0, 142, 0, 0] : Fin 4 → Nat) a + S1x1x32x32.size a ≤ S1x284x32x32.size a
  inb_S1x512x32x32_S1x1x32x32_0_259_0_0 : ∀ a, (![0, 259, 0, 0] : Fin 4 → Nat) a + S1x1x32x32.size a ≤ S1x512x32x32.size a
  inb_S1x284x32x32_S1x1x32x32_0_143_0_0 : ∀ a, (![0, 143, 0, 0] : Fin 4 → Nat) a + S1x1x32x32.size a ≤ S1x284x32x32.size a
  inb_S1x512x32x32_S1x1x32x32_0_260_0_0 : ∀ a, (![0, 260, 0, 0] : Fin 4 → Nat) a + S1x1x32x32.size a ≤ S1x512x32x32.size a
  inb_S1x284x32x32_S1x1x32x32_0_144_0_0 : ∀ a, (![0, 144, 0, 0] : Fin 4 → Nat) a + S1x1x32x32.size a ≤ S1x284x32x32.size a
  inb_S1x512x32x32_S1x1x32x32_0_261_0_0 : ∀ a, (![0, 261, 0, 0] : Fin 4 → Nat) a + S1x1x32x32.size a ≤ S1x512x32x32.size a
  inb_S1x284x32x32_S1x1x32x32_0_145_0_0 : ∀ a, (![0, 145, 0, 0] : Fin 4 → Nat) a + S1x1x32x32.size a ≤ S1x284x32x32.size a
  inb_S1x512x32x32_S1x1x32x32_0_262_0_0 : ∀ a, (![0, 262, 0, 0] : Fin 4 → Nat) a + S1x1x32x32.size a ≤ S1x512x32x32.size a
  inb_S1x284x32x32_S1x1x32x32_0_146_0_0 : ∀ a, (![0, 146, 0, 0] : Fin 4 → Nat) a + S1x1x32x32.size a ≤ S1x284x32x32.size a
  inb_S1x512x32x32_S1x1x32x32_0_263_0_0 : ∀ a, (![0, 263, 0, 0] : Fin 4 → Nat) a + S1x1x32x32.size a ≤ S1x512x32x32.size a
  inb_S1x284x32x32_S1x1x32x32_0_147_0_0 : ∀ a, (![0, 147, 0, 0] : Fin 4 → Nat) a + S1x1x32x32.size a ≤ S1x284x32x32.size a
  inb_S1x512x32x32_S1x1x32x32_0_264_0_0 : ∀ a, (![0, 264, 0, 0] : Fin 4 → Nat) a + S1x1x32x32.size a ≤ S1x512x32x32.size a
  inb_S1x284x32x32_S1x1x32x32_0_148_0_0 : ∀ a, (![0, 148, 0, 0] : Fin 4 → Nat) a + S1x1x32x32.size a ≤ S1x284x32x32.size a
  inb_S1x512x32x32_S1x1x32x32_0_265_0_0 : ∀ a, (![0, 265, 0, 0] : Fin 4 → Nat) a + S1x1x32x32.size a ≤ S1x512x32x32.size a
  inb_S1x284x32x32_S1x1x32x32_0_149_0_0 : ∀ a, (![0, 149, 0, 0] : Fin 4 → Nat) a + S1x1x32x32.size a ≤ S1x284x32x32.size a
  inb_S1x512x32x32_S1x1x32x32_0_266_0_0 : ∀ a, (![0, 266, 0, 0] : Fin 4 → Nat) a + S1x1x32x32.size a ≤ S1x512x32x32.size a
  inb_S1x284x32x32_S1x1x32x32_0_150_0_0 : ∀ a, (![0, 150, 0, 0] : Fin 4 → Nat) a + S1x1x32x32.size a ≤ S1x284x32x32.size a
  inb_S1x512x32x32_S1x1x32x32_0_267_0_0 : ∀ a, (![0, 267, 0, 0] : Fin 4 → Nat) a + S1x1x32x32.size a ≤ S1x512x32x32.size a
  inb_S1x284x32x32_S1x1x32x32_0_151_0_0 : ∀ a, (![0, 151, 0, 0] : Fin 4 → Nat) a + S1x1x32x32.size a ≤ S1x284x32x32.size a
  inb_S1x512x32x32_S1x1x32x32_0_268_0_0 : ∀ a, (![0, 268, 0, 0] : Fin 4 → Nat) a + S1x1x32x32.size a ≤ S1x512x32x32.size a
  inb_S1x284x32x32_S1x1x32x32_0_152_0_0 : ∀ a, (![0, 152, 0, 0] : Fin 4 → Nat) a + S1x1x32x32.size a ≤ S1x284x32x32.size a
  inb_S1x512x32x32_S1x1x32x32_0_269_0_0 : ∀ a, (![0, 269, 0, 0] : Fin 4 → Nat) a + S1x1x32x32.size a ≤ S1x512x32x32.size a
  inb_S1x284x32x32_S1x1x32x32_0_153_0_0 : ∀ a, (![0, 153, 0, 0] : Fin 4 → Nat) a + S1x1x32x32.size a ≤ S1x284x32x32.size a
  inb_S1x512x32x32_S1x1x32x32_0_270_0_0 : ∀ a, (![0, 270, 0, 0] : Fin 4 → Nat) a + S1x1x32x32.size a ≤ S1x512x32x32.size a
  inb_S1x284x32x32_S1x1x32x32_0_154_0_0 : ∀ a, (![0, 154, 0, 0] : Fin 4 → Nat) a + S1x1x32x32.size a ≤ S1x284x32x32.size a
  inb_S1x512x32x32_S1x1x32x32_0_271_0_0 : ∀ a, (![0, 271, 0, 0] : Fin 4 → Nat) a + S1x1x32x32.size a ≤ S1x512x32x32.size a
  inb_S1x284x32x32_S1x1x32x32_0_155_0_0 : ∀ a, (![0, 155, 0, 0] : Fin 4 → Nat) a + S1x1x32x32.size a ≤ S1x284x32x32.size a
  inb_S1x512x32x32_S1x1x32x32_0_272_0_0 : ∀ a, (![0, 272, 0, 0] : Fin 4 → Nat) a + S1x1x32x32.size a ≤ S1x512x32x32.size a
  inb_S1x284x32x32_S1x1x32x32_0_156_0_0 : ∀ a, (![0, 156, 0, 0] : Fin 4 → Nat) a + S1x1x32x32.size a ≤ S1x284x32x32.size a
  inb_S1x512x32x32_S1x1x32x32_0_273_0_0 : ∀ a, (![0, 273, 0, 0] : Fin 4 → Nat) a + S1x1x32x32.size a ≤ S1x512x32x32.size a
  inb_S1x284x32x32_S1x1x32x32_0_157_0_0 : ∀ a, (![0, 157, 0, 0] : Fin 4 → Nat) a + S1x1x32x32.size a ≤ S1x284x32x32.size a
  inb_S1x512x32x32_S1x1x32x32_0_274_0_0 : ∀ a, (![0, 274, 0, 0] : Fin 4 → Nat) a + S1x1x32x32.size a ≤ S1x512x32x32.size a
  inb_S1x284x32x32_S1x1x32x32_0_158_0_0 : ∀ a, (![0, 158, 0, 0] : Fin 4 → Nat) a + S1x1x32x32.size a ≤ S1x284x32x32.size a
  inb_S1x512x32x32_S1x1x32x32_0_275_0_0 : ∀ a, (![0, 275, 0, 0] : Fin 4 → Nat) a + S1x1x32x32.size a ≤ S1x512x32x32.size a
  inb_S1x284x32x32_S1x1x32x32_0_159_0_0 : ∀ a, (![0, 159, 0, 0] : Fin 4 → Nat) a + S1x1x32x32.size a ≤ S1x284x32x32.size a
  inb_S1x512x32x32_S1x1x32x32_0_276_0_0 : ∀ a, (![0, 276, 0, 0] : Fin 4 → Nat) a + S1x1x32x32.size a ≤ S1x512x32x32.size a
  inb_S1x284x32x32_S1x1x32x32_0_160_0_0 : ∀ a, (![0, 160, 0, 0] : Fin 4 → Nat) a + S1x1x32x32.size a ≤ S1x284x32x32.size a
  inb_S1x512x32x32_S1x1x32x32_0_277_0_0 : ∀ a, (![0, 277, 0, 0] : Fin 4 → Nat) a + S1x1x32x32.size a ≤ S1x512x32x32.size a
  inb_S1x284x32x32_S1x1x32x32_0_161_0_0 : ∀ a, (![0, 161, 0, 0] : Fin 4 → Nat) a + S1x1x32x32.size a ≤ S1x284x32x32.size a
  inb_S1x512x32x32_S1x1x32x32_0_278_0_0 : ∀ a, (![0, 278, 0, 0] : Fin 4 → Nat) a + S1x1x32x32.size a ≤ S1x512x32x32.size a
  inb_S1x284x32x32_S1x1x32x32_0_162_0_0 : ∀ a, (![0, 162, 0, 0] : Fin 4 → Nat) a + S1x1x32x32.size a ≤ S1x284x32x32.size a
  inb_S1x512x32x32_S1x1x32x32_0_279_0_0 : ∀ a, (![0, 279, 0, 0] : Fin 4 → Nat) a + S1x1x32x32.size a ≤ S1x512x32x32.size a
  inb_S1x284x32x32_S1x1x32x32_0_163_0_0 : ∀ a, (![0, 163, 0, 0] : Fin 4 → Nat) a + S1x1x32x32.size a ≤ S1x284x32x32.size a
  inb_S1x512x32x32_S1x1x32x32_0_280_0_0 : ∀ a, (![0, 280, 0, 0] : Fin 4 → Nat) a + S1x1x32x32.size a ≤ S1x512x32x32.size a
  inb_S1x284x32x32_S1x1x32x32_0_164_0_0 : ∀ a, (![0, 164, 0, 0] : Fin 4 → Nat) a + S1x1x32x32.size a ≤ S1x284x32x32.size a
  inb_S1x512x32x32_S1x1x32x32_0_281_0_0 : ∀ a, (![0, 281, 0, 0] : Fin 4 → Nat) a + S1x1x32x32.size a ≤ S1x512x32x32.size a
  inb_S1x284x32x32_S1x1x32x32_0_165_0_0 : ∀ a, (![0, 165, 0, 0] : Fin 4 → Nat) a + S1x1x32x32.size a ≤ S1x284x32x32.size a
  inb_S1x512x32x32_S1x1x32x32_0_282_0_0 : ∀ a, (![0, 282, 0, 0] : Fin 4 → Nat) a + S1x1x32x32.size a ≤ S1x512x32x32.size a
  inb_S1x284x32x32_S1x1x32x32_0_166_0_0 : ∀ a, (![0, 166, 0, 0] : Fin 4 → Nat) a + S1x1x32x32.size a ≤ S1x284x32x32.size a
  inb_S1x512x32x32_S1x1x32x32_0_283_0_0 : ∀ a, (![0, 283, 0, 0] : Fin 4 → Nat) a + S1x1x32x32.size a ≤ S1x512x32x32.size a
  inb_S1x284x32x32_S1x1x32x32_0_167_0_0 : ∀ a, (![0, 167, 0, 0] : Fin 4 → Nat) a + S1x1x32x32.size a ≤ S1x284x32x32.size a
  inb_S1x512x32x32_S1x1x32x32_0_284_0_0 : ∀ a, (![0, 284, 0, 0] : Fin 4 → Nat) a + S1x1x32x32.size a ≤ S1x512x32x32.size a
  inb_S1x284x32x32_S1x1x32x32_0_168_0_0 : ∀ a, (![0, 168, 0, 0] : Fin 4 → Nat) a + S1x1x32x32.size a ≤ S1x284x32x32.size a
  inb_S1x512x32x32_S1x1x32x32_0_285_0_0 : ∀ a, (![0, 285, 0, 0] : Fin 4 → Nat) a + S1x1x32x32.size a ≤ S1x512x32x32.size a
  inb_S1x284x32x32_S1x1x32x32_0_169_0_0 : ∀ a, (![0, 169, 0, 0] : Fin 4 → Nat) a + S1x1x32x32.size a ≤ S1x284x32x32.size a
  inb_S1x512x32x32_S1x1x32x32_0_286_0_0 : ∀ a, (![0, 286, 0, 0] : Fin 4 → Nat) a + S1x1x32x32.size a ≤ S1x512x32x32.size a
  inb_S1x284x32x32_S1x1x32x32_0_170_0_0 : ∀ a, (![0, 170, 0, 0] : Fin 4 → Nat) a + S1x1x32x32.size a ≤ S1x284x32x32.size a
  inb_S1x512x32x32_S1x1x32x32_0_287_0_0 : ∀ a, (![0, 287, 0, 0] : Fin 4 → Nat) a + S1x1x32x32.size a ≤ S1x512x32x32.size a
  inb_S1x284x32x32_S1x1x32x32_0_171_0_0 : ∀ a, (![0, 171, 0, 0] : Fin 4 → Nat) a + S1x1x32x32.size a ≤ S1x284x32x32.size a
  inb_S1x512x32x32_S1x1x32x32_0_288_0_0 : ∀ a, (![0, 288, 0, 0] : Fin 4 → Nat) a + S1x1x32x32.size a ≤ S1x512x32x32.size a
  inb_S1x284x32x32_S1x1x32x32_0_172_0_0 : ∀ a, (![0, 172, 0, 0] : Fin 4 → Nat) a + S1x1x32x32.size a ≤ S1x284x32x32.size a
  inb_S1x512x32x32_S1x1x32x32_0_289_0_0 : ∀ a, (![0, 289, 0, 0] : Fin 4 → Nat) a + S1x1x32x32.size a ≤ S1x512x32x32.size a
  inb_S1x284x32x32_S1x1x32x32_0_173_0_0 : ∀ a, (![0, 173, 0, 0] : Fin 4 → Nat) a + S1x1x32x32.size a ≤ S1x284x32x32.size a
  inb_S1x512x32x32_S1x1x32x32_0_290_0_0 : ∀ a, (![0, 290, 0, 0] : Fin 4 → Nat) a + S1x1x32x32.size a ≤ S1x512x32x32.size a
  inb_S1x284x32x32_S1x1x32x32_0_174_0_0 : ∀ a, (![0, 174, 0, 0] : Fin 4 → Nat) a + S1x1x32x32.size a ≤ S1x284x32x32.size a
  inb_S1x512x32x32_S1x1x32x32_0_291_0_0 : ∀ a, (![0, 291, 0, 0] : Fin 4 → Nat) a + S1x1x32x32.size a ≤ S1x512x32x32.size a
  inb_S1x284x32x32_S1x1x32x32_0_175_0_0 : ∀ a, (![0, 175, 0, 0] : Fin 4 → Nat) a + S1x1x32x32.size a ≤ S1x284x32x32.size a
  inb_S1x512x32x32_S1x1x32x32_0_292_0_0 : ∀ a, (![0, 292, 0, 0] : Fin 4 → Nat) a + S1x1x32x32.size a ≤ S1x512x32x32.size a
  inb_S1x284x32x32_S1x1x32x32_0_176_0_0 : ∀ a, (![0, 176, 0, 0] : Fin 4 → Nat) a + S1x1x32x32.size a ≤ S1x284x32x32.size a
  inb_S1x512x32x32_S1x1x32x32_0_293_0_0 : ∀ a, (![0, 293, 0, 0] : Fin 4 → Nat) a + S1x1x32x32.size a ≤ S1x512x32x32.size a
  inb_S1x284x32x32_S1x1x32x32_0_177_0_0 : ∀ a, (![0, 177, 0, 0] : Fin 4 → Nat) a + S1x1x32x32.size a ≤ S1x284x32x32.size a
  inb_S1x512x32x32_S1x1x32x32_0_294_0_0 : ∀ a, (![0, 294, 0, 0] : Fin 4 → Nat) a + S1x1x32x32.size a ≤ S1x512x32x32.size a
  inb_S1x284x32x32_S1x1x32x32_0_178_0_0 : ∀ a, (![0, 178, 0, 0] : Fin 4 → Nat) a + S1x1x32x32.size a ≤ S1x284x32x32.size a
  inb_S1x512x32x32_S1x1x32x32_0_295_0_0 : ∀ a, (![0, 295, 0, 0] : Fin 4 → Nat) a + S1x1x32x32.size a ≤ S1x512x32x32.size a
  inb_S1x284x32x32_S1x1x32x32_0_179_0_0 : ∀ a, (![0, 179, 0, 0] : Fin 4 → Nat) a + S1x1x32x32.size a ≤ S1x284x32x32.size a
  inb_S1x512x32x32_S1x1x32x32_0_296_0_0 : ∀ a, (![0, 296, 0, 0] : Fin 4 → Nat) a + S1x1x32x32.size a ≤ S1x512x32x32.size a
  inb_S1x284x32x32_S1x1x32x32_0_180_0_0 : ∀ a, (![0, 180, 0, 0] : Fin 4 → Nat) a + S1x1x32x32.size a ≤ S1x284x32x32.size a
  inb_S1x512x32x32_S1x1x32x32_0_297_0_0 : ∀ a, (![0, 297, 0, 0] : Fin 4 → Nat) a + S1x1x32x32.size a ≤ S1x512x32x32.size a
  inb_S1x284x32x32_S1x1x32x32_0_181_0_0 : ∀ a, (![0, 181, 0, 0] : Fin 4 → Nat) a + S1x1x32x32.size a ≤ S1x284x32x32.size a
  inb_S1x512x32x32_S1x1x32x32_0_298_0_0 : ∀ a, (![0, 298, 0, 0] : Fin 4 → Nat) a + S1x1x32x32.size a ≤ S1x512x32x32.size a
  inb_S1x284x32x32_S1x1x32x32_0_182_0_0 : ∀ a, (![0, 182, 0, 0] : Fin 4 → Nat) a + S1x1x32x32.size a ≤ S1x284x32x32.size a
  inb_S1x512x32x32_S1x1x32x32_0_299_0_0 : ∀ a, (![0, 299, 0, 0] : Fin 4 → Nat) a + S1x1x32x32.size a ≤ S1x512x32x32.size a
  inb_S1x284x32x32_S1x1x32x32_0_183_0_0 : ∀ a, (![0, 183, 0, 0] : Fin 4 → Nat) a + S1x1x32x32.size a ≤ S1x284x32x32.size a
  inb_S1x512x32x32_S1x1x32x32_0_300_0_0 : ∀ a, (![0, 300, 0, 0] : Fin 4 → Nat) a + S1x1x32x32.size a ≤ S1x512x32x32.size a
  inb_S1x284x32x32_S1x1x32x32_0_184_0_0 : ∀ a, (![0, 184, 0, 0] : Fin 4 → Nat) a + S1x1x32x32.size a ≤ S1x284x32x32.size a
  inb_S1x512x32x32_S1x1x32x32_0_301_0_0 : ∀ a, (![0, 301, 0, 0] : Fin 4 → Nat) a + S1x1x32x32.size a ≤ S1x512x32x32.size a
  inb_S1x284x32x32_S1x1x32x32_0_185_0_0 : ∀ a, (![0, 185, 0, 0] : Fin 4 → Nat) a + S1x1x32x32.size a ≤ S1x284x32x32.size a
  inb_S1x512x32x32_S1x1x32x32_0_302_0_0 : ∀ a, (![0, 302, 0, 0] : Fin 4 → Nat) a + S1x1x32x32.size a ≤ S1x512x32x32.size a
  inb_S1x284x32x32_S1x1x32x32_0_186_0_0 : ∀ a, (![0, 186, 0, 0] : Fin 4 → Nat) a + S1x1x32x32.size a ≤ S1x284x32x32.size a
  inb_S1x512x32x32_S1x1x32x32_0_303_0_0 : ∀ a, (![0, 303, 0, 0] : Fin 4 → Nat) a + S1x1x32x32.size a ≤ S1x512x32x32.size a
  inb_S1x284x32x32_S1x1x32x32_0_187_0_0 : ∀ a, (![0, 187, 0, 0] : Fin 4 → Nat) a + S1x1x32x32.size a ≤ S1x284x32x32.size a
  inb_S1x512x32x32_S1x1x32x32_0_304_0_0 : ∀ a, (![0, 304, 0, 0] : Fin 4 → Nat) a + S1x1x32x32.size a ≤ S1x512x32x32.size a
  inb_S1x284x32x32_S1x1x32x32_0_188_0_0 : ∀ a, (![0, 188, 0, 0] : Fin 4 → Nat) a + S1x1x32x32.size a ≤ S1x284x32x32.size a
  inb_S1x512x32x32_S1x1x32x32_0_305_0_0 : ∀ a, (![0, 305, 0, 0] : Fin 4 → Nat) a + S1x1x32x32.size a ≤ S1x512x32x32.size a
  inb_S1x284x32x32_S1x1x32x32_0_189_0_0 : ∀ a, (![0, 189, 0, 0] : Fin 4 → Nat) a + S1x1x32x32.size a ≤ S1x284x32x32.size a
  inb_S1x512x32x32_S1x1x32x32_0_306_0_0 : ∀ a, (![0, 306, 0, 0] : Fin 4 → Nat) a + S1x1x32x32.size a ≤ S1x512x32x32.size a
  inb_S1x284x32x32_S1x1x32x32_0_190_0_0 : ∀ a, (![0, 190, 0, 0] : Fin 4 → Nat) a + S1x1x32x32.size a ≤ S1x284x32x32.size a
  inb_S1x512x32x32_S1x1x32x32_0_307_0_0 : ∀ a, (![0, 307, 0, 0] : Fin 4 → Nat) a + S1x1x32x32.size a ≤ S1x512x32x32.size a
  inb_S1x284x32x32_S1x1x32x32_0_191_0_0 : ∀ a, (![0, 191, 0, 0] : Fin 4 → Nat) a + S1x1x32x32.size a ≤ S1x284x32x32.size a
  inb_S1x512x32x32_S1x1x32x32_0_308_0_0 : ∀ a, (![0, 308, 0, 0] : Fin 4 → Nat) a + S1x1x32x32.size a ≤ S1x512x32x32.size a
  inb_S1x284x32x32_S1x1x32x32_0_192_0_0 : ∀ a, (![0, 192, 0, 0] : Fin 4 → Nat) a + S1x1x32x32.size a ≤ S1x284x32x32.size a
  inb_S1x512x32x32_S1x1x32x32_0_309_0_0 : ∀ a, (![0, 309, 0, 0] : Fin 4 → Nat) a + S1x1x32x32.size a ≤ S1x512x32x32.size a
  inb_S1x284x32x32_S1x1x32x32_0_193_0_0 : ∀ a, (![0, 193, 0, 0] : Fin 4 → Nat) a + S1x1x32x32.size a ≤ S1x284x32x32.size a
  inb_S1x512x32x32_S1x1x32x32_0_310_0_0 : ∀ a, (![0, 310, 0, 0] : Fin 4 → Nat) a + S1x1x32x32.size a ≤ S1x512x32x32.size a
  inb_S1x284x32x32_S1x1x32x32_0_194_0_0 : ∀ a, (![0, 194, 0, 0] : Fin 4 → Nat) a + S1x1x32x32.size a ≤ S1x284x32x32.size a
  inb_S1x512x32x32_S1x1x32x32_0_311_0_0 : ∀ a, (![0, 311, 0, 0] : Fin 4 → Nat) a + S1x1x32x32.size a ≤ S1x512x32x32.size a
  inb_S1x284x32x32_S1x1x32x32_0_195_0_0 : ∀ a, (![0, 195, 0, 0] : Fin 4 → Nat) a + S1x1x32x32.size a ≤ S1x284x32x32.size a
  inb_S1x512x32x32_S1x1x32x32_0_312_0_0 : ∀ a, (![0, 312, 0, 0] : Fin 4 → Nat) a + S1x1x32x32.size a ≤ S1x512x32x32.size a
  inb_S1x284x32x32_S1x1x32x32_0_196_0_0 : ∀ a, (![0, 196, 0, 0] : Fin 4 → Nat) a + S1x1x32x32.size a ≤ S1x284x32x32.size a
  inb_S1x512x32x32_S1x1x32x32_0_313_0_0 : ∀ a, (![0, 313, 0, 0] : Fin 4 → Nat) a + S1x1x32x32.size a ≤ S1x512x32x32.size a
  inb_S1x284x32x32_S1x1x32x32_0_197_0_0 : ∀ a, (![0, 197, 0, 0] : Fin 4 → Nat) a + S1x1x32x32.size a ≤ S1x284x32x32.size a
  inb_S1x512x32x32_S1x1x32x32_0_314_0_0 : ∀ a, (![0, 314, 0, 0] : Fin 4 → Nat) a + S1x1x32x32.size a ≤ S1x512x32x32.size a
  inb_S1x284x32x32_S1x1x32x32_0_198_0_0 : ∀ a, (![0, 198, 0, 0] : Fin 4 → Nat) a + S1x1x32x32.size a ≤ S1x284x32x32.size a
  inb_S1x512x32x32_S1x1x32x32_0_315_0_0 : ∀ a, (![0, 315, 0, 0] : Fin 4 → Nat) a + S1x1x32x32.size a ≤ S1x512x32x32.size a
  inb_S1x284x32x32_S1x1x32x32_0_199_0_0 : ∀ a, (![0, 199, 0, 0] : Fin 4 → Nat) a + S1x1x32x32.size a ≤ S1x284x32x32.size a
  inb_S1x512x32x32_S1x1x32x32_0_316_0_0 : ∀ a, (![0, 316, 0, 0] : Fin 4 → Nat) a + S1x1x32x32.size a ≤ S1x512x32x32.size a
  inb_S1x284x32x32_S1x1x32x32_0_200_0_0 : ∀ a, (![0, 200, 0, 0] : Fin 4 → Nat) a + S1x1x32x32.size a ≤ S1x284x32x32.size a
  inb_S1x512x32x32_S1x1x32x32_0_317_0_0 : ∀ a, (![0, 317, 0, 0] : Fin 4 → Nat) a + S1x1x32x32.size a ≤ S1x512x32x32.size a
  inb_S1x284x32x32_S1x1x32x32_0_201_0_0 : ∀ a, (![0, 201, 0, 0] : Fin 4 → Nat) a + S1x1x32x32.size a ≤ S1x284x32x32.size a
  inb_S1x512x32x32_S1x1x32x32_0_318_0_0 : ∀ a, (![0, 318, 0, 0] : Fin 4 → Nat) a + S1x1x32x32.size a ≤ S1x512x32x32.size a
  inb_S1x284x32x32_S1x1x32x32_0_202_0_0 : ∀ a, (![0, 202, 0, 0] : Fin 4 → Nat) a + S1x1x32x32.size a ≤ S1x284x32x32.size a
  inb_S1x512x32x32_S1x1x32x32_0_319_0_0 : ∀ a, (![0, 319, 0, 0] : Fin 4 → Nat) a + S1x1x32x32.size a ≤ S1x512x32x32.size a
  inb_S1x284x32x32_S1x1x32x32_0_203_0_0 : ∀ a, (![0, 203, 0, 0] : Fin 4 → Nat) a + S1x1x32x32.size a ≤ S1x284x32x32.size a
  inb_S1x512x32x32_S1x1x32x32_0_320_0_0 : ∀ a, (![0, 320, 0, 0] : Fin 4 → Nat) a + S1x1x32x32.size a ≤ S1x512x32x32.size a
  inb_S1x284x32x32_S1x1x32x32_0_204_0_0 : ∀ a, (![0, 204, 0, 0] : Fin 4 → Nat) a + S1x1x32x32.size a ≤ S1x284x32x32.size a
  inb_S1x512x32x32_S1x1x32x32_0_321_0_0 : ∀ a, (![0, 321, 0, 0] : Fin 4 → Nat) a + S1x1x32x32.size a ≤ S1x512x32x32.size a
  inb_S1x284x32x32_S1x1x32x32_0_205_0_0 : ∀ a, (![0, 205, 0, 0] : Fin 4 → Nat) a + S1x1x32x32.size a ≤ S1x284x32x32.size a
  inb_S1x512x32x32_S1x1x32x32_0_322_0_0 : ∀ a, (![0, 322, 0, 0] : Fin 4 → Nat) a + S1x1x32x32.size a ≤ S1x512x32x32.size a
  inb_S1x284x32x32_S1x1x32x32_0_206_0_0 : ∀ a, (![0, 206, 0, 0] : Fin 4 → Nat) a + S1x1x32x32.size a ≤ S1x284x32x32.size a
  inb_S1x512x32x32_S1x1x32x32_0_323_0_0 : ∀ a, (![0, 323, 0, 0] : Fin 4 → Nat) a + S1x1x32x32.size a ≤ S1x512x32x32.size a
  inb_S1x284x32x32_S1x1x32x32_0_207_0_0 : ∀ a, (![0, 207, 0, 0] : Fin 4 → Nat) a + S1x1x32x32.size a ≤ S1x284x32x32.size a
  inb_S1x512x32x32_S1x1x32x32_0_324_0_0 : ∀ a, (![0, 324, 0, 0] : Fin 4 → Nat) a + S1x1x32x32.size a ≤ S1x512x32x32.size a
  inb_S1x284x32x32_S1x1x32x32_0_208_0_0 : ∀ a, (![0, 208, 0, 0] : Fin 4 → Nat) a + S1x1x32x32.size a ≤ S1x284x32x32.size a
  inb_S1x512x32x32_S1x1x32x32_0_325_0_0 : ∀ a, (![0, 325, 0, 0] : Fin 4 → Nat) a + S1x1x32x32.size a ≤ S1x512x32x32.size a
  inb_S1x284x32x32_S1x1x32x32_0_209_0_0 : ∀ a, (![0, 209, 0, 0] : Fin 4 → Nat) a + S1x1x32x32.size a ≤ S1x284x32x32.size a
  inb_S1x512x32x32_S1x1x32x32_0_326_0_0 : ∀ a, (![0, 326, 0, 0] : Fin 4 → Nat) a + S1x1x32x32.size a ≤ S1x512x32x32.size a
  inb_S1x284x32x32_S1x1x32x32_0_210_0_0 : ∀ a, (![0, 210, 0, 0] : Fin 4 → Nat) a + S1x1x32x32.size a ≤ S1x284x32x32.size a
  inb_S1x512x32x32_S1x1x32x32_0_327_0_0 : ∀ a, (![0, 327, 0, 0] : Fin 4 → Nat) a + S1x1x32x32.size a ≤ S1x512x32x32.size a
  inb_S1x284x32x32_S1x1x32x32_0_211_0_0 : ∀ a, (![0, 211, 0, 0] : Fin 4 → Nat) a + S1x1x32x32.size a ≤ S1x284x32x32.size a
  inb_S1x512x32x32_S1x1x32x32_0_328_0_0 : ∀ a, (![0, 328, 0, 0] : Fin 4 → Nat) a + S1x1x32x32.size a ≤ S1x512x32x32.size a
  inb_S1x284x32x32_S1x1x32x32_0_212_0_0 : ∀ a, (![0, 212, 0, 0] : Fin 4 → Nat) a + S1x1x32x32.size a ≤ S1x284x32x32.size a
  inb_S1x512x32x32_S1x1x32x32_0_329_0_0 : ∀ a, (![0, 329, 0, 0] : Fin 4 → Nat) a + S1x1x32x32.size a ≤ S1x512x32x32.size a
  inb_S1x284x32x32_S1x1x32x32_0_213_0_0 : ∀ a, (![0, 213, 0, 0] : Fin 4 → Nat) a + S1x1x32x32.size a ≤ S1x284x32x32.size a
  inb_S1x512x32x32_S1x1x32x32_0_330_0_0 : ∀ a, (![0, 330, 0, 0] : Fin 4 → Nat) a + S1x1x32x32.size a ≤ S1x512x32x32.size a
  inb_S1x284x32x32_S1x1x32x32_0_214_0_0 : ∀ a, (![0, 214, 0, 0] : Fin 4 → Nat) a + S1x1x32x32.size a ≤ S1x284x32x32.size a
  inb_S1x512x32x32_S1x1x32x32_0_331_0_0 : ∀ a, (![0, 331, 0, 0] : Fin 4 → Nat) a + S1x1x32x32.size a ≤ S1x512x32x32.size a
  inb_S1x284x32x32_S1x1x32x32_0_215_0_0 : ∀ a, (![0, 215, 0, 0] : Fin 4 → Nat) a + S1x1x32x32.size a ≤ S1x284x32x32.size a
  inb_S1x512x32x32_S1x1x32x32_0_332_0_0 : ∀ a, (![0, 332, 0, 0] : Fin 4 → Nat) a + S1x1x32x32.size a ≤ S1x512x32x32.size a
  inb_S1x284x32x32_S1x1x32x32_0_216_0_0 : ∀ a, (![0, 216, 0, 0] : Fin 4 → Nat) a + S1x1x32x32.size a ≤ S1x284x32x32.size a
  inb_S1x512x32x32_S1x1x32x32_0_333_0_0 : ∀ a, (![0, 333, 0, 0] : Fin 4 → Nat) a + S1x1x32x32.size a ≤ S1x512x32x32.size a
  inb_S1x284x32x32_S1x1x32x32_0_217_0_0 : ∀ a, (![0, 217, 0, 0] : Fin 4 → Nat) a + S1x1x32x32.size a ≤ S1x284x32x32.size a
  inb_S1x512x32x32_S1x1x32x32_0_334_0_0 : ∀ a, (![0, 334, 0, 0] : Fin 4 → Nat) a + S1x1x32x32.size a ≤ S1x512x32x32.size a
  inb_S1x284x32x32_S1x1x32x32_0_218_0_0 : ∀ a, (![0, 218, 0, 0] : Fin 4 → Nat) a + S1x1x32x32.size a ≤ S1x284x32x32.size a
  inb_S1x512x32x32_S1x1x32x32_0_335_0_0 : ∀ a, (![0, 335, 0, 0] : Fin 4 → Nat) a + S1x1x32x32.size a ≤ S1x512x32x32.size a
  inb_S1x284x32x32_S1x1x32x32_0_219_0_0 : ∀ a, (![0, 219, 0, 0] : Fin 4 → Nat) a + S1x1x32x32.size a ≤ S1x284x32x32.size a
  inb_S1x512x32x32_S1x1x32x32_0_336_0_0 : ∀ a, (![0, 336, 0, 0] : Fin 4 → Nat) a + S1x1x32x32.size a ≤ S1x512x32x32.size a
  inb_S1x284x32x32_S1x1x32x32_0_220_0_0 : ∀ a, (![0, 220, 0, 0] : Fin 4 → Nat) a + S1x1x32x32.size a ≤ S1x284x32x32.size a
  inb_S1x512x32x32_S1x1x32x32_0_337_0_0 : ∀ a, (![0, 337, 0, 0] : Fin 4 → Nat) a + S1x1x32x32.size a ≤ S1x512x32x32.size a
  inb_S1x284x32x32_S1x1x32x32_0_221_0_0 : ∀ a, (![0, 221, 0, 0] : Fin 4 → Nat) a + S1x1x32x32.size a ≤ S1x284x32x32.size a
  inb_S1x512x32x32_S1x1x32x32_0_338_0_0 : ∀ a, (![0, 338, 0, 0] : Fin 4 → Nat) a + S1x1x32x32.size a ≤ S1x512x32x32.size a
  inb_S1x284x32x32_S1x1x32x32_0_222_0_0 : ∀ a, (![0, 222, 0, 0] : Fin 4 → Nat) a + S1x1x32x32.size a ≤ S1x284x32x32.size a
  inb_S1x512x32x32_S1x1x32x32_0_339_0_0 : ∀ a, (![0, 339, 0, 0] : Fin 4 → Nat) a + S1x1x32x32.size a ≤ S1x512x32x32.size a
  inb_S1x284x32x32_S1x1x32x32_0_223_0_0 : ∀ a, (![0, 223, 0, 0] : Fin 4 → Nat) a + S1x1x32x32.size a ≤ S1x284x32x32.size a
  inb_S1x512x32x32_S1x1x32x32_0_340_0_0 : ∀ a, (![0, 340, 0, 0] : Fin 4 → Nat) a + S1x1x32x32.size a ≤ S1x512x32x32.size a
  inb_S1x284x32x32_S1x1x32x32_0_224_0_0 : ∀ a, (![0, 224, 0, 0] : Fin 4 → Nat) a + S1x1x32x32.size a ≤ S1x284x32x32.size a
  inb_S1x512x32x32_S1x1x32x32_0_341_0_0 : ∀ a, (![0, 341, 0, 0] : Fin 4 → Nat) a + S1x1x32x32.size a ≤ S1x512x32x32.size a
  inb_S1x284x32x32_S1x1x32x32_0_225_0_0 : ∀ a, (![0, 225, 0, 0] : Fin 4 → Nat) a + S1x1x32x32.size a ≤ S1x284x32x32.size a
  inb_S1x512x32x32_S1x1x32x32_0_342_0_0 : ∀ a, (![0, 342, 0, 0] : Fin 4 → Nat) a + S1x1x32x32.size a ≤ S1x512x32x32.size a
  inb_S1x284x32x32_S1x1x32x32_0_226_0_0 : ∀ a, (![0, 226, 0, 0] : Fin 4 → Nat) a + S1x1x32x32.size a ≤ S1x284x32x32.size a
  inb_S1x512x32x32_S1x1x32x32_0_343_0_0 : ∀ a, (![0, 343, 0, 0] : Fin 4 → Nat) a + S1x1x32x32.size a ≤ S1x512x32x32.size a
  inb_S1x284x32x32_S1x1x32x32_0_227_0_0 : ∀ a, (![0, 227, 0, 0] : Fin 4 → Nat) a + S1x1x32x32.size a ≤ S1x284x32x32.size a
  inb_S1x512x32x32_S1x1x32x32_0_344_0_0 : ∀ a, (![0, 344, 0, 0] : Fin 4 → Nat) a + S1x1x32x32.size a ≤ S1x512x32x32.size a
  inb_S1x512x32x32_S1x1x32x32_0_345_0_0 : ∀ a, (![0, 345, 0, 0] : Fin 4 → Nat) a + S1x1x32x32.size a ≤ S1x512x32x32.size a
  inb_S1x512x32x32_S1x1x32x32_0_346_0_0 : ∀ a, (![0, 346, 0, 0] : Fin 4 → Nat) a + S1x1x32x32.size a ≤ S1x512x32x32.size a
  inb_S1x284x32x32_S1x1x32x32_0_228_0_0 : ∀ a, (![0, 228, 0, 0] : Fin 4 → Nat) a + S1x1x32x32.size a ≤ S1x284x32x32.size a
  inb_S1x512x32x32_S1x1x32x32_0_347_0_0 : ∀ a, (![0, 347, 0, 0] : Fin 4 → Nat) a + S1x1x32x32.size a ≤ S1x512x32x32.size a
  inb_S1x512x32x32_S1x1x32x32_0_348_0_0 : ∀ a, (![0, 348, 0, 0] : Fin 4 → Nat) a + S1x1x32x32.size a ≤ S1x512x32x32.size a
  inb_S1x512x32x32_S1x1x32x32_0_349_0_0 : ∀ a, (![0, 349, 0, 0] : Fin 4 → Nat) a + S1x1x32x32.size a ≤ S1x512x32x32.size a
  inb_S1x284x32x32_S1x1x32x32_0_229_0_0 : ∀ a, (![0, 229, 0, 0] : Fin 4 → Nat) a + S1x1x32x32.size a ≤ S1x284x32x32.size a
  inb_S1x512x32x32_S1x1x32x32_0_350_0_0 : ∀ a, (![0, 350, 0, 0] : Fin 4 → Nat) a + S1x1x32x32.size a ≤ S1x512x32x32.size a
  inb_S1x512x32x32_S1x1x32x32_0_351_0_0 : ∀ a, (![0, 351, 0, 0] : Fin 4 → Nat) a + S1x1x32x32.size a ≤ S1x512x32x32.size a
  inb_S1x512x32x32_S1x1x32x32_0_352_0_0 : ∀ a, (![0, 352, 0, 0] : Fin 4 → Nat) a + S1x1x32x32.size a ≤ S1x512x32x32.size a
  inb_S1x284x32x32_S1x1x32x32_0_230_0_0 : ∀ a, (![0, 230, 0, 0] : Fin 4 → Nat) a + S1x1x32x32.size a ≤ S1x284x32x32.size a
  inb_S1x512x32x32_S1x1x32x32_0_353_0_0 : ∀ a, (![0, 353, 0, 0] : Fin 4 → Nat) a + S1x1x32x32.size a ≤ S1x512x32x32.size a
  inb_S1x512x32x32_S1x1x32x32_0_354_0_0 : ∀ a, (![0, 354, 0, 0] : Fin 4 → Nat) a + S1x1x32x32.size a ≤ S1x512x32x32.size a
  inb_S1x512x32x32_S1x1x32x32_0_355_0_0 : ∀ a, (![0, 355, 0, 0] : Fin 4 → Nat) a + S1x1x32x32.size a ≤ S1x512x32x32.size a
  inb_S1x284x32x32_S1x1x32x32_0_231_0_0 : ∀ a, (![0, 231, 0, 0] : Fin 4 → Nat) a + S1x1x32x32.size a ≤ S1x284x32x32.size a
  inb_S1x512x32x32_S1x1x32x32_0_356_0_0 : ∀ a, (![0, 356, 0, 0] : Fin 4 → Nat) a + S1x1x32x32.size a ≤ S1x512x32x32.size a
  inb_S1x512x32x32_S1x1x32x32_0_357_0_0 : ∀ a, (![0, 357, 0, 0] : Fin 4 → Nat) a + S1x1x32x32.size a ≤ S1x512x32x32.size a
  inb_S1x512x32x32_S1x1x32x32_0_358_0_0 : ∀ a, (![0, 358, 0, 0] : Fin 4 → Nat) a + S1x1x32x32.size a ≤ S1x512x32x32.size a
  inb_S1x284x32x32_S1x1x32x32_0_232_0_0 : ∀ a, (![0, 232, 0, 0] : Fin 4 → Nat) a + S1x1x32x32.size a ≤ S1x284x32x32.size a
  inb_S1x512x32x32_S1x1x32x32_0_359_0_0 : ∀ a, (![0, 359, 0, 0] : Fin 4 → Nat) a + S1x1x32x32.size a ≤ S1x512x32x32.size a
  inb_S1x512x32x32_S1x1x32x32_0_360_0_0 : ∀ a, (![0, 360, 0, 0] : Fin 4 → Nat) a + S1x1x32x32.size a ≤ S1x512x32x32.size a
  inb_S1x512x32x32_S1x1x32x32_0_361_0_0 : ∀ a, (![0, 361, 0, 0] : Fin 4 → Nat) a + S1x1x32x32.size a ≤ S1x512x32x32.size a
  inb_S1x284x32x32_S1x1x32x32_0_233_0_0 : ∀ a, (![0, 233, 0, 0] : Fin 4 → Nat) a + S1x1x32x32.size a ≤ S1x284x32x32.size a
  inb_S1x512x32x32_S1x1x32x32_0_362_0_0 : ∀ a, (![0, 362, 0, 0] : Fin 4 → Nat) a + S1x1x32x32.size a ≤ S1x512x32x32.size a
  inb_S1x512x32x32_S1x1x32x32_0_363_0_0 : ∀ a, (![0, 363, 0, 0] : Fin 4 → Nat) a + S1x1x32x32.size a ≤ S1x512x32x32.size a
  inb_S1x512x32x32_S1x1x32x32_0_364_0_0 : ∀ a, (![0, 364, 0, 0] : Fin 4 → Nat) a + S1x1x32x32.size a ≤ S1x512x32x32.size a
  inb_S1x284x32x32_S1x1x32x32_0_234_0_0 : ∀ a, (![0, 234, 0, 0] : Fin 4 → Nat) a + S1x1x32x32.size a ≤ S1x284x32x32.size a
  inb_S1x512x32x32_S1x1x32x32_0_365_0_0 : ∀ a, (![0, 365, 0, 0] : Fin 4 → Nat) a + S1x1x32x32.size a ≤ S1x512x32x32.size a
  inb_S1x512x32x32_S1x1x32x32_0_366_0_0 : ∀ a, (![0, 366, 0, 0] : Fin 4 → Nat) a + S1x1x32x32.size a ≤ S1x512x32x32.size a
  inb_S1x512x32x32_S1x1x32x32_0_367_0_0 : ∀ a, (![0, 367, 0, 0] : Fin 4 → Nat) a + S1x1x32x32.size a ≤ S1x512x32x32.size a
  inb_S1x284x32x32_S1x1x32x32_0_235_0_0 : ∀ a, (![0, 235, 0, 0] : Fin 4 → Nat) a + S1x1x32x32.size a ≤ S1x284x32x32.size a
  inb_S1x512x32x32_S1x1x32x32_0_368_0_0 : ∀ a, (![0, 368, 0, 0] : Fin 4 → Nat) a + S1x1x32x32.size a ≤ S1x512x32x32.size a
  inb_S1x512x32x32_S1x1x32x32_0_369_0_0 : ∀ a, (![0, 369, 0, 0] : Fin 4 → Nat) a + S1x1x32x32.size a ≤ S1x512x32x32.size a
  inb_S1x512x32x32_S1x1x32x32_0_370_0_0 : ∀ a, (![0, 370, 0, 0] : Fin 4 → Nat) a + S1x1x32x32.size a ≤ S1x512x32x32.size a
  inb_S1x284x32x32_S1x1x32x32_0_236_0_0 : ∀ a, (![0, 236, 0, 0] : Fin 4 → Nat) a + S1x1x32x32.size a ≤ S1x284x32x32.size a
  inb_S1x512x32x32_S1x1x32x32_0_371_0_0 : ∀ a, (![0, 371, 0, 0] : Fin 4 → Nat) a + S1x1x32x32.size a ≤ S1x512x32x32.size a
  inb_S1x512x32x32_S1x1x32x32_0_372_0_0 : ∀ a, (![0, 372, 0, 0] : Fin 4 → Nat) a + S1x1x32x32.size a ≤ S1x512x32x32.size a
  inb_S1x512x32x32_S1x1x32x32_0_373_0_0 : ∀ a, (![0, 373, 0, 0] : Fin 4 → Nat) a + S1x1x32x32.size a ≤ S1x512x32x32.size a
  inb_S1x284x32x32_S1x1x32x32_0_237_0_0 : ∀ a, (![0, 237, 0, 0] : Fin 4 → Nat) a + S1x1x32x32.size a ≤ S1x284x32x32.size a
  inb_S1x512x32x32_S1x1x32x32_0_374_0_0 : ∀ a, (![0, 374, 0, 0] : Fin 4 → Nat) a + S1x1x32x32.size a ≤ S1x512x32x32.size a
  inb_S1x512x32x32_S1x1x32x32_0_375_0_0 : ∀ a, (![0, 375, 0, 0] : Fin 4 → Nat) a + S1x1x32x32.size a ≤ S1x512x32x32.size a
  inb_S1x512x32x32_S1x1x32x32_0_376_0_0 : ∀ a, (![0, 376, 0, 0] : Fin 4 → Nat) a + S1x1x32x32.size a ≤ S1x512x32x32.size a
  inb_S1x284x32x32_S1x1x32x32_0_238_0_0 : ∀ a, (![0, 238, 0, 0] : Fin 4 → Nat) a + S1x1x32x32.size a ≤ S1x284x32x32.size a
  inb_S1x512x32x32_S1x1x32x32_0_377_0_0 : ∀ a, (![0, 377, 0, 0] : Fin 4 → Nat) a + S1x1x32x32.size a ≤ S1x512x32x32.size a
  inb_S1x512x32x32_S1x1x32x32_0_378_0_0 : ∀ a, (![0, 378, 0, 0] : Fin 4 → Nat) a + S1x1x32x32.size a ≤ S1x512x32x32.size a
  inb_S1x512x32x32_S1x1x32x32_0_379_0_0 : ∀ a, (![0, 379, 0, 0] : Fin 4 → Nat) a + S1x1x32x32.size a ≤ S1x512x32x32.size a
  inb_S1x284x32x32_S1x1x32x32_0_239_0_0 : ∀ a, (![0, 239, 0, 0] : Fin 4 → Nat) a + S1x1x32x32.size a ≤ S1x284x32x32.size a
  inb_S1x512x32x32_S1x1x32x32_0_380_0_0 : ∀ a, (![0, 380, 0, 0] : Fin 4 → Nat) a + S1x1x32x32.size a ≤ S1x512x32x32.size a
  inb_S1x512x32x32_S1x1x32x32_0_381_0_0 : ∀ a, (![0, 381, 0, 0] : Fin 4 → Nat) a + S1x1x32x32.size a ≤ S1x512x32x32.size a
  inb_S1x512x32x32_S1x1x32x32_0_382_0_0 : ∀ a, (![0, 382, 0, 0] : Fin 4 → Nat) a + S1x1x32x32.size a ≤ S1x512x32x32.size a
  inb_S1x284x32x32_S1x1x32x32_0_240_0_0 : ∀ a, (![0, 240, 0, 0] : Fin 4 → Nat) a + S1x1x32x32.size a ≤ S1x284x32x32.size a
  inb_S1x512x32x32_S1x1x32x32_0_383_0_0 : ∀ a, (![0, 383, 0, 0] : Fin 4 → Nat) a + S1x1x32x32.size a ≤ S1x512x32x32.size a
  inb_S1x512x32x32_S1x1x32x32_0_384_0_0 : ∀ a, (![0, 384, 0, 0] : Fin 4 → Nat) a + S1x1x32x32.size a ≤ S1x512x32x32.size a
  inb_S1x512x32x32_S1x1x32x32_0_385_0_0 : ∀ a, (![0, 385, 0, 0] : Fin 4 → Nat) a + S1x1x32x32.size a ≤ S1x512x32x32.size a
  inb_S1x284x32x32_S1x1x32x32_0_241_0_0 : ∀ a, (![0, 241, 0, 0] : Fin 4 → Nat) a + S1x1x32x32.size a ≤ S1x284x32x32.size a
  inb_S1x512x32x32_S1x1x32x32_0_386_0_0 : ∀ a, (![0, 386, 0, 0] : Fin 4 → Nat) a + S1x1x32x32.size a ≤ S1x512x32x32.size a
  inb_S1x512x32x32_S1x1x32x32_0_387_0_0 : ∀ a, (![0, 387, 0, 0] : Fin 4 → Nat) a + S1x1x32x32.size a ≤ S1x512x32x32.size a
  inb_S1x512x32x32_S1x1x32x32_0_388_0_0 : ∀ a, (![0, 388, 0, 0] : Fin 4 → Nat) a + S1x1x32x32.size a ≤ S1x512x32x32.size a
  inb_S1x284x32x32_S1x1x32x32_0_242_0_0 : ∀ a, (![0, 242, 0, 0] : Fin 4 → Nat) a + S1x1x32x32.size a ≤ S1x284x32x32.size a
  inb_S1x512x32x32_S1x1x32x32_0_389_0_0 : ∀ a, (![0, 389, 0, 0] : Fin 4 → Nat) a + S1x1x32x32.size a ≤ S1x512x32x32.size a
  inb_S1x512x32x32_S1x1x32x32_0_390_0_0 : ∀ a, (![0, 390, 0, 0] : Fin 4 → Nat) a + S1x1x32x32.size a ≤ S1x512x32x32.size a
  inb_S1x512x32x32_S1x1x32x32_0_391_0_0 : ∀ a, (![0, 391, 0, 0] : Fin 4 → Nat) a + S1x1x32x32.size a ≤ S1x512x32x32.size a
  inb_S1x284x32x32_S1x1x32x32_0_243_0_0 : ∀ a, (![0, 243, 0, 0] : Fin 4 → Nat) a + S1x1x32x32.size a ≤ S1x284x32x32.size a
  inb_S1x512x32x32_S1x1x32x32_0_392_0_0 : ∀ a, (![0, 392, 0, 0] : Fin 4 → Nat) a + S1x1x32x32.size a ≤ S1x512x32x32.size a
  inb_S1x512x32x32_S1x1x32x32_0_393_0_0 : ∀ a, (![0, 393, 0, 0] : Fin 4 → Nat) a + S1x1x32x32.size a ≤ S1x512x32x32.size a
  inb_S1x512x32x32_S1x1x32x32_0_394_0_0 : ∀ a, (![0, 394, 0, 0] : Fin 4 → Nat) a + S1x1x32x32.size a ≤ S1x512x32x32.size a
  inb_S1x284x32x32_S1x1x32x32_0_244_0_0 : ∀ a, (![0, 244, 0, 0] : Fin 4 → Nat) a + S1x1x32x32.size a ≤ S1x284x32x32.size a
  inb_S1x512x32x32_S1x1x32x32_0_395_0_0 : ∀ a, (![0, 395, 0, 0] : Fin 4 → Nat) a + S1x1x32x32.size a ≤ S1x512x32x32.size a
  inb_S1x512x32x32_S1x1x32x32_0_396_0_0 : ∀ a, (![0, 396, 0, 0] : Fin 4 → Nat) a + S1x1x32x32.size a ≤ S1x512x32x32.size a
  inb_S1x512x32x32_S1x1x32x32_0_397_0_0 : ∀ a, (![0, 397, 0, 0] : Fin 4 → Nat) a + S1x1x32x32.size a ≤ S1x512x32x32.size a
  inb_S1x284x32x32_S1x1x32x32_0_245_0_0 : ∀ a, (![0, 245, 0, 0] : Fin 4 → Nat) a + S1x1x32x32.size a ≤ S1x284x32x32.size a
  inb_S1x512x32x32_S1x1x32x32_0_398_0_0 : ∀ a, (![0, 398, 0, 0] : Fin 4 → Nat) a + S1x1x32x32.size a ≤ S1x512x32x32.size a
  inb_S1x512x32x32_S1x1x32x32_0_399_0_0 : ∀ a, (![0, 399, 0, 0] : Fin 4 → Nat) a + S1x1x32x32.size a ≤ S1x512x32x32.size a
  inb_S1x512x32x32_S1x1x32x32_0_400_0_0 : ∀ a, (![0, 400, 0, 0] : Fin 4 → Nat) a + S1x1x32x32.size a ≤ S1x512x32x32.size a
  inb_S1x284x32x32_S1x1x32x32_0_246_0_0 : ∀ a, (![0, 246, 0, 0] : Fin 4 → Nat) a + S1x1x32x32.size a ≤ S1x284x32x32.size a
  inb_S1x512x32x32_S1x1x32x32_0_401_0_0 : ∀ a, (![0, 401, 0, 0] : Fin 4 → Nat) a + S1x1x32x32.size a ≤ S1x512x32x32.size a
  inb_S1x512x32x32_S1x1x32x32_0_402_0_0 : ∀ a, (![0, 402, 0, 0] : Fin 4 → Nat) a + S1x1x32x32.size a ≤ S1x512x32x32.size a
  inb_S1x512x32x32_S1x1x32x32_0_403_0_0 : ∀ a, (![0, 403, 0, 0] : Fin 4 → Nat) a + S1x1x32x32.size a ≤ S1x512x32x32.size a
  inb_S1x284x32x32_S1x1x32x32_0_247_0_0 : ∀ a, (![0, 247, 0, 0] : Fin 4 → Nat) a + S1x1x32x32.size a ≤ S1x284x32x32.size a
  inb_S1x512x32x32_S1x1x32x32_0_404_0_0 : ∀ a, (![0, 404, 0, 0] : Fin 4 → Nat) a + S1x1x32x32.size a ≤ S1x512x32x32.size a
  inb_S1x512x32x32_S1x1x32x32_0_405_0_0 : ∀ a, (![0, 405, 0, 0] : Fin 4 → Nat) a + S1x1x32x32.size a ≤ S1x512x32x32.size a
  inb_S1x512x32x32_S1x1x32x32_0_406_0_0 : ∀ a, (![0, 406, 0, 0] : Fin 4 → Nat) a + S1x1x32x32.size a ≤ S1x512x32x32.size a
  inb_S1x284x32x32_S1x1x32x32_0_248_0_0 : ∀ a, (![0, 248, 0, 0] : Fin 4 → Nat) a + S1x1x32x32.size a ≤ S1x284x32x32.size a
  inb_S1x512x32x32_S1x1x32x32_0_407_0_0 : ∀ a, (![0, 407, 0, 0] : Fin 4 → Nat) a + S1x1x32x32.size a ≤ S1x512x32x32.size a
  inb_S1x512x32x32_S1x1x32x32_0_408_0_0 : ∀ a, (![0, 408, 0, 0] : Fin 4 → Nat) a + S1x1x32x32.size a ≤ S1x512x32x32.size a
  inb_S1x512x32x32_S1x1x32x32_0_409_0_0 : ∀ a, (![0, 409, 0, 0] : Fin 4 → Nat) a + S1x1x32x32.size a ≤ S1x512x32x32.size a
  inb_S1x284x32x32_S1x1x32x32_0_249_0_0 : ∀ a, (![0, 249, 0, 0] : Fin 4 → Nat) a + S1x1x32x32.size a ≤ S1x284x32x32.size a
  inb_S1x512x32x32_S1x1x32x32_0_410_0_0 : ∀ a, (![0, 410, 0, 0] : Fin 4 → Nat) a + S1x1x32x32.size a ≤ S1x512x32x32.size a
  inb_S1x512x32x32_S1x1x32x32_0_411_0_0 : ∀ a, (![0, 411, 0, 0] : Fin 4 → Nat) a + S1x1x32x32.size a ≤ S1x512x32x32.size a
  inb_S1x512x32x32_S1x1x32x32_0_412_0_0 : ∀ a, (![0, 412, 0, 0] : Fin 4 → Nat) a + S1x1x32x32.size a ≤ S1x512x32x32.size a
  inb_S1x284x32x32_S1x1x32x32_0_250_0_0 : ∀ a, (![0, 250, 0, 0] : Fin 4 → Nat) a + S1x1x32x32.size a ≤ S1x284x32x32.size a
  inb_S1x512x32x32_S1x1x32x32_0_413_0_0 : ∀ a, (![0, 413, 0, 0] : Fin 4 → Nat) a + S1x1x32x32.size a ≤ S1x512x32x32.size a
  inb_S1x512x32x32_S1x1x32x32_0_414_0_0 : ∀ a, (![0, 414, 0, 0] : Fin 4 → Nat) a + S1x1x32x32.size a ≤ S1x512x32x32.size a
  inb_S1x512x32x32_S1x1x32x32_0_415_0_0 : ∀ a, (![0, 415, 0, 0] : Fin 4 → Nat) a + S1x1x32x32.size a ≤ S1x512x32x32.size a
  inb_S1x284x32x32_S1x1x32x32_0_251_0_0 : ∀ a, (![0, 251, 0, 0] : Fin 4 → Nat) a + S1x1x32x32.size a ≤ S1x284x32x32.size a
  inb_S1x512x32x32_S1x1x32x32_0_416_0_0 : ∀ a, (![0, 416, 0, 0] : Fin 4 → Nat) a + S1x1x32x32.size a ≤ S1x512x32x32.size a
  inb_S1x512x32x32_S1x1x32x32_0_417_0_0 : ∀ a, (![0, 417, 0, 0] : Fin 4 → Nat) a + S1x1x32x32.size a ≤ S1x512x32x32.size a
  inb_S1x512x32x32_S1x1x32x32_0_418_0_0 : ∀ a, (![0, 418, 0, 0] : Fin 4 → Nat) a + S1x1x32x32.size a ≤ S1x512x32x32.size a
  inb_S1x284x32x32_S1x1x32x32_0_252_0_0 : ∀ a, (![0, 252, 0, 0] : Fin 4 → Nat) a + S1x1x32x32.size a ≤ S1x284x32x32.size a
  inb_S1x512x32x32_S1x1x32x32_0_419_0_0 : ∀ a, (![0, 419, 0, 0] : Fin 4 → Nat) a + S1x1x32x32.size a ≤ S1x512x32x32.size a
  inb_S1x512x32x32_S1x1x32x32_0_420_0_0 : ∀ a, (![0, 420, 0, 0] : Fin 4 → Nat) a + S1x1x32x32.size a ≤ S1x512x32x32.size a
  inb_S1x512x32x32_S1x1x32x32_0_421_0_0 : ∀ a, (![0, 421, 0, 0] : Fin 4 → Nat) a + S1x1x32x32.size a ≤ S1x512x32x32.size a
  inb_S1x284x32x32_S1x1x32x32_0_253_0_0 : ∀ a, (![0, 253, 0, 0] : Fin 4 → Nat) a + S1x1x32x32.size a ≤ S1x284x32x32.size a
  inb_S1x512x32x32_S1x1x32x32_0_422_0_0 : ∀ a, (![0, 422, 0, 0] : Fin 4 → Nat) a + S1x1x32x32.size a ≤ S1x512x32x32.size a
  inb_S1x512x32x32_S1x1x32x32_0_423_0_0 : ∀ a, (![0, 423, 0, 0] : Fin 4 → Nat) a + S1x1x32x32.size a ≤ S1x512x32x32.size a
  inb_S1x512x32x32_S1x1x32x32_0_424_0_0 : ∀ a, (![0, 424, 0, 0] : Fin 4 → Nat) a + S1x1x32x32.size a ≤ S1x512x32x32.size a
  inb_S1x284x32x32_S1x1x32x32_0_254_0_0 : ∀ a, (![0, 254, 0, 0] : Fin 4 → Nat) a + S1x1x32x32.size a ≤ S1x284x32x32.size a
  inb_S1x512x32x32_S1x1x32x32_0_425_0_0 : ∀ a, (![0, 425, 0, 0] : Fin 4 → Nat) a + S1x1x32x32.size a ≤ S1x512x32x32.size a
  inb_S1x512x32x32_S1x1x32x32_0_426_0_0 : ∀ a, (![0, 426, 0, 0] : Fin 4 → Nat) a + S1x1x32x32.size a ≤ S1x512x32x32.size a
  inb_S1x512x32x32_S1x1x32x32_0_427_0_0 : ∀ a, (![0, 427, 0, 0] : Fin 4 → Nat) a + S1x1x32x32.size a ≤ S1x512x32x32.size a
  inb_S1x284x32x32_S1x1x32x32_0_255_0_0 : ∀ a, (![0, 255, 0, 0] : Fin 4 → Nat) a + S1x1x32x32.size a ≤ S1x284x32x32.size a
  inb_S1x512x32x32_S1x1x32x32_0_428_0_0 : ∀ a, (![0, 428, 0, 0] : Fin 4 → Nat) a + S1x1x32x32.size a ≤ S1x512x32x32.size a
  inb_S1x512x32x32_S1x1x32x32_0_429_0_0 : ∀ a, (![0, 429, 0, 0] : Fin 4 → Nat) a + S1x1x32x32.size a ≤ S1x512x32x32.size a
  inb_S1x512x32x32_S1x1x32x32_0_430_0_0 : ∀ a, (![0, 430, 0, 0] : Fin 4 → Nat) a + S1x1x32x32.size a ≤ S1x512x32x32.size a
  inb_S1x284x32x32_S1x1x32x32_0_256_0_0 : ∀ a, (![0, 256, 0, 0] : Fin 4 → Nat) a + S1x1x32x32.size a ≤ S1x284x32x32.size a
  inb_S1x512x32x32_S1x1x32x32_0_431_0_0 : ∀ a, (![0, 431, 0, 0] : Fin 4 → Nat) a + S1x1x32x32.size a ≤ S1x512x32x32.size a
  inb_S1x512x32x32_S1x1x32x32_0_432_0_0 : ∀ a, (![0, 432, 0, 0] : Fin 4 → Nat) a + S1x1x32x32.size a ≤ S1x512x32x32.size a
  inb_S1x512x32x32_S1x1x32x32_0_433_0_0 : ∀ a, (![0, 433, 0, 0] : Fin 4 → Nat) a + S1x1x32x32.size a ≤ S1x512x32x32.size a
  inb_S1x284x32x32_S1x1x32x32_0_257_0_0 : ∀ a, (![0, 257, 0, 0] : Fin 4 → Nat) a + S1x1x32x32.size a ≤ S1x284x32x32.size a
  inb_S1x512x32x32_S1x1x32x32_0_434_0_0 : ∀ a, (![0, 434, 0, 0] : Fin 4 → Nat) a + S1x1x32x32.size a ≤ S1x512x32x32.size a
  inb_S1x512x32x32_S1x1x32x32_0_435_0_0 : ∀ a, (![0, 435, 0, 0] : Fin 4 → Nat) a + S1x1x32x32.size a ≤ S1x512x32x32.size a
  inb_S1x512x32x32_S1x1x32x32_0_436_0_0 : ∀ a, (![0, 436, 0, 0] : Fin 4 → Nat) a + S1x1x32x32.size a ≤ S1x512x32x32.size a
  inb_S1x284x32x32_S1x1x32x32_0_258_0_0 : ∀ a, (![0, 258, 0, 0] : Fin 4 → Nat) a + S1x1x32x32.size a ≤ S1x284x32x32.size a
  inb_S1x512x32x32_S1x1x32x32_0_437_0_0 : ∀ a, (![0, 437, 0, 0] : Fin 4 → Nat) a + S1x1x32x32.size a ≤ S1x512x32x32.size a
  inb_S1x512x32x32_S1x1x32x32_0_438_0_0 : ∀ a, (![0, 438, 0, 0] : Fin 4 → Nat) a + S1x1x32x32.size a ≤ S1x512x32x32.size a
  inb_S1x512x32x32_S1x1x32x32_0_439_0_0 : ∀ a, (![0, 439, 0, 0] : Fin 4 → Nat) a + S1x1x32x32.size a ≤ S1x512x32x32.size a
  inb_S1x284x32x32_S1x1x32x32_0_259_0_0 : ∀ a, (![0, 259, 0, 0] : Fin 4 → Nat) a + S1x1x32x32.size a ≤ S1x284x32x32.size a
  inb_S1x512x32x32_S1x1x32x32_0_440_0_0 : ∀ a, (![0, 440, 0, 0] : Fin 4 → Nat) a + S1x1x32x32.size a ≤ S1x512x32x32.size a
  inb_S1x512x32x32_S1x1x32x32_0_441_0_0 : ∀ a, (![0, 441, 0, 0] : Fin 4 → Nat) a + S1x1x32x32.size a ≤ S1x512x32x32.size a
  inb_S1x512x32x32_S1x1x32x32_0_442_0_0 : ∀ a, (![0, 442, 0, 0] : Fin 4 → Nat) a + S1x1x32x32.size a ≤ S1x512x32x32.size a
  inb_S1x284x32x32_S1x1x32x32_0_260_0_0 : ∀ a, (![0, 260, 0, 0] : Fin 4 → Nat) a + S1x1x32x32.size a ≤ S1x284x32x32.size a
  inb_S1x512x32x32_S1x1x32x32_0_443_0_0 : ∀ a, (![0, 443, 0, 0] : Fin 4 → Nat) a + S1x1x32x32.size a ≤ S1x512x32x32.size a
  inb_S1x512x32x32_S1x1x32x32_0_444_0_0 : ∀ a, (![0, 444, 0, 0] : Fin 4 → Nat) a + S1x1x32x32.size a ≤ S1x512x32x32.size a
  inb_S1x512x32x32_S1x1x32x32_0_445_0_0 : ∀ a, (![0, 445, 0, 0] : Fin 4 → Nat) a + S1x1x32x32.size a ≤ S1x512x32x32.size a
  inb_S1x284x32x32_S1x1x32x32_0_261_0_0 : ∀ a, (![0, 261, 0, 0] : Fin 4 → Nat) a + S1x1x32x32.size a ≤ S1x284x32x32.size a
  inb_S1x512x32x32_S1x1x32x32_0_446_0_0 : ∀ a, (![0, 446, 0, 0] : Fin 4 → Nat) a + S1x1x32x32.size a ≤ S1x512x32x32.size a
  inb_S1x512x32x32_S1x1x32x32_0_447_0_0 : ∀ a, (![0, 447, 0, 0] : Fin 4 → Nat) a + S1x1x32x32.size a ≤ S1x512x32x32.size a
  inb_S1x512x32x32_S1x1x32x32_0_448_0_0 : ∀ a, (![0, 448, 0, 0] : Fin 4 → Nat) a + S1x1x32x32.size a ≤ S1x512x32x32.size a
  inb_S1x284x32x32_S1x1x32x32_0_262_0_0 : ∀ a, (![0, 262, 0, 0] : Fin 4 → Nat) a + S1x1x32x32.size a ≤ S1x284x32x32.size a
  inb_S1x512x32x32_S1x1x32x32_0_449_0_0 : ∀ a, (![0, 449, 0, 0] : Fin 4 → Nat) a + S1x1x32x32.size a ≤ S1x512x32x32.size a
  inb_S1x512x32x32_S1x1x32x32_0_450_0_0 : ∀ a, (![0, 450, 0, 0] : Fin 4 → Nat) a + S1x1x32x32.size a ≤ S1x512x32x32.size a
  inb_S1x512x32x32_S1x1x32x32_0_451_0_0 : ∀ a, (![0, 451, 0, 0] : Fin 4 → Nat) a + S1x1x32x32.size a ≤ S1x512x32x32.size a
  inb_S1x284x32x32_S1x1x32x32_0_263_0_0 : ∀ a, (![0, 263, 0, 0] : Fin 4 → Nat) a + S1x1x32x32.size a ≤ S1x284x32x32.size a
  inb_S1x512x32x32_S1x1x32x32_0_452_0_0 : ∀ a, (![0, 452, 0, 0] : Fin 4 → Nat) a + S1x1x32x32.size a ≤ S1x512x32x32.size a
  inb_S1x512x32x32_S1x1x32x32_0_453_0_0 : ∀ a, (![0, 453, 0, 0] : Fin 4 → Nat) a + S1x1x32x32.size a ≤ S1x512x32x32.size a
  inb_S1x512x32x32_S1x1x32x32_0_454_0_0 : ∀ a, (![0, 454, 0, 0] : Fin 4 → Nat) a + S1x1x32x32.size a ≤ S1x512x32x32.size a
  inb_S1x284x32x32_S1x1x32x32_0_264_0_0 : ∀ a, (![0, 264, 0, 0] : Fin 4 → Nat) a + S1x1x32x32.size a ≤ S1x284x32x32.size a
  inb_S1x512x32x32_S1x1x32x32_0_455_0_0 : ∀ a, (![0, 455, 0, 0] : Fin 4 → Nat) a + S1x1x32x32.size a ≤ S1x512x32x32.size a
  inb_S1x512x32x32_S1x1x32x32_0_456_0_0 : ∀ a, (![0, 456, 0, 0] : Fin 4 → Nat) a + S1x1x32x32.size a ≤ S1x512x32x32.size a
  inb_S1x512x32x32_S1x1x32x32_0_457_0_0 : ∀ a, (![0, 457, 0, 0] : Fin 4 → Nat) a + S1x1x32x32.size a ≤ S1x512x32x32.size a
  inb_S1x284x32x32_S1x1x32x32_0_265_0_0 : ∀ a, (![0, 265, 0, 0] : Fin 4 → Nat) a + S1x1x32x32.size a ≤ S1x284x32x32.size a
  inb_S1x512x32x32_S1x1x32x32_0_458_0_0 : ∀ a, (![0, 458, 0, 0] : Fin 4 → Nat) a + S1x1x32x32.size a ≤ S1x512x32x32.size a
  inb_S1x512x32x32_S1x1x32x32_0_459_0_0 : ∀ a, (![0, 459, 0, 0] : Fin 4 → Nat) a + S1x1x32x32.size a ≤ S1x512x32x32.size a
  inb_S1x512x32x32_S1x1x32x32_0_460_0_0 : ∀ a, (![0, 460, 0, 0] : Fin 4 → Nat) a + S1x1x32x32.size a ≤ S1x512x32x32.size a
  inb_S1x284x32x32_S1x1x32x32_0_266_0_0 : ∀ a, (![0, 266, 0, 0] : Fin 4 → Nat) a + S1x1x32x32.size a ≤ S1x284x32x32.size a
  inb_S1x512x32x32_S1x1x32x32_0_461_0_0 : ∀ a, (![0, 461, 0, 0] : Fin 4 → Nat) a + S1x1x32x32.size a ≤ S1x512x32x32.size a
  inb_S1x512x32x32_S1x1x32x32_0_462_0_0 : ∀ a, (![0, 462, 0, 0] : Fin 4 → Nat) a + S1x1x32x32.size a ≤ S1x512x32x32.size a
  inb_S1x512x32x32_S1x1x32x32_0_463_0_0 : ∀ a, (![0, 463, 0, 0] : Fin 4 → Nat) a + S1x1x32x32.size a ≤ S1x512x32x32.size a
  inb_S1x284x32x32_S1x1x32x32_0_267_0_0 : ∀ a, (![0, 267, 0, 0] : Fin 4 → Nat) a + S1x1x32x32.size a ≤ S1x284x32x32.size a
  inb_S1x512x32x32_S1x1x32x32_0_464_0_0 : ∀ a, (![0, 464, 0, 0] : Fin 4 → Nat) a + S1x1x32x32.size a ≤ S1x512x32x32.size a
  inb_S1x512x32x32_S1x1x32x32_0_465_0_0 : ∀ a, (![0, 465, 0, 0] : Fin 4 → Nat) a + S1x1x32x32.size a ≤ S1x512x32x32.size a
  inb_S1x512x32x32_S1x1x32x32_0_466_0_0 : ∀ a, (![0, 466, 0, 0] : Fin 4 → Nat) a + S1x1x32x32.size a ≤ S1x512x32x32.size a
  inb_S1x284x32x32_S1x1x32x32_0_268_0_0 : ∀ a, (![0, 268, 0, 0] : Fin 4 → Nat) a + S1x1x32x32.size a ≤ S1x284x32x32.size a
  inb_S1x512x32x32_S1x1x32x32_0_467_0_0 : ∀ a, (![0, 467, 0, 0] : Fin 4 → Nat) a + S1x1x32x32.size a ≤ S1x512x32x32.size a
  inb_S1x512x32x32_S1x1x32x32_0_468_0_0 : ∀ a, (![0, 468, 0, 0] : Fin 4 → Nat) a + S1x1x32x32.size a ≤ S1x512x32x32.size a
  inb_S1x512x32x32_S1x1x32x32_0_469_0_0 : ∀ a, (![0, 469, 0, 0] : Fin 4 → Nat) a + S1x1x32x32.size a ≤ S1x512x32x32.size a
  inb_S1x284x32x32_S1x1x32x32_0_269_0_0 : ∀ a, (![0, 269, 0, 0] : Fin 4 → Nat) a + S1x1x32x32.size a ≤ S1x284x32x32.size a
  inb_S1x512x32x32_S1x1x32x32_0_470_0_0 : ∀ a, (![0, 470, 0, 0] : Fin 4 → Nat) a + S1x1x32x32.size a ≤ S1x512x32x32.size a
  inb_S1x512x32x32_S1x1x32x32_0_471_0_0 : ∀ a, (![0, 471, 0, 0] : Fin 4 → Nat) a + S1x1x32x32.size a ≤ S1x512x32x32.size a
  inb_S1x512x32x32_S1x1x32x32_0_472_0_0 : ∀ a, (![0, 472, 0, 0] : Fin 4 → Nat) a + S1x1x32x32.size a ≤ S1x512x32x32.size a
  inb_S1x284x32x32_S1x1x32x32_0_270_0_0 : ∀ a, (![0, 270, 0, 0] : Fin 4 → Nat) a + S1x1x32x32.size a ≤ S1x284x32x32.size a
  inb_S1x512x32x32_S1x1x32x32_0_473_0_0 : ∀ a, (![0, 473, 0, 0] : Fin 4 → Nat) a + S1x1x32x32.size a ≤ S1x512x32x32.size a
  inb_S1x512x32x32_S1x1x32x32_0_474_0_0 : ∀ a, (![0, 474, 0, 0] : Fin 4 → Nat) a + S1x1x32x32.size a ≤ S1x512x32x32.size a
  inb_S1x512x32x32_S1x1x32x32_0_475_0_0 : ∀ a, (![0, 475, 0, 0] : Fin 4 → Nat) a + S1x1x32x32.size a ≤ S1x512x32x32.size a
  inb_S1x284x32x32_S1x1x32x32_0_271_0_0 : ∀ a, (![0, 271, 0, 0] : Fin 4 → Nat) a + S1x1x32x32.size a ≤ S1x284x32x32.size a
  inb_S1x512x32x32_S1x1x32x32_0_476_0_0 : ∀ a, (![0, 476, 0, 0] : Fin 4 → Nat) a + S1x1x32x32.size a ≤ S1x512x32x32.size a
  inb_S1x512x32x32_S1x1x32x32_0_477_0_0 : ∀ a, (![0, 477, 0, 0] : Fin 4 → Nat) a + S1x1x32x32.size a ≤ S1x512x32x32.size a
  inb_S1x512x32x32_S1x1x32x32_0_478_0_0 : ∀ a, (![0, 478, 0, 0] : Fin 4 → Nat) a + S1x1x32x32.size a ≤ S1x512x32x32.size a
  inb_S1x284x32x32_S1x1x32x32_0_272_0_0 : ∀ a, (![0, 272, 0, 0] : Fin 4 → Nat) a + S1x1x32x32.size a ≤ S1x284x32x32.size a
  inb_S1x512x32x32_S1x1x32x32_0_479_0_0 : ∀ a, (![0, 479, 0, 0] : Fin 4 → Nat) a + S1x1x32x32.size a ≤ S1x512x32x32.size a
  inb_S1x512x32x32_S1x1x32x32_0_480_0_0 : ∀ a, (![0, 480, 0, 0] : Fin 4 → Nat) a + S1x1x32x32.size a ≤ S1x512x32x32.size a
  inb_S1x512x32x32_S1x1x32x32_0_481_0_0 : ∀ a, (![0, 481, 0, 0] : Fin 4 → Nat) a + S1x1x32x32.size a ≤ S1x512x32x32.size a
  inb_S1x284x32x32_S1x1x32x32_0_273_0_0 : ∀ a, (![0, 273, 0, 0] : Fin 4 → Nat) a + S1x1x32x32.size a ≤ S1x284x32x32.size a
  inb_S1x512x32x32_S1x1x32x32_0_482_0_0 : ∀ a, (![0, 482, 0, 0] : Fin 4 → Nat) a + S1x1x32x32.size a ≤ S1x512x32x32.size a
  inb_S1x512x32x32_S1x1x32x32_0_483_0_0 : ∀ a, (![0, 483, 0, 0] : Fin 4 → Nat) a + S1x1x32x32.size a ≤ S1x512x32x32.size a
  inb_S1x512x32x32_S1x1x32x32_0_484_0_0 : ∀ a, (![0, 484, 0, 0] : Fin 4 → Nat) a + S1x1x32x32.size a ≤ S1x512x32x32.size a
  inb_S1x284x32x32_S1x1x32x32_0_274_0_0 : ∀ a, (![0, 274, 0, 0] : Fin 4 → Nat) a + S1x1x32x32.size a ≤ S1x284x32x32.size a
  inb_S1x512x32x32_S1x1x32x32_0_485_0_0 : ∀ a, (![0, 485, 0, 0] : Fin 4 → Nat) a + S1x1x32x32.size a ≤ S1x512x32x32.size a
  inb_S1x512x32x32_S1x1x32x32_0_486_0_0 : ∀ a, (![0, 486, 0, 0] : Fin 4 → Nat) a + S1x1x32x32.size a ≤ S1x512x32x32.size a
  inb_S1x512x32x32_S1x1x32x32_0_487_0_0 : ∀ a, (![0, 487, 0, 0] : Fin 4 → Nat) a + S1x1x32x32.size a ≤ S1x512x32x32.size a
  inb_S1x284x32x32_S1x1x32x32_0_275_0_0 : ∀ a, (![0, 275, 0, 0] : Fin 4 → Nat) a + S1x1x32x32.size a ≤ S1x284x32x32.size a
  inb_S1x512x32x32_S1x1x32x32_0_488_0_0 : ∀ a, (![0, 488, 0, 0] : Fin 4 → Nat) a + S1x1x32x32.size a ≤ S1x512x32x32.size a
  inb_S1x512x32x32_S1x1x32x32_0_489_0_0 : ∀ a, (![0, 489, 0, 0] : Fin 4 → Nat) a + S1x1x32x32.size a ≤ S1x512x32x32.size a
  inb_S1x512x32x32_S1x1x32x32_0_490_0_0 : ∀ a, (![0, 490, 0, 0] : Fin 4 → Nat) a + S1x1x32x32.size a ≤ S1x512x32x32.size a
  inb_S1x284x32x32_S1x1x32x32_0_276_0_0 : ∀ a, (![0, 276, 0, 0] : Fin 4 → Nat) a + S1x1x32x32.size a ≤ S1x284x32x32.size a
  inb_S1x512x32x32_S1x1x32x32_0_491_0_0 : ∀ a, (![0, 491, 0, 0] : Fin 4 → Nat) a + S1x1x32x32.size a ≤ S1x512x32x32.size a
  inb_S1x512x32x32_S1x1x32x32_0_492_0_0 : ∀ a, (![0, 492, 0, 0] : Fin 4 → Nat) a + S1x1x32x32.size a ≤ S1x512x32x32.size a
  inb_S1x512x32x32_S1x1x32x32_0_493_0_0 : ∀ a, (![0, 493, 0, 0] : Fin 4 → Nat) a + S1x1x32x32.size a ≤ S1x512x32x32.size a
  inb_S1x284x32x32_S1x1x32x32_0_277_0_0 : ∀ a, (![0, 277, 0, 0] : Fin 4 → Nat) a + S1x1x32x32.size a ≤ S1x284x32x32.size a
  inb_S1x512x32x32_S1x1x32x32_0_494_0_0 : ∀ a, (![0, 494, 0, 0] : Fin 4 → Nat) a + S1x1x32x32.size a ≤ S1x512x32x32.size a
  inb_S1x512x32x32_S1x1x32x32_0_495_0_0 : ∀ a, (![0, 495, 0, 0] : Fin 4 → Nat) a + S1x1x32x32.size a ≤ S1x512x32x32.size a
  inb_S1x512x32x32_S1x1x32x32_0_496_0_0 : ∀ a, (![0, 496, 0, 0] : Fin 4 → Nat) a + S1x1x32x32.size a ≤ S1x512x32x32.size a
  inb_S1x284x32x32_S1x1x32x32_0_278_0_0 : ∀ a, (![0, 278, 0, 0] : Fin 4 → Nat) a + S1x1x32x32.size a ≤ S1x284x32x32.size a
  inb_S1x512x32x32_S1x1x32x32_0_497_0_0 : ∀ a, (![0, 497, 0, 0] : Fin 4 → Nat) a + S1x1x32x32.size a ≤ S1x512x32x32.size a
  inb_S1x512x32x32_S1x1x32x32_0_498_0_0 : ∀ a, (![0, 498, 0, 0] : Fin 4 → Nat) a + S1x1x32x32.size a ≤ S1x512x32x32.size a
  inb_S1x512x32x32_S1x1x32x32_0_499_0_0 : ∀ a, (![0, 499, 0, 0] : Fin 4 → Nat) a + S1x1x32x32.size a ≤ S1x512x32x32.size a
  inb_S1x284x32x32_S1x1x32x32_0_279_0_0 : ∀ a, (![0, 279, 0, 0] : Fin 4 → Nat) a + S1x1x32x32.size a ≤ S1x284x32x32.size a
  inb_S1x512x32x32_S1x1x32x32_0_500_0_0 : ∀ a, (![0, 500, 0, 0] : Fin 4 → Nat) a + S1x1x32x32.size a ≤ S1x512x32x32.size a
  inb_S1x512x32x32_S1x1x32x32_0_501_0_0 : ∀ a, (![0, 501, 0, 0] : Fin 4 → Nat) a + S1x1x32x32.size a ≤ S1x512x32x32.size a
  inb_S1x512x32x32_S1x1x32x32_0_502_0_0 : ∀ a, (![0, 502, 0, 0] : Fin 4 → Nat) a + S1x1x32x32.size a ≤ S1x512x32x32.size a
  inb_S1x284x32x32_S1x1x32x32_0_280_0_0 : ∀ a, (![0, 280, 0, 0] : Fin 4 → Nat) a + S1x1x32x32.size a ≤ S1x284x32x32.size a
  inb_S1x512x32x32_S1x1x32x32_0_503_0_0 : ∀ a, (![0, 503, 0, 0] : Fin 4 → Nat) a + S1x1x32x32.size a ≤ S1x512x32x32.size a
  inb_S1x512x32x32_S1x1x32x32_0_504_0_0 : ∀ a, (![0, 504, 0, 0] : Fin 4 → Nat) a + S1x1x32x32.size a ≤ S1x512x32x32.size a
  inb_S1x512x32x32_S1x1x32x32_0_505_0_0 : ∀ a, (![0, 505, 0, 0] : Fin 4 → Nat) a + S1x1x32x32.size a ≤ S1x512x32x32.size a
  inb_S1x284x32x32_S1x1x32x32_0_281_0_0 : ∀ a, (![0, 281, 0, 0] : Fin 4 → Nat) a + S1x1x32x32.size a ≤ S1x284x32x32.size a
  inb_S1x512x32x32_S1x1x32x32_0_506_0_0 : ∀ a, (![0, 506, 0, 0] : Fin 4 → Nat) a + S1x1x32x32.size a ≤ S1x512x32x32.size a
  inb_S1x512x32x32_S1x1x32x32_0_507_0_0 : ∀ a, (![0, 507, 0, 0] : Fin 4 → Nat) a + S1x1x32x32.size a ≤ S1x512x32x32.size a
  inb_S1x512x32x32_S1x1x32x32_0_508_0_0 : ∀ a, (![0, 508, 0, 0] : Fin 4 → Nat) a + S1x1x32x32.size a ≤ S1x512x32x32.size a
  inb_S1x284x32x32_S1x1x32x32_0_282_0_0 : ∀ a, (![0, 282, 0, 0] : Fin 4 → Nat) a + S1x1x32x32.size a ≤ S1x284x32x32.size a
  inb_S1x512x32x32_S1x1x32x32_0_509_0_0 : ∀ a, (![0, 509, 0, 0] : Fin 4 → Nat) a + S1x1x32x32.size a ≤ S1x512x32x32.size a
  inb_S1x512x32x32_S1x1x32x32_0_510_0_0 : ∀ a, (![0, 510, 0, 0] : Fin 4 → Nat) a + S1x1x32x32.size a ≤ S1x512x32x32.size a
  inb_S1x512x32x32_S1x1x32x32_0_511_0_0 : ∀ a, (![0, 511, 0, 0] : Fin 4 → Nat) a + S1x1x32x32.size a ≤ S1x512x32x32.size a
  inb_S1x284x32x32_S1x1x32x32_0_283_0_0 : ∀ a, (![0, 283, 0, 0] : Fin 4 → Nat) a + S1x1x32x32.size a ≤ S1x284x32x32.size a
  inb_S1x48x512x32_S1x48x1x32_0_0_0_0 : ∀ a, (![0, 0, 0, 0] : Fin 4 → Nat) a + S1x48x1x32.size a ≤ S1x48x512x32.size a
  h_S1x48x1x32 : 0 < S1x48x1x32.numel
  shapeCasts_S1x48x1x32_S48x32 : S1x48x1x32.ShapeCasts S48x32
  inb_S1x48x512x32_S1x48x1x32_0_0_1_0 : ∀ a, (![0, 0, 1, 0] : Fin 4 → Nat) a + S1x48x1x32.size a ≤ S1x48x512x32.size a
  inb_S1x48x512x32_S1x48x1x32_0_0_2_0 : ∀ a, (![0, 0, 2, 0] : Fin 4 → Nat) a + S1x48x1x32.size a ≤ S1x48x512x32.size a
  inb_S1x48x205x32_S1x48x1x32_0_0_0_0 : ∀ a, (![0, 0, 0, 0] : Fin 4 → Nat) a + S1x48x1x32.size a ≤ S1x48x205x32.size a
  shapeCasts_S48x32_S1x48x1x32 : S48x32.ShapeCasts S1x48x1x32
  inb_S1x48x512x32_S1x48x1x32_0_0_3_0 : ∀ a, (![0, 0, 3, 0] : Fin 4 → Nat) a + S1x48x1x32.size a ≤ S1x48x512x32.size a
  inb_S1x48x205x32_S1x48x1x32_0_0_1_0 : ∀ a, (![0, 0, 1, 0] : Fin 4 → Nat) a + S1x48x1x32.size a ≤ S1x48x205x32.size a
  inb_S1x48x512x32_S1x48x1x32_0_0_4_0 : ∀ a, (![0, 0, 4, 0] : Fin 4 → Nat) a + S1x48x1x32.size a ≤ S1x48x512x32.size a
  inb_S1x48x205x32_S1x48x1x32_0_0_2_0 : ∀ a, (![0, 0, 2, 0] : Fin 4 → Nat) a + S1x48x1x32.size a ≤ S1x48x205x32.size a
  inb_S1x48x512x32_S1x48x1x32_0_0_5_0 : ∀ a, (![0, 0, 5, 0] : Fin 4 → Nat) a + S1x48x1x32.size a ≤ S1x48x512x32.size a
  inb_S1x48x205x32_S1x48x1x32_0_0_3_0 : ∀ a, (![0, 0, 3, 0] : Fin 4 → Nat) a + S1x48x1x32.size a ≤ S1x48x205x32.size a
  inb_S1x48x512x32_S1x48x1x32_0_0_6_0 : ∀ a, (![0, 0, 6, 0] : Fin 4 → Nat) a + S1x48x1x32.size a ≤ S1x48x512x32.size a
  inb_S1x48x205x32_S1x48x1x32_0_0_4_0 : ∀ a, (![0, 0, 4, 0] : Fin 4 → Nat) a + S1x48x1x32.size a ≤ S1x48x205x32.size a
  inb_S1x48x512x32_S1x48x1x32_0_0_7_0 : ∀ a, (![0, 0, 7, 0] : Fin 4 → Nat) a + S1x48x1x32.size a ≤ S1x48x512x32.size a
  inb_S1x48x205x32_S1x48x1x32_0_0_5_0 : ∀ a, (![0, 0, 5, 0] : Fin 4 → Nat) a + S1x48x1x32.size a ≤ S1x48x205x32.size a
  inb_S1x48x512x32_S1x48x1x32_0_0_8_0 : ∀ a, (![0, 0, 8, 0] : Fin 4 → Nat) a + S1x48x1x32.size a ≤ S1x48x512x32.size a
  inb_S1x48x205x32_S1x48x1x32_0_0_6_0 : ∀ a, (![0, 0, 6, 0] : Fin 4 → Nat) a + S1x48x1x32.size a ≤ S1x48x205x32.size a
  inb_S1x48x512x32_S1x48x1x32_0_0_9_0 : ∀ a, (![0, 0, 9, 0] : Fin 4 → Nat) a + S1x48x1x32.size a ≤ S1x48x512x32.size a
  inb_S1x48x205x32_S1x48x1x32_0_0_7_0 : ∀ a, (![0, 0, 7, 0] : Fin 4 → Nat) a + S1x48x1x32.size a ≤ S1x48x205x32.size a
  inb_S1x48x512x32_S1x48x1x32_0_0_10_0 : ∀ a, (![0, 0, 10, 0] : Fin 4 → Nat) a + S1x48x1x32.size a ≤ S1x48x512x32.size a
  inb_S1x48x205x32_S1x48x1x32_0_0_8_0 : ∀ a, (![0, 0, 8, 0] : Fin 4 → Nat) a + S1x48x1x32.size a ≤ S1x48x205x32.size a
  inb_S1x48x512x32_S1x48x1x32_0_0_11_0 : ∀ a, (![0, 0, 11, 0] : Fin 4 → Nat) a + S1x48x1x32.size a ≤ S1x48x512x32.size a
  inb_S1x48x205x32_S1x48x1x32_0_0_9_0 : ∀ a, (![0, 0, 9, 0] : Fin 4 → Nat) a + S1x48x1x32.size a ≤ S1x48x205x32.size a
  inb_S1x48x512x32_S1x48x1x32_0_0_12_0 : ∀ a, (![0, 0, 12, 0] : Fin 4 → Nat) a + S1x48x1x32.size a ≤ S1x48x512x32.size a
  inb_S1x48x205x32_S1x48x1x32_0_0_10_0 : ∀ a, (![0, 0, 10, 0] : Fin 4 → Nat) a + S1x48x1x32.size a ≤ S1x48x205x32.size a
  inb_S1x48x512x32_S1x48x1x32_0_0_13_0 : ∀ a, (![0, 0, 13, 0] : Fin 4 → Nat) a + S1x48x1x32.size a ≤ S1x48x512x32.size a
  inb_S1x48x205x32_S1x48x1x32_0_0_11_0 : ∀ a, (![0, 0, 11, 0] : Fin 4 → Nat) a + S1x48x1x32.size a ≤ S1x48x205x32.size a
  inb_S1x48x512x32_S1x48x1x32_0_0_14_0 : ∀ a, (![0, 0, 14, 0] : Fin 4 → Nat) a + S1x48x1x32.size a ≤ S1x48x512x32.size a
  inb_S1x48x205x32_S1x48x1x32_0_0_12_0 : ∀ a, (![0, 0, 12, 0] : Fin 4 → Nat) a + S1x48x1x32.size a ≤ S1x48x205x32.size a
  inb_S1x48x512x32_S1x48x1x32_0_0_15_0 : ∀ a, (![0, 0, 15, 0] : Fin 4 → Nat) a + S1x48x1x32.size a ≤ S1x48x512x32.size a
  inb_S1x48x205x32_S1x48x1x32_0_0_13_0 : ∀ a, (![0, 0, 13, 0] : Fin 4 → Nat) a + S1x48x1x32.size a ≤ S1x48x205x32.size a
  inb_S1x48x512x32_S1x48x1x32_0_0_16_0 : ∀ a, (![0, 0, 16, 0] : Fin 4 → Nat) a + S1x48x1x32.size a ≤ S1x48x512x32.size a
  inb_S1x48x205x32_S1x48x1x32_0_0_14_0 : ∀ a, (![0, 0, 14, 0] : Fin 4 → Nat) a + S1x48x1x32.size a ≤ S1x48x205x32.size a
  inb_S1x48x512x32_S1x48x1x32_0_0_17_0 : ∀ a, (![0, 0, 17, 0] : Fin 4 → Nat) a + S1x48x1x32.size a ≤ S1x48x512x32.size a
  inb_S1x48x205x32_S1x48x1x32_0_0_15_0 : ∀ a, (![0, 0, 15, 0] : Fin 4 → Nat) a + S1x48x1x32.size a ≤ S1x48x205x32.size a
  inb_S1x48x512x32_S1x48x1x32_0_0_18_0 : ∀ a, (![0, 0, 18, 0] : Fin 4 → Nat) a + S1x48x1x32.size a ≤ S1x48x512x32.size a
  inb_S1x48x205x32_S1x48x1x32_0_0_16_0 : ∀ a, (![0, 0, 16, 0] : Fin 4 → Nat) a + S1x48x1x32.size a ≤ S1x48x205x32.size a
  inb_S1x48x512x32_S1x48x1x32_0_0_19_0 : ∀ a, (![0, 0, 19, 0] : Fin 4 → Nat) a + S1x48x1x32.size a ≤ S1x48x512x32.size a
  inb_S1x48x205x32_S1x48x1x32_0_0_17_0 : ∀ a, (![0, 0, 17, 0] : Fin 4 → Nat) a + S1x48x1x32.size a ≤ S1x48x205x32.size a
  inb_S1x48x512x32_S1x48x1x32_0_0_20_0 : ∀ a, (![0, 0, 20, 0] : Fin 4 → Nat) a + S1x48x1x32.size a ≤ S1x48x512x32.size a
  inb_S1x48x205x32_S1x48x1x32_0_0_18_0 : ∀ a, (![0, 0, 18, 0] : Fin 4 → Nat) a + S1x48x1x32.size a ≤ S1x48x205x32.size a
  inb_S1x48x512x32_S1x48x1x32_0_0_21_0 : ∀ a, (![0, 0, 21, 0] : Fin 4 → Nat) a + S1x48x1x32.size a ≤ S1x48x512x32.size a
  inb_S1x48x205x32_S1x48x1x32_0_0_19_0 : ∀ a, (![0, 0, 19, 0] : Fin 4 → Nat) a + S1x48x1x32.size a ≤ S1x48x205x32.size a
  inb_S1x48x512x32_S1x48x1x32_0_0_22_0 : ∀ a, (![0, 0, 22, 0] : Fin 4 → Nat) a + S1x48x1x32.size a ≤ S1x48x512x32.size a
  inb_S1x48x205x32_S1x48x1x32_0_0_20_0 : ∀ a, (![0, 0, 20, 0] : Fin 4 → Nat) a + S1x48x1x32.size a ≤ S1x48x205x32.size a
  inb_S1x48x512x32_S1x48x1x32_0_0_23_0 : ∀ a, (![0, 0, 23, 0] : Fin 4 → Nat) a + S1x48x1x32.size a ≤ S1x48x512x32.size a
  inb_S1x48x205x32_S1x48x1x32_0_0_21_0 : ∀ a, (![0, 0, 21, 0] : Fin 4 → Nat) a + S1x48x1x32.size a ≤ S1x48x205x32.size a
  inb_S1x48x512x32_S1x48x1x32_0_0_24_0 : ∀ a, (![0, 0, 24, 0] : Fin 4 → Nat) a + S1x48x1x32.size a ≤ S1x48x512x32.size a
  inb_S1x48x205x32_S1x48x1x32_0_0_22_0 : ∀ a, (![0, 0, 22, 0] : Fin 4 → Nat) a + S1x48x1x32.size a ≤ S1x48x205x32.size a
  inb_S1x48x512x32_S1x48x1x32_0_0_25_0 : ∀ a, (![0, 0, 25, 0] : Fin 4 → Nat) a + S1x48x1x32.size a ≤ S1x48x512x32.size a
  inb_S1x48x205x32_S1x48x1x32_0_0_23_0 : ∀ a, (![0, 0, 23, 0] : Fin 4 → Nat) a + S1x48x1x32.size a ≤ S1x48x205x32.size a
  inb_S1x48x512x32_S1x48x1x32_0_0_26_0 : ∀ a, (![0, 0, 26, 0] : Fin 4 → Nat) a + S1x48x1x32.size a ≤ S1x48x512x32.size a
  inb_S1x48x205x32_S1x48x1x32_0_0_24_0 : ∀ a, (![0, 0, 24, 0] : Fin 4 → Nat) a + S1x48x1x32.size a ≤ S1x48x205x32.size a
  inb_S1x48x512x32_S1x48x1x32_0_0_27_0 : ∀ a, (![0, 0, 27, 0] : Fin 4 → Nat) a + S1x48x1x32.size a ≤ S1x48x512x32.size a
  inb_S1x48x205x32_S1x48x1x32_0_0_25_0 : ∀ a, (![0, 0, 25, 0] : Fin 4 → Nat) a + S1x48x1x32.size a ≤ S1x48x205x32.size a
  inb_S1x48x512x32_S1x48x1x32_0_0_28_0 : ∀ a, (![0, 0, 28, 0] : Fin 4 → Nat) a + S1x48x1x32.size a ≤ S1x48x512x32.size a
  inb_S1x48x205x32_S1x48x1x32_0_0_26_0 : ∀ a, (![0, 0, 26, 0] : Fin 4 → Nat) a + S1x48x1x32.size a ≤ S1x48x205x32.size a
  inb_S1x48x512x32_S1x48x1x32_0_0_29_0 : ∀ a, (![0, 0, 29, 0] : Fin 4 → Nat) a + S1x48x1x32.size a ≤ S1x48x512x32.size a
  inb_S1x48x205x32_S1x48x1x32_0_0_27_0 : ∀ a, (![0, 0, 27, 0] : Fin 4 → Nat) a + S1x48x1x32.size a ≤ S1x48x205x32.size a
  inb_S1x48x512x32_S1x48x1x32_0_0_30_0 : ∀ a, (![0, 0, 30, 0] : Fin 4 → Nat) a + S1x48x1x32.size a ≤ S1x48x512x32.size a
  inb_S1x48x205x32_S1x48x1x32_0_0_28_0 : ∀ a, (![0, 0, 28, 0] : Fin 4 → Nat) a + S1x48x1x32.size a ≤ S1x48x205x32.size a
  inb_S1x48x512x32_S1x48x1x32_0_0_31_0 : ∀ a, (![0, 0, 31, 0] : Fin 4 → Nat) a + S1x48x1x32.size a ≤ S1x48x512x32.size a
  inb_S1x48x205x32_S1x48x1x32_0_0_29_0 : ∀ a, (![0, 0, 29, 0] : Fin 4 → Nat) a + S1x48x1x32.size a ≤ S1x48x205x32.size a
  inb_S1x48x512x32_S1x48x1x32_0_0_32_0 : ∀ a, (![0, 0, 32, 0] : Fin 4 → Nat) a + S1x48x1x32.size a ≤ S1x48x512x32.size a
  inb_S1x48x205x32_S1x48x1x32_0_0_30_0 : ∀ a, (![0, 0, 30, 0] : Fin 4 → Nat) a + S1x48x1x32.size a ≤ S1x48x205x32.size a
  inb_S1x48x512x32_S1x48x1x32_0_0_33_0 : ∀ a, (![0, 0, 33, 0] : Fin 4 → Nat) a + S1x48x1x32.size a ≤ S1x48x512x32.size a
  inb_S1x48x205x32_S1x48x1x32_0_0_31_0 : ∀ a, (![0, 0, 31, 0] : Fin 4 → Nat) a + S1x48x1x32.size a ≤ S1x48x205x32.size a
  inb_S1x48x512x32_S1x48x1x32_0_0_34_0 : ∀ a, (![0, 0, 34, 0] : Fin 4 → Nat) a + S1x48x1x32.size a ≤ S1x48x512x32.size a
  inb_S1x48x205x32_S1x48x1x32_0_0_32_0 : ∀ a, (![0, 0, 32, 0] : Fin 4 → Nat) a + S1x48x1x32.size a ≤ S1x48x205x32.size a
  inb_S1x48x512x32_S1x48x1x32_0_0_35_0 : ∀ a, (![0, 0, 35, 0] : Fin 4 → Nat) a + S1x48x1x32.size a ≤ S1x48x512x32.size a
  inb_S1x48x205x32_S1x48x1x32_0_0_33_0 : ∀ a, (![0, 0, 33, 0] : Fin 4 → Nat) a + S1x48x1x32.size a ≤ S1x48x205x32.size a
  inb_S1x48x512x32_S1x48x1x32_0_0_36_0 : ∀ a, (![0, 0, 36, 0] : Fin 4 → Nat) a + S1x48x1x32.size a ≤ S1x48x512x32.size a
  inb_S1x48x205x32_S1x48x1x32_0_0_34_0 : ∀ a, (![0, 0, 34, 0] : Fin 4 → Nat) a + S1x48x1x32.size a ≤ S1x48x205x32.size a
  inb_S1x48x512x32_S1x48x1x32_0_0_37_0 : ∀ a, (![0, 0, 37, 0] : Fin 4 → Nat) a + S1x48x1x32.size a ≤ S1x48x512x32.size a
  inb_S1x48x205x32_S1x48x1x32_0_0_35_0 : ∀ a, (![0, 0, 35, 0] : Fin 4 → Nat) a + S1x48x1x32.size a ≤ S1x48x205x32.size a
  inb_S1x48x512x32_S1x48x1x32_0_0_38_0 : ∀ a, (![0, 0, 38, 0] : Fin 4 → Nat) a + S1x48x1x32.size a ≤ S1x48x512x32.size a
  inb_S1x48x205x32_S1x48x1x32_0_0_36_0 : ∀ a, (![0, 0, 36, 0] : Fin 4 → Nat) a + S1x48x1x32.size a ≤ S1x48x205x32.size a
  inb_S1x48x512x32_S1x48x1x32_0_0_39_0 : ∀ a, (![0, 0, 39, 0] : Fin 4 → Nat) a + S1x48x1x32.size a ≤ S1x48x512x32.size a
  inb_S1x48x205x32_S1x48x1x32_0_0_37_0 : ∀ a, (![0, 0, 37, 0] : Fin 4 → Nat) a + S1x48x1x32.size a ≤ S1x48x205x32.size a
  inb_S1x48x512x32_S1x48x1x32_0_0_40_0 : ∀ a, (![0, 0, 40, 0] : Fin 4 → Nat) a + S1x48x1x32.size a ≤ S1x48x512x32.size a
  inb_S1x48x205x32_S1x48x1x32_0_0_38_0 : ∀ a, (![0, 0, 38, 0] : Fin 4 → Nat) a + S1x48x1x32.size a ≤ S1x48x205x32.size a
  inb_S1x48x512x32_S1x48x1x32_0_0_41_0 : ∀ a, (![0, 0, 41, 0] : Fin 4 → Nat) a + S1x48x1x32.size a ≤ S1x48x512x32.size a
  inb_S1x48x205x32_S1x48x1x32_0_0_39_0 : ∀ a, (![0, 0, 39, 0] : Fin 4 → Nat) a + S1x48x1x32.size a ≤ S1x48x205x32.size a
  inb_S1x48x512x32_S1x48x1x32_0_0_42_0 : ∀ a, (![0, 0, 42, 0] : Fin 4 → Nat) a + S1x48x1x32.size a ≤ S1x48x512x32.size a
  inb_S1x48x205x32_S1x48x1x32_0_0_40_0 : ∀ a, (![0, 0, 40, 0] : Fin 4 → Nat) a + S1x48x1x32.size a ≤ S1x48x205x32.size a
  inb_S1x48x512x32_S1x48x1x32_0_0_43_0 : ∀ a, (![0, 0, 43, 0] : Fin 4 → Nat) a + S1x48x1x32.size a ≤ S1x48x512x32.size a
  inb_S1x48x205x32_S1x48x1x32_0_0_41_0 : ∀ a, (![0, 0, 41, 0] : Fin 4 → Nat) a + S1x48x1x32.size a ≤ S1x48x205x32.size a
  inb_S1x48x512x32_S1x48x1x32_0_0_44_0 : ∀ a, (![0, 0, 44, 0] : Fin 4 → Nat) a + S1x48x1x32.size a ≤ S1x48x512x32.size a
  inb_S1x48x205x32_S1x48x1x32_0_0_42_0 : ∀ a, (![0, 0, 42, 0] : Fin 4 → Nat) a + S1x48x1x32.size a ≤ S1x48x205x32.size a
  inb_S1x48x512x32_S1x48x1x32_0_0_45_0 : ∀ a, (![0, 0, 45, 0] : Fin 4 → Nat) a + S1x48x1x32.size a ≤ S1x48x512x32.size a
  inb_S1x48x205x32_S1x48x1x32_0_0_43_0 : ∀ a, (![0, 0, 43, 0] : Fin 4 → Nat) a + S1x48x1x32.size a ≤ S1x48x205x32.size a
  inb_S1x48x512x32_S1x48x1x32_0_0_46_0 : ∀ a, (![0, 0, 46, 0] : Fin 4 → Nat) a + S1x48x1x32.size a ≤ S1x48x512x32.size a
  inb_S1x48x205x32_S1x48x1x32_0_0_44_0 : ∀ a, (![0, 0, 44, 0] : Fin 4 → Nat) a + S1x48x1x32.size a ≤ S1x48x205x32.size a
  inb_S1x48x512x32_S1x48x1x32_0_0_47_0 : ∀ a, (![0, 0, 47, 0] : Fin 4 → Nat) a + S1x48x1x32.size a ≤ S1x48x512x32.size a
  inb_S1x48x205x32_S1x48x1x32_0_0_45_0 : ∀ a, (![0, 0, 45, 0] : Fin 4 → Nat) a + S1x48x1x32.size a ≤ S1x48x205x32.size a
  inb_S1x48x512x32_S1x48x1x32_0_0_48_0 : ∀ a, (![0, 0, 48, 0] : Fin 4 → Nat) a + S1x48x1x32.size a ≤ S1x48x512x32.size a
  inb_S1x48x205x32_S1x48x1x32_0_0_46_0 : ∀ a, (![0, 0, 46, 0] : Fin 4 → Nat) a + S1x48x1x32.size a ≤ S1x48x205x32.size a
  inb_S1x48x512x32_S1x48x1x32_0_0_49_0 : ∀ a, (![0, 0, 49, 0] : Fin 4 → Nat) a + S1x48x1x32.size a ≤ S1x48x512x32.size a
  inb_S1x48x205x32_S1x48x1x32_0_0_47_0 : ∀ a, (![0, 0, 47, 0] : Fin 4 → Nat) a + S1x48x1x32.size a ≤ S1x48x205x32.size a
  inb_S1x48x512x32_S1x48x1x32_0_0_50_0 : ∀ a, (![0, 0, 50, 0] : Fin 4 → Nat) a + S1x48x1x32.size a ≤ S1x48x512x32.size a
  inb_S1x48x205x32_S1x48x1x32_0_0_48_0 : ∀ a, (![0, 0, 48, 0] : Fin 4 → Nat) a + S1x48x1x32.size a ≤ S1x48x205x32.size a
  inb_S1x48x512x32_S1x48x1x32_0_0_51_0 : ∀ a, (![0, 0, 51, 0] : Fin 4 → Nat) a + S1x48x1x32.size a ≤ S1x48x512x32.size a
  inb_S1x48x205x32_S1x48x1x32_0_0_49_0 : ∀ a, (![0, 0, 49, 0] : Fin 4 → Nat) a + S1x48x1x32.size a ≤ S1x48x205x32.size a
  inb_S1x48x512x32_S1x48x1x32_0_0_52_0 : ∀ a, (![0, 0, 52, 0] : Fin 4 → Nat) a + S1x48x1x32.size a ≤ S1x48x512x32.size a
  inb_S1x48x205x32_S1x48x1x32_0_0_50_0 : ∀ a, (![0, 0, 50, 0] : Fin 4 → Nat) a + S1x48x1x32.size a ≤ S1x48x205x32.size a
  inb_S1x48x512x32_S1x48x1x32_0_0_53_0 : ∀ a, (![0, 0, 53, 0] : Fin 4 → Nat) a + S1x48x1x32.size a ≤ S1x48x512x32.size a
  inb_S1x48x205x32_S1x48x1x32_0_0_51_0 : ∀ a, (![0, 0, 51, 0] : Fin 4 → Nat) a + S1x48x1x32.size a ≤ S1x48x205x32.size a
  inb_S1x48x512x32_S1x48x1x32_0_0_54_0 : ∀ a, (![0, 0, 54, 0] : Fin 4 → Nat) a + S1x48x1x32.size a ≤ S1x48x512x32.size a
  inb_S1x48x205x32_S1x48x1x32_0_0_52_0 : ∀ a, (![0, 0, 52, 0] : Fin 4 → Nat) a + S1x48x1x32.size a ≤ S1x48x205x32.size a
  inb_S1x48x512x32_S1x48x1x32_0_0_55_0 : ∀ a, (![0, 0, 55, 0] : Fin 4 → Nat) a + S1x48x1x32.size a ≤ S1x48x512x32.size a
  inb_S1x48x205x32_S1x48x1x32_0_0_53_0 : ∀ a, (![0, 0, 53, 0] : Fin 4 → Nat) a + S1x48x1x32.size a ≤ S1x48x205x32.size a
  inb_S1x48x512x32_S1x48x1x32_0_0_56_0 : ∀ a, (![0, 0, 56, 0] : Fin 4 → Nat) a + S1x48x1x32.size a ≤ S1x48x512x32.size a
  inb_S1x48x205x32_S1x48x1x32_0_0_54_0 : ∀ a, (![0, 0, 54, 0] : Fin 4 → Nat) a + S1x48x1x32.size a ≤ S1x48x205x32.size a
  inb_S1x48x512x32_S1x48x1x32_0_0_57_0 : ∀ a, (![0, 0, 57, 0] : Fin 4 → Nat) a + S1x48x1x32.size a ≤ S1x48x512x32.size a
  inb_S1x48x205x32_S1x48x1x32_0_0_55_0 : ∀ a, (![0, 0, 55, 0] : Fin 4 → Nat) a + S1x48x1x32.size a ≤ S1x48x205x32.size a
  inb_S1x48x512x32_S1x48x1x32_0_0_58_0 : ∀ a, (![0, 0, 58, 0] : Fin 4 → Nat) a + S1x48x1x32.size a ≤ S1x48x512x32.size a
  inb_S1x48x205x32_S1x48x1x32_0_0_56_0 : ∀ a, (![0, 0, 56, 0] : Fin 4 → Nat) a + S1x48x1x32.size a ≤ S1x48x205x32.size a
  inb_S1x48x512x32_S1x48x1x32_0_0_59_0 : ∀ a, (![0, 0, 59, 0] : Fin 4 → Nat) a + S1x48x1x32.size a ≤ S1x48x512x32.size a
  inb_S1x48x205x32_S1x48x1x32_0_0_57_0 : ∀ a, (![0, 0, 57, 0] : Fin 4 → Nat) a + S1x48x1x32.size a ≤ S1x48x205x32.size a
  inb_S1x48x512x32_S1x48x1x32_0_0_60_0 : ∀ a, (![0, 0, 60, 0] : Fin 4 → Nat) a + S1x48x1x32.size a ≤ S1x48x512x32.size a
  inb_S1x48x205x32_S1x48x1x32_0_0_58_0 : ∀ a, (![0, 0, 58, 0] : Fin 4 → Nat) a + S1x48x1x32.size a ≤ S1x48x205x32.size a
  inb_S1x48x512x32_S1x48x1x32_0_0_61_0 : ∀ a, (![0, 0, 61, 0] : Fin 4 → Nat) a + S1x48x1x32.size a ≤ S1x48x512x32.size a
  inb_S1x48x205x32_S1x48x1x32_0_0_59_0 : ∀ a, (![0, 0, 59, 0] : Fin 4 → Nat) a + S1x48x1x32.size a ≤ S1x48x205x32.size a
  inb_S1x48x512x32_S1x48x1x32_0_0_62_0 : ∀ a, (![0, 0, 62, 0] : Fin 4 → Nat) a + S1x48x1x32.size a ≤ S1x48x512x32.size a
  inb_S1x48x205x32_S1x48x1x32_0_0_60_0 : ∀ a, (![0, 0, 60, 0] : Fin 4 → Nat) a + S1x48x1x32.size a ≤ S1x48x205x32.size a
  inb_S1x48x512x32_S1x48x1x32_0_0_63_0 : ∀ a, (![0, 0, 63, 0] : Fin 4 → Nat) a + S1x48x1x32.size a ≤ S1x48x512x32.size a
  inb_S1x48x205x32_S1x48x1x32_0_0_61_0 : ∀ a, (![0, 0, 61, 0] : Fin 4 → Nat) a + S1x48x1x32.size a ≤ S1x48x205x32.size a
  inb_S1x48x512x32_S1x48x1x32_0_0_64_0 : ∀ a, (![0, 0, 64, 0] : Fin 4 → Nat) a + S1x48x1x32.size a ≤ S1x48x512x32.size a
  inb_S1x48x205x32_S1x48x1x32_0_0_62_0 : ∀ a, (![0, 0, 62, 0] : Fin 4 → Nat) a + S1x48x1x32.size a ≤ S1x48x205x32.size a
  inb_S1x48x512x32_S1x48x1x32_0_0_65_0 : ∀ a, (![0, 0, 65, 0] : Fin 4 → Nat) a + S1x48x1x32.size a ≤ S1x48x512x32.size a
  inb_S1x48x205x32_S1x48x1x32_0_0_63_0 : ∀ a, (![0, 0, 63, 0] : Fin 4 → Nat) a + S1x48x1x32.size a ≤ S1x48x205x32.size a
  inb_S1x48x512x32_S1x48x1x32_0_0_66_0 : ∀ a, (![0, 0, 66, 0] : Fin 4 → Nat) a + S1x48x1x32.size a ≤ S1x48x512x32.size a
  inb_S1x48x205x32_S1x48x1x32_0_0_64_0 : ∀ a, (![0, 0, 64, 0] : Fin 4 → Nat) a + S1x48x1x32.size a ≤ S1x48x205x32.size a
  inb_S1x48x512x32_S1x48x1x32_0_0_67_0 : ∀ a, (![0, 0, 67, 0] : Fin 4 → Nat) a + S1x48x1x32.size a ≤ S1x48x512x32.size a
  inb_S1x48x205x32_S1x48x1x32_0_0_65_0 : ∀ a, (![0, 0, 65, 0] : Fin 4 → Nat) a + S1x48x1x32.size a ≤ S1x48x205x32.size a
  inb_S1x48x512x32_S1x48x1x32_0_0_68_0 : ∀ a, (![0, 0, 68, 0] : Fin 4 → Nat) a + S1x48x1x32.size a ≤ S1x48x512x32.size a
  inb_S1x48x205x32_S1x48x1x32_0_0_66_0 : ∀ a, (![0, 0, 66, 0] : Fin 4 → Nat) a + S1x48x1x32.size a ≤ S1x48x205x32.size a
  inb_S1x48x512x32_S1x48x1x32_0_0_69_0 : ∀ a, (![0, 0, 69, 0] : Fin 4 → Nat) a + S1x48x1x32.size a ≤ S1x48x512x32.size a
  inb_S1x48x205x32_S1x48x1x32_0_0_67_0 : ∀ a, (![0, 0, 67, 0] : Fin 4 → Nat) a + S1x48x1x32.size a ≤ S1x48x205x32.size a
  inb_S1x48x512x32_S1x48x1x32_0_0_70_0 : ∀ a, (![0, 0, 70, 0] : Fin 4 → Nat) a + S1x48x1x32.size a ≤ S1x48x512x32.size a
  inb_S1x48x205x32_S1x48x1x32_0_0_68_0 : ∀ a, (![0, 0, 68, 0] : Fin 4 → Nat) a + S1x48x1x32.size a ≤ S1x48x205x32.size a
  inb_S1x48x512x32_S1x48x1x32_0_0_71_0 : ∀ a, (![0, 0, 71, 0] : Fin 4 → Nat) a + S1x48x1x32.size a ≤ S1x48x512x32.size a
  inb_S1x48x205x32_S1x48x1x32_0_0_69_0 : ∀ a, (![0, 0, 69, 0] : Fin 4 → Nat) a + S1x48x1x32.size a ≤ S1x48x205x32.size a
  inb_S1x48x512x32_S1x48x1x32_0_0_72_0 : ∀ a, (![0, 0, 72, 0] : Fin 4 → Nat) a + S1x48x1x32.size a ≤ S1x48x512x32.size a
  inb_S1x48x205x32_S1x48x1x32_0_0_70_0 : ∀ a, (![0, 0, 70, 0] : Fin 4 → Nat) a + S1x48x1x32.size a ≤ S1x48x205x32.size a
  inb_S1x48x512x32_S1x48x1x32_0_0_73_0 : ∀ a, (![0, 0, 73, 0] : Fin 4 → Nat) a + S1x48x1x32.size a ≤ S1x48x512x32.size a
  inb_S1x48x205x32_S1x48x1x32_0_0_71_0 : ∀ a, (![0, 0, 71, 0] : Fin 4 → Nat) a + S1x48x1x32.size a ≤ S1x48x205x32.size a
  inb_S1x48x512x32_S1x48x1x32_0_0_74_0 : ∀ a, (![0, 0, 74, 0] : Fin 4 → Nat) a + S1x48x1x32.size a ≤ S1x48x512x32.size a
  inb_S1x48x205x32_S1x48x1x32_0_0_72_0 : ∀ a, (![0, 0, 72, 0] : Fin 4 → Nat) a + S1x48x1x32.size a ≤ S1x48x205x32.size a
  inb_S1x48x512x32_S1x48x1x32_0_0_75_0 : ∀ a, (![0, 0, 75, 0] : Fin 4 → Nat) a + S1x48x1x32.size a ≤ S1x48x512x32.size a
  inb_S1x48x205x32_S1x48x1x32_0_0_73_0 : ∀ a, (![0, 0, 73, 0] : Fin 4 → Nat) a + S1x48x1x32.size a ≤ S1x48x205x32.size a
  inb_S1x48x512x32_S1x48x1x32_0_0_76_0 : ∀ a, (![0, 0, 76, 0] : Fin 4 → Nat) a + S1x48x1x32.size a ≤ S1x48x512x32.size a
  inb_S1x48x205x32_S1x48x1x32_0_0_74_0 : ∀ a, (![0, 0, 74, 0] : Fin 4 → Nat) a + S1x48x1x32.size a ≤ S1x48x205x32.size a
  inb_S1x48x512x32_S1x48x1x32_0_0_77_0 : ∀ a, (![0, 0, 77, 0] : Fin 4 → Nat) a + S1x48x1x32.size a ≤ S1x48x512x32.size a
  inb_S1x48x205x32_S1x48x1x32_0_0_75_0 : ∀ a, (![0, 0, 75, 0] : Fin 4 → Nat) a + S1x48x1x32.size a ≤ S1x48x205x32.size a
  inb_S1x48x512x32_S1x48x1x32_0_0_78_0 : ∀ a, (![0, 0, 78, 0] : Fin 4 → Nat) a + S1x48x1x32.size a ≤ S1x48x512x32.size a
  inb_S1x48x205x32_S1x48x1x32_0_0_76_0 : ∀ a, (![0, 0, 76, 0] : Fin 4 → Nat) a + S1x48x1x32.size a ≤ S1x48x205x32.size a
  inb_S1x48x512x32_S1x48x1x32_0_0_79_0 : ∀ a, (![0, 0, 79, 0] : Fin 4 → Nat) a + S1x48x1x32.size a ≤ S1x48x512x32.size a
  inb_S1x48x205x32_S1x48x1x32_0_0_77_0 : ∀ a, (![0, 0, 77, 0] : Fin 4 → Nat) a + S1x48x1x32.size a ≤ S1x48x205x32.size a
  inb_S1x48x512x32_S1x48x1x32_0_0_80_0 : ∀ a, (![0, 0, 80, 0] : Fin 4 → Nat) a + S1x48x1x32.size a ≤ S1x48x512x32.size a
  inb_S1x48x205x32_S1x48x1x32_0_0_78_0 : ∀ a, (![0, 0, 78, 0] : Fin 4 → Nat) a + S1x48x1x32.size a ≤ S1x48x205x32.size a
  inb_S1x48x512x32_S1x48x1x32_0_0_81_0 : ∀ a, (![0, 0, 81, 0] : Fin 4 → Nat) a + S1x48x1x32.size a ≤ S1x48x512x32.size a
  inb_S1x48x205x32_S1x48x1x32_0_0_79_0 : ∀ a, (![0, 0, 79, 0] : Fin 4 → Nat) a + S1x48x1x32.size a ≤ S1x48x205x32.size a
  inb_S1x48x512x32_S1x48x1x32_0_0_82_0 : ∀ a, (![0, 0, 82, 0] : Fin 4 → Nat) a + S1x48x1x32.size a ≤ S1x48x512x32.size a
  inb_S1x48x205x32_S1x48x1x32_0_0_80_0 : ∀ a, (![0, 0, 80, 0] : Fin 4 → Nat) a + S1x48x1x32.size a ≤ S1x48x205x32.size a
  inb_S1x48x512x32_S1x48x1x32_0_0_83_0 : ∀ a, (![0, 0, 83, 0] : Fin 4 → Nat) a + S1x48x1x32.size a ≤ S1x48x512x32.size a
  inb_S1x48x205x32_S1x48x1x32_0_0_81_0 : ∀ a, (![0, 0, 81, 0] : Fin 4 → Nat) a + S1x48x1x32.size a ≤ S1x48x205x32.size a
  inb_S1x48x512x32_S1x48x1x32_0_0_84_0 : ∀ a, (![0, 0, 84, 0] : Fin 4 → Nat) a + S1x48x1x32.size a ≤ S1x48x512x32.size a
  inb_S1x48x205x32_S1x48x1x32_0_0_82_0 : ∀ a, (![0, 0, 82, 0] : Fin 4 → Nat) a + S1x48x1x32.size a ≤ S1x48x205x32.size a
  inb_S1x48x512x32_S1x48x1x32_0_0_85_0 : ∀ a, (![0, 0, 85, 0] : Fin 4 → Nat) a + S1x48x1x32.size a ≤ S1x48x512x32.size a
  inb_S1x48x205x32_S1x48x1x32_0_0_83_0 : ∀ a, (![0, 0, 83, 0] : Fin 4 → Nat) a + S1x48x1x32.size a ≤ S1x48x205x32.size a
  inb_S1x48x512x32_S1x48x1x32_0_0_86_0 : ∀ a, (![0, 0, 86, 0] : Fin 4 → Nat) a + S1x48x1x32.size a ≤ S1x48x512x32.size a
  inb_S1x48x205x32_S1x48x1x32_0_0_84_0 : ∀ a, (![0, 0, 84, 0] : Fin 4 → Nat) a + S1x48x1x32.size a ≤ S1x48x205x32.size a
  inb_S1x48x512x32_S1x48x1x32_0_0_87_0 : ∀ a, (![0, 0, 87, 0] : Fin 4 → Nat) a + S1x48x1x32.size a ≤ S1x48x512x32.size a
  inb_S1x48x205x32_S1x48x1x32_0_0_85_0 : ∀ a, (![0, 0, 85, 0] : Fin 4 → Nat) a + S1x48x1x32.size a ≤ S1x48x205x32.size a
  inb_S1x48x512x32_S1x48x1x32_0_0_88_0 : ∀ a, (![0, 0, 88, 0] : Fin 4 → Nat) a + S1x48x1x32.size a ≤ S1x48x512x32.size a
  inb_S1x48x205x32_S1x48x1x32_0_0_86_0 : ∀ a, (![0, 0, 86, 0] : Fin 4 → Nat) a + S1x48x1x32.size a ≤ S1x48x205x32.size a
  inb_S1x48x512x32_S1x48x1x32_0_0_89_0 : ∀ a, (![0, 0, 89, 0] : Fin 4 → Nat) a + S1x48x1x32.size a ≤ S1x48x512x32.size a
  inb_S1x48x205x32_S1x48x1x32_0_0_87_0 : ∀ a, (![0, 0, 87, 0] : Fin 4 → Nat) a + S1x48x1x32.size a ≤ S1x48x205x32.size a
  inb_S1x48x512x32_S1x48x1x32_0_0_90_0 : ∀ a, (![0, 0, 90, 0] : Fin 4 → Nat) a + S1x48x1x32.size a ≤ S1x48x512x32.size a
  inb_S1x48x205x32_S1x48x1x32_0_0_88_0 : ∀ a, (![0, 0, 88, 0] : Fin 4 → Nat) a + S1x48x1x32.size a ≤ S1x48x205x32.size a
  inb_S1x48x512x32_S1x48x1x32_0_0_91_0 : ∀ a, (![0, 0, 91, 0] : Fin 4 → Nat) a + S1x48x1x32.size a ≤ S1x48x512x32.size a
  inb_S1x48x205x32_S1x48x1x32_0_0_89_0 : ∀ a, (![0, 0, 89, 0] : Fin 4 → Nat) a + S1x48x1x32.size a ≤ S1x48x205x32.size a
  inb_S1x48x512x32_S1x48x1x32_0_0_92_0 : ∀ a, (![0, 0, 92, 0] : Fin 4 → Nat) a + S1x48x1x32.size a ≤ S1x48x512x32.size a
  inb_S1x48x205x32_S1x48x1x32_0_0_90_0 : ∀ a, (![0, 0, 90, 0] : Fin 4 → Nat) a + S1x48x1x32.size a ≤ S1x48x205x32.size a
  inb_S1x48x512x32_S1x48x1x32_0_0_93_0 : ∀ a, (![0, 0, 93, 0] : Fin 4 → Nat) a + S1x48x1x32.size a ≤ S1x48x512x32.size a
  inb_S1x48x205x32_S1x48x1x32_0_0_91_0 : ∀ a, (![0, 0, 91, 0] : Fin 4 → Nat) a + S1x48x1x32.size a ≤ S1x48x205x32.size a
  inb_S1x48x512x32_S1x48x1x32_0_0_94_0 : ∀ a, (![0, 0, 94, 0] : Fin 4 → Nat) a + S1x48x1x32.size a ≤ S1x48x512x32.size a
  inb_S1x48x205x32_S1x48x1x32_0_0_92_0 : ∀ a, (![0, 0, 92, 0] : Fin 4 → Nat) a + S1x48x1x32.size a ≤ S1x48x205x32.size a
  inb_S1x48x512x32_S1x48x1x32_0_0_95_0 : ∀ a, (![0, 0, 95, 0] : Fin 4 → Nat) a + S1x48x1x32.size a ≤ S1x48x512x32.size a
  inb_S1x48x205x32_S1x48x1x32_0_0_93_0 : ∀ a, (![0, 0, 93, 0] : Fin 4 → Nat) a + S1x48x1x32.size a ≤ S1x48x205x32.size a
  inb_S1x48x512x32_S1x48x1x32_0_0_96_0 : ∀ a, (![0, 0, 96, 0] : Fin 4 → Nat) a + S1x48x1x32.size a ≤ S1x48x512x32.size a
  inb_S1x48x205x32_S1x48x1x32_0_0_94_0 : ∀ a, (![0, 0, 94, 0] : Fin 4 → Nat) a + S1x48x1x32.size a ≤ S1x48x205x32.size a
  inb_S1x48x512x32_S1x48x1x32_0_0_97_0 : ∀ a, (![0, 0, 97, 0] : Fin 4 → Nat) a + S1x48x1x32.size a ≤ S1x48x512x32.size a
  inb_S1x48x205x32_S1x48x1x32_0_0_95_0 : ∀ a, (![0, 0, 95, 0] : Fin 4 → Nat) a + S1x48x1x32.size a ≤ S1x48x205x32.size a
  inb_S1x48x512x32_S1x48x1x32_0_0_98_0 : ∀ a, (![0, 0, 98, 0] : Fin 4 → Nat) a + S1x48x1x32.size a ≤ S1x48x512x32.size a
  inb_S1x48x205x32_S1x48x1x32_0_0_96_0 : ∀ a, (![0, 0, 96, 0] : Fin 4 → Nat) a + S1x48x1x32.size a ≤ S1x48x205x32.size a
  inb_S1x48x512x32_S1x48x1x32_0_0_99_0 : ∀ a, (![0, 0, 99, 0] : Fin 4 → Nat) a + S1x48x1x32.size a ≤ S1x48x512x32.size a
  inb_S1x48x205x32_S1x48x1x32_0_0_97_0 : ∀ a, (![0, 0, 97, 0] : Fin 4 → Nat) a + S1x48x1x32.size a ≤ S1x48x205x32.size a

class Shapes2.Facts₀ : Prop where
  inb_S1x48x512x32_S1x48x1x32_0_0_100_0 : ∀ a, (![0, 0, 100, 0] : Fin 4 → Nat) a + S1x48x1x32.size a ≤ S1x48x512x32.size a
  inb_S1x48x205x32_S1x48x1x32_0_0_98_0 : ∀ a, (![0, 0, 98, 0] : Fin 4 → Nat) a + S1x48x1x32.size a ≤ S1x48x205x32.size a
  inb_S1x48x512x32_S1x48x1x32_0_0_101_0 : ∀ a, (![0, 0, 101, 0] : Fin 4 → Nat) a + S1x48x1x32.size a ≤ S1x48x512x32.size a
  inb_S1x48x205x32_S1x48x1x32_0_0_99_0 : ∀ a, (![0, 0, 99, 0] : Fin 4 → Nat) a + S1x48x1x32.size a ≤ S1x48x205x32.size a
  inb_S1x48x512x32_S1x48x1x32_0_0_102_0 : ∀ a, (![0, 0, 102, 0] : Fin 4 → Nat) a + S1x48x1x32.size a ≤ S1x48x512x32.size a
  inb_S1x48x205x32_S1x48x1x32_0_0_100_0 : ∀ a, (![0, 0, 100, 0] : Fin 4 → Nat) a + S1x48x1x32.size a ≤ S1x48x205x32.size a
  inb_S1x48x512x32_S1x48x1x32_0_0_103_0 : ∀ a, (![0, 0, 103, 0] : Fin 4 → Nat) a + S1x48x1x32.size a ≤ S1x48x512x32.size a
  inb_S1x48x205x32_S1x48x1x32_0_0_101_0 : ∀ a, (![0, 0, 101, 0] : Fin 4 → Nat) a + S1x48x1x32.size a ≤ S1x48x205x32.size a
  inb_S1x48x512x32_S1x48x1x32_0_0_104_0 : ∀ a, (![0, 0, 104, 0] : Fin 4 → Nat) a + S1x48x1x32.size a ≤ S1x48x512x32.size a
  inb_S1x48x205x32_S1x48x1x32_0_0_102_0 : ∀ a, (![0, 0, 102, 0] : Fin 4 → Nat) a + S1x48x1x32.size a ≤ S1x48x205x32.size a
  inb_S1x48x512x32_S1x48x1x32_0_0_105_0 : ∀ a, (![0, 0, 105, 0] : Fin 4 → Nat) a + S1x48x1x32.size a ≤ S1x48x512x32.size a
  inb_S1x48x205x32_S1x48x1x32_0_0_103_0 : ∀ a, (![0, 0, 103, 0] : Fin 4 → Nat) a + S1x48x1x32.size a ≤ S1x48x205x32.size a
  inb_S1x48x512x32_S1x48x1x32_0_0_106_0 : ∀ a, (![0, 0, 106, 0] : Fin 4 → Nat) a + S1x48x1x32.size a ≤ S1x48x512x32.size a
  inb_S1x48x205x32_S1x48x1x32_0_0_104_0 : ∀ a, (![0, 0, 104, 0] : Fin 4 → Nat) a + S1x48x1x32.size a ≤ S1x48x205x32.size a
  inb_S1x48x512x32_S1x48x1x32_0_0_107_0 : ∀ a, (![0, 0, 107, 0] : Fin 4 → Nat) a + S1x48x1x32.size a ≤ S1x48x512x32.size a
  inb_S1x48x205x32_S1x48x1x32_0_0_105_0 : ∀ a, (![0, 0, 105, 0] : Fin 4 → Nat) a + S1x48x1x32.size a ≤ S1x48x205x32.size a
  inb_S1x48x512x32_S1x48x1x32_0_0_108_0 : ∀ a, (![0, 0, 108, 0] : Fin 4 → Nat) a + S1x48x1x32.size a ≤ S1x48x512x32.size a
  inb_S1x48x205x32_S1x48x1x32_0_0_106_0 : ∀ a, (![0, 0, 106, 0] : Fin 4 → Nat) a + S1x48x1x32.size a ≤ S1x48x205x32.size a
  inb_S1x48x512x32_S1x48x1x32_0_0_109_0 : ∀ a, (![0, 0, 109, 0] : Fin 4 → Nat) a + S1x48x1x32.size a ≤ S1x48x512x32.size a
  inb_S1x48x205x32_S1x48x1x32_0_0_107_0 : ∀ a, (![0, 0, 107, 0] : Fin 4 → Nat) a + S1x48x1x32.size a ≤ S1x48x205x32.size a
  inb_S1x48x512x32_S1x48x1x32_0_0_110_0 : ∀ a, (![0, 0, 110, 0] : Fin 4 → Nat) a + S1x48x1x32.size a ≤ S1x48x512x32.size a
  inb_S1x48x205x32_S1x48x1x32_0_0_108_0 : ∀ a, (![0, 0, 108, 0] : Fin 4 → Nat) a + S1x48x1x32.size a ≤ S1x48x205x32.size a
  inb_S1x48x512x32_S1x48x1x32_0_0_111_0 : ∀ a, (![0, 0, 111, 0] : Fin 4 → Nat) a + S1x48x1x32.size a ≤ S1x48x512x32.size a
  inb_S1x48x205x32_S1x48x1x32_0_0_109_0 : ∀ a, (![0, 0, 109, 0] : Fin 4 → Nat) a + S1x48x1x32.size a ≤ S1x48x205x32.size a
  inb_S1x48x512x32_S1x48x1x32_0_0_112_0 : ∀ a, (![0, 0, 112, 0] : Fin 4 → Nat) a + S1x48x1x32.size a ≤ S1x48x512x32.size a
  inb_S1x48x205x32_S1x48x1x32_0_0_110_0 : ∀ a, (![0, 0, 110, 0] : Fin 4 → Nat) a + S1x48x1x32.size a ≤ S1x48x205x32.size a
  inb_S1x48x512x32_S1x48x1x32_0_0_113_0 : ∀ a, (![0, 0, 113, 0] : Fin 4 → Nat) a + S1x48x1x32.size a ≤ S1x48x512x32.size a
  inb_S1x48x205x32_S1x48x1x32_0_0_111_0 : ∀ a, (![0, 0, 111, 0] : Fin 4 → Nat) a + S1x48x1x32.size a ≤ S1x48x205x32.size a
  inb_S1x48x512x32_S1x48x1x32_0_0_114_0 : ∀ a, (![0, 0, 114, 0] : Fin 4 → Nat) a + S1x48x1x32.size a ≤ S1x48x512x32.size a
  inb_S1x48x205x32_S1x48x1x32_0_0_112_0 : ∀ a, (![0, 0, 112, 0] : Fin 4 → Nat) a + S1x48x1x32.size a ≤ S1x48x205x32.size a
  inb_S1x48x512x32_S1x48x1x32_0_0_115_0 : ∀ a, (![0, 0, 115, 0] : Fin 4 → Nat) a + S1x48x1x32.size a ≤ S1x48x512x32.size a
  inb_S1x48x205x32_S1x48x1x32_0_0_113_0 : ∀ a, (![0, 0, 113, 0] : Fin 4 → Nat) a + S1x48x1x32.size a ≤ S1x48x205x32.size a
  inb_S1x48x512x32_S1x48x1x32_0_0_116_0 : ∀ a, (![0, 0, 116, 0] : Fin 4 → Nat) a + S1x48x1x32.size a ≤ S1x48x512x32.size a
  inb_S1x48x205x32_S1x48x1x32_0_0_114_0 : ∀ a, (![0, 0, 114, 0] : Fin 4 → Nat) a + S1x48x1x32.size a ≤ S1x48x205x32.size a
  inb_S1x48x512x32_S1x48x1x32_0_0_117_0 : ∀ a, (![0, 0, 117, 0] : Fin 4 → Nat) a + S1x48x1x32.size a ≤ S1x48x512x32.size a
  inb_S1x48x205x32_S1x48x1x32_0_0_115_0 : ∀ a, (![0, 0, 115, 0] : Fin 4 → Nat) a + S1x48x1x32.size a ≤ S1x48x205x32.size a
  inb_S1x48x512x32_S1x48x1x32_0_0_118_0 : ∀ a, (![0, 0, 118, 0] : Fin 4 → Nat) a + S1x48x1x32.size a ≤ S1x48x512x32.size a
  inb_S1x48x205x32_S1x48x1x32_0_0_116_0 : ∀ a, (![0, 0, 116, 0] : Fin 4 → Nat) a + S1x48x1x32.size a ≤ S1x48x205x32.size a
  inb_S1x48x512x32_S1x48x1x32_0_0_119_0 : ∀ a, (![0, 0, 119, 0] : Fin 4 → Nat) a + S1x48x1x32.size a ≤ S1x48x512x32.size a
  inb_S1x48x205x32_S1x48x1x32_0_0_117_0 : ∀ a, (![0, 0, 117, 0] : Fin 4 → Nat) a + S1x48x1x32.size a ≤ S1x48x205x32.size a
  inb_S1x48x512x32_S1x48x1x32_0_0_120_0 : ∀ a, (![0, 0, 120, 0] : Fin 4 → Nat) a + S1x48x1x32.size a ≤ S1x48x512x32.size a
  inb_S1x48x205x32_S1x48x1x32_0_0_118_0 : ∀ a, (![0, 0, 118, 0] : Fin 4 → Nat) a + S1x48x1x32.size a ≤ S1x48x205x32.size a
  inb_S1x48x512x32_S1x48x1x32_0_0_121_0 : ∀ a, (![0, 0, 121, 0] : Fin 4 → Nat) a + S1x48x1x32.size a ≤ S1x48x512x32.size a
  inb_S1x48x205x32_S1x48x1x32_0_0_119_0 : ∀ a, (![0, 0, 119, 0] : Fin 4 → Nat) a + S1x48x1x32.size a ≤ S1x48x205x32.size a
  inb_S1x48x512x32_S1x48x1x32_0_0_122_0 : ∀ a, (![0, 0, 122, 0] : Fin 4 → Nat) a + S1x48x1x32.size a ≤ S1x48x512x32.size a
  inb_S1x48x205x32_S1x48x1x32_0_0_120_0 : ∀ a, (![0, 0, 120, 0] : Fin 4 → Nat) a + S1x48x1x32.size a ≤ S1x48x205x32.size a
  inb_S1x48x512x32_S1x48x1x32_0_0_123_0 : ∀ a, (![0, 0, 123, 0] : Fin 4 → Nat) a + S1x48x1x32.size a ≤ S1x48x512x32.size a
  inb_S1x48x205x32_S1x48x1x32_0_0_121_0 : ∀ a, (![0, 0, 121, 0] : Fin 4 → Nat) a + S1x48x1x32.size a ≤ S1x48x205x32.size a
  inb_S1x48x512x32_S1x48x1x32_0_0_124_0 : ∀ a, (![0, 0, 124, 0] : Fin 4 → Nat) a + S1x48x1x32.size a ≤ S1x48x512x32.size a
  inb_S1x48x205x32_S1x48x1x32_0_0_122_0 : ∀ a, (![0, 0, 122, 0] : Fin 4 → Nat) a + S1x48x1x32.size a ≤ S1x48x205x32.size a
  inb_S1x48x512x32_S1x48x1x32_0_0_125_0 : ∀ a, (![0, 0, 125, 0] : Fin 4 → Nat) a + S1x48x1x32.size a ≤ S1x48x512x32.size a
  inb_S1x48x205x32_S1x48x1x32_0_0_123_0 : ∀ a, (![0, 0, 123, 0] : Fin 4 → Nat) a + S1x48x1x32.size a ≤ S1x48x205x32.size a
  inb_S1x48x512x32_S1x48x1x32_0_0_126_0 : ∀ a, (![0, 0, 126, 0] : Fin 4 → Nat) a + S1x48x1x32.size a ≤ S1x48x512x32.size a
  inb_S1x48x205x32_S1x48x1x32_0_0_124_0 : ∀ a, (![0, 0, 124, 0] : Fin 4 → Nat) a + S1x48x1x32.size a ≤ S1x48x205x32.size a
  inb_S1x48x512x32_S1x48x1x32_0_0_127_0 : ∀ a, (![0, 0, 127, 0] : Fin 4 → Nat) a + S1x48x1x32.size a ≤ S1x48x512x32.size a
  inb_S1x48x205x32_S1x48x1x32_0_0_125_0 : ∀ a, (![0, 0, 125, 0] : Fin 4 → Nat) a + S1x48x1x32.size a ≤ S1x48x205x32.size a
  inb_S1x48x512x32_S1x48x1x32_0_0_128_0 : ∀ a, (![0, 0, 128, 0] : Fin 4 → Nat) a + S1x48x1x32.size a ≤ S1x48x512x32.size a
  inb_S1x48x205x32_S1x48x1x32_0_0_126_0 : ∀ a, (![0, 0, 126, 0] : Fin 4 → Nat) a + S1x48x1x32.size a ≤ S1x48x205x32.size a
  inb_S1x48x512x32_S1x48x1x32_0_0_129_0 : ∀ a, (![0, 0, 129, 0] : Fin 4 → Nat) a + S1x48x1x32.size a ≤ S1x48x512x32.size a
  inb_S1x48x205x32_S1x48x1x32_0_0_127_0 : ∀ a, (![0, 0, 127, 0] : Fin 4 → Nat) a + S1x48x1x32.size a ≤ S1x48x205x32.size a
  inb_S1x48x512x32_S1x48x1x32_0_0_130_0 : ∀ a, (![0, 0, 130, 0] : Fin 4 → Nat) a + S1x48x1x32.size a ≤ S1x48x512x32.size a
  inb_S1x48x205x32_S1x48x1x32_0_0_128_0 : ∀ a, (![0, 0, 128, 0] : Fin 4 → Nat) a + S1x48x1x32.size a ≤ S1x48x205x32.size a
  inb_S1x48x512x32_S1x48x1x32_0_0_133_0 : ∀ a, (![0, 0, 133, 0] : Fin 4 → Nat) a + S1x48x1x32.size a ≤ S1x48x512x32.size a
  inb_S1x48x512x32_S1x48x1x32_0_0_134_0 : ∀ a, (![0, 0, 134, 0] : Fin 4 → Nat) a + S1x48x1x32.size a ≤ S1x48x512x32.size a
  inb_S1x48x512x32_S1x48x1x32_0_0_135_0 : ∀ a, (![0, 0, 135, 0] : Fin 4 → Nat) a + S1x48x1x32.size a ≤ S1x48x512x32.size a
  inb_S1x48x205x32_S1x48x1x32_0_0_129_0 : ∀ a, (![0, 0, 129, 0] : Fin 4 → Nat) a + S1x48x1x32.size a ≤ S1x48x205x32.size a
  inb_S1x48x512x32_S1x48x1x32_0_0_138_0 : ∀ a, (![0, 0, 138, 0] : Fin 4 → Nat) a + S1x48x1x32.size a ≤ S1x48x512x32.size a
  inb_S1x48x512x32_S1x48x1x32_0_0_139_0 : ∀ a, (![0, 0, 139, 0] : Fin 4 → Nat) a + S1x48x1x32.size a ≤ S1x48x512x32.size a
  inb_S1x48x512x32_S1x48x1x32_0_0_140_0 : ∀ a, (![0, 0, 140, 0] : Fin 4 → Nat) a + S1x48x1x32.size a ≤ S1x48x512x32.size a
  inb_S1x48x205x32_S1x48x1x32_0_0_130_0 : ∀ a, (![0, 0, 130, 0] : Fin 4 → Nat) a + S1x48x1x32.size a ≤ S1x48x205x32.size a
  inb_S1x48x512x32_S1x48x1x32_0_0_143_0 : ∀ a, (![0, 0, 143, 0] : Fin 4 → Nat) a + S1x48x1x32.size a ≤ S1x48x512x32.size a
  inb_S1x48x512x32_S1x48x1x32_0_0_144_0 : ∀ a, (![0, 0, 144, 0] : Fin 4 → Nat) a + S1x48x1x32.size a ≤ S1x48x512x32.size a
  inb_S1x48x512x32_S1x48x1x32_0_0_145_0 : ∀ a, (![0, 0, 145, 0] : Fin 4 → Nat) a + S1x48x1x32.size a ≤ S1x48x512x32.size a
  inb_S1x48x205x32_S1x48x1x32_0_0_131_0 : ∀ a, (![0, 0, 131, 0] : Fin 4 → Nat) a + S1x48x1x32.size a ≤ S1x48x205x32.size a
  inb_S1x48x512x32_S1x48x1x32_0_0_148_0 : ∀ a, (![0, 0, 148, 0] : Fin 4 → Nat) a + S1x48x1x32.size a ≤ S1x48x512x32.size a
  inb_S1x48x512x32_S1x48x1x32_0_0_149_0 : ∀ a, (![0, 0, 149, 0] : Fin 4 → Nat) a + S1x48x1x32.size a ≤ S1x48x512x32.size a
  inb_S1x48x512x32_S1x48x1x32_0_0_150_0 : ∀ a, (![0, 0, 150, 0] : Fin 4 → Nat) a + S1x48x1x32.size a ≤ S1x48x512x32.size a
  inb_S1x48x205x32_S1x48x1x32_0_0_132_0 : ∀ a, (![0, 0, 132, 0] : Fin 4 → Nat) a + S1x48x1x32.size a ≤ S1x48x205x32.size a
  inb_S1x48x512x32_S1x48x1x32_0_0_153_0 : ∀ a, (![0, 0, 153, 0] : Fin 4 → Nat) a + S1x48x1x32.size a ≤ S1x48x512x32.size a
  inb_S1x48x512x32_S1x48x1x32_0_0_154_0 : ∀ a, (![0, 0, 154, 0] : Fin 4 → Nat) a + S1x48x1x32.size a ≤ S1x48x512x32.size a
  inb_S1x48x512x32_S1x48x1x32_0_0_155_0 : ∀ a, (![0, 0, 155, 0] : Fin 4 → Nat) a + S1x48x1x32.size a ≤ S1x48x512x32.size a
  inb_S1x48x205x32_S1x48x1x32_0_0_133_0 : ∀ a, (![0, 0, 133, 0] : Fin 4 → Nat) a + S1x48x1x32.size a ≤ S1x48x205x32.size a
  inb_S1x48x512x32_S1x48x1x32_0_0_158_0 : ∀ a, (![0, 0, 158, 0] : Fin 4 → Nat) a + S1x48x1x32.size a ≤ S1x48x512x32.size a
  inb_S1x48x512x32_S1x48x1x32_0_0_159_0 : ∀ a, (![0, 0, 159, 0] : Fin 4 → Nat) a + S1x48x1x32.size a ≤ S1x48x512x32.size a
  inb_S1x48x512x32_S1x48x1x32_0_0_160_0 : ∀ a, (![0, 0, 160, 0] : Fin 4 → Nat) a + S1x48x1x32.size a ≤ S1x48x512x32.size a
  inb_S1x48x205x32_S1x48x1x32_0_0_134_0 : ∀ a, (![0, 0, 134, 0] : Fin 4 → Nat) a + S1x48x1x32.size a ≤ S1x48x205x32.size a
  inb_S1x48x512x32_S1x48x1x32_0_0_163_0 : ∀ a, (![0, 0, 163, 0] : Fin 4 → Nat) a + S1x48x1x32.size a ≤ S1x48x512x32.size a
  inb_S1x48x512x32_S1x48x1x32_0_0_164_0 : ∀ a, (![0, 0, 164, 0] : Fin 4 → Nat) a + S1x48x1x32.size a ≤ S1x48x512x32.size a
  inb_S1x48x512x32_S1x48x1x32_0_0_165_0 : ∀ a, (![0, 0, 165, 0] : Fin 4 → Nat) a + S1x48x1x32.size a ≤ S1x48x512x32.size a
  inb_S1x48x205x32_S1x48x1x32_0_0_135_0 : ∀ a, (![0, 0, 135, 0] : Fin 4 → Nat) a + S1x48x1x32.size a ≤ S1x48x205x32.size a
  inb_S1x48x512x32_S1x48x1x32_0_0_168_0 : ∀ a, (![0, 0, 168, 0] : Fin 4 → Nat) a + S1x48x1x32.size a ≤ S1x48x512x32.size a
  inb_S1x48x512x32_S1x48x1x32_0_0_169_0 : ∀ a, (![0, 0, 169, 0] : Fin 4 → Nat) a + S1x48x1x32.size a ≤ S1x48x512x32.size a
  inb_S1x48x512x32_S1x48x1x32_0_0_170_0 : ∀ a, (![0, 0, 170, 0] : Fin 4 → Nat) a + S1x48x1x32.size a ≤ S1x48x512x32.size a
  inb_S1x48x205x32_S1x48x1x32_0_0_136_0 : ∀ a, (![0, 0, 136, 0] : Fin 4 → Nat) a + S1x48x1x32.size a ≤ S1x48x205x32.size a
  inb_S1x48x512x32_S1x48x1x32_0_0_173_0 : ∀ a, (![0, 0, 173, 0] : Fin 4 → Nat) a + S1x48x1x32.size a ≤ S1x48x512x32.size a
  inb_S1x48x512x32_S1x48x1x32_0_0_174_0 : ∀ a, (![0, 0, 174, 0] : Fin 4 → Nat) a + S1x48x1x32.size a ≤ S1x48x512x32.size a
  inb_S1x48x512x32_S1x48x1x32_0_0_175_0 : ∀ a, (![0, 0, 175, 0] : Fin 4 → Nat) a + S1x48x1x32.size a ≤ S1x48x512x32.size a
  inb_S1x48x205x32_S1x48x1x32_0_0_137_0 : ∀ a, (![0, 0, 137, 0] : Fin 4 → Nat) a + S1x48x1x32.size a ≤ S1x48x205x32.size a
  inb_S1x48x512x32_S1x48x1x32_0_0_178_0 : ∀ a, (![0, 0, 178, 0] : Fin 4 → Nat) a + S1x48x1x32.size a ≤ S1x48x512x32.size a
  inb_S1x48x512x32_S1x48x1x32_0_0_179_0 : ∀ a, (![0, 0, 179, 0] : Fin 4 → Nat) a + S1x48x1x32.size a ≤ S1x48x512x32.size a
  inb_S1x48x512x32_S1x48x1x32_0_0_180_0 : ∀ a, (![0, 0, 180, 0] : Fin 4 → Nat) a + S1x48x1x32.size a ≤ S1x48x512x32.size a
  inb_S1x48x205x32_S1x48x1x32_0_0_138_0 : ∀ a, (![0, 0, 138, 0] : Fin 4 → Nat) a + S1x48x1x32.size a ≤ S1x48x205x32.size a
  inb_S1x48x512x32_S1x48x1x32_0_0_183_0 : ∀ a, (![0, 0, 183, 0] : Fin 4 → Nat) a + S1x48x1x32.size a ≤ S1x48x512x32.size a
  inb_S1x48x512x32_S1x48x1x32_0_0_184_0 : ∀ a, (![0, 0, 184, 0] : Fin 4 → Nat) a + S1x48x1x32.size a ≤ S1x48x512x32.size a
  inb_S1x48x512x32_S1x48x1x32_0_0_185_0 : ∀ a, (![0, 0, 185, 0] : Fin 4 → Nat) a + S1x48x1x32.size a ≤ S1x48x512x32.size a
  inb_S1x48x205x32_S1x48x1x32_0_0_139_0 : ∀ a, (![0, 0, 139, 0] : Fin 4 → Nat) a + S1x48x1x32.size a ≤ S1x48x205x32.size a
  inb_S1x48x512x32_S1x48x1x32_0_0_188_0 : ∀ a, (![0, 0, 188, 0] : Fin 4 → Nat) a + S1x48x1x32.size a ≤ S1x48x512x32.size a
  inb_S1x48x512x32_S1x48x1x32_0_0_189_0 : ∀ a, (![0, 0, 189, 0] : Fin 4 → Nat) a + S1x48x1x32.size a ≤ S1x48x512x32.size a
  inb_S1x48x512x32_S1x48x1x32_0_0_190_0 : ∀ a, (![0, 0, 190, 0] : Fin 4 → Nat) a + S1x48x1x32.size a ≤ S1x48x512x32.size a
  inb_S1x48x205x32_S1x48x1x32_0_0_140_0 : ∀ a, (![0, 0, 140, 0] : Fin 4 → Nat) a + S1x48x1x32.size a ≤ S1x48x205x32.size a
  inb_S1x48x512x32_S1x48x1x32_0_0_193_0 : ∀ a, (![0, 0, 193, 0] : Fin 4 → Nat) a + S1x48x1x32.size a ≤ S1x48x512x32.size a
  inb_S1x48x512x32_S1x48x1x32_0_0_194_0 : ∀ a, (![0, 0, 194, 0] : Fin 4 → Nat) a + S1x48x1x32.size a ≤ S1x48x512x32.size a
  inb_S1x48x512x32_S1x48x1x32_0_0_195_0 : ∀ a, (![0, 0, 195, 0] : Fin 4 → Nat) a + S1x48x1x32.size a ≤ S1x48x512x32.size a
  inb_S1x48x205x32_S1x48x1x32_0_0_141_0 : ∀ a, (![0, 0, 141, 0] : Fin 4 → Nat) a + S1x48x1x32.size a ≤ S1x48x205x32.size a
  inb_S1x48x512x32_S1x48x1x32_0_0_198_0 : ∀ a, (![0, 0, 198, 0] : Fin 4 → Nat) a + S1x48x1x32.size a ≤ S1x48x512x32.size a
  inb_S1x48x512x32_S1x48x1x32_0_0_199_0 : ∀ a, (![0, 0, 199, 0] : Fin 4 → Nat) a + S1x48x1x32.size a ≤ S1x48x512x32.size a
  inb_S1x48x512x32_S1x48x1x32_0_0_200_0 : ∀ a, (![0, 0, 200, 0] : Fin 4 → Nat) a + S1x48x1x32.size a ≤ S1x48x512x32.size a
  inb_S1x48x205x32_S1x48x1x32_0_0_142_0 : ∀ a, (![0, 0, 142, 0] : Fin 4 → Nat) a + S1x48x1x32.size a ≤ S1x48x205x32.size a
  inb_S1x48x512x32_S1x48x1x32_0_0_203_0 : ∀ a, (![0, 0, 203, 0] : Fin 4 → Nat) a + S1x48x1x32.size a ≤ S1x48x512x32.size a
  inb_S1x48x512x32_S1x48x1x32_0_0_204_0 : ∀ a, (![0, 0, 204, 0] : Fin 4 → Nat) a + S1x48x1x32.size a ≤ S1x48x512x32.size a
  inb_S1x48x512x32_S1x48x1x32_0_0_205_0 : ∀ a, (![0, 0, 205, 0] : Fin 4 → Nat) a + S1x48x1x32.size a ≤ S1x48x512x32.size a
  inb_S1x48x205x32_S1x48x1x32_0_0_143_0 : ∀ a, (![0, 0, 143, 0] : Fin 4 → Nat) a + S1x48x1x32.size a ≤ S1x48x205x32.size a
  inb_S1x48x512x32_S1x48x1x32_0_0_208_0 : ∀ a, (![0, 0, 208, 0] : Fin 4 → Nat) a + S1x48x1x32.size a ≤ S1x48x512x32.size a
  inb_S1x48x512x32_S1x48x1x32_0_0_209_0 : ∀ a, (![0, 0, 209, 0] : Fin 4 → Nat) a + S1x48x1x32.size a ≤ S1x48x512x32.size a
  inb_S1x48x512x32_S1x48x1x32_0_0_210_0 : ∀ a, (![0, 0, 210, 0] : Fin 4 → Nat) a + S1x48x1x32.size a ≤ S1x48x512x32.size a
  inb_S1x48x205x32_S1x48x1x32_0_0_144_0 : ∀ a, (![0, 0, 144, 0] : Fin 4 → Nat) a + S1x48x1x32.size a ≤ S1x48x205x32.size a
  inb_S1x48x512x32_S1x48x1x32_0_0_213_0 : ∀ a, (![0, 0, 213, 0] : Fin 4 → Nat) a + S1x48x1x32.size a ≤ S1x48x512x32.size a
  inb_S1x48x512x32_S1x48x1x32_0_0_214_0 : ∀ a, (![0, 0, 214, 0] : Fin 4 → Nat) a + S1x48x1x32.size a ≤ S1x48x512x32.size a
  inb_S1x48x512x32_S1x48x1x32_0_0_215_0 : ∀ a, (![0, 0, 215, 0] : Fin 4 → Nat) a + S1x48x1x32.size a ≤ S1x48x512x32.size a
  inb_S1x48x205x32_S1x48x1x32_0_0_145_0 : ∀ a, (![0, 0, 145, 0] : Fin 4 → Nat) a + S1x48x1x32.size a ≤ S1x48x205x32.size a
  inb_S1x48x512x32_S1x48x1x32_0_0_218_0 : ∀ a, (![0, 0, 218, 0] : Fin 4 → Nat) a + S1x48x1x32.size a ≤ S1x48x512x32.size a
  inb_S1x48x512x32_S1x48x1x32_0_0_219_0 : ∀ a, (![0, 0, 219, 0] : Fin 4 → Nat) a + S1x48x1x32.size a ≤ S1x48x512x32.size a
  inb_S1x48x512x32_S1x48x1x32_0_0_220_0 : ∀ a, (![0, 0, 220, 0] : Fin 4 → Nat) a + S1x48x1x32.size a ≤ S1x48x512x32.size a
  inb_S1x48x205x32_S1x48x1x32_0_0_146_0 : ∀ a, (![0, 0, 146, 0] : Fin 4 → Nat) a + S1x48x1x32.size a ≤ S1x48x205x32.size a
  inb_S1x48x512x32_S1x48x1x32_0_0_223_0 : ∀ a, (![0, 0, 223, 0] : Fin 4 → Nat) a + S1x48x1x32.size a ≤ S1x48x512x32.size a
  inb_S1x48x512x32_S1x48x1x32_0_0_224_0 : ∀ a, (![0, 0, 224, 0] : Fin 4 → Nat) a + S1x48x1x32.size a ≤ S1x48x512x32.size a
  inb_S1x48x512x32_S1x48x1x32_0_0_225_0 : ∀ a, (![0, 0, 225, 0] : Fin 4 → Nat) a + S1x48x1x32.size a ≤ S1x48x512x32.size a
  inb_S1x48x205x32_S1x48x1x32_0_0_147_0 : ∀ a, (![0, 0, 147, 0] : Fin 4 → Nat) a + S1x48x1x32.size a ≤ S1x48x205x32.size a
  inb_S1x48x512x32_S1x48x1x32_0_0_228_0 : ∀ a, (![0, 0, 228, 0] : Fin 4 → Nat) a + S1x48x1x32.size a ≤ S1x48x512x32.size a
  inb_S1x48x512x32_S1x48x1x32_0_0_229_0 : ∀ a, (![0, 0, 229, 0] : Fin 4 → Nat) a + S1x48x1x32.size a ≤ S1x48x512x32.size a
  inb_S1x48x512x32_S1x48x1x32_0_0_230_0 : ∀ a, (![0, 0, 230, 0] : Fin 4 → Nat) a + S1x48x1x32.size a ≤ S1x48x512x32.size a
  inb_S1x48x205x32_S1x48x1x32_0_0_148_0 : ∀ a, (![0, 0, 148, 0] : Fin 4 → Nat) a + S1x48x1x32.size a ≤ S1x48x205x32.size a
  inb_S1x48x512x32_S1x48x1x32_0_0_233_0 : ∀ a, (![0, 0, 233, 0] : Fin 4 → Nat) a + S1x48x1x32.size a ≤ S1x48x512x32.size a
  inb_S1x48x512x32_S1x48x1x32_0_0_234_0 : ∀ a, (![0, 0, 234, 0] : Fin 4 → Nat) a + S1x48x1x32.size a ≤ S1x48x512x32.size a
  inb_S1x48x512x32_S1x48x1x32_0_0_235_0 : ∀ a, (![0, 0, 235, 0] : Fin 4 → Nat) a + S1x48x1x32.size a ≤ S1x48x512x32.size a
  inb_S1x48x205x32_S1x48x1x32_0_0_149_0 : ∀ a, (![0, 0, 149, 0] : Fin 4 → Nat) a + S1x48x1x32.size a ≤ S1x48x205x32.size a
  inb_S1x48x512x32_S1x48x1x32_0_0_238_0 : ∀ a, (![0, 0, 238, 0] : Fin 4 → Nat) a + S1x48x1x32.size a ≤ S1x48x512x32.size a
  inb_S1x48x512x32_S1x48x1x32_0_0_239_0 : ∀ a, (![0, 0, 239, 0] : Fin 4 → Nat) a + S1x48x1x32.size a ≤ S1x48x512x32.size a
  inb_S1x48x512x32_S1x48x1x32_0_0_240_0 : ∀ a, (![0, 0, 240, 0] : Fin 4 → Nat) a + S1x48x1x32.size a ≤ S1x48x512x32.size a
  inb_S1x48x205x32_S1x48x1x32_0_0_150_0 : ∀ a, (![0, 0, 150, 0] : Fin 4 → Nat) a + S1x48x1x32.size a ≤ S1x48x205x32.size a
  inb_S1x48x512x32_S1x48x1x32_0_0_243_0 : ∀ a, (![0, 0, 243, 0] : Fin 4 → Nat) a + S1x48x1x32.size a ≤ S1x48x512x32.size a
  inb_S1x48x512x32_S1x48x1x32_0_0_244_0 : ∀ a, (![0, 0, 244, 0] : Fin 4 → Nat) a + S1x48x1x32.size a ≤ S1x48x512x32.size a
  inb_S1x48x512x32_S1x48x1x32_0_0_245_0 : ∀ a, (![0, 0, 245, 0] : Fin 4 → Nat) a + S1x48x1x32.size a ≤ S1x48x512x32.size a
  inb_S1x48x205x32_S1x48x1x32_0_0_151_0 : ∀ a, (![0, 0, 151, 0] : Fin 4 → Nat) a + S1x48x1x32.size a ≤ S1x48x205x32.size a
  inb_S1x48x512x32_S1x48x1x32_0_0_248_0 : ∀ a, (![0, 0, 248, 0] : Fin 4 → Nat) a + S1x48x1x32.size a ≤ S1x48x512x32.size a
  inb_S1x48x512x32_S1x48x1x32_0_0_249_0 : ∀ a, (![0, 0, 249, 0] : Fin 4 → Nat) a + S1x48x1x32.size a ≤ S1x48x512x32.size a
  inb_S1x48x512x32_S1x48x1x32_0_0_250_0 : ∀ a, (![0, 0, 250, 0] : Fin 4 → Nat) a + S1x48x1x32.size a ≤ S1x48x512x32.size a
  inb_S1x48x205x32_S1x48x1x32_0_0_152_0 : ∀ a, (![0, 0, 152, 0] : Fin 4 → Nat) a + S1x48x1x32.size a ≤ S1x48x205x32.size a
  inb_S1x48x512x32_S1x48x1x32_0_0_253_0 : ∀ a, (![0, 0, 253, 0] : Fin 4 → Nat) a + S1x48x1x32.size a ≤ S1x48x512x32.size a
  inb_S1x48x512x32_S1x48x1x32_0_0_254_0 : ∀ a, (![0, 0, 254, 0] : Fin 4 → Nat) a + S1x48x1x32.size a ≤ S1x48x512x32.size a
  inb_S1x48x512x32_S1x48x1x32_0_0_255_0 : ∀ a, (![0, 0, 255, 0] : Fin 4 → Nat) a + S1x48x1x32.size a ≤ S1x48x512x32.size a
  inb_S1x48x205x32_S1x48x1x32_0_0_153_0 : ∀ a, (![0, 0, 153, 0] : Fin 4 → Nat) a + S1x48x1x32.size a ≤ S1x48x205x32.size a
  inb_S1x48x512x32_S1x48x1x32_0_0_258_0 : ∀ a, (![0, 0, 258, 0] : Fin 4 → Nat) a + S1x48x1x32.size a ≤ S1x48x512x32.size a
  inb_S1x48x512x32_S1x48x1x32_0_0_259_0 : ∀ a, (![0, 0, 259, 0] : Fin 4 → Nat) a + S1x48x1x32.size a ≤ S1x48x512x32.size a
  inb_S1x48x512x32_S1x48x1x32_0_0_260_0 : ∀ a, (![0, 0, 260, 0] : Fin 4 → Nat) a + S1x48x1x32.size a ≤ S1x48x512x32.size a
  inb_S1x48x205x32_S1x48x1x32_0_0_154_0 : ∀ a, (![0, 0, 154, 0] : Fin 4 → Nat) a + S1x48x1x32.size a ≤ S1x48x205x32.size a
  inb_S1x48x512x32_S1x48x1x32_0_0_263_0 : ∀ a, (![0, 0, 263, 0] : Fin 4 → Nat) a + S1x48x1x32.size a ≤ S1x48x512x32.size a
  inb_S1x48x512x32_S1x48x1x32_0_0_264_0 : ∀ a, (![0, 0, 264, 0] : Fin 4 → Nat) a + S1x48x1x32.size a ≤ S1x48x512x32.size a
  inb_S1x48x512x32_S1x48x1x32_0_0_265_0 : ∀ a, (![0, 0, 265, 0] : Fin 4 → Nat) a + S1x48x1x32.size a ≤ S1x48x512x32.size a
  inb_S1x48x205x32_S1x48x1x32_0_0_155_0 : ∀ a, (![0, 0, 155, 0] : Fin 4 → Nat) a + S1x48x1x32.size a ≤ S1x48x205x32.size a
  inb_S1x48x512x32_S1x48x1x32_0_0_268_0 : ∀ a, (![0, 0, 268, 0] : Fin 4 → Nat) a + S1x48x1x32.size a ≤ S1x48x512x32.size a
  inb_S1x48x512x32_S1x48x1x32_0_0_269_0 : ∀ a, (![0, 0, 269, 0] : Fin 4 → Nat) a + S1x48x1x32.size a ≤ S1x48x512x32.size a
  inb_S1x48x512x32_S1x48x1x32_0_0_270_0 : ∀ a, (![0, 0, 270, 0] : Fin 4 → Nat) a + S1x48x1x32.size a ≤ S1x48x512x32.size a
  inb_S1x48x205x32_S1x48x1x32_0_0_156_0 : ∀ a, (![0, 0, 156, 0] : Fin 4 → Nat) a + S1x48x1x32.size a ≤ S1x48x205x32.size a
  inb_S1x48x512x32_S1x48x1x32_0_0_273_0 : ∀ a, (![0, 0, 273, 0] : Fin 4 → Nat) a + S1x48x1x32.size a ≤ S1x48x512x32.size a
  inb_S1x48x512x32_S1x48x1x32_0_0_274_0 : ∀ a, (![0, 0, 274, 0] : Fin 4 → Nat) a + S1x48x1x32.size a ≤ S1x48x512x32.size a
  inb_S1x48x512x32_S1x48x1x32_0_0_275_0 : ∀ a, (![0, 0, 275, 0] : Fin 4 → Nat) a + S1x48x1x32.size a ≤ S1x48x512x32.size a
  inb_S1x48x205x32_S1x48x1x32_0_0_157_0 : ∀ a, (![0, 0, 157, 0] : Fin 4 → Nat) a + S1x48x1x32.size a ≤ S1x48x205x32.size a
  inb_S1x48x512x32_S1x48x1x32_0_0_278_0 : ∀ a, (![0, 0, 278, 0] : Fin 4 → Nat) a + S1x48x1x32.size a ≤ S1x48x512x32.size a
  inb_S1x48x512x32_S1x48x1x32_0_0_279_0 : ∀ a, (![0, 0, 279, 0] : Fin 4 → Nat) a + S1x48x1x32.size a ≤ S1x48x512x32.size a
  inb_S1x48x512x32_S1x48x1x32_0_0_280_0 : ∀ a, (![0, 0, 280, 0] : Fin 4 → Nat) a + S1x48x1x32.size a ≤ S1x48x512x32.size a
  inb_S1x48x205x32_S1x48x1x32_0_0_158_0 : ∀ a, (![0, 0, 158, 0] : Fin 4 → Nat) a + S1x48x1x32.size a ≤ S1x48x205x32.size a
  inb_S1x48x512x32_S1x48x1x32_0_0_283_0 : ∀ a, (![0, 0, 283, 0] : Fin 4 → Nat) a + S1x48x1x32.size a ≤ S1x48x512x32.size a
  inb_S1x48x512x32_S1x48x1x32_0_0_284_0 : ∀ a, (![0, 0, 284, 0] : Fin 4 → Nat) a + S1x48x1x32.size a ≤ S1x48x512x32.size a
  inb_S1x48x512x32_S1x48x1x32_0_0_285_0 : ∀ a, (![0, 0, 285, 0] : Fin 4 → Nat) a + S1x48x1x32.size a ≤ S1x48x512x32.size a
  inb_S1x48x205x32_S1x48x1x32_0_0_159_0 : ∀ a, (![0, 0, 159, 0] : Fin 4 → Nat) a + S1x48x1x32.size a ≤ S1x48x205x32.size a
  inb_S1x48x512x32_S1x48x1x32_0_0_288_0 : ∀ a, (![0, 0, 288, 0] : Fin 4 → Nat) a + S1x48x1x32.size a ≤ S1x48x512x32.size a
  inb_S1x48x512x32_S1x48x1x32_0_0_289_0 : ∀ a, (![0, 0, 289, 0] : Fin 4 → Nat) a + S1x48x1x32.size a ≤ S1x48x512x32.size a
  inb_S1x48x512x32_S1x48x1x32_0_0_290_0 : ∀ a, (![0, 0, 290, 0] : Fin 4 → Nat) a + S1x48x1x32.size a ≤ S1x48x512x32.size a
  inb_S1x48x205x32_S1x48x1x32_0_0_160_0 : ∀ a, (![0, 0, 160, 0] : Fin 4 → Nat) a + S1x48x1x32.size a ≤ S1x48x205x32.size a
  inb_S1x48x512x32_S1x48x1x32_0_0_293_0 : ∀ a, (![0, 0, 293, 0] : Fin 4 → Nat) a + S1x48x1x32.size a ≤ S1x48x512x32.size a
  inb_S1x48x512x32_S1x48x1x32_0_0_294_0 : ∀ a, (![0, 0, 294, 0] : Fin 4 → Nat) a + S1x48x1x32.size a ≤ S1x48x512x32.size a
  inb_S1x48x512x32_S1x48x1x32_0_0_295_0 : ∀ a, (![0, 0, 295, 0] : Fin 4 → Nat) a + S1x48x1x32.size a ≤ S1x48x512x32.size a
  inb_S1x48x205x32_S1x48x1x32_0_0_161_0 : ∀ a, (![0, 0, 161, 0] : Fin 4 → Nat) a + S1x48x1x32.size a ≤ S1x48x205x32.size a
  inb_S1x48x512x32_S1x48x1x32_0_0_298_0 : ∀ a, (![0, 0, 298, 0] : Fin 4 → Nat) a + S1x48x1x32.size a ≤ S1x48x512x32.size a
  inb_S1x48x512x32_S1x48x1x32_0_0_299_0 : ∀ a, (![0, 0, 299, 0] : Fin 4 → Nat) a + S1x48x1x32.size a ≤ S1x48x512x32.size a
  inb_S1x48x512x32_S1x48x1x32_0_0_300_0 : ∀ a, (![0, 0, 300, 0] : Fin 4 → Nat) a + S1x48x1x32.size a ≤ S1x48x512x32.size a
  inb_S1x48x205x32_S1x48x1x32_0_0_162_0 : ∀ a, (![0, 0, 162, 0] : Fin 4 → Nat) a + S1x48x1x32.size a ≤ S1x48x205x32.size a
  inb_S1x48x512x32_S1x48x1x32_0_0_303_0 : ∀ a, (![0, 0, 303, 0] : Fin 4 → Nat) a + S1x48x1x32.size a ≤ S1x48x512x32.size a
  inb_S1x48x512x32_S1x48x1x32_0_0_304_0 : ∀ a, (![0, 0, 304, 0] : Fin 4 → Nat) a + S1x48x1x32.size a ≤ S1x48x512x32.size a
  inb_S1x48x512x32_S1x48x1x32_0_0_305_0 : ∀ a, (![0, 0, 305, 0] : Fin 4 → Nat) a + S1x48x1x32.size a ≤ S1x48x512x32.size a
  inb_S1x48x205x32_S1x48x1x32_0_0_163_0 : ∀ a, (![0, 0, 163, 0] : Fin 4 → Nat) a + S1x48x1x32.size a ≤ S1x48x205x32.size a
  inb_S1x48x512x32_S1x48x1x32_0_0_308_0 : ∀ a, (![0, 0, 308, 0] : Fin 4 → Nat) a + S1x48x1x32.size a ≤ S1x48x512x32.size a
  inb_S1x48x512x32_S1x48x1x32_0_0_309_0 : ∀ a, (![0, 0, 309, 0] : Fin 4 → Nat) a + S1x48x1x32.size a ≤ S1x48x512x32.size a
  inb_S1x48x512x32_S1x48x1x32_0_0_310_0 : ∀ a, (![0, 0, 310, 0] : Fin 4 → Nat) a + S1x48x1x32.size a ≤ S1x48x512x32.size a
  inb_S1x48x205x32_S1x48x1x32_0_0_164_0 : ∀ a, (![0, 0, 164, 0] : Fin 4 → Nat) a + S1x48x1x32.size a ≤ S1x48x205x32.size a
  inb_S1x48x512x32_S1x48x1x32_0_0_313_0 : ∀ a, (![0, 0, 313, 0] : Fin 4 → Nat) a + S1x48x1x32.size a ≤ S1x48x512x32.size a
  inb_S1x48x512x32_S1x48x1x32_0_0_314_0 : ∀ a, (![0, 0, 314, 0] : Fin 4 → Nat) a + S1x48x1x32.size a ≤ S1x48x512x32.size a
  inb_S1x48x512x32_S1x48x1x32_0_0_315_0 : ∀ a, (![0, 0, 315, 0] : Fin 4 → Nat) a + S1x48x1x32.size a ≤ S1x48x512x32.size a
  inb_S1x48x205x32_S1x48x1x32_0_0_165_0 : ∀ a, (![0, 0, 165, 0] : Fin 4 → Nat) a + S1x48x1x32.size a ≤ S1x48x205x32.size a
  inb_S1x48x512x32_S1x48x1x32_0_0_318_0 : ∀ a, (![0, 0, 318, 0] : Fin 4 → Nat) a + S1x48x1x32.size a ≤ S1x48x512x32.size a
  inb_S1x48x512x32_S1x48x1x32_0_0_319_0 : ∀ a, (![0, 0, 319, 0] : Fin 4 → Nat) a + S1x48x1x32.size a ≤ S1x48x512x32.size a
  inb_S1x48x512x32_S1x48x1x32_0_0_320_0 : ∀ a, (![0, 0, 320, 0] : Fin 4 → Nat) a + S1x48x1x32.size a ≤ S1x48x512x32.size a
  inb_S1x48x205x32_S1x48x1x32_0_0_166_0 : ∀ a, (![0, 0, 166, 0] : Fin 4 → Nat) a + S1x48x1x32.size a ≤ S1x48x205x32.size a
  inb_S1x48x512x32_S1x48x1x32_0_0_323_0 : ∀ a, (![0, 0, 323, 0] : Fin 4 → Nat) a + S1x48x1x32.size a ≤ S1x48x512x32.size a
  inb_S1x48x512x32_S1x48x1x32_0_0_324_0 : ∀ a, (![0, 0, 324, 0] : Fin 4 → Nat) a + S1x48x1x32.size a ≤ S1x48x512x32.size a
  inb_S1x48x512x32_S1x48x1x32_0_0_325_0 : ∀ a, (![0, 0, 325, 0] : Fin 4 → Nat) a + S1x48x1x32.size a ≤ S1x48x512x32.size a
  inb_S1x48x205x32_S1x48x1x32_0_0_167_0 : ∀ a, (![0, 0, 167, 0] : Fin 4 → Nat) a + S1x48x1x32.size a ≤ S1x48x205x32.size a
  inb_S1x48x512x32_S1x48x1x32_0_0_328_0 : ∀ a, (![0, 0, 328, 0] : Fin 4 → Nat) a + S1x48x1x32.size a ≤ S1x48x512x32.size a
  inb_S1x48x512x32_S1x48x1x32_0_0_329_0 : ∀ a, (![0, 0, 329, 0] : Fin 4 → Nat) a + S1x48x1x32.size a ≤ S1x48x512x32.size a
  inb_S1x48x512x32_S1x48x1x32_0_0_330_0 : ∀ a, (![0, 0, 330, 0] : Fin 4 → Nat) a + S1x48x1x32.size a ≤ S1x48x512x32.size a
  inb_S1x48x205x32_S1x48x1x32_0_0_168_0 : ∀ a, (![0, 0, 168, 0] : Fin 4 → Nat) a + S1x48x1x32.size a ≤ S1x48x205x32.size a
  inb_S1x48x512x32_S1x48x1x32_0_0_333_0 : ∀ a, (![0, 0, 333, 0] : Fin 4 → Nat) a + S1x48x1x32.size a ≤ S1x48x512x32.size a
  inb_S1x48x512x32_S1x48x1x32_0_0_334_0 : ∀ a, (![0, 0, 334, 0] : Fin 4 → Nat) a + S1x48x1x32.size a ≤ S1x48x512x32.size a
  inb_S1x48x512x32_S1x48x1x32_0_0_335_0 : ∀ a, (![0, 0, 335, 0] : Fin 4 → Nat) a + S1x48x1x32.size a ≤ S1x48x512x32.size a
  inb_S1x48x205x32_S1x48x1x32_0_0_169_0 : ∀ a, (![0, 0, 169, 0] : Fin 4 → Nat) a + S1x48x1x32.size a ≤ S1x48x205x32.size a
  inb_S1x48x512x32_S1x48x1x32_0_0_338_0 : ∀ a, (![0, 0, 338, 0] : Fin 4 → Nat) a + S1x48x1x32.size a ≤ S1x48x512x32.size a
  inb_S1x48x512x32_S1x48x1x32_0_0_339_0 : ∀ a, (![0, 0, 339, 0] : Fin 4 → Nat) a + S1x48x1x32.size a ≤ S1x48x512x32.size a
  inb_S1x48x512x32_S1x48x1x32_0_0_340_0 : ∀ a, (![0, 0, 340, 0] : Fin 4 → Nat) a + S1x48x1x32.size a ≤ S1x48x512x32.size a
  inb_S1x48x205x32_S1x48x1x32_0_0_170_0 : ∀ a, (![0, 0, 170, 0] : Fin 4 → Nat) a + S1x48x1x32.size a ≤ S1x48x205x32.size a
  inb_S1x48x512x32_S1x48x1x32_0_0_343_0 : ∀ a, (![0, 0, 343, 0] : Fin 4 → Nat) a + S1x48x1x32.size a ≤ S1x48x512x32.size a
  inb_S1x48x512x32_S1x48x1x32_0_0_344_0 : ∀ a, (![0, 0, 344, 0] : Fin 4 → Nat) a + S1x48x1x32.size a ≤ S1x48x512x32.size a
  inb_S1x48x512x32_S1x48x1x32_0_0_345_0 : ∀ a, (![0, 0, 345, 0] : Fin 4 → Nat) a + S1x48x1x32.size a ≤ S1x48x512x32.size a
  inb_S1x48x205x32_S1x48x1x32_0_0_171_0 : ∀ a, (![0, 0, 171, 0] : Fin 4 → Nat) a + S1x48x1x32.size a ≤ S1x48x205x32.size a
  inb_S1x48x512x32_S1x48x1x32_0_0_348_0 : ∀ a, (![0, 0, 348, 0] : Fin 4 → Nat) a + S1x48x1x32.size a ≤ S1x48x512x32.size a
  inb_S1x48x512x32_S1x48x1x32_0_0_349_0 : ∀ a, (![0, 0, 349, 0] : Fin 4 → Nat) a + S1x48x1x32.size a ≤ S1x48x512x32.size a
  inb_S1x48x512x32_S1x48x1x32_0_0_350_0 : ∀ a, (![0, 0, 350, 0] : Fin 4 → Nat) a + S1x48x1x32.size a ≤ S1x48x512x32.size a
  inb_S1x48x205x32_S1x48x1x32_0_0_172_0 : ∀ a, (![0, 0, 172, 0] : Fin 4 → Nat) a + S1x48x1x32.size a ≤ S1x48x205x32.size a
  inb_S1x48x512x32_S1x48x1x32_0_0_353_0 : ∀ a, (![0, 0, 353, 0] : Fin 4 → Nat) a + S1x48x1x32.size a ≤ S1x48x512x32.size a
  inb_S1x48x512x32_S1x48x1x32_0_0_354_0 : ∀ a, (![0, 0, 354, 0] : Fin 4 → Nat) a + S1x48x1x32.size a ≤ S1x48x512x32.size a
  inb_S1x48x512x32_S1x48x1x32_0_0_355_0 : ∀ a, (![0, 0, 355, 0] : Fin 4 → Nat) a + S1x48x1x32.size a ≤ S1x48x512x32.size a
  inb_S1x48x205x32_S1x48x1x32_0_0_173_0 : ∀ a, (![0, 0, 173, 0] : Fin 4 → Nat) a + S1x48x1x32.size a ≤ S1x48x205x32.size a
  inb_S1x48x512x32_S1x48x1x32_0_0_358_0 : ∀ a, (![0, 0, 358, 0] : Fin 4 → Nat) a + S1x48x1x32.size a ≤ S1x48x512x32.size a
  inb_S1x48x512x32_S1x48x1x32_0_0_359_0 : ∀ a, (![0, 0, 359, 0] : Fin 4 → Nat) a + S1x48x1x32.size a ≤ S1x48x512x32.size a
  inb_S1x48x512x32_S1x48x1x32_0_0_360_0 : ∀ a, (![0, 0, 360, 0] : Fin 4 → Nat) a + S1x48x1x32.size a ≤ S1x48x512x32.size a
  inb_S1x48x205x32_S1x48x1x32_0_0_174_0 : ∀ a, (![0, 0, 174, 0] : Fin 4 → Nat) a + S1x48x1x32.size a ≤ S1x48x205x32.size a
  inb_S1x48x512x32_S1x48x1x32_0_0_363_0 : ∀ a, (![0, 0, 363, 0] : Fin 4 → Nat) a + S1x48x1x32.size a ≤ S1x48x512x32.size a
  inb_S1x48x512x32_S1x48x1x32_0_0_364_0 : ∀ a, (![0, 0, 364, 0] : Fin 4 → Nat) a + S1x48x1x32.size a ≤ S1x48x512x32.size a
  inb_S1x48x512x32_S1x48x1x32_0_0_365_0 : ∀ a, (![0, 0, 365, 0] : Fin 4 → Nat) a + S1x48x1x32.size a ≤ S1x48x512x32.size a
  inb_S1x48x205x32_S1x48x1x32_0_0_175_0 : ∀ a, (![0, 0, 175, 0] : Fin 4 → Nat) a + S1x48x1x32.size a ≤ S1x48x205x32.size a
  inb_S1x48x512x32_S1x48x1x32_0_0_368_0 : ∀ a, (![0, 0, 368, 0] : Fin 4 → Nat) a + S1x48x1x32.size a ≤ S1x48x512x32.size a
  inb_S1x48x512x32_S1x48x1x32_0_0_369_0 : ∀ a, (![0, 0, 369, 0] : Fin 4 → Nat) a + S1x48x1x32.size a ≤ S1x48x512x32.size a
  inb_S1x48x512x32_S1x48x1x32_0_0_370_0 : ∀ a, (![0, 0, 370, 0] : Fin 4 → Nat) a + S1x48x1x32.size a ≤ S1x48x512x32.size a
  inb_S1x48x205x32_S1x48x1x32_0_0_176_0 : ∀ a, (![0, 0, 176, 0] : Fin 4 → Nat) a + S1x48x1x32.size a ≤ S1x48x205x32.size a
  inb_S1x48x512x32_S1x48x1x32_0_0_373_0 : ∀ a, (![0, 0, 373, 0] : Fin 4 → Nat) a + S1x48x1x32.size a ≤ S1x48x512x32.size a
  inb_S1x48x512x32_S1x48x1x32_0_0_374_0 : ∀ a, (![0, 0, 374, 0] : Fin 4 → Nat) a + S1x48x1x32.size a ≤ S1x48x512x32.size a
  inb_S1x48x512x32_S1x48x1x32_0_0_375_0 : ∀ a, (![0, 0, 375, 0] : Fin 4 → Nat) a + S1x48x1x32.size a ≤ S1x48x512x32.size a
  inb_S1x48x205x32_S1x48x1x32_0_0_177_0 : ∀ a, (![0, 0, 177, 0] : Fin 4 → Nat) a + S1x48x1x32.size a ≤ S1x48x205x32.size a
  inb_S1x48x512x32_S1x48x1x32_0_0_378_0 : ∀ a, (![0, 0, 378, 0] : Fin 4 → Nat) a + S1x48x1x32.size a ≤ S1x48x512x32.size a
  inb_S1x48x512x32_S1x48x1x32_0_0_379_0 : ∀ a, (![0, 0, 379, 0] : Fin 4 → Nat) a + S1x48x1x32.size a ≤ S1x48x512x32.size a
  inb_S1x48x512x32_S1x48x1x32_0_0_380_0 : ∀ a, (![0, 0, 380, 0] : Fin 4 → Nat) a + S1x48x1x32.size a ≤ S1x48x512x32.size a
  inb_S1x48x205x32_S1x48x1x32_0_0_178_0 : ∀ a, (![0, 0, 178, 0] : Fin 4 → Nat) a + S1x48x1x32.size a ≤ S1x48x205x32.size a
  inb_S1x48x512x32_S1x48x1x32_0_0_383_0 : ∀ a, (![0, 0, 383, 0] : Fin 4 → Nat) a + S1x48x1x32.size a ≤ S1x48x512x32.size a
  inb_S1x48x512x32_S1x48x1x32_0_0_384_0 : ∀ a, (![0, 0, 384, 0] : Fin 4 → Nat) a + S1x48x1x32.size a ≤ S1x48x512x32.size a
  inb_S1x48x512x32_S1x48x1x32_0_0_385_0 : ∀ a, (![0, 0, 385, 0] : Fin 4 → Nat) a + S1x48x1x32.size a ≤ S1x48x512x32.size a
  inb_S1x48x205x32_S1x48x1x32_0_0_179_0 : ∀ a, (![0, 0, 179, 0] : Fin 4 → Nat) a + S1x48x1x32.size a ≤ S1x48x205x32.size a
  inb_S1x48x512x32_S1x48x1x32_0_0_388_0 : ∀ a, (![0, 0, 388, 0] : Fin 4 → Nat) a + S1x48x1x32.size a ≤ S1x48x512x32.size a
  inb_S1x48x512x32_S1x48x1x32_0_0_389_0 : ∀ a, (![0, 0, 389, 0] : Fin 4 → Nat) a + S1x48x1x32.size a ≤ S1x48x512x32.size a
  inb_S1x48x512x32_S1x48x1x32_0_0_390_0 : ∀ a, (![0, 0, 390, 0] : Fin 4 → Nat) a + S1x48x1x32.size a ≤ S1x48x512x32.size a
  inb_S1x48x205x32_S1x48x1x32_0_0_180_0 : ∀ a, (![0, 0, 180, 0] : Fin 4 → Nat) a + S1x48x1x32.size a ≤ S1x48x205x32.size a
  inb_S1x48x512x32_S1x48x1x32_0_0_393_0 : ∀ a, (![0, 0, 393, 0] : Fin 4 → Nat) a + S1x48x1x32.size a ≤ S1x48x512x32.size a
  inb_S1x48x512x32_S1x48x1x32_0_0_394_0 : ∀ a, (![0, 0, 394, 0] : Fin 4 → Nat) a + S1x48x1x32.size a ≤ S1x48x512x32.size a
  inb_S1x48x512x32_S1x48x1x32_0_0_395_0 : ∀ a, (![0, 0, 395, 0] : Fin 4 → Nat) a + S1x48x1x32.size a ≤ S1x48x512x32.size a
  inb_S1x48x205x32_S1x48x1x32_0_0_181_0 : ∀ a, (![0, 0, 181, 0] : Fin 4 → Nat) a + S1x48x1x32.size a ≤ S1x48x205x32.size a
  inb_S1x48x512x32_S1x48x1x32_0_0_398_0 : ∀ a, (![0, 0, 398, 0] : Fin 4 → Nat) a + S1x48x1x32.size a ≤ S1x48x512x32.size a
  inb_S1x48x512x32_S1x48x1x32_0_0_399_0 : ∀ a, (![0, 0, 399, 0] : Fin 4 → Nat) a + S1x48x1x32.size a ≤ S1x48x512x32.size a
  inb_S1x48x512x32_S1x48x1x32_0_0_400_0 : ∀ a, (![0, 0, 400, 0] : Fin 4 → Nat) a + S1x48x1x32.size a ≤ S1x48x512x32.size a
  inb_S1x48x205x32_S1x48x1x32_0_0_182_0 : ∀ a, (![0, 0, 182, 0] : Fin 4 → Nat) a + S1x48x1x32.size a ≤ S1x48x205x32.size a
  inb_S1x48x512x32_S1x48x1x32_0_0_403_0 : ∀ a, (![0, 0, 403, 0] : Fin 4 → Nat) a + S1x48x1x32.size a ≤ S1x48x512x32.size a
  inb_S1x48x512x32_S1x48x1x32_0_0_404_0 : ∀ a, (![0, 0, 404, 0] : Fin 4 → Nat) a + S1x48x1x32.size a ≤ S1x48x512x32.size a
  inb_S1x48x512x32_S1x48x1x32_0_0_405_0 : ∀ a, (![0, 0, 405, 0] : Fin 4 → Nat) a + S1x48x1x32.size a ≤ S1x48x512x32.size a
  inb_S1x48x205x32_S1x48x1x32_0_0_183_0 : ∀ a, (![0, 0, 183, 0] : Fin 4 → Nat) a + S1x48x1x32.size a ≤ S1x48x205x32.size a
  inb_S1x48x512x32_S1x48x1x32_0_0_408_0 : ∀ a, (![0, 0, 408, 0] : Fin 4 → Nat) a + S1x48x1x32.size a ≤ S1x48x512x32.size a
  inb_S1x48x512x32_S1x48x1x32_0_0_409_0 : ∀ a, (![0, 0, 409, 0] : Fin 4 → Nat) a + S1x48x1x32.size a ≤ S1x48x512x32.size a
  inb_S1x48x512x32_S1x48x1x32_0_0_410_0 : ∀ a, (![0, 0, 410, 0] : Fin 4 → Nat) a + S1x48x1x32.size a ≤ S1x48x512x32.size a
  inb_S1x48x205x32_S1x48x1x32_0_0_184_0 : ∀ a, (![0, 0, 184, 0] : Fin 4 → Nat) a + S1x48x1x32.size a ≤ S1x48x205x32.size a
  inb_S1x48x512x32_S1x48x1x32_0_0_413_0 : ∀ a, (![0, 0, 413, 0] : Fin 4 → Nat) a + S1x48x1x32.size a ≤ S1x48x512x32.size a
  inb_S1x48x512x32_S1x48x1x32_0_0_414_0 : ∀ a, (![0, 0, 414, 0] : Fin 4 → Nat) a + S1x48x1x32.size a ≤ S1x48x512x32.size a
  inb_S1x48x512x32_S1x48x1x32_0_0_415_0 : ∀ a, (![0, 0, 415, 0] : Fin 4 → Nat) a + S1x48x1x32.size a ≤ S1x48x512x32.size a
  inb_S1x48x205x32_S1x48x1x32_0_0_185_0 : ∀ a, (![0, 0, 185, 0] : Fin 4 → Nat) a + S1x48x1x32.size a ≤ S1x48x205x32.size a
  inb_S1x48x512x32_S1x48x1x32_0_0_418_0 : ∀ a, (![0, 0, 418, 0] : Fin 4 → Nat) a + S1x48x1x32.size a ≤ S1x48x512x32.size a
  inb_S1x48x512x32_S1x48x1x32_0_0_419_0 : ∀ a, (![0, 0, 419, 0] : Fin 4 → Nat) a + S1x48x1x32.size a ≤ S1x48x512x32.size a
  inb_S1x48x512x32_S1x48x1x32_0_0_420_0 : ∀ a, (![0, 0, 420, 0] : Fin 4 → Nat) a + S1x48x1x32.size a ≤ S1x48x512x32.size a
  inb_S1x48x205x32_S1x48x1x32_0_0_186_0 : ∀ a, (![0, 0, 186, 0] : Fin 4 → Nat) a + S1x48x1x32.size a ≤ S1x48x205x32.size a
  inb_S1x48x512x32_S1x48x1x32_0_0_423_0 : ∀ a, (![0, 0, 423, 0] : Fin 4 → Nat) a + S1x48x1x32.size a ≤ S1x48x512x32.size a
  inb_S1x48x512x32_S1x48x1x32_0_0_424_0 : ∀ a, (![0, 0, 424, 0] : Fin 4 → Nat) a + S1x48x1x32.size a ≤ S1x48x512x32.size a
  inb_S1x48x512x32_S1x48x1x32_0_0_425_0 : ∀ a, (![0, 0, 425, 0] : Fin 4 → Nat) a + S1x48x1x32.size a ≤ S1x48x512x32.size a
  inb_S1x48x205x32_S1x48x1x32_0_0_187_0 : ∀ a, (![0, 0, 187, 0] : Fin 4 → Nat) a + S1x48x1x32.size a ≤ S1x48x205x32.size a
  inb_S1x48x512x32_S1x48x1x32_0_0_428_0 : ∀ a, (![0, 0, 428, 0] : Fin 4 → Nat) a + S1x48x1x32.size a ≤ S1x48x512x32.size a
  inb_S1x48x512x32_S1x48x1x32_0_0_429_0 : ∀ a, (![0, 0, 429, 0] : Fin 4 → Nat) a + S1x48x1x32.size a ≤ S1x48x512x32.size a
  inb_S1x48x512x32_S1x48x1x32_0_0_430_0 : ∀ a, (![0, 0, 430, 0] : Fin 4 → Nat) a + S1x48x1x32.size a ≤ S1x48x512x32.size a
  inb_S1x48x205x32_S1x48x1x32_0_0_188_0 : ∀ a, (![0, 0, 188, 0] : Fin 4 → Nat) a + S1x48x1x32.size a ≤ S1x48x205x32.size a
  inb_S1x48x512x32_S1x48x1x32_0_0_433_0 : ∀ a, (![0, 0, 433, 0] : Fin 4 → Nat) a + S1x48x1x32.size a ≤ S1x48x512x32.size a
  inb_S1x48x512x32_S1x48x1x32_0_0_434_0 : ∀ a, (![0, 0, 434, 0] : Fin 4 → Nat) a + S1x48x1x32.size a ≤ S1x48x512x32.size a
  inb_S1x48x512x32_S1x48x1x32_0_0_435_0 : ∀ a, (![0, 0, 435, 0] : Fin 4 → Nat) a + S1x48x1x32.size a ≤ S1x48x512x32.size a
  inb_S1x48x205x32_S1x48x1x32_0_0_189_0 : ∀ a, (![0, 0, 189, 0] : Fin 4 → Nat) a + S1x48x1x32.size a ≤ S1x48x205x32.size a
  inb_S1x48x512x32_S1x48x1x32_0_0_438_0 : ∀ a, (![0, 0, 438, 0] : Fin 4 → Nat) a + S1x48x1x32.size a ≤ S1x48x512x32.size a
  inb_S1x48x512x32_S1x48x1x32_0_0_439_0 : ∀ a, (![0, 0, 439, 0] : Fin 4 → Nat) a + S1x48x1x32.size a ≤ S1x48x512x32.size a
  inb_S1x48x512x32_S1x48x1x32_0_0_440_0 : ∀ a, (![0, 0, 440, 0] : Fin 4 → Nat) a + S1x48x1x32.size a ≤ S1x48x512x32.size a
  inb_S1x48x205x32_S1x48x1x32_0_0_190_0 : ∀ a, (![0, 0, 190, 0] : Fin 4 → Nat) a + S1x48x1x32.size a ≤ S1x48x205x32.size a
  inb_S1x48x512x32_S1x48x1x32_0_0_443_0 : ∀ a, (![0, 0, 443, 0] : Fin 4 → Nat) a + S1x48x1x32.size a ≤ S1x48x512x32.size a
  inb_S1x48x512x32_S1x48x1x32_0_0_444_0 : ∀ a, (![0, 0, 444, 0] : Fin 4 → Nat) a + S1x48x1x32.size a ≤ S1x48x512x32.size a
  inb_S1x48x512x32_S1x48x1x32_0_0_445_0 : ∀ a, (![0, 0, 445, 0] : Fin 4 → Nat) a + S1x48x1x32.size a ≤ S1x48x512x32.size a
  inb_S1x48x205x32_S1x48x1x32_0_0_191_0 : ∀ a, (![0, 0, 191, 0] : Fin 4 → Nat) a + S1x48x1x32.size a ≤ S1x48x205x32.size a
  inb_S1x48x512x32_S1x48x1x32_0_0_448_0 : ∀ a, (![0, 0, 448, 0] : Fin 4 → Nat) a + S1x48x1x32.size a ≤ S1x48x512x32.size a
  inb_S1x48x512x32_S1x48x1x32_0_0_449_0 : ∀ a, (![0, 0, 449, 0] : Fin 4 → Nat) a + S1x48x1x32.size a ≤ S1x48x512x32.size a
  inb_S1x48x512x32_S1x48x1x32_0_0_450_0 : ∀ a, (![0, 0, 450, 0] : Fin 4 → Nat) a + S1x48x1x32.size a ≤ S1x48x512x32.size a
  inb_S1x48x205x32_S1x48x1x32_0_0_192_0 : ∀ a, (![0, 0, 192, 0] : Fin 4 → Nat) a + S1x48x1x32.size a ≤ S1x48x205x32.size a
  inb_S1x48x512x32_S1x48x1x32_0_0_453_0 : ∀ a, (![0, 0, 453, 0] : Fin 4 → Nat) a + S1x48x1x32.size a ≤ S1x48x512x32.size a
  inb_S1x48x512x32_S1x48x1x32_0_0_454_0 : ∀ a, (![0, 0, 454, 0] : Fin 4 → Nat) a + S1x48x1x32.size a ≤ S1x48x512x32.size a
  inb_S1x48x512x32_S1x48x1x32_0_0_455_0 : ∀ a, (![0, 0, 455, 0] : Fin 4 → Nat) a + S1x48x1x32.size a ≤ S1x48x512x32.size a
  inb_S1x48x205x32_S1x48x1x32_0_0_193_0 : ∀ a, (![0, 0, 193, 0] : Fin 4 → Nat) a + S1x48x1x32.size a ≤ S1x48x205x32.size a
  inb_S1x48x512x32_S1x48x1x32_0_0_458_0 : ∀ a, (![0, 0, 458, 0] : Fin 4 → Nat) a + S1x48x1x32.size a ≤ S1x48x512x32.size a
  inb_S1x48x512x32_S1x48x1x32_0_0_459_0 : ∀ a, (![0, 0, 459, 0] : Fin 4 → Nat) a + S1x48x1x32.size a ≤ S1x48x512x32.size a
  inb_S1x48x512x32_S1x48x1x32_0_0_460_0 : ∀ a, (![0, 0, 460, 0] : Fin 4 → Nat) a + S1x48x1x32.size a ≤ S1x48x512x32.size a
  inb_S1x48x205x32_S1x48x1x32_0_0_194_0 : ∀ a, (![0, 0, 194, 0] : Fin 4 → Nat) a + S1x48x1x32.size a ≤ S1x48x205x32.size a
  inb_S1x48x512x32_S1x48x1x32_0_0_463_0 : ∀ a, (![0, 0, 463, 0] : Fin 4 → Nat) a + S1x48x1x32.size a ≤ S1x48x512x32.size a
  inb_S1x48x512x32_S1x48x1x32_0_0_464_0 : ∀ a, (![0, 0, 464, 0] : Fin 4 → Nat) a + S1x48x1x32.size a ≤ S1x48x512x32.size a
  inb_S1x48x512x32_S1x48x1x32_0_0_465_0 : ∀ a, (![0, 0, 465, 0] : Fin 4 → Nat) a + S1x48x1x32.size a ≤ S1x48x512x32.size a
  inb_S1x48x205x32_S1x48x1x32_0_0_195_0 : ∀ a, (![0, 0, 195, 0] : Fin 4 → Nat) a + S1x48x1x32.size a ≤ S1x48x205x32.size a
  inb_S1x48x512x32_S1x48x1x32_0_0_468_0 : ∀ a, (![0, 0, 468, 0] : Fin 4 → Nat) a + S1x48x1x32.size a ≤ S1x48x512x32.size a
  inb_S1x48x512x32_S1x48x1x32_0_0_469_0 : ∀ a, (![0, 0, 469, 0] : Fin 4 → Nat) a + S1x48x1x32.size a ≤ S1x48x512x32.size a
  inb_S1x48x512x32_S1x48x1x32_0_0_470_0 : ∀ a, (![0, 0, 470, 0] : Fin 4 → Nat) a + S1x48x1x32.size a ≤ S1x48x512x32.size a
  inb_S1x48x205x32_S1x48x1x32_0_0_196_0 : ∀ a, (![0, 0, 196, 0] : Fin 4 → Nat) a + S1x48x1x32.size a ≤ S1x48x205x32.size a
  inb_S1x48x512x32_S1x48x1x32_0_0_473_0 : ∀ a, (![0, 0, 473, 0] : Fin 4 → Nat) a + S1x48x1x32.size a ≤ S1x48x512x32.size a
  inb_S1x48x512x32_S1x48x1x32_0_0_474_0 : ∀ a, (![0, 0, 474, 0] : Fin 4 → Nat) a + S1x48x1x32.size a ≤ S1x48x512x32.size a
  inb_S1x48x512x32_S1x48x1x32_0_0_475_0 : ∀ a, (![0, 0, 475, 0] : Fin 4 → Nat) a + S1x48x1x32.size a ≤ S1x48x512x32.size a
  inb_S1x48x205x32_S1x48x1x32_0_0_197_0 : ∀ a, (![0, 0, 197, 0] : Fin 4 → Nat) a + S1x48x1x32.size a ≤ S1x48x205x32.size a
  inb_S1x48x512x32_S1x48x1x32_0_0_478_0 : ∀ a, (![0, 0, 478, 0] : Fin 4 → Nat) a + S1x48x1x32.size a ≤ S1x48x512x32.size a
  inb_S1x48x512x32_S1x48x1x32_0_0_479_0 : ∀ a, (![0, 0, 479, 0] : Fin 4 → Nat) a + S1x48x1x32.size a ≤ S1x48x512x32.size a
  inb_S1x48x512x32_S1x48x1x32_0_0_480_0 : ∀ a, (![0, 0, 480, 0] : Fin 4 → Nat) a + S1x48x1x32.size a ≤ S1x48x512x32.size a
  inb_S1x48x205x32_S1x48x1x32_0_0_198_0 : ∀ a, (![0, 0, 198, 0] : Fin 4 → Nat) a + S1x48x1x32.size a ≤ S1x48x205x32.size a
  inb_S1x48x512x32_S1x48x1x32_0_0_483_0 : ∀ a, (![0, 0, 483, 0] : Fin 4 → Nat) a + S1x48x1x32.size a ≤ S1x48x512x32.size a
  inb_S1x48x512x32_S1x48x1x32_0_0_484_0 : ∀ a, (![0, 0, 484, 0] : Fin 4 → Nat) a + S1x48x1x32.size a ≤ S1x48x512x32.size a
  inb_S1x48x512x32_S1x48x1x32_0_0_485_0 : ∀ a, (![0, 0, 485, 0] : Fin 4 → Nat) a + S1x48x1x32.size a ≤ S1x48x512x32.size a
  inb_S1x48x205x32_S1x48x1x32_0_0_199_0 : ∀ a, (![0, 0, 199, 0] : Fin 4 → Nat) a + S1x48x1x32.size a ≤ S1x48x205x32.size a
  inb_S1x48x512x32_S1x48x1x32_0_0_488_0 : ∀ a, (![0, 0, 488, 0] : Fin 4 → Nat) a + S1x48x1x32.size a ≤ S1x48x512x32.size a
  inb_S1x48x512x32_S1x48x1x32_0_0_489_0 : ∀ a, (![0, 0, 489, 0] : Fin 4 → Nat) a + S1x48x1x32.size a ≤ S1x48x512x32.size a
  inb_S1x48x512x32_S1x48x1x32_0_0_490_0 : ∀ a, (![0, 0, 490, 0] : Fin 4 → Nat) a + S1x48x1x32.size a ≤ S1x48x512x32.size a
  inb_S1x48x205x32_S1x48x1x32_0_0_200_0 : ∀ a, (![0, 0, 200, 0] : Fin 4 → Nat) a + S1x48x1x32.size a ≤ S1x48x205x32.size a
  inb_S1x48x512x32_S1x48x1x32_0_0_493_0 : ∀ a, (![0, 0, 493, 0] : Fin 4 → Nat) a + S1x48x1x32.size a ≤ S1x48x512x32.size a
  inb_S1x48x512x32_S1x48x1x32_0_0_494_0 : ∀ a, (![0, 0, 494, 0] : Fin 4 → Nat) a + S1x48x1x32.size a ≤ S1x48x512x32.size a
  inb_S1x48x512x32_S1x48x1x32_0_0_495_0 : ∀ a, (![0, 0, 495, 0] : Fin 4 → Nat) a + S1x48x1x32.size a ≤ S1x48x512x32.size a
  inb_S1x48x205x32_S1x48x1x32_0_0_201_0 : ∀ a, (![0, 0, 201, 0] : Fin 4 → Nat) a + S1x48x1x32.size a ≤ S1x48x205x32.size a
  inb_S1x48x512x32_S1x48x1x32_0_0_498_0 : ∀ a, (![0, 0, 498, 0] : Fin 4 → Nat) a + S1x48x1x32.size a ≤ S1x48x512x32.size a
  inb_S1x48x512x32_S1x48x1x32_0_0_499_0 : ∀ a, (![0, 0, 499, 0] : Fin 4 → Nat) a + S1x48x1x32.size a ≤ S1x48x512x32.size a
  inb_S1x48x512x32_S1x48x1x32_0_0_500_0 : ∀ a, (![0, 0, 500, 0] : Fin 4 → Nat) a + S1x48x1x32.size a ≤ S1x48x512x32.size a
  inb_S1x48x205x32_S1x48x1x32_0_0_202_0 : ∀ a, (![0, 0, 202, 0] : Fin 4 → Nat) a + S1x48x1x32.size a ≤ S1x48x205x32.size a
  inb_S1x48x512x32_S1x48x1x32_0_0_503_0 : ∀ a, (![0, 0, 503, 0] : Fin 4 → Nat) a + S1x48x1x32.size a ≤ S1x48x512x32.size a
  inb_S1x48x512x32_S1x48x1x32_0_0_504_0 : ∀ a, (![0, 0, 504, 0] : Fin 4 → Nat) a + S1x48x1x32.size a ≤ S1x48x512x32.size a
  inb_S1x48x512x32_S1x48x1x32_0_0_505_0 : ∀ a, (![0, 0, 505, 0] : Fin 4 → Nat) a + S1x48x1x32.size a ≤ S1x48x512x32.size a
  inb_S1x48x205x32_S1x48x1x32_0_0_203_0 : ∀ a, (![0, 0, 203, 0] : Fin 4 → Nat) a + S1x48x1x32.size a ≤ S1x48x205x32.size a
  inb_S1x48x512x32_S1x48x1x32_0_0_508_0 : ∀ a, (![0, 0, 508, 0] : Fin 4 → Nat) a + S1x48x1x32.size a ≤ S1x48x512x32.size a
  inb_S1x48x512x32_S1x48x1x32_0_0_509_0 : ∀ a, (![0, 0, 509, 0] : Fin 4 → Nat) a + S1x48x1x32.size a ≤ S1x48x512x32.size a
  inb_S1x48x512x32_S1x48x1x32_0_0_510_0 : ∀ a, (![0, 0, 510, 0] : Fin 4 → Nat) a + S1x48x1x32.size a ≤ S1x48x512x32.size a
  inb_S1x48x205x32_S1x48x1x32_0_0_204_0 : ∀ a, (![0, 0, 204, 0] : Fin 4 → Nat) a + S1x48x1x32.size a ≤ S1x48x205x32.size a

class Facts₀ : Prop where
  k0 : K0.Facts₀
  k1 : K1.Facts₀
  shapes1 : Shapes1.Facts₀
  shapes2 : Shapes2.Facts₀
attribute [instance] Facts₀.k0 Facts₀.k1 Facts₀.shapes1 Facts₀.shapes2

variable [Facts₀]

abbrev win0_0 : Pipeline.Window sig grid0 :=
  Pipeline.Window.ofSpec (Memref.whole main_arg0) S1x512x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x284x32x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpecClip (Memref.whole main_v0) S1x48x512x32.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v1) S1x48x205x32.size cc1_transform_1 reads1_1 true false 2 stage1_1 sem1_1
    hrank1 hreads1_1 hstart1_1 nbuf1_1 (Memref.isWhole_whole _) hwx1_1 hwxs1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S32x512x512x32 : Shape := ⟨4, ![32, 512, 512, 32]⟩
abbrev S3x3 : Shape := ⟨2, ![3, 3]⟩
abbrev S284 : Shape := ⟨1, ![284]⟩
abbrev S205 : Shape := ⟨1, ![205]⟩
abbrev S_ : Shape := ⟨0, ![]⟩
abbrev S32x284x205x32 : Shape := ⟨4, ![32, 284, 205, 32]⟩
abbrev S284x1 : Shape := ⟨2, ![284, 1]⟩
abbrev S32x284x512x32 : Shape := ⟨4, ![32, 284, 512, 32]⟩
abbrev S1x1 : Shape := ⟨2, ![1, 1]⟩
abbrev S205x1 : Shape := ⟨2, ![205, 1]⟩

abbrev nBuf : Space → Nat
  | .hbm => 145
  | .vmem => 0
  | .smem => 0
  | _ => 0

abbrev hbmTy0_0 (i : Nat) : BufTy := match i % 128 with
  | 0 => ⟨S32x512x512x32, .f32⟩
  | 1 => ⟨S3x3, .f32⟩
  | 2 => ⟨S284, .i32⟩
  | 3 => ⟨S284, .i1⟩
  | 4 => ⟨S205, .i32⟩
  | 5 => ⟨S205, .i1⟩
  | 6 => ⟨S205, .i32⟩
  | 7 => ⟨S205, .i1⟩
  | 8 => ⟨S205, .i32⟩
  | 9 => ⟨S205, .i1⟩
  | 10 => ⟨S284, .i32⟩
  | 11 => ⟨S284, .i1⟩
  | 12 => ⟨S205, .i32⟩
  | 13 => ⟨S205, .i1⟩
  | 14 => ⟨S205, .i32⟩
  | 15 => ⟨S205, .i1⟩
  | 16 => ⟨S205, .i32⟩
  | 17 => ⟨S205, .i1⟩
  | 18 => ⟨S284, .i32⟩
  | 19 => ⟨S284, .i1⟩
  | 20 => ⟨S205, .i32⟩
  | 21 => ⟨S205, .i1⟩
  | 22 => ⟨S205, .i32⟩
  | 23 => ⟨S205, .i1⟩
  | 24 => ⟨S205, .i32⟩
  | 25 => ⟨S205, .i1⟩
  | 26 => ⟨S_, .f32⟩
  | 27 => ⟨S32x284x205x32, .f32⟩
  | 28 => ⟨S_, .i32⟩
  | 29 => ⟨S284, .i32⟩
  | 30 => ⟨S284, .i32⟩
  | 31 => ⟨S284, .i32⟩
  | 32 => ⟨S284x1, .i32⟩
  | 33 => ⟨S32x284x512x32, .f32⟩
  | 34 => ⟨S1x1, .f32⟩
  | 35 => ⟨S_, .f32⟩
  | 36 => ⟨S_, .i32⟩
  | 37 => ⟨S205, .i32⟩
  | 38 => ⟨S205, .i32⟩
  | 39 => ⟨S205, .i32⟩
  | 40 => ⟨S205x1, .i32⟩
  | 41 => ⟨S32x284x205x32, .f32⟩
  | 42 => ⟨S32x284x205x32, .f32⟩
  | 43 => ⟨S32x284x205x32, .f32⟩
  | 44 => ⟨S32x284x205x32, .f32⟩
  | 45 => ⟨S1x1, .f32⟩
  | 46 => ⟨S_, .f32⟩
  | 47 => ⟨S_, .i32⟩
  | 48 => ⟨S205, .i32⟩
  | 49 => ⟨S205, .i32⟩
  | 50 => ⟨S205, .i32⟩
  | 51 => ⟨S205x1, .i32⟩
  | 52 => ⟨S32x284x205x32, .f32⟩
  | 53 => ⟨S32x284x205x32, .f32⟩
  | 54 => ⟨S32x284x205x32, .f32⟩
  | 55 => ⟨S32x284x205x32, .f32⟩
  | 56 => ⟨S1x1, .f32⟩
  | 57 => ⟨S_, .f32⟩
  | 58 => ⟨S_, .i32⟩
  | 59 => ⟨S205, .i32⟩
  | 60 => ⟨S205, .i32⟩
  | 61 => ⟨S205, .i32⟩
  | 62 => ⟨S205x1, .i32⟩
  | 63 => ⟨S32x284x205x32, .f32⟩
  | 64 => ⟨S32x284x205x32, .f32⟩
  | 65 => ⟨S32x284x205x32, .f32⟩
  | 66 => ⟨S32x284x205x32, .f32⟩
  | 67 => ⟨S_, .i32⟩
  | 68 => ⟨S284, .i32⟩
  | 69 => ⟨S284, .i32⟩
  | 70 => ⟨S284, .i32⟩
  | 71 => ⟨S284x1, .i32⟩
  | 72 => ⟨S32x284x512x32, .f32⟩
  | 73 => ⟨S1x1, .f32⟩
  | 74 => ⟨S_, .f32⟩
  | 75 => ⟨S_, .i32⟩
  | 76 => ⟨S205, .i32⟩
  | 77 => ⟨S205, .i32⟩
  | 78 => ⟨S205, .i32⟩
  | 79 => ⟨S205x1, .i32⟩
  | 80 => ⟨S32x284x205x32, .f32⟩
  | 81 => ⟨S32x284x205x32, .f32⟩
  | 82 => ⟨S32x284x205x32, .f32⟩
  | 83 => ⟨S32x284x205x32, .f32⟩
  | 84 => ⟨S1x1, .f32⟩
  | 85 => ⟨S_, .f32⟩
  | 86 => ⟨S_, .i32⟩
  | 87 => ⟨S205, .i32⟩
  | 88 => ⟨S205, .i32⟩
  | 89 => ⟨S205, .i32⟩
  | 90 => ⟨S205x1, .i32⟩
  | 91 => ⟨S32x284x205x32, .f32⟩
  | 92 => ⟨S32x284x205x32, .f32⟩
  | 93 => ⟨S32x284x205x32, .f32⟩
  | 94 => ⟨S32x284x205x32, .f32⟩
  | 95 => ⟨S1x1, .f32⟩
  | 96 => ⟨S_, .f32⟩
  | 97 => ⟨S_, .i32⟩
  | 98 => ⟨S205, .i32⟩
  | 99 => ⟨S205, .i32⟩
  | 100 => ⟨S205, .i32⟩
  | 101 => ⟨S205x1, .i32⟩
  | 102 => ⟨S32x284x205x32, .f32⟩
  | 103 => ⟨S32x284x205x32, .f32⟩
  | 104 => ⟨S32x284x205x32, .f32⟩
  | 105 => ⟨S32x284x205x32, .f32⟩
  | 106 => ⟨S_, .i32⟩
  | 107 => ⟨S284, .i32⟩
  | 108 => ⟨S284, .i32⟩
  | 109 => ⟨S284, .i32⟩
  | 110 => ⟨S284x1, .i32⟩
  | 111 => ⟨S32x284x512x32, .f32⟩
  | 112 => ⟨S1x1, .f32⟩
  | 113 => ⟨S_, .f32⟩
  | 114 => ⟨S_, .i32⟩
  | 115 => ⟨S205, .i32⟩
  | 116 => ⟨S205, .i32⟩
  | 117 => ⟨S205, .i32⟩
  | 118 => ⟨S205x1, .i32⟩
  | 119 => ⟨S32x284x205x32, .f32⟩
  | 120 => ⟨S32x284x205x32, .f32⟩
  | 121 => ⟨S32x284x205x32, .f32⟩
  | 122 => ⟨S32x284x205x32, .f32⟩
  | 123 => ⟨S1x1, .f32⟩
  | 124 => ⟨S_, .f32⟩
  | 125 => ⟨S_, .i32⟩
  | 126 => ⟨S205, .i32⟩
  | 127 => ⟨S205, .i32⟩
  | _ => ⟨S32x512x512x32, .f32⟩

abbrev hbmTy0_1 (i : Nat) : BufTy := match i % 128 with
  | 0 => ⟨S205, .i32⟩
  | 1 => ⟨S205x1, .i32⟩
  | 2 => ⟨S32x284x205x32, .f32⟩
  | 3 => ⟨S32x284x205x32, .f32⟩
  | 4 => ⟨S32x284x205x32, .f32⟩
  | 5 => ⟨S32x284x205x32, .f32⟩
  | 6 => ⟨S1x1, .f32⟩
  | 7 => ⟨S_, .f32⟩
  | 8 => ⟨S_, .i32⟩
  | 9 => ⟨S205, .i32⟩
  | 10 => ⟨S205, .i32⟩
  | 11 => ⟨S205, .i32⟩
  | 12 => ⟨S205x1, .i32⟩
  | 13 => ⟨S32x284x205x32, .f32⟩
  | 14 => ⟨S32x284x205x32, .f32⟩
  | 15 => ⟨S32x284x205x32, .f32⟩
  | 16 => ⟨S32x284x205x32, .f32⟩
  | _ => ⟨S32x512x512x32, .f32⟩

abbrev hbmTy (i : Nat) : BufTy := match i / 128 with
  | 0 => hbmTy0_0 i
  | 1 => hbmTy0_1 i
  | _ => ⟨S32x512x512x32, .f32⟩

abbrev bufTy : (tb : Table) → Fin (tcTables nBuf tb) → BufTy
  | .hbm, ⟨i, _⟩ => hbmTy i
  | _, _ => ⟨S32x512x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_c_12 : Ref sig .tc := ⟨.hbm, 15, rfl⟩
abbrev main_c_13 : Ref sig .tc := ⟨.hbm, 16, rfl⟩
abbrev main_c_14 : Ref sig .tc := ⟨.hbm, 17, rfl⟩
abbrev main_c_15 : Ref sig .tc := ⟨.hbm, 18, rfl⟩
abbrev main_c_16 : Ref sig .tc := ⟨.hbm, 19, rfl⟩
abbrev main_c_17 : Ref sig .tc := ⟨.hbm, 20, rfl⟩
abbrev main_c_18 : Ref sig .tc := ⟨.hbm, 21, rfl⟩
abbrev main_c_19 : Ref sig .tc := ⟨.hbm, 22, rfl⟩
abbrev main_c_20 : Ref sig .tc := ⟨.hbm, 23, rfl⟩
abbrev main_c_21 : Ref sig .tc := ⟨.hbm, 24, rfl⟩
abbrev main_c_22 : Ref sig .tc := ⟨.hbm, 25, rfl⟩
abbrev main_cst_23 : Ref sig .tc := ⟨.hbm, 26, rfl⟩
abbrev main_v0 : Ref sig .tc := ⟨.hbm, 27, rfl⟩
abbrev main_c_24 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c_25 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_26 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_28 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_29 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_30 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_31 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_32 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_33 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_34 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_35 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩

abbrev nD : Nat := 1
abbrev τ : Topo := Topo.v7x

variable {F : FTy → Type} [FloatOps F]

class Facts₀ : Prop where
  bcast_S_S32x284x205x32 : S_.BroadcastsInDim S32x284x205x32 (![] : Fin 0 → Fin S32x284x205x32.rank)
  bcast_S_S284 : S_.BroadcastsInDim S284 (![] : Fin 0 → Fin S284.rank)
  bcast_S284_S284x1_0 : S284.BroadcastsInDim S284x1 (![0] : Fin 1 → Fin S284x1.rank)
  slices_S3x3_S1x1_0_0 : S3x3.Slices ![0, 0] S1x1
  shapeCasts_S1x1_S_ : S1x1.ShapeCasts S_
  bcast_S_S205 : S_.BroadcastsInDim S205 (![] : Fin 0 → Fin S205.rank)
  bcast_S205_S205x1_0 : S205.BroadcastsInDim S205x1 (![0] : Fin 1 → Fin S205x1.rank)
  slices_S3x3_S1x1_0_1 : S3x3.Slices ![0, 1] S1x1
  slices_S3x3_S1x1_0_2 : S3x3.Slices ![0, 2] S1x1
  slices_S3x3_S1x1_1_0 : S3x3.Slices ![1, 0] S1x1
  slices_S3x3_S1x1_1_1 : S3x3.Slices ![1, 1] S1x1
  slices_S3x3_S1x1_1_2 : S3x3.Slices ![1, 2] S1x1
  slices_S3x3_S1x1_2_0 : S3x3.Slices ![2, 0] S1x1
  slices_S3x3_S1x1_2_1 : S3x3.Slices ![2, 1] S1x1
  slices_S3x3_S1x1_2_2 : S3x3.Slices ![2, 2] S1x1
  gather_S32x512x512x32_S284x1_S32x284x512x32_023_1_n_n_1_1_32151232_wf : GatherDims.WF S32x512x512x32 S284x1 S32x284x512x32 [0, 2, 3] [1] [] [1] [] 1 ![32, 1, 512, 32]
  gather_S32x284x512x32_S205x1_S32x284x205x32_013_2_n_n_2_1_32284132_wf : GatherDims.WF S32x284x512x32 S205x1 S32x284x205x32 [0, 1, 3] [2] [] [2] [] 1 ![32, 284, 1, 32]

variable [Facts₀]

def gather_S32x512x512x32_S284x1_S32x284x512x32_023_1_n_n_1_1_32151232 : GatherDims S32x512x512x32 S284x1 S32x284x512x32 where
  offsetDims := [0, 2, 3]
  collapsedSliceDims := [1]
  operandBatchingDims := []
  startIndicesBatchingDims := []
  startIndexMap := [1]
  indexVectorDim := 1
  sliceSizes := ![32, 1, 512, 32]
  wf := gather_S32x512x512x32_S284x1_S32x284x512x32_023_1_n_n_1_1_32151232_wf
def gather_S32x284x512x32_S205x1_S32x284x205x32_013_2_n_n_2_1_32284132 : GatherDims S32x284x512x32 S205x1 S32x284x205x32 where
  offsetDims := [0, 1, 3]
  collapsedSliceDims := [2]
  operandBatchingDims := []
  startIndicesBatchingDims := []
  startIndexMap := [2]
  indexVectorDim := 1
  sliceSizes := ![32, 284, 1, 32]
  wf := gather_S32x284x512x32_S205x1_S32x284x205x32_013_2_n_n_2_1_32284132_wf

class Facts : Prop extends Facts₀ where

variable [Facts]
-- ==== Proof.Spec.lean ====
/-
  The mathematics both programs compute: a 3×3 weighted sum of neighbours, with the weight matrix the outer product
  of (1, 2, 1) with itself, sampled at 284 rows and 205 columns of a 512 × 512 image, for each of 32 batch entries
  and 32 channels.

  Output row `i` starts at input row `rowOf i`: the rows advance by 3 up to row 171, then by 1 up to row 341, then by 3
  again (0, 3, …, 171, 172, 173, …, 341, 344, 347, …, 509). Output column `j` starts at input column `colOf j`: the
  columns advance by 1 up to column 128 and by 5 afterwards (0, 1, …, 128, 133, 138, …, 508). Every start leaves room
  for its two right-hand neighbours inside the 512 rows or columns.

  The kernel mixes three consecutive ROWS with the weights 1, 2, 1 and then three consecutive COLUMNS of the result
  with the same weights (`rowMix`, `colMix`); the reference adds the nine products weight(d, e) · x(row + d, col + e)
  one after the other to a zero (`refAt`). On real numbers the two are equal by distributivity, the products of the
  weights being 1·1 = 1, 1·2 = 2·1 = 2, 2·2 = 4 (`colMix_rowMix_eq_ref`); distributivity is where finiteness of the
  input is used.
-/
import Idealize.ShloMosaic.PureOps.Ideal
import Idealize.ShloMosaic.Lib.ValueIdx

noncomputable section

namespace Cert.Stencil

open Idealize.ShloMosaic Idealize.ShloMosaic.ValueIdx

/-- The image, the image with its rows sampled, and the result. -/
abbrev SX : Shape := ⟨4, ![32, 512, 512, 32]⟩
abbrev ST : Shape := ⟨4, ![32, 284, 512, 32]⟩
abbrev SO : Shape := ⟨4, ![32, 284, 205, 32]⟩

/-- The first of the three input rows that output row `i` mixes. -/
def rowOf (i : ℕ) : ℕ := if i < 58 then 3 * i else if i < 228 then i + 114 else 3 * i - 340
/-- The first of the three input columns that output column `j` mixes. -/
def colOf (j : ℕ) : ℕ := if j < 129 then j else 5 * j - 512

theorem rowOf_add_lt {i d : ℕ} (hi : i < 284) (hd : d < 3) : rowOf i + d < 512 := by
  unfold rowOf; split_ifs <;> omega
theorem colOf_add_lt {j d : ℕ} (hj : j < 205) (hd : d < 3) : colOf j + d < 512 := by
  unfold colOf; split_ifs <;> omega

/-- Input row `rowOf i + d`, for the neighbour `d = 0, 1, 2`. -/
def row (i : Fin 284) (d : Fin 3) : Fin 512 := ⟨rowOf i.val + d.val, rowOf_add_lt i.isLt d.isLt⟩
/-- Input column `colOf j + d`, for the neighbour `d = 0, 1, 2`. -/
def col (j : Fin 205) (d : Fin 3) : Fin 512 := ⟨colOf j.val + d.val, colOf_add_lt j.isLt d.isLt⟩

@[simp] theorem row_val (i : Fin 284) (d : Fin 3) : (row i d).val = rowOf i.val + d.val := rfl
@[simp] theorem col_val (j : Fin 205) (d : Fin 3) : (col j d).val = colOf j.val + d.val := rfl

/-- The weights, as the float words the programs carry, and the zero the reference starts its sum from. -/
abbrev w1 : EReal := Ideal.ofBits .f32 0x3F800000#32
abbrev w2 : EReal := Ideal.ofBits .f32 0x40000000#32
abbrev w4 : EReal := Ideal.ofBits .f32 0x40800000#32
abbrev z0 : EReal := Ideal.ofBits .f32 0x00000000#32

theorem w1_eq : w1 = ((1 : ℝ) : EReal) := by simp [Ideal.ofBits, Ideal.ieee, -EReal.coe_mul]; norm_num
theorem w2_eq : w2 = ((2 : ℝ) : EReal) := by simp [Ideal.ofBits, Ideal.ieee, -EReal.coe_mul]; norm_num
theorem w4_eq : w4 = ((4 : ℝ) : EReal) := by simp [Ideal.ofBits, Ideal.ieee, -EReal.coe_mul]; norm_num
theorem z0_eq : z0 = ((0 : ℝ) : EReal) := by simp [Ideal.ofBits, Ideal.ieee]

/-- Three neighbours mixed with the weights 1, 2, 1, added left to right as both kernels add them. -/
def mix3 (a b c : EReal) : EReal := (w1 * a + w2 * b) + w1 * c

/-- The rows mixed: entry (b, i, y, z) from the image's rows `rowOf i`, `+ 1`, `+ 2` at column `y`. -/
def rowMixAt (x : SX.Idx → EReal) (b : Fin 32) (i : Fin 284) (y : Fin 512) (z : Fin 32) : EReal :=
  mix3 (x (ix4 b (row i 0) y z)) (x (ix4 b (row i 1) y z)) (x (ix4 b (row i 2) y z))
def rowMix (x : SX.Idx → EReal) : ST.Idx → EReal := fun j => rowMixAt x (j 0) (j 1) (j 2) (j 3)

/-- The columns mixed: entry (b, i, j, z) from the columns `colOf j`, `+ 1`, `+ 2` of row `i`. -/
def colMixAt (t : ST.Idx → EReal) (b : Fin 32) (i : Fin 284) (j : Fin 205) (z : Fin 32) : EReal :=
  mix3 (t (ix4 b i (col j 0) z)) (t (ix4 b i (col j 1) z)) (t (ix4 b i (col j 2) z))
def colMix (t : ST.Idx → EReal) : SO.Idx → EReal := fun j => colMixAt t (j 0) (j 1) (j 2) (j 3)

theorem rowMix_ix4 (x : SX.Idx → EReal) (b : Fin 32) (i : Fin 284) (y : Fin 512) (z : Fin 32) :
    rowMix x (ix4 b i y z) = rowMixAt x b i y z := rfl
theorem colMix_ix4 (t : ST.Idx → EReal) (b : Fin 32) (i : Fin 284) (j : Fin 205) (z : Fin 32) :
    colMix t (ix4 b i j z) = colMixAt t b i j z := rfl

/-- The reference's sum at (b, i, j, z): the nine products added one after the other to zero, the row neighbour
    outermost and the column neighbour innermost, with the weight matrix (1 2 1; 2 4 2; 1 2 1). -/
def refAt (x : SX.Idx → EReal) (b : Fin 32) (i : Fin 284) (j : Fin 205) (z : Fin 32) : EReal :=
  ((((((((z0 + w1 * x (ix4 b (row i 0) (col j 0) z)) + w2 * x (ix4 b (row i 0) (col j 1) z)) + w1 * x (ix4 b (row i 0) (col j 2) z))
    + w2 * x (ix4 b (row i 1) (col j 0) z)) + w4 * x (ix4 b (row i 1) (col j 1) z)) + w2 * x (ix4 b (row i 1) (col j 2) z))
    + w1 * x (ix4 b (row i 2) (col j 0) z)) + w2 * x (ix4 b (row i 2) (col j 1) z)) + w1 * x (ix4 b (row i 2) (col j 2) z)
def ref (x : SX.Idx → EReal) : SO.Idx → EReal := fun j => refAt x (j 0) (j 1) (j 2) (j 3)

theorem ref_ix4 (x : SX.Idx → EReal) (b : Fin 32) (i : Fin 284) (j : Fin 205) (z : Fin 32) :
    ref x (ix4 b i j z) = refAt x b i j z := rfl

/-- On a real-valued image, mixing rows and then columns is the reference's nine-term sum: distributivity of the real
    numbers, with 1·1 = 1, 1·2 = 2, 2·2 = 4. -/
theorem colMix_rowMix_eq_ref (x : SX.Idx → EReal) (hx : ∀ i, ∃ r : ℝ, x i = (r : EReal)) :
    colMix (rowMix x) = ref x := by
  funext j
  obtain ⟨b, i, c, z, rfl⟩ : ∃ (b : Fin 32) (i : Fin 284) (c : Fin 205) (z : Fin 32), j = ix4 b i c z :=
    ⟨j 0, j 1, j 2, j 3, eq_ix4 j⟩
  rw [colMix_ix4, ref_ix4]
  unfold colMixAt refAt
  rw [rowMix_ix4, rowMix_ix4, rowMix_ix4]
  unfold rowMixAt mix3
  obtain ⟨a00, h00⟩ := hx (ix4 b (row i 0) (col c 0) z)
  obtain ⟨a01, h01⟩ := hx (ix4 b (row i 0) (col c 1) z)
  obtain ⟨a02, h02⟩ := hx (ix4 b (row i 0) (col c 2) z)
  obtain ⟨a10, h10⟩ := hx (ix4 b (row i 1) (col c 0) z)
  obtain ⟨a11, h11⟩ := hx (ix4 b (row i 1) (col c 1) z)
  obtain ⟨a12, h12⟩ := hx (ix4 b (row i 1) (col c 2) z)
  obtain ⟨a20, h20⟩ := hx (ix4 b (row i 2) (col c 0) z)
  obtain ⟨a21, h21⟩ := hx (ix4 b (row i 2) (col c 1) z)
  obtain ⟨a22, h22⟩ := hx (ix4 b (row i 2) (col c 2) z)
  rw [h00, h01, h02, h10, h11, h12, h20, h21, h22, w1_eq, w2_eq, w4_eq, z0_eq]
  simp only [← EReal.coe_mul, ← EReal.coe_add]
  congr 1
  ring

end Cert.Stencil

end
-- ==== Proof.Finite.lean ====
/-
  What the precondition says: every entry of the image is compared, in absolute value, with +∞ and all comparisons
  hold. An extended real whose absolute value max(x, −x) lies below +∞ is neither infinity, so it is a real number.
-/
import proofs.«110337_j82789789597838_2_alg».proof.Pre_finite_inputs
import proofs.«110337_j82789789597838_2_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx

instance : Subsingleton Cert.Pre_finite_inputs.S_.Idx := ⟨fun _ _ => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the image is a real number. -/
theorem real_of_pre (x : FVec Ideal Cert.Pre_finite_inputs.S32x512x512x32 .f32)
    (h : Cert.Pre_finite_inputs.fn (F := Ideal) x = fun _ => 1#1) (i : Cert.Pre_finite_inputs.S32x512x512x32.Idx) :
    ∃ r : ℝ, x i = (r : EReal) := by
  have e := congrFun h ix0
  dsimp only [Cert.Pre_finite_inputs.fn] at e
  have hi := Host.reduce_andi_all _ _ _ _ _ e i
  refine real_of_abs_lt_top (x i) ?_
  have hlt : Ideal.cmp .olt (max (x i) (-(x i))) (Ideal.ofBits .f32 0x7F800000#32) = 1#1 := hi
  have htop : Ideal.ofBits .f32 0x7F800000#32 = (⊤ : EReal) := by simp [Ideal.ofBits, Ideal.ieee]
  rw [htop] at hlt
  unfold Ideal.cmp at hlt
  by_contra hn
  simp [hn] at hlt

end Cert.Finite

end
-- ==== Proof.IdealData.lean ====
/-
  The shared vocabulary of the two kernel regions, for any float instance: the contents of the TensorCore's buffers
  when a region is entered (`Entry`); a window's block at a grid point read off its array (`iblk0`, `iblk1`) — for the
  second region, whose sixth block overhangs the 284 rows by four, the part of the block inside the array —, and that
  block filled out to the buffer's 48 rows with the zero word (`pad1`); what a region's body leaves in its two buffers
  given what it leaves in the output's as a function of the input's (`aftOf0`, `aftOf1`); and each region's proof data
  (`datOf0`, `datOf1`): its arrays as it finds them, nothing of its own kept between points, nothing owed.
-/
import proofs.«110337_j82789789597838_2_alg».proof.Proof.Gen.KernelIdeal.Launch
import proofs.«110337_j82789789597838_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The contents of the TensorCore's buffers when a region is entered. -/
abbrev Entry (F : FTy → Type) [FloatOps F] : Type :=
  (c : Dev nD) → (b : Ref sig .tc) → Buf (Elt F) ((c : Thread nD τ).loc b)

/-- What a region's body leaves in each window's buffer at each grid point, given the entry contents. -/
abbrev After0 (F : FTy → Type) [FloatOps F] : Type :=
  Entry F → (c : Dev nD) → (w : Fin cfg0.W) → Fin cfg0.N → (cfg0.win w).block.Idx → Elt F (cfg0.win w).elt
abbrev After1 (F : FTy → Type) [FloatOps F] : Type :=
  Entry F → (c : Dev nD) → (w : Fin cfg1.W) → Fin cfg1.N → (cfg1.win w).block.Idx → Elt F (cfg1.win w).elt

/-- The first region's proof data: its arrays as it finds them, its buffers after the body as given, nothing of its
    own kept between points, nothing owed. -/
def datOf0 (V : Entry F) (aft : (c : Dev nD) → (w : Fin cfg0.W) → Fin cfg0.N → (cfg0.win w).block.Idx → Elt F (cfg0.win w).elt)
    (c : Dev nD) : Dat τ (Elt F) Unit ℕ (UR sig nD τ) ℕ cfg0 c where
  A w := V c (Pipeline.arrRef spec0 w)
  after := aft c
  Φ _ := Pipeline.ΦA spec0 c
  q _ := fullShare
  owed _ := 0

/-- The second region's, likewise. -/
def datOf1 (V : Entry F) (aft : (c : Dev nD) → (w : Fin cfg1.W) → Fin cfg1.N → (cfg1.win w).block.Idx → Elt F (cfg1.win w).elt)
    (c : Dev nD) : Dat τ (Elt F) Unit ℕ (UR sig nD τ) ℕ cfg1 c where
  A w := V c (Pipeline.arrRef spec1 w)
  after := aft c
  Φ _ := Pipeline.ΦA spec1 c
  q _ := fullShare
  owed _ := 0

/-- A window's block at a grid point, read off its array as the first region finds it. -/
def iblk0 (V : Entry F) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- A window's block at a grid point — its part inside the array — read off its array as the second region finds it. -/
def iblk1 (V : Entry F) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The second region's input block filled out to the buffer's 48 rows with the zero word. -/
def pad1 (V : Entry F) (c : Dev nD) (t : Fin cfg1.N) : Vec F S1x48x512x32 .f32 :=
  win1_0.fill (grid1.coords t) (fun _ => Scalar.ofBits .f32 0#32) (iblk1 V c 0 t)

/-- The first region's buffers after the body: the input's still at its block, the output's at `out0` of that block. -/
def aftOf0 (out0 : Vec F S1x512x32x32 .f32 → Vec F S1x284x32x32 .f32) : After0 F := fun V c w t =>
  match w with
  | ⟨0, _⟩ => iblk0 V c 0 t
  | ⟨1, _⟩ => out0 (iblk0 V c 0 t)

/-- The second region's buffers after the body, stated on the rows inside the array: the input's at its padded block,
    the output's at `out1` of that. -/
def aftOf1 (out1 : Vec F S1x48x512x32 .f32 → Vec F S1x48x205x32 .f32) : After1 F := fun V c w t =>
  match w with
  | ⟨0, _⟩ => pad1 V c t
  | ⟨1, _⟩ => out1 (pad1 V c t)

end Cert.KernelIdeal.Hand

end
-- ==== Proof.IdealRun.lean ====
/-
  The run of the two kernel regions one after the other, for any float instance. The first region reads the image
  through blocks of all 512 rows by 32 columns and writes the row-mixed image through blocks of all 284 rows by 32
  columns; the second reads the row-mixed image through blocks of 48 rows by all 512 columns and writes the result
  through blocks of 48 rows by all 205 columns, the sixth block of each overhanging the 284 rows by four.

  What the body of each region leaves in its buffers is a parameter here (`aft0`, `aft1`), and so is the fact that
  the body does leave it (`hb0`, `hb1`): this module is the composition only. Between the regions the memory is
  described by a valuation of every buffer that is not a staging buffer: at launch the launch contents; after a
  region, that region's arrays at what its write-backs leave (the fold of the blocks written back, point by
  point) and every other buffer unchanged. The conclusion: every weakly fair execution terminates, nothing faults,
  and every such buffer ends at the last valuation — in particular the image unchanged and the result array at the
  second region's fold.
-/
import proofs.«110337_j82789789597838_2_alg».proof.Proof.IdealData
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (aft0 : After0 F) (aft1 : After1 F)

/-! ## The memory between the regions -/

/-- At launch. -/
abbrev W0 : Dev nD → Valuation τ sig (Elt F) := fun c b => m ((c : Dev nD), b)
abbrev E0 : Entry F := fun c b => W0 m c b
/-- The first region's proof data at the launch contents. -/
abbrev d0 (c : Dev nD) : Dat τ (Elt F) Unit ℕ (UR sig nD τ) ℕ cfg0 c := datOf0 (E0 m) (aft0 (E0 m)) c

/-- After the first region: its arrays at what its write-backs leave, the rest as launched. -/
def W1 (c : Dev nD) : Valuation τ sig (Elt F) :=
  Pipeline.withArrays spec0 c (W0 m c) fun w => (d0 m aft0 c).arrAt w cfg0.N
theorem W1_arr (c : Dev nD) (w : Fin cfg0.W) :
    W1 m aft0 c (Proc.devRef .tc (Pipeline.arrRef spec0 w)) = (d0 m aft0 c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m aft0 c (Proc.devRef .tc b) = W0 m c (Proc.devRef .tc b) := by
  unfold W1; exact Pipeline.withArrays_of_ne spec0 c _ _ b hb
abbrev E1 : Entry F := fun c b => W1 m aft0 c b
theorem hF0 (c : Dev nD) (w : Fin cfg0.W) : (d0 m aft0 c).arrAt w cfg0.N = E1 m aft0 c (Pipeline.arrRef spec0 w) :=
  (W1_arr m aft0 c w).symm
theorem hrest0 (c : Dev nD) : ∀ b, b ∉ Finset.univ.image (Pipeline.arrRef spec0) → E1 m aft0 c b = E0 m c b :=
  fun b hb => W1_of_ne m aft0 c b fun w e => hb (Finset.mem_image.mpr ⟨w, Finset.mem_univ _, e⟩)

/-- The second region's proof data at what the first left. -/
abbrev d1 (c : Dev nD) : Dat τ (Elt F) Unit ℕ (UR sig nD τ) ℕ cfg1 c := datOf1 (E1 m aft0) (aft1 (E1 m aft0)) c

/-- After the second region. -/
def W2 (c : Dev nD) : Valuation τ sig (Elt F) :=
  Pipeline.withArrays spec1 c (W1 m aft0 c) fun w => (d1 m aft0 aft1 c).arrAt w cfg1.N
theorem W2_arr (c : Dev nD) (w : Fin cfg1.W) :
    W2 m aft0 aft1 c (Proc.devRef .tc (Pipeline.arrRef spec1 w)) = (d1 m aft0 aft1 c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m aft0 aft1 c (Proc.devRef .tc b) = W1 m aft0 c (Proc.devRef .tc b) := by
  unfold W2; exact Pipeline.withArrays_of_ne spec1 c _ _ b hb
abbrev E2 : Entry F := fun c b => W2 m aft0 aft1 c b
theorem hF1 (c : Dev nD) (w : Fin cfg1.W) : (d1 m aft0 aft1 c).arrAt w cfg1.N = E2 m aft0 aft1 c (Pipeline.arrRef spec1 w) :=
  (W2_arr m aft0 aft1 c w).symm
theorem hrest1 (c : Dev nD) : ∀ b, b ∉ Finset.univ.image (Pipeline.arrRef spec1) → E2 m aft0 aft1 c b = E1 m aft0 c b :=
  fun b hb => W2_of_ne m aft0 aft1 c b fun w e => hb (Finset.mem_image.mpr ⟨w, Finset.mem_univ _, e⟩)

/-- The image ends as launched: the second region does not hold it, the first only reads it. -/
theorem W2_main_arg0 (c : Dev nD) : W2 m aft0 aft1 c (Proc.devRef .tc main_arg0) = m ((c : Thread nD τ).loc main_arg0) :=
  calc W2 m aft0 aft1 c (Proc.devRef .tc main_arg0)
    _ = W1 m aft0 c (Proc.devRef .tc main_arg0) := W2_of_ne m aft0 aft1 c main_arg0 (by decide)
    _ = W0 m c (Proc.devRef .tc main_arg0) := (W1_arr m aft0 c 0).trans ((d0 m aft0 c).arrAt_in 0 rfl _)
    _ = m ((c : Thread nD τ).loc main_arg0) := rfl

/-- The result array ends at the fold of the second region's write-backs. -/
theorem W2_main_v1 (c : Dev nD) : W2 m aft0 aft1 c (Proc.devRef .tc main_v1) = (d1 m aft0 aft1 c).arrAt 1 cfg1.N :=
  W2_arr m aft0 aft1 c 1

/-- The row-mixed image, as the second region finds it, is the fold of the first region's write-backs. -/
theorem E1_main_v0 (c : Dev nD) : E1 m aft0 c main_v0 = (d0 m aft0 c).arrAt 1 cfg0.N :=
  W1_arr m aft0 c 1

/-! ## The proof data family and the thread state -/

/-- No pipeline has a prefetched table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => d0 m aft0 c
  | ⟨1, _⟩ => fun c => d1 m aft0 aft1 c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m aft0 aft1 c) ∗ ∃ r, prngReg c r)

variable (hb0 : ∀ (V : Entry F) (c : Dev nD), BodyObligationLoose (datOf0 V (aft0 V) c) (defs₀ (F := F)) Variants.none () Set.univ)
variable (hb1 : ∀ (V : Entry F) (c : Dev nD), BodyObligationLoose (datOf1 V (aft1 V) c) (defs₀ (F := F)) Variants.none () Set.univ)

/-! ## The regions as segments -/

set_option backward.isDefEq.respectTransparency.types false in
/-- The first region: entered from every unscoped buffer at the launch contents, left at `W1`. -/
def reg0 : Pipeline.RegionSeg (pcfgs (F := F)) adm (pdats m aft0 aft1) () defs₀ 𝒱₀ L lv 0 where
  win := launch0.win.to₀
  block_pos := launch0.block_pos
  stage_whole := launch0.stage_whole
  K := PEmpty
  osem k := k.elim
  ho := Pipeline.OwnSemFacts.none _
  hbody c := hb0 (E0 m) c
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m aft0 c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m aft0 aft1) launch0.win launch0.arr_whole c
      ((pdats m aft0 aft1 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m aft0 aft1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m aft0 aft1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m aft0 aft1) ((pdats m aft0 aft1 0 c).share_full fun _ => rfl)
      (E0 m c) (E1 m aft0 c) ((pdats m aft0 aft1 0 c).arrAt · cfg0.N) (hF0 m aft0 c) (hrest0 m aft0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W1`, left at `W2`. -/
def reg1 : Pipeline.RegionSeg (pcfgs (F := F)) adm (pdats m aft0 aft1) () defs₀ 𝒱₀ L lv 1 where
  win := launch1.win.to₀
  block_pos := launch1.block_pos
  stage_whole := launch1.stage_whole
  K := PEmpty
  osem k := k.elim
  ho := Pipeline.OwnSemFacts.none _
  hbody c := hb1 (E1 m aft0) c
  hwaits := Pipeline.hwaits_of_owed_zero _ _ _ _ L lv 1 fun _ _ => rfl
  pre c := iprop(StableHlo.held (c : Thread nD τ) (Pipeline.ucRefs τ sig) (W1 m aft0 c) ∗ R c)
  post c := iprop(Tₙ m aft0 aft1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m aft0 c)
  hentry c := by
    rw [Pipeline.ownSems0_none]
    have hsplit := Pipeline.arrays_of_unscopedBufs (p := 1) (pcfgs (F := F)) adm (pdats m aft0 aft1) launch1.win launch1.arr_whole c
      ((pdats m aft0 aft1 1 c).share_full fun _ => rfl) (E1 m aft0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m aft0 aft1 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m aft0 aft1 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m aft0 aft1) ((pdats m aft0 aft1 1 c).share_full fun _ => rfl)
      (E1 m aft0 c) (E2 m aft0 aft1 c) ((pdats m aft0 aft1 1 c).arrAt · cfg1.N) (hF1 m aft0 aft1 c) (hrest1 m aft0 aft1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The two segments, and the launch -/

abbrev segs : List (Pipeline.Seg (pcfgs (F := F)) adm (pdats m aft0 aft1) () defs₀ 𝒱₀ L lv) :=
  [ .region (reg0 m aft0 aft1 hb0),
    .region (reg1 m aft0 aft1 hb1) ]
theorem main_run (c : Dev nD) : main (F := F) c = Pipeline.Seg.run (segs m aft0 aft1 hb0 hb1) :=
  (main_chain c).trans (by chain_rfl)

include hb0 hb1 in
set_option backward.isDefEq.respectTransparency.types false in
/-- From any memory with zero counters every weakly fair execution of both regions terminates, nothing faulting,
    and every buffer that is not a staging buffer ends at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m aft0 aft1 c b) :=
  Pipeline.θ_run_regions_kit (pcfgs (F := F)) adm (pdats m aft0 aft1) () cellOf_inj emb₁ defs₀ 𝒱₀ L lv m ρ main (segs m aft0 aft1 hb0 hb1)
    (fun c Q => by rw [main_run m aft0 aft1 hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m aft0 aft1)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m aft0 aft1 c b)
    (hfin := fun c s' => by
      iintro ⟨⟨Hh, -⟩, HSI⟩
      unfold StableHlo.held
      imodintro
      iapply (pointsTo_read_all (Pipeline.ucRefs τ sig) (fun b => (((c : Thread nD τ)).1, b)) (W2 m aft0 aft1 c) s')
      isplitl [Hh] <;> iassumption)
    (hQ := fun s h c => h c)

include hb0 hb1 in
/-- The same read at the image and at the result array. -/
theorem run_main : θ_run defs (onTc (τ := τ) (main (F := F))) ⟨m, fun _ => 0, ρ⟩ (fun r => ∀ c : Dev nD,
      r.2.mem ((c.tc : Thread nD τ).loc main_v1) = (d1 m aft0 aft1 c).arrAt 1 cfg1.N
      ∧ r.2.mem ((c.tc : Thread nD τ).loc main_arg0) = m ((c.tc : Thread nD τ).loc main_arg0)) :=
  (θ_run defs _ _).mono (fun r h c =>
    ⟨(h c _ (mem_uc main_v1 (by decide))).trans (W2_main_v1 m aft0 aft1 c),
     (h c _ (mem_uc main_arg0 (by decide))).trans (W2_main_arg0 m aft0 aft1 c)⟩)
    (run_all m ρ aft0 aft1 hb0 hb1)

end Cert.KernelIdeal.Hand

end
-- ==== Proof.IdealFinal.lean ====
/-
  The arrays the two regions leave, at the extended reals, as whole-array functions of what each region finds.

  First region: grid point (b, s) reads the image's block of batch entry b, all 512 rows, columns 32 s … 32 s + 31, and
  writes back the block of the row-mixed image at batch entry b, all 284 rows, the same 32 columns. The body's result
  at row i of the buffer mixes rows `rowOf i`, + 1, + 2 of the input buffer at the same column (`hout0`), so what point
  (b, s) writes back is its block of `rowMix` of the image; the 32 × 16 blocks cover the array.

  Second region: grid point (b, s) reads the row-mixed image's block of batch entry b, rows 48 s … 48 s + 47 cut at row
  284, all 512 columns, and writes back the block of the result at the same rows, all 205 columns. The body's result
  at (row r, column j) of the buffer mixes columns `colOf j`, + 1, + 2 of row r of the input buffer (`hout1`); a row
  inside the array is a row the fetch filled, so what point (b, s) writes back — the buffer's rows inside the array
  — is its block of `colMix` of the row-mixed image; the 32 × 6 cut blocks cover the array.
-/
import proofs.«110337_j82789789597838_2_alg».proof.Proof.IdealData
import proofs.«110337_j82789789597838_2_alg».proof.Proof.Spec
import Idealize.ShloMosaic.Lib.Pipeline.Value
import Idealize.ShloMosaic.Lib.ValueIdx

set_option Elab.async false

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Stencil

/-! ## The first region -/

section Region0

variable (out0 : Vec Ideal S1x512x32x32 .f32 → Vec Ideal S1x284x32x32 .f32)
variable (hout0 : ∀ (x0 : Vec Ideal S1x512x32x32 .f32) (i : Fin 284) (y : Fin 32) (z : Fin 32),
  out0 x0 (ix4 (0 : Fin 1) i y z)
    = mix3 (x0 (ix4 (0 : Fin 1) (row i 0) y z)) (x0 (ix4 (0 : Fin 1) (row i 1) y z)) (x0 (ix4 (0 : Fin 1) (row i 2) y z)))
variable (V : Entry Ideal) (c : Dev nD)

/-- The printed index maps over the grid: point `t` is (b, s) = (t / 16, t % 16) and both windows sit at block (b, 0, s, 0). -/
theorem idx_facts0 : ∀ t : Fin cfg0.N,
    win0_0.index t (0 : Fin 4) = t.val / 16 ∧ win0_0.index t (1 : Fin 4) = 0 ∧ win0_0.index t (2 : Fin 4) = t.val % 16 ∧ win0_0.index t (3 : Fin 4) = 0
    ∧ win0_1.index t (0 : Fin 4) = t.val / 16 ∧ win0_1.index t (1 : Fin 4) = 0 ∧ win0_1.index t (2 : Fin 4) = t.val % 16 ∧ win0_1.index t (3 : Fin 4) = 0 :=
  (by decide +kernel : ∀ t : Fin grid0.N, _)

theorem t_lt0 (t : Fin cfg0.N) : t.val < 512 :=
  Nat.lt_of_lt_of_eq t.isLt N_0

/-- The input block at point `t` = (b, s), read at (0, r, y, z), is the image at (b, r, 32 s + y, z). -/
theorem iblk0_apply (t : Fin cfg0.N) (r : Fin 512) (y : Fin 32) (z : Fin 32) :
    (iblk0 V c 0 t : Vec Ideal S1x512x32x32 .f32) (ix4 (0 : Fin 1) r y z)
      = (V c main_arg0 : S32x512x512x32.Idx → EReal)
          (ix4 (⟨t.val / 16, by have := t_lt0 t; omega⟩ : Fin 32) r (⟨32 * (t.val % 16) + y.val, by have := y.isLt; omega⟩ : Fin 512) z) := by
  obtain ⟨e0, e1, e2, e3, -⟩ := idx_facts0 t
  unfold iblk0
  rw [View.read_apply]
  show V c main_arg0 _ = V c main_arg0 _
  congr 1
  funext a; apply Fin.ext
  match a with
  | ⟨0, _⟩ => show win0_0.index t (0 : Fin 4) * 1 + 1 * 0 = t.val / 16; rw [e0]; omega
  | ⟨1, _⟩ => show win0_0.index t (1 : Fin 4) * 512 + 1 * r.val = r.val; rw [e1]; omega
  | ⟨2, _⟩ => show win0_0.index t (2 : Fin 4) * 32 + 1 * y.val = 32 * (t.val % 16) + y.val; rw [e2]; omega
  | ⟨3, _⟩ => show win0_0.index t (3 : Fin 4) * 32 + 1 * z.val = z.val; rw [e3]; omega

/-- An entry (0, i, y, z) of the output block at point `t` = (b, s) sits in the array at (b, i, 32 s + y, z). -/
theorem oblk0_emb (t : Fin cfg0.N) (i : Fin 284) (y : Fin 32) (z : Fin 32) :
    ((cfg0.win 1).blk t).view.emb (ix4 (0 : Fin 1) i y z : S1x284x32x32.Idx)
      = (ix4 (⟨t.val / 16, by have := t_lt0 t; omega⟩ : Fin 32) i (⟨32 * (t.val % 16) + y.val, by have := y.isLt; omega⟩ : Fin 512) z : S32x284x512x32.Idx) := by
  obtain ⟨-, -, -, -, e0, e1, e2, e3⟩ := idx_facts0 t
  funext a; apply Fin.ext
  match a with
  | ⟨0, _⟩ => show win0_1.index t (0 : Fin 4) * 1 + 1 * 0 = t.val / 16; rw [e0]; omega
  | ⟨1, _⟩ => show win0_1.index t (1 : Fin 4) * 284 + 1 * i.val = i.val; rw [e1]; omega
  | ⟨2, _⟩ => show win0_1.index t (2 : Fin 4) * 32 + 1 * y.val = 32 * (t.val % 16) + y.val; rw [e2]; omega
  | ⟨3, _⟩ => show win0_1.index t (3 : Fin 4) * 32 + 1 * z.val = z.val; rw [e3]; omega

include hout0 in
/-- What point `t` writes back is its block of the row-mixed image. -/
theorem flushed0_eq (t : Fin cfg0.N) :
    (datOf0 V (aftOf0 out0 V) c).flushed 1 t
      = ((cfg0.win 1).blk t).view.read (Elt Ideal) (rowMix (V c main_arg0)) := by
  show (cfg0.win 1).cut (grid0.coords t) ((datOf0 V (aftOf0 out0 V) c).after 1 t) = _
  dsimp only [datOf0, aftOf0]
  refine funext fun (j : S1x284x32x32.Idx) => ?_
  obtain ⟨u, i, y, z, rfl⟩ : ∃ (u : Fin 1) (i : Fin 284) (y : Fin 32) (z : Fin 32), j = ix4 u i y z :=
    ⟨j 0, j 1, j 2, j 3, eq_ix4 j⟩
  obtain rfl : u = 0 := Subsingleton.elim _ _
  show out0 (iblk0 V c 0 t) (ix4 0 i y z) = rowMix (V c main_arg0) (((cfg0.win 1).blk t).view.emb (ix4 0 i y z))
  rw [hout0, iblk0_apply, iblk0_apply, iblk0_apply, oblk0_emb, rowMix_ix4]
  rfl

/-- An index of the row-mixed image is in point `t`'s block iff each coordinate is in the block's range. -/
theorem mem_blk0 (t : Fin cfg0.N) (i : S32x284x512x32.Idx) :
    i ∈ ((cfg0.win 1).blk t).view.set ↔ ∀ a : Fin 4, win0_1.index t a * S1x284x32x32.size a ≤ (i a).val
      ∧ (i a).val < win0_1.index t a * S1x284x32x32.size a + S1x284x32x32.size a := by
  show i ∈ ((View.whole main_v0).slice (win0_1.rect t)).set ↔ _
  rw [View.set_slice_whole, Rect.mem_set_unit]
  exact Iff.rfl

/-- The blocks cover the row-mixed image: (b, i, y, z) is in the block of point (b, y / 32). -/
theorem blocks_cover0 (i : S32x284x512x32.Idx) :
    ∃ t : Fin cfg0.N, (cfg0.win 1).flush t = true ∧ i ∈ ((cfg0.win 1).blk t).view.set := by
  have h0 : (i 0).val < 32 := (i 0).isLt
  have h1 : (i 1).val < 284 := (i 1).isLt
  have h2 : (i 2).val < 512 := (i 2).isLt
  have h3 : (i 3).val < 32 := (i 3).isLt
  have hN : (i 0).val * 16 + (i 2).val / 32 < cfg0.N := by rw [show cfg0.N = 512 from N_0]; omega
  refine ⟨⟨(i 0).val * 16 + (i 2).val / 32, hN⟩, flush0_1 _, ?_⟩
  rw [mem_blk0]
  obtain ⟨-, -, -, -, e0, e1, e2, e3⟩ := idx_facts0 ⟨(i 0).val * 16 + (i 2).val / 32, hN⟩
  have e0' : win0_1.index ⟨(i 0).val * 16 + (i 2).val / 32, hN⟩ (0 : Fin 4) = ((i 0).val * 16 + (i 2).val / 32) / 16 := e0
  have e2' : win0_1.index ⟨(i 0).val * 16 + (i 2).val / 32, hN⟩ (2 : Fin 4) = ((i 0).val * 16 + (i 2).val / 32) % 16 := e2
  clear e0 e2
  intro a
  match a with
  | ⟨0, _⟩ => show win0_1.index _ (0 : Fin 4) * 1 ≤ (i 0).val ∧ (i 0).val < win0_1.index _ (0 : Fin 4) * 1 + 1; rw [e0']; omega
  | ⟨1, _⟩ => show win0_1.index _ (1 : Fin 4) * 284 ≤ (i 1).val ∧ (i 1).val < win0_1.index _ (1 : Fin 4) * 284 + 284; rw [e1]; omega
  | ⟨2, _⟩ => show win0_1.index _ (2 : Fin 4) * 32 ≤ (i 2).val ∧ (i 2).val < win0_1.index _ (2 : Fin 4) * 32 + 32; rw [e2']; omega
  | ⟨3, _⟩ => show win0_1.index _ (3 : Fin 4) * 32 ≤ (i 3).val ∧ (i 3).val < win0_1.index _ (3 : Fin 4) * 32 + 32; rw [e3]; omega

include hout0 in
/-- The first region leaves the row-mixed image. -/
theorem final0 : (datOf0 V (aftOf0 out0 V) c).arrAt 1 cfg0.N = rowMix (V c main_arg0) :=
  (datOf0 V (aftOf0 out0 V) c).arrAt_eq_of_cover 1 (rowMix (V c main_arg0)) (fun t _ => flushed0_eq out0 hout0 V c t) blocks_cover0

end Region0

/-! ## The second region -/

section Region1

variable (out1 : Vec Ideal S1x48x512x32 .f32 → Vec Ideal S1x48x205x32 .f32)
variable (hout1 : ∀ (x0 : Vec Ideal S1x48x512x32 .f32) (r : Fin 48) (j : Fin 205) (z : Fin 32),
  out1 x0 (ix4 (0 : Fin 1) r j z)
    = mix3 (x0 (ix4 (0 : Fin 1) r (col j 0) z)) (x0 (ix4 (0 : Fin 1) r (col j 1) z)) (x0 (ix4 (0 : Fin 1) r (col j 2) z)))
variable (V : Entry Ideal) (c : Dev nD)

/-- The printed index maps and cuts over the grid: point `t` is (b, s) = (t / 6, t % 6); both windows sit at block
    (b, s, 0, 0) and move all of it but, on the rows, only those below row 284: min(48, 284 − 48 s) of them. -/
theorem idx_facts1 : ∀ t : Fin cfg1.N,
    (win1_0.index t (0 : Fin 4) = t.val / 6 ∧ win1_0.index t (1 : Fin 4) = t.val % 6 ∧ win1_0.index t (2 : Fin 4) = 0 ∧ win1_0.index t (3 : Fin 4) = 0)
    ∧ (win1_1.index t (0 : Fin 4) = t.val / 6 ∧ win1_1.index t (1 : Fin 4) = t.val % 6 ∧ win1_1.index t (2 : Fin 4) = 0 ∧ win1_1.index t (3 : Fin 4) = 0)
    ∧ (win1_0.xsize (grid1.coords t) (0 : Fin 4) = 1 ∧ win1_0.xsize (grid1.coords t) (1 : Fin 4) = min 48 (284 - 48 * (t.val % 6))
        ∧ win1_0.xsize (grid1.coords t) (2 : Fin 4) = 512 ∧ win1_0.xsize (grid1.coords t) (3 : Fin 4) = 32)
    ∧ (win1_1.xsize (grid1.coords t) (0 : Fin 4) = 1 ∧ win1_1.xsize (grid1.coords t) (1 : Fin 4) = min 48 (284 - 48 * (t.val % 6))
        ∧ win1_1.xsize (grid1.coords t) (2 : Fin 4) = 205 ∧ win1_1.xsize (grid1.coords t) (3 : Fin 4) = 32) :=
  (by decide +kernel : ∀ t : Fin grid1.N, _)

theorem t_lt1 (t : Fin cfg1.N) : t.val < 192 :=
  Nat.lt_of_lt_of_eq t.isLt N_1

/-- The padded input block at point `t` = (b, s), read at (0, r, y, z) for a row r the fetch filled, is the row-mixed image
    at (b, 48 s + r, y, z). -/
theorem pad1_apply (t : Fin cfg1.N) (r : Fin 48) (y : Fin 512) (z : Fin 32) (hr : r.val < min 48 (284 - 48 * (t.val % 6))) :
    (pad1 V c t : Vec Ideal S1x48x512x32 .f32) (ix4 (0 : Fin 1) r y z)
      = (V c main_v0 : S32x284x512x32.Idx → EReal)
          (ix4 (⟨t.val / 6, by have := t_lt1 t; omega⟩ : Fin 32) (⟨48 * (t.val % 6) + r.val, by omega⟩ : Fin 284) y z) := by
  obtain ⟨⟨e0, e1, e2, e3⟩, -, ⟨x0, x1, x2, x3⟩, -⟩ := idx_facts1 t
  have hm : win1_0.moved (grid1.coords t) (ix4 (0 : Fin 1) r y z : S1x48x512x32.Idx) = true := by
    rw [Pipeline.Window.moved_iff]
    intro a
    match a with
    | ⟨0, _⟩ => show (0 : Nat) < win1_0.xsize (grid1.coords t) (0 : Fin 4); rw [x0]; omega
    | ⟨1, _⟩ => show r.val < win1_0.xsize (grid1.coords t) (1 : Fin 4); rw [x1]; exact hr
    | ⟨2, _⟩ => show y.val < win1_0.xsize (grid1.coords t) (2 : Fin 4); rw [x2]; exact y.isLt
    | ⟨3, _⟩ => show z.val < win1_0.xsize (grid1.coords t) (3 : Fin 4); rw [x3]; exact z.isLt
  unfold pad1 Pipeline.Window.fill
  rw [dif_pos hm]
  unfold iblk1
  rw [View.read_apply]
  show V c main_v0 _ = V c main_v0 _
  congr 1
  funext a; apply Fin.ext
  match a with
  | ⟨0, _⟩ => show win1_0.index t (0 : Fin 4) * 1 + 1 * 0 = t.val / 6; rw [e0]; omega
  | ⟨1, _⟩ => show win1_0.index t (1 : Fin 4) * 48 + 1 * r.val = 48 * (t.val % 6) + r.val; rw [e1]; omega
  | ⟨2, _⟩ => show win1_0.index t (2 : Fin 4) * 512 + 1 * y.val = y.val; rw [e2]; omega
  | ⟨3, _⟩ => show win1_0.index t (3 : Fin 4) * 32 + 1 * z.val = z.val; rw [e3]; omega

include hout1 in
/-- What point `t` writes back — the output buffer's rows inside the array — is its block of the column mix of the
    row-mixed image. -/
theorem flushed1_eq (t : Fin cfg1.N) :
    (datOf1 V (aftOf1 out1 V) c).flushed 1 t
      = ((cfg1.win 1).blk t).view.read (Elt Ideal) (colMix (V c main_v0)) := by
  show (cfg1.win 1).cut (grid1.coords t) ((datOf1 V (aftOf1 out1 V) c).after 1 t) = _
  dsimp only [datOf1, aftOf1]
  obtain ⟨-, ⟨e0, e1, e2, e3⟩, -, ⟨x0, x1, x2, x3⟩⟩ := idx_facts1 t
  funext j
  have h0 : (j 0).val < 1 := Nat.lt_of_lt_of_eq (j 0).isLt x0
  have h1 : (j 1).val < min 48 (284 - 48 * (t.val % 6)) := Nat.lt_of_lt_of_eq (j 1).isLt x1
  have h2 : (j 2).val < 205 := Nat.lt_of_lt_of_eq (j 2).isLt x2
  have h3 : (j 3).val < 32 := Nat.lt_of_lt_of_eq (j 3).isLt x3
  have ht := t_lt1 t
  have hinj : win1_1.xinj (grid1.coords t) j
      = (ix4 (0 : Fin 1) (⟨(j 1).val, by omega⟩ : Fin 48) (⟨(j 2).val, h2⟩ : Fin 205) (⟨(j 3).val, h3⟩ : Fin 32) : S1x48x205x32.Idx) := by
    funext a; apply Fin.ext
    match a with
    | ⟨0, _⟩ => show (j 0).val = 0; omega
    | ⟨1, _⟩ => rfl
    | ⟨2, _⟩ => rfl
    | ⟨3, _⟩ => rfl
  have hemb : ((cfg1.win 1).blk t).view.emb j
      = (ix4 (⟨t.val / 6, by omega⟩ : Fin 32) (⟨48 * (t.val % 6) + (j 1).val, by omega⟩ : Fin 284) (⟨(j 2).val, h2⟩ : Fin 205) (⟨(j 3).val, h3⟩ : Fin 32) : S32x284x205x32.Idx) := by
    funext a; apply Fin.ext
    match a with
    | ⟨0, _⟩ => show win1_1.index t (0 : Fin 4) * 1 + 1 * (j 0).val = t.val / 6; rw [e0]; omega
    | ⟨1, _⟩ => show win1_1.index t (1 : Fin 4) * 48 + 1 * (j 1).val = 48 * (t.val % 6) + (j 1).val; rw [e1]; omega
    | ⟨2, _⟩ => show win1_1.index t (2 : Fin 4) * 205 + 1 * (j 2).val = (j 2).val; rw [e2]; omega
    | ⟨3, _⟩ => show win1_1.index t (3 : Fin 4) * 32 + 1 * (j 3).val = (j 3).val; rw [e3]; omega
  show out1 (pad1 V c t) (win1_1.xinj (grid1.coords t) j) = colMix (V c main_v0) (((cfg1.win 1).blk t).view.emb j)
  rw [hinj, hemb, hout1, pad1_apply V c t _ _ _ h1, pad1_apply V c t _ _ _ h1, pad1_apply V c t _ _ _ h1, colMix_ix4]
  rfl

/-- An index of the result is in point `t`'s block iff each coordinate is in the block's range, cut at the array's end. -/
theorem mem_blk1 (t : Fin cfg1.N) (i : S32x284x205x32.Idx) :
    i ∈ ((cfg1.win 1).blk t).view.set ↔ ∀ a : Fin 4, win1_1.index t a * S1x48x205x32.size a ≤ (i a).val
      ∧ (i a).val < win1_1.index t a * S1x48x205x32.size a + win1_1.xsize (grid1.coords t) a := by
  show i ∈ ((View.whole main_v1).slice (win1_1.rect t)).set ↔ _
  rw [View.set_slice_whole, Rect.mem_set_unit]
  exact Iff.rfl

/-- The cut blocks cover the result: (b, i, j, z) is in the block of point (b, i / 48). -/
theorem blocks_cover1 (i : S32x284x205x32.Idx) :
    ∃ t : Fin cfg1.N, (cfg1.win 1).flush t = true ∧ i ∈ ((cfg1.win 1).blk t).view.set := by
  have h0 : (i 0).val < 32 := (i 0).isLt
  have h1 : (i 1).val < 284 := (i 1).isLt
  have h2 : (i 2).val < 205 := (i 2).isLt
  have h3 : (i 3).val < 32 := (i 3).isLt
  have hN : (i 0).val * 6 + (i 1).val / 48 < cfg1.N := by rw [show cfg1.N = 192 from N_1]; omega
  refine ⟨⟨(i 0).val * 6 + (i 1).val / 48, hN⟩, flush1_1 _, ?_⟩
  rw [mem_blk1]
  obtain ⟨-, ⟨e0, e1, e2, e3⟩, -, ⟨x0, x1, x2, x3⟩⟩ := idx_facts1 ⟨(i 0).val * 6 + (i 1).val / 48, hN⟩
  have e0' : win1_1.index ⟨(i 0).val * 6 + (i 1).val / 48, hN⟩ (0 : Fin 4) = ((i 0).val * 6 + (i 1).val / 48) / 6 := e0
  have e1' : win1_1.index ⟨(i 0).val * 6 + (i 1).val / 48, hN⟩ (1 : Fin 4) = ((i 0).val * 6 + (i 1).val / 48) % 6 := e1
  have x1' : win1_1.xsize (grid1.coords ⟨(i 0).val * 6 + (i 1).val / 48, hN⟩) (1 : Fin 4) = min 48 (284 - 48 * (((i 0).val * 6 + (i 1).val / 48) % 6)) := x1
  clear e0 e1 x1
  intro a
  match a with
  | ⟨0, _⟩ => show win1_1.index _ (0 : Fin 4) * 1 ≤ (i 0).val ∧ (i 0).val < win1_1.index _ (0 : Fin 4) * 1 + win1_1.xsize _ (0 : Fin 4); rw [e0', x0]; omega
  | ⟨1, _⟩ => show win1_1.index _ (1 : Fin 4) * 48 ≤ (i 1).val ∧ (i 1).val < win1_1.index _ (1 : Fin 4) * 48 + win1_1.xsize _ (1 : Fin 4); rw [e1', x1']; omega
  | ⟨2, _⟩ => show win1_1.index _ (2 : Fin 4) * 205 ≤ (i 2).val ∧ (i 2).val < win1_1.index _ (2 : Fin 4) * 205 + win1_1.xsize _ (2 : Fin 4); rw [e2, x2]; omega
  | ⟨3, _⟩ => show win1_1.index _ (3 : Fin 4) * 32 ≤ (i 3).val ∧ (i 3).val < win1_1.index _ (3 : Fin 4) * 32 + win1_1.xsize _ (3 : Fin 4); rw [e3, x3]; omega

include hout1 in
/-- The second region leaves the column mix of what it finds in the row-mixed image's array. -/
theorem final1 : (datOf1 V (aftOf1 out1 V) c).arrAt 1 cfg1.N = colMix (V c main_v0) :=
  (datOf1 V (aftOf1 out1 V) c).arrAt_eq_of_cover 1 (colMix (V c main_v0)) (fun t _ => flushed1_eq out1 hout1 V c t) blocks_cover1

end Region1

end Cert.KernelIdeal.Hand

end
-- ==== Proof.IdealResult.lean ====
/-
  The kernel's result array at the extended reals, for any bodies that mix three rows and three columns as stated:
  the second region leaves the column mix of what it finds in the row-mixed image's array, which is what the first
  region left there, the row mix of the image.
-/
import proofs.«110337_j82789789597838_2_alg».proof.Proof.IdealRun
import proofs.«110337_j82789789597838_2_alg».proof.Proof.IdealFinal

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Stencil

theorem result_eq (out0 : Vec Ideal S1x512x32x32 .f32 → Vec Ideal S1x284x32x32 .f32)
    (hout0 : ∀ (x0 : Vec Ideal S1x512x32x32 .f32) (i : Fin 284) (y : Fin 32) (z : Fin 32),
      out0 x0 (ix4 (0 : Fin 1) i y z)
        = mix3 (x0 (ix4 (0 : Fin 1) (row i 0) y z)) (x0 (ix4 (0 : Fin 1) (row i 1) y z)) (x0 (ix4 (0 : Fin 1) (row i 2) y z)))
    (out1 : Vec Ideal S1x48x512x32 .f32 → Vec Ideal S1x48x205x32 .f32)
    (hout1 : ∀ (x0 : Vec Ideal S1x48x512x32 .f32) (r : Fin 48) (j : Fin 205) (z : Fin 32),
      out1 x0 (ix4 (0 : Fin 1) r j z)
        = mix3 (x0 (ix4 (0 : Fin 1) r (col j 0) z)) (x0 (ix4 (0 : Fin 1) r (col j 1) z)) (x0 (ix4 (0 : Fin 1) r (col j 2) z)))
    (m : (ℓ : Loc nD τ sig) → Buf (Elt Ideal) ℓ) (c : Dev nD) :
    (d1 m (aftOf0 out0) (aftOf1 out1) c).arrAt 1 cfg1.N
      = colMix (rowMix (m ((c.tc : Thread nD τ).loc main_arg0))) := by
  have h1 := final1 out1 hout1 (E1 m (aftOf0 out0)) c
  have h0 := final0 out0 hout0 (E0 m) c
  have hE := E1_main_v0 m (aftOf0 out0) c
  refine h1.trans ?_
  refine congrArg colMix ?_
  exact hE.trans h0

end Cert.KernelIdeal.Hand

end
-- ==== Proof.IdealRegion0Out.lean ====
/-
  The first kernel region, for any float instance: what its body leaves in the output window's buffer.

  The body reads the 512 rows of an input block (one batch entry, all rows, 32 columns, all channels) and, for each of
  the 284 output rows `i`, stores into row `i` of the output block the three input rows `rowOf i`, `rowOf i + 1`,
  `rowOf i + 2` mixed with the weights 1, 2, 1: 284 stores, each a whole row of the output block, which together tile
  it.

  `out0` is the output buffer after the body as a function of the input block: the overlay of the 284 stored rows
  (`pieces0`), row `i` being the one arithmetic expression of its three loaded rows that every store computes
  (`rowPay`). The rows cover the block (`cover0`).
-/
import proofs.«110337_j82789789597838_2_alg».proof.Proof.IdealData
import proofs.«110337_j82789789597838_2_alg».proof.Proof.Gen.KernelIdeal.Skeleton
import proofs.«110337_j82789789597838_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Stencil (rowOf rowOf_add_lt)

variable {F : FTy → Type} [FloatOps F]

local notation "𝕄" => MT nD τ sig Unit (Elt F) ℕ (UR sig nD τ) ℕ

/-! ## The rows the body reads and writes -/

/-- Row `r` of the input block lies inside it. -/
theorem xrow_inb (r : ℕ) (hr : r < 512) :
    ∀ a, (![0, r, 0, 0] : Fin 4 → Nat) a + S1x1x32x32.size a ≤ S1x512x32x32.size a := fun a =>
  match a with
  | ⟨0, _⟩ => Nat.le_refl 1
  | ⟨1, _⟩ => (show r + 1 ≤ 512 from hr)
  | ⟨2, _⟩ => Nat.le_refl 32
  | ⟨3, _⟩ => Nat.le_refl 32

/-- Row `i` of the output block lies inside it. -/
theorem orow_inb (i : ℕ) (hi : i < 284) :
    ∀ a, (![0, i, 0, 0] : Fin 4 → Nat) a + S1x1x32x32.size a ≤ S1x284x32x32.size a := fun a =>
  match a with
  | ⟨0, _⟩ => Nat.le_refl 1
  | ⟨1, _⟩ => (show i + 1 ≤ 284 from hi)
  | ⟨2, _⟩ => Nat.le_refl 32
  | ⟨3, _⟩ => Nat.le_refl 32

/-- Row `r` of the input block, as the rectangle a load reads. -/
def xrow (r : ℕ) (hr : r < 512) : Rect S1x512x32x32 :=
  Rect.unit (s := S1x512x32x32) ![0, r, 0, 0] S1x1x32x32.size (xrow_inb r hr)

/-- Row `i` of the output block, as the rectangle a store writes. -/
def orow (i : ℕ) (hi : i < 284) : Rect S1x284x32x32 :=
  Rect.unit (s := S1x284x32x32) ![0, i, 0, 0] S1x1x32x32.size (orow_inb i hi)

/-! ## What the body leaves in the output window's buffer -/

/-- The one expression every store computes of its three loaded rows: 1·a + 2·b + 1·c, the weights splat over the
    row, the products added left to right (the payload of the first store, whose three loads and whose arithmetic are
    printed together). -/
abbrev rowPay (a b c : Vec F S1x1x32x32 .f32) : FVec F S1x1x32x32 .f32 := k0_pay2 a b c

/-- The store of output row `i`: the rows `rowOf i`, `rowOf i + 1`, `rowOf i + 2` of the input block, mixed. -/
def piece0 (x0 : Vec F S1x512x32x32 .f32) (i : ℕ) (hi : i < 284) : View.Piece (Elt F) S1x284x32x32 .f32 :=
  ⟨orow i hi, rowPay (View.ld x0 (xrow (rowOf i) (rowOf_add_lt (d := 0) hi (by decide))))
    (View.ld x0 (xrow (rowOf i + 1) (rowOf_add_lt hi (by decide))))
    (View.ld x0 (xrow (rowOf i + 2) (rowOf_add_lt hi (by decide))))⟩

/-- The stores of the output rows below `n`, the last first. -/
def pieces0 (x0 : Vec F S1x512x32x32 .f32) : (n : ℕ) → n ≤ 284 → List (View.Piece (Elt F) S1x284x32x32 .f32)
  | 0, _ => []
  | n + 1, h => piece0 x0 n (Nat.lt_of_succ_le h) :: pieces0 x0 n (Nat.le_of_succ_le h)

/-- The output window's buffer after the body, from the input window's block: the 284 stored rows laid over one
    another. -/
def out0 (x0 : Vec F S1x512x32x32 .f32) : Vec F S1x284x32x32 .f32 :=
  View.canon (pieces0 x0 284 (Nat.le_refl 284))

theorem pieces0_succ (x0 : Vec F S1x512x32x32 .f32) (n : ℕ) (h : n + 1 ≤ 284) :
    pieces0 x0 (n + 1) h = piece0 x0 n (Nat.lt_of_succ_le h) :: pieces0 x0 n (Nat.le_of_succ_le h) := rfl

/-- The store of every row below `n` is among the stores below `n`, -/
theorem piece0_mem (x0 : Vec F S1x512x32x32 .f32) :
    ∀ (n : ℕ) (h : n ≤ 284) (i : ℕ) (hi : i < n), piece0 x0 i (Nat.lt_of_lt_of_le hi h) ∈ pieces0 x0 n h
  | 0, _, _, hi => absurd hi (Nat.not_lt_zero _)
  | n + 1, h, i, hi => by
    rw [pieces0_succ]
    rcases Nat.lt_succ_iff_lt_or_eq.mp hi with hlt | rfl
    · exact List.mem_cons_of_mem _ (piece0_mem x0 n (Nat.le_of_succ_le h) i hlt)
    · exact List.mem_cons_self

/-- and every store below `n` is the store of a row below `n`. -/
theorem exists_of_mem_pieces0 (x0 : Vec F S1x512x32x32 .f32) :
    ∀ (n : ℕ) (h : n ≤ 284) (p : View.Piece (Elt F) S1x284x32x32 .f32), p ∈ pieces0 x0 n h →
      ∃ (i : ℕ) (hi : i < 284), p = piece0 x0 i hi
  | 0, _, _, hp => absurd hp List.not_mem_nil
  | n + 1, h, p, hp => by
    rw [pieces0_succ] at hp
    rcases List.mem_cons.mp hp with rfl | hp'
    · exact ⟨n, Nat.lt_of_succ_le h, rfl⟩
    · exact exists_of_mem_pieces0 x0 n (Nat.le_of_succ_le h) p hp'

/-- An index of the output block lies in the row its second coordinate names. -/
theorem mem_orow (y : S1x284x32x32.Idx) : y ∈ (orow (y 1).val (y 1).isLt).set := by
  have h0 : (y 0).val < 1 := (y 0).isLt
  have h2 : (y 2).val < 32 := (y 2).isLt
  have h3 : (y 3).val < 32 := (y 3).isLt
  unfold orow
  rw [Rect.mem_set_unit]
  intro a
  match a with
  | ⟨0, _⟩ => exact ⟨Nat.zero_le _, by show (y 0).val < 0 + 1; omega⟩
  | ⟨1, _⟩ => exact ⟨Nat.le_refl _, by show (y 1).val < (y 1).val + 1; omega⟩
  | ⟨2, _⟩ => exact ⟨Nat.zero_le _, by show (y 2).val < 0 + 32; omega⟩
  | ⟨3, _⟩ => exact ⟨Nat.zero_le _, by show (y 3).val < 0 + 32; omega⟩

/-- The 284 rows cover the output block. -/
theorem cover0 (x0 : Vec F S1x512x32x32 .f32) (y : S1x284x32x32.Idx) :
    ∃ pc ∈ pieces0 x0 284 (Nat.le_refl 284), y ∈ pc.1.set :=
  ⟨piece0 x0 (y 1).val (y 1).isLt, piece0_mem x0 284 (Nat.le_refl 284) (y 1).val (y 1).isLt, mem_orow y⟩

end Cert.KernelIdeal.Hand

end
-- ==== Proof.IdealRegion0Run.lean ====
/-
  The first kernel region, for any float instance: the body's run. On whole staging buffers, the input's reading `x0`
  and the output's holding anything, the body runs to its end leaving the input's as it was and the output's reading
  `out0 x0`: the run leaves the 284 row stores listed over whatever the output buffer held; the rows cover the buffer,
  so it reads as their overlay; and the listed stores are `pieces0` row by row — each store's value, however the
  printed text cuts its arithmetic, unfolds to the one expression `rowPay` of its three loaded rows, and its literal
  rows are `rowOf i`, `rowOf i + 1`, `rowOf i + 2`.
-/
import proofs.«110337_j82789789597838_2_alg».proof.Proof.IdealRegion0Out

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Stencil (rowOf rowOf_add_lt)

variable {F : FTy → Type} [FloatOps F]

local notation "𝕄" => MT nD τ sig Unit (Elt F) ℕ (UR sig nD τ) ℕ

set_option maxHeartbeats 4000000 in
/-- The body's triple. -/
theorem sound_kernel0 (c : Dev nD) (E : Set ℕ) (i : grid0.Coords)
    (arg0 : Memref sig .tc .vmem S1x512x32x32 .f32) (harg0 : arg0.IsWhole)
    (arg1 : Memref sig .tc .vmem S1x284x32x32 .f32) (harg1 : arg1.IsWhole)
    (x0 : Vec F S1x512x32x32 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0 x0)) -∗ K ⟨⟩))
      ⊢ wp frame (wpE (defs₀ (F := F)) Variants.none c none) E (cc0__row_reduce_kernel i arg0 harg0 arg1 harg1) K := by
  simp only [cc0__row_reduce_kernel_eq_skeleton]; unfold cc0__row_reduce_kernel_skel
  unfold owns
  iintro ⟨⟨%f0, %hf0, H0⟩, ⟨%d1, %f1, -, H1⟩, Hk⟩
  subst hf0
  sl_exec_parts
  sl_step
  iapply Hk
  isplitl [H0]
  · iexists f0; isplitr; · ipureintro; rfl
    iexact H0
  iexists _; isplitr
  swap; · iexact H1
  ipureintro
  exact View.read_writes_eq_canon _ _ _ (cover0 _)

end Cert.KernelIdeal.Hand

end
-- ==== Proof.IdealRegion0.lean ====
/-
  The first kernel region, for any float instance: the pipeline's proof data and its body obligation. The region's
  arrays are the entry contents; after the body at a grid point the input window's buffer still holds its block and
  the output window's holds `out0` of that block. The input window is fetched where its block index moves and holds
  its block at every point either way; so the body's run applies at every point, the invariant and the core's debts
  passing through unread.
-/
import proofs.«110337_j82789789597838_2_alg».proof.Proof.IdealRegion0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Stencil (rowOf rowOf_add_lt)

variable {F : FTy → Type} [FloatOps F]

local notation "𝕄" => MT nD τ sig Unit (Elt F) ℕ (UR sig nD τ) ℕ

/-! ## The pipeline's proof data -/

/-- The proof data's arrays are the region-entry contents. -/
theorem A_eq0 (V : Entry F) (c : Dev nD) (w : Fin cfg0.W) :
    (datOf0 V (aftOf0 out0 V) c).A w = V c (Pipeline.arrRef spec0 w) := by
  dsimp only [datOf0]

/-- What the body leaves, window by window. -/
theorem after0_0 (V : Entry F) (c : Dev nD) (t : Fin cfg0.N) :
    (datOf0 V (aftOf0 out0 V) c).after 0 t = iblk0 V c 0 t := by dsimp only [datOf0, aftOf0]
theorem after0_1 (V : Entry F) (c : Dev nD) (t : Fin cfg0.N) :
    (datOf0 V (aftOf0 out0 V) c).after 1 t = out0 (iblk0 V c 0 t) := by dsimp only [datOf0, aftOf0]

/-- The input window's current staging buffer holds its block at every point, fetched there or not, for any proof data
    whose array is the entry contents' and whose body leaves the block in place: unfetched, the block index has not
    moved; the window is uncut and never idle. -/
theorem before0_0_of (V : Entry F) {c : Dev nD} (dat : Dat τ (Elt F) Unit ℕ (UR sig nD τ) ℕ cfg0 c)
    (hA : dat.A 0 = V c (Pipeline.arrRef spec0 0)) (hafter : ∀ t, dat.after 0 t = iblk0 V c 0 t) (t : Fin cfg0.N) (d) :
    dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

theorem before0_0 (V : Entry F) (c : Dev nD) (t : Fin cfg0.N) (d) :
    (datOf0 V (aftOf0 out0 V) c).before 0 t d = iblk0 V c 0 t :=
  before0_0_of V (datOf0 V (aftOf0 out0 V) c) (A_eq0 V c 0) (after0_0 V c) t d

/-! ## The body obligation, at a generic point -/

/-- What the body is called with at point `t`, the windows one by one, -/
def bodyPre0 (V : Entry F) (c : Dev nD) (t : Fin cfg0.N) : sProp 𝕄 :=
  iprop((datOf0 V (aftOf0 out0 V) c).Φ t.castSucc ∗ (datOf0 V (aftOf0 out0 V) c).owesAt () t.castSucc
    ∗ (∃ d, owns (c : Thread nD τ) (st0_0 t) fullShare ((datOf0 V (aftOf0 out0 V) c).before 0 t d))
    ∗ (∃ d, owns (c : Thread nD τ) (st0_1 t) fullShare ((datOf0 V (aftOf0 out0 V) c).before 1 t d)))

/-- and what it returns. -/
def bodyPost0 (V : Entry F) (c : Dev nD) (t : Fin cfg0.N) : sProp 𝕄 :=
  iprop((datOf0 V (aftOf0 out0 V) c).Φ t.succ ∗ (datOf0 V (aftOf0 out0 V) c).owesAt () t.succ
    ∗ owns (c : Thread nD τ) (st0_0 t) fullShare ((datOf0 V (aftOf0 out0 V) c).after 0 t)
    ∗ owns (c : Thread nD τ) (st0_1 t) fullShare ((datOf0 V (aftOf0 out0 V) c).after 1 t))

/-- The body at any point: the input's memref holds its block, so the body's triple applies; the invariant and the
    core's debts pass through unread. -/
theorem sound_body0 (V : Entry F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (datOf0 V (aftOf0 out0 V) c).Φ t.succ = (datOf0 V (aftOf0 out0 V) c).Φ t.castSucc from rfl,
    show (datOf0 V (aftOf0 out0 V) c).owesAt () t.succ = (datOf0 V (aftOf0 out0 V) c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

set_option maxRecDepth 65536 in
/-- The pipeline's body obligation, at every point. -/
theorem body_obligation0 (V : Entry F) (c : Dev nD) :
    BodyObligation (datOf0 V (aftOf0 out0 V) c) (defs₀ (F := F)) Variants.none () Set.univ := fun t => by
  rw [bigSep_W0, bigSep_W0]
  exact sound_body0 V c t

end Cert.KernelIdeal.Hand

end
-- ==== Proof.IdealRegion0Value.lean ====
/-
  The first kernel region read at an index, on extended reals: entry (0, i, y, z) of what the body leaves in the output
  window's buffer is the three input rows `rowOf i`, `rowOf i + 1`, `rowOf i + 2` at (y, z), mixed with the weights
  1, 2, 1 and added left to right.

  Every stored row is the same expression of its three loaded rows; read at (y, z) it is the mix of the three rows'
  entries there — the shape changes between a [1, 1, 32, 32] row and a [32, 32] matrix keep the row-major position, the
  weights are splat, and on extended reals the float product and sum are the exact ones. Row `i` of the overlay of the
  284 stored rows is the `i`-th stored row, since the rows are disjoint and cover the buffer.
-/
import proofs.«110337_j82789789597838_2_alg».proof.Proof.IdealRegion0Out
import proofs.«110337_j82789789597838_2_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx Cert.Stencil

/-! ## The two shape changes of a stored row, read at an index -/

/-- A `[1, 1, a, b]` array viewed as `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array viewed as `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A stored row at an index -/

/-- The expression every store computes, read at `(y, z)`: the three rows' entries there, mixed. -/
theorem rowPay_apply (a b c : Vec Ideal S1x1x32x32 .f32) (y z : Fin 32) :
    rowPay (F := Ideal) a b c (ix4 (0 : Fin 1) (0 : Fin 1) y z)
      = mix3 (a (ix4 (0 : Fin 1) (0 : Fin 1) y z)) (b (ix4 (0 : Fin 1) (0 : Fin 1) y z)) (c (ix4 (0 : Fin 1) (0 : Fin 1) y z)) := by
  unfold rowPay k0_pay2
  refine (shapeCast_ab_11ab_apply _ _ 0 0 y z).trans ?_
  show (w1 * shapeCast S32x32 a shapeCasts_S1x1x32x32_S32x32 (ix2 y z)
      + w2 * shapeCast S32x32 b shapeCasts_S1x1x32x32_S32x32 (ix2 y z))
      + w1 * shapeCast S32x32 c shapeCasts_S1x1x32x32_S32x32 (ix2 y z) = _
  rw [shapeCast_11ab_ab_apply a _ y z, shapeCast_11ab_ab_apply b _ y z, shapeCast_11ab_ab_apply c _ y z]
  rfl

/-- Row `r` of the input block, read at `(y, z)`, is the block at `(0, r, y, z)`. -/
theorem ld_xrow_apply (x0 : Vec Ideal S1x512x32x32 .f32) (r : ℕ) (hr : r < 512) (y z : Fin 32) :
    View.ld x0 (xrow r hr) (ix4 (0 : Fin 1) (0 : Fin 1) y z) = x0 (ix4 (0 : Fin 1) (⟨r, hr⟩ : Fin 512) y z) := by
  show x0 ((xrow r hr).idx (ix4 (0 : Fin 1) (0 : Fin 1) y z)) = _
  refine congrArg x0 (funext fun a => Fin.ext ?_)
  match a with
  | ⟨0, _⟩ => rfl
  | ⟨1, _⟩ => show r + 1 * 0 = r; omega
  | ⟨2, _⟩ => show 0 + 1 * y.val = y.val; omega
  | ⟨3, _⟩ => show 0 + 1 * z.val = z.val; omega

/-- Where entry `(y, z)` of output row `i` sits in the output block. -/
theorem orow_emb (i : ℕ) (hi : i < 284) (y z : Fin 32) :
    (orow i hi).emb (ix4 (0 : Fin 1) (0 : Fin 1) y z) = ix4 (0 : Fin 1) (⟨i, hi⟩ : Fin 284) y z := by
  refine funext fun a => Fin.ext ?_
  match a with
  | ⟨0, _⟩ => rfl
  | ⟨1, _⟩ => show i + 1 * 0 = i; omega
  | ⟨2, _⟩ => show 0 + 1 * y.val = y.val; omega
  | ⟨3, _⟩ => show 0 + 1 * z.val = z.val; omega

/-- The rows mixed, as one function of the output block's index. -/
def mixed0 (x0 : Vec Ideal S1x512x32x32 .f32) : S1x284x32x32.Idx → EReal := fun j =>
  mix3 (x0 (ix4 (0 : Fin 1) (row (j 1) 0) (j 2) (j 3))) (x0 (ix4 (0 : Fin 1) (row (j 1) 1) (j 2) (j 3)))
    (x0 (ix4 (0 : Fin 1) (row (j 1) 2) (j 2) (j 3)))

/-- The store of output row `i` holds the rows mixed, at the indices of row `i`. -/
theorem piece0_apply (x0 : Vec Ideal S1x512x32x32 .f32) (i : ℕ) (hi : i < 284) (x : (piece0 x0 i hi).1.shape.Idx) :
    (piece0 x0 i hi).2 x = mixed0 x0 ((piece0 x0 i hi).1.emb x) := by
  obtain ⟨u, v, y, z, rfl⟩ : ∃ (u v : Fin 1) (y z : Fin 32), x = ix4 u v y z := ⟨x 0, x 1, x 2, x 3, eq_ix4 x⟩
  obtain rfl : u = 0 := Subsingleton.elim _ _
  obtain rfl : v = 0 := Subsingleton.elim _ _
  have e0 := ld_xrow_apply x0 (rowOf i) (rowOf_add_lt (d := 0) hi (by decide)) y z
  have e1 := ld_xrow_apply x0 (rowOf i + 1) (rowOf_add_lt hi (by decide)) y z
  have e2 := ld_xrow_apply x0 (rowOf i + 2) (rowOf_add_lt hi (by decide)) y z
  have eo : mixed0 x0 ((orow i hi).emb (ix4 (0 : Fin 1) (0 : Fin 1) y z)) = mixed0 x0 (ix4 (0 : Fin 1) (⟨i, hi⟩ : Fin 284) y z) :=
    congrArg (mixed0 x0) (orow_emb i hi y z)
  show rowPay (F := Ideal) _ _ _ (ix4 (0 : Fin 1) (0 : Fin 1) y z) = mixed0 x0 ((orow i hi).emb (ix4 (0 : Fin 1) (0 : Fin 1) y z))
  refine ((rowPay_apply _ _ _ y z).trans ?_).trans eo.symm
  exact congr (congr (congrArg mix3 e0) e1) e2

/-- Entry (0, i, y, z) of what the body leaves in the output window's buffer. -/
theorem out0_apply (x0 : Vec Ideal S1x512x32x32 .f32) (i : Fin 284) (y : Fin 32) (z : Fin 32) :
    out0 (F := Ideal) x0 (ix4 (0 : Fin 1) i y z)
      = mix3 (x0 (ix4 (0 : Fin 1) (row i 0) y z)) (x0 (ix4 (0 : Fin 1) (row i 1) y z)) (x0 (ix4 (0 : Fin 1) (row i 2) y z)) := by
  unfold out0
  refine (View.canon_apply_of_pieces (mixed0 x0) (pieces0 x0 284 (Nat.le_refl 284)) (fun p hp x => ?_) _ (cover0 x0 _)).trans rfl
  obtain ⟨k, hk, rfl⟩ := exists_of_mem_pieces0 x0 284 (Nat.le_refl 284) p hp
  exact piece0_apply x0 k hk x

end Cert.KernelIdeal.Hand

end
-- ==== Proof.IdealRegion1Out.lean ====
/-
  What the second kernel's body leaves in its output buffer, as one function of what its input buffer holds, for any
  float instance.

  The input buffer is a block of 48 rows of the row-mixed image, [1, 48, 512, 32]; the output buffer is the same 48 rows
  with 205 columns, [1, 48, 205, 32]. For each output column `j` the body reads the three input columns `colOf j`,
  `colOf j + 1`, `colOf j + 2` (all 48 rows and 32 channels of each at once), multiplies them by the float words of
  1, 2 and 1, adds the three products left to right, and stores the sum as output column `j`. So entry (0, r, j, z) of
  what it leaves is the mix of the input's entries (0, r, colOf j + d, z), d = 0, 1, 2 (`out1`): a function of row `r`
  of the input alone. That is why the four rows of the last block that lie past the array's end do no harm: whatever
  they hold only reaches the same four rows of the output buffer, which are never written back
  (`out1_congr_rows`).

  `piece_col` is the one store of the body read at an index: the value stored for column `j`, computed from three
  loaded columns through the two changes of shape [1, 48, 1, 32] ↔ [48, 32], is `out1` at the index the store writes.
-/
import proofs.«110337_j82789789597838_2_alg».proof.Proof.Gen.KernelIdeal
import proofs.«110337_j82789789597838_2_alg».proof.Proof.Spec
import Idealize.ShloMosaic.Lib.Pipeline.Value

noncomputable section

namespace Cert.KernelIdeal.Hand

open Cert.KernelIdeal Cert.KernelIdeal.Gen
open Idealize.ShloMosaic Idealize.ShloMosaic.ValueIdx Cert.Stencil

variable {F : FTy → Type} [FloatOps F]

/-- Three neighbours mixed with the weights 1, 2, 1, the weights as the float words the kernel carries, the products
    added left to right. -/
def mixW (a b c : F .f32) : F .f32 :=
  FloatOps.addf
    (FloatOps.addf (FloatOps.mulf (Scalar.ofBits .f32 0x3F800000#32) a) (FloatOps.mulf (Scalar.ofBits .f32 0x40000000#32) b))
    (FloatOps.mulf (Scalar.ofBits .f32 0x3F800000#32) c)

/-- What the body leaves in the whole output buffer, from the whole input buffer: entry (0, r, j, z) is the mix of the
    input's row `r` at the columns `colOf j`, `colOf j + 1`, `colOf j + 2`. -/
def out1 (x0 : Vec F S1x48x512x32 .f32) : Vec F S1x48x205x32 .f32 := fun y =>
  mixW (x0 (ix4 (0 : Fin 1) (y 1 : Fin 48) (col (y 2 : Fin 205) 0) (y 3 : Fin 32)))
    (x0 (ix4 (0 : Fin 1) (y 1 : Fin 48) (col (y 2 : Fin 205) 1) (y 3 : Fin 32)))
    (x0 (ix4 (0 : Fin 1) (y 1 : Fin 48) (col (y 2 : Fin 205) 2) (y 3 : Fin 32)))

/-- `out1` at an index given by its coordinates. -/
theorem out1_ix4 (x0 : Vec F S1x48x512x32 .f32) (r : Fin 48) (j : Fin 205) (z : Fin 32) :
    out1 x0 (ix4 (0 : Fin 1) r j z)
      = mixW (x0 (ix4 (0 : Fin 1) r (col j 0) z)) (x0 (ix4 (0 : Fin 1) r (col j 1) z)) (x0 (ix4 (0 : Fin 1) r (col j 2) z)) := rfl

/-- Row `r` of the result reads row `r` of the input and nothing else: inputs that agree on the rows below `n` give
    results that agree on the rows below `n`. -/
theorem out1_congr_rows (X Y : Vec F S1x48x512x32 .f32) (n : ℕ)
    (h : ∀ k : S1x48x512x32.Idx, (k 1).val < n → X k = Y k) (y : S1x48x205x32.Idx) (hy : (y 1).val < n) :
    out1 X y = out1 Y y := by
  unfold out1
  rw [h (ix4 (0 : Fin 1) (y 1 : Fin 48) (col (y 2 : Fin 205) 0) (y 3 : Fin 32)) hy,
    h (ix4 (0 : Fin 1) (y 1 : Fin 48) (col (y 2 : Fin 205) 1) (y 3 : Fin 32)) hy,
    h (ix4 (0 : Fin 1) (y 1 : Fin 48) (col (y 2 : Fin 205) 2) (y 3 : Fin 32)) hy]

/-- The body's arithmetic for one column, read at an index: three loaded columns taken to [48, 32], multiplied by the
    splat weights, added, and taken back to [1, 48, 1, 32], is the mix of the three columns' entries at that index
    (the two changes of shape undo one another, and the arithmetic is entry by entry). -/
theorem pay_apply (a b c : Vec F S1x48x1x32 .f32) (h h' h'' : S1x48x1x32.ShapeCasts S48x32)
    (k : S48x32.ShapeCasts S1x48x1x32) (x : S1x48x1x32.Idx) :
    shapeCast S1x48x1x32
        (addf (addf (mulf (broadcast S48x32 (Scalar.ofBits .f32 0x3F800000#32 : F .f32)) (shapeCast S48x32 a h))
                    (mulf (broadcast S48x32 (Scalar.ofBits .f32 0x40000000#32 : F .f32)) (shapeCast S48x32 b h')))
              (mulf (broadcast S48x32 (Scalar.ofBits .f32 0x3F800000#32 : F .f32)) (shapeCast S48x32 c h''))) k x
      = mixW (a x) (b x) (c x) := by
  show mixW (shapeCast S1x48x1x32 (shapeCast S48x32 a h) k x) (shapeCast S1x48x1x32 (shapeCast S48x32 b h') k x)
      (shapeCast S1x48x1x32 (shapeCast S48x32 c h'') k x) = _
  rw [shapeCast_shapeCast, shapeCast_shapeCast, shapeCast_shapeCast]

/-- The store of output column `j` read at an index of its rectangle: the value the body stores there, computed from
    the loads of the input columns `c0 = colOf j`, `c1 = colOf j + 1`, `c2 = colOf j + 2`, is `out1` of the input
    buffer at the index of the output buffer that the store writes. -/
theorem piece_col (X : Vec F S1x48x512x32 .f32) (j c0 c1 c2 : ℕ)
    (hj : j < 205) (e0 : c0 = colOf j) (e1 : c1 = colOf j + 1) (e2 : c2 = colOf j + 2)
    (inbj : ∀ a, (![0, 0, j, 0] : Fin 4 → ℕ) a + S1x48x1x32.size a ≤ S1x48x205x32.size a)
    (inb0 : ∀ a, (![0, 0, c0, 0] : Fin 4 → ℕ) a + S1x48x1x32.size a ≤ S1x48x512x32.size a)
    (inb1 : ∀ a, (![0, 0, c1, 0] : Fin 4 → ℕ) a + S1x48x1x32.size a ≤ S1x48x512x32.size a)
    (inb2 : ∀ a, (![0, 0, c2, 0] : Fin 4 → ℕ) a + S1x48x1x32.size a ≤ S1x48x512x32.size a)
    (h h' h'' : S1x48x1x32.ShapeCasts S48x32) (k : S48x32.ShapeCasts S1x48x1x32)
    (x : S1x48x1x32.Idx) :
    shapeCast S1x48x1x32
        (addf (addf (mulf (broadcast S48x32 (Scalar.ofBits .f32 0x3F800000#32 : F .f32))
                      (shapeCast S48x32 (View.ld X (Rect.unit (s := S1x48x512x32) ![0, 0, c0, 0] S1x48x1x32.size inb0)) h))
                    (mulf (broadcast S48x32 (Scalar.ofBits .f32 0x40000000#32 : F .f32))
                      (shapeCast S48x32 (View.ld X (Rect.unit (s := S1x48x512x32) ![0, 0, c1, 0] S1x48x1x32.size inb1)) h')))
              (mulf (broadcast S48x32 (Scalar.ofBits .f32 0x3F800000#32 : F .f32))
                (shapeCast S48x32 (View.ld X (Rect.unit (s := S1x48x512x32) ![0, 0, c2, 0] S1x48x1x32.size inb2)) h''))) k x
      = out1 X ((Rect.unit (s := S1x48x205x32) ![0, 0, j, 0] S1x48x1x32.size inbj).emb x) := by
  rw [pay_apply]
  have hx0 : (x 0).val = 0 := by have : (x 0).val < 1 := (x 0).isLt; omega
  have hx2 : (x 2).val = 0 := by have : (x 2).val < 1 := (x 2).isLt; omega
  -- each loaded column at `x` is the input buffer at row `x 1`, channel `x 3` of that column
  have key : ∀ (d : Fin 3) (cd : ℕ) (ed : cd = colOf j + d.val)
      (inbd : ∀ a, (![0, 0, cd, 0] : Fin 4 → ℕ) a + S1x48x1x32.size a ≤ S1x48x512x32.size a),
      View.ld X (Rect.unit (s := S1x48x512x32) ![0, 0, cd, 0] S1x48x1x32.size inbd) x
        = X (ix4 (0 : Fin 1)
            (((Rect.unit (s := S1x48x205x32) ![0, 0, j, 0] S1x48x1x32.size inbj).emb x) 1 : Fin 48)
            (col (((Rect.unit (s := S1x48x205x32) ![0, 0, j, 0] S1x48x1x32.size inbj).emb x) 2 : Fin 205) d)
            (((Rect.unit (s := S1x48x205x32) ![0, 0, j, 0] S1x48x1x32.size inbj).emb x) 3 : Fin 32)) := by
    intro d cd ed inbd
    refine congrArg X (funext fun a => Fin.ext ?_)
    match a with
    | ⟨0, _⟩ => show 0 + 1 * (x 0).val = 0; omega
    | ⟨1, _⟩ => rfl
    | ⟨2, _⟩ =>
      show cd + 1 * (x 2).val = colOf (j + 1 * (x 2).val) + d.val
      rw [hx2, ed]; simp only [Nat.mul_zero, Nat.add_zero]
    | ⟨3, _⟩ => rfl
  unfold out1
  rw [key 0 c0 (by rw [e0]; rfl) inb0, key 1 c1 (by rw [e1]; rfl) inb1, key 2 c2 (by rw [e2]; rfl) inb2]

/-- The rectangle of one column of the input buffer, and of the output buffer, lies inside it. -/
theorem inb_in (c : ℕ) (hc : c < 512) :
    ∀ a, (![0, 0, c, 0] : Fin 4 → ℕ) a + S1x48x1x32.size a ≤ S1x48x512x32.size a := by
  intro a
  match a with
  | ⟨0, _⟩ => show 0 + 1 ≤ 1; omega
  | ⟨1, _⟩ => show 0 + 48 ≤ 48; omega
  | ⟨2, _⟩ => show c + 1 ≤ 512; omega
  | ⟨3, _⟩ => show 0 + 32 ≤ 32; omega
theorem inb_out (j : ℕ) (hj : j < 205) :
    ∀ a, (![0, 0, j, 0] : Fin 4 → ℕ) a + S1x48x1x32.size a ≤ S1x48x205x32.size a := by
  intro a
  match a with
  | ⟨0, _⟩ => show 0 + 1 ≤ 1; omega
  | ⟨1, _⟩ => show 0 + 48 ≤ 48; omega
  | ⟨2, _⟩ => show j + 1 ≤ 205; omega
  | ⟨3, _⟩ => show 0 + 32 ≤ 32; omega

theorem col_lt {j c : ℕ} (hj : j < 205) (d : ℕ) (hd : d < 3) (e : c = colOf j + d) : c < 512 :=
  e ▸ colOf_add_lt hj hd

/-- `piece_col` with the evidence inside the rectangles and casts derived from the three column equations, so that
    the columns are read off the store itself. -/
theorem piece_col' (X : Vec F S1x48x512x32 .f32) (j c0 c1 c2 : ℕ)
    (hj : j < 205) (e0 : c0 = colOf j + 0) (e1 : c1 = colOf j + 1) (e2 : c2 = colOf j + 2) (x : S1x48x1x32.Idx) :
    shapeCast S1x48x1x32
        (addf (addf (mulf (broadcast S48x32 (Scalar.ofBits .f32 0x3F800000#32 : F .f32))
                      (shapeCast S48x32 (View.ld X (Rect.unit (s := S1x48x512x32) ![0, 0, c0, 0] S1x48x1x32.size
                        (inb_in c0 (col_lt hj 0 (by decide) e0)))) shapeCasts_S1x48x1x32_S48x32))
                    (mulf (broadcast S48x32 (Scalar.ofBits .f32 0x40000000#32 : F .f32))
                      (shapeCast S48x32 (View.ld X (Rect.unit (s := S1x48x512x32) ![0, 0, c1, 0] S1x48x1x32.size
                        (inb_in c1 (col_lt hj 1 (by decide) e1)))) shapeCasts_S1x48x1x32_S48x32)))
              (mulf (broadcast S48x32 (Scalar.ofBits .f32 0x3F800000#32 : F .f32))
                (shapeCast S48x32 (View.ld X (Rect.unit (s := S1x48x512x32) ![0, 0, c2, 0] S1x48x1x32.size
                  (inb_in c2 (col_lt hj 2 (by decide) e2)))) shapeCasts_S1x48x1x32_S48x32)))
        shapeCasts_S48x32_S1x48x1x32 x
      = out1 X ((Rect.unit (s := S1x48x205x32) ![0, 0, j, 0] S1x48x1x32.size (inb_out j hj)).emb x) :=
  piece_col X j c0 c1 c2 hj e0 e1 e2 _ _ _ _ _ _ _ _ x

end Cert.KernelIdeal.Hand

end
-- ==== Proof.IdealRegion1Run.lean ====
/-
  The second kernel's body on its two buffers, for any float instance: from the input buffer at any contents `x0` and
  the output buffer at anything, the body runs to its end without a fault, leaves the input buffer as it was and the
  output buffer at `out1 x0`.

  The body is 205 times the same four steps, one per output column `j`: three reads of whole columns of the input
  buffer (the columns `colOf j`, `colOf j + 1`, `colOf j + 2`; a column read once serves the neighbouring output
  columns too), the weighted sum, a read of column `j` of the OUTPUT buffer whose value nothing uses, and the write of
  column `j` of the output buffer. The 205 writes are to the 205 different columns, so together they cover the output
  buffer, each entry written once; the value written for column `j` is `out1 x0` on that column (`piece_col`, with
  the column of every read checked against `colOf j` by evaluation). Hence the buffer ends at `out1 x0`, whatever it
  held before.
-/
import proofs.«110337_j82789789597838_2_alg».proof.Proof.IdealRegion1Out
import proofs.«110337_j82789789597838_2_alg».proof.Proof.Gen.KernelIdeal.Skeleton
import Idealize.ShloMosaic.Lib.Pipeline.Kit
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Stencil

variable {F : FTy → Type} [FloatOps F]

local notation "𝕄" => MT nD τ sig Unit (Elt F) ℕ (UR sig nD τ) ℕ

set_option maxHeartbeats 4000000 in
/-- The body on whole buffers: the input's at read contents `x0`, the output's at anything; it returns with the
    input's as it was and the output's at `out1 x0`. -/
theorem sound_kernel1 (c : Dev nD) (E : Set ℕ) (i : grid1.Coords)
    (arg0 : Memref sig .tc .vmem S1x48x512x32 .f32) (harg0 : arg0.IsWhole)
    (arg1 : Memref sig .tc .vmem S1x48x205x32 .f32) (harg1 : arg1.IsWhole)
    (x0 : Vec F S1x48x512x32 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1 x0)) -∗ K ⟨⟩))
      ⊢ wp frame (wpE (defs₀ (F := F)) Variants.none c none) E (cc1__col_reduce_kernel i arg0 harg0 arg1 harg1) K := by
  simp only [cc1__col_reduce_kernel_eq_skeleton]; unfold cc1__col_reduce_kernel_skel
  unfold owns
  iintro ⟨⟨%f0, %hf0, H0⟩, ⟨%d1, %f1, -, H1⟩, Hk⟩
  subst hf0
  sl_exec_parts
  sl_step
  iapply Hk
  isplitl [H0]
  · iexists f0; isplitr; · ipureintro; rfl
    iexact H0
  iexists _; isplitr
  swap; · iexact H1
  ipureintro
  -- the 205 writes, each `out1` of the input on its column, cover the buffer
  funext y
  refine View.read_writes_apply_of_pieces _ _ (out1 (arg0.view.read (Elt F) f0)) _ ?_ y
    (View.cover_of_tiledL (s := S1x48x205x32) _ S1x48x1x32.size (by sl_kernel_rfl) y)
  sl_unfold_run_names
  repeat' (first | exact List.forall_mem_nil _ | refine List.forall_mem_cons.mpr ⟨?_, ?_⟩)
  all_goals
    intro x
    refine piece_col' _ _ _ _ _ ?_ ?_ ?_ ?_ x
    all_goals first | rfl | decide

end Cert.KernelIdeal.Hand

end
-- ==== Proof.IdealRegion1.lean ====
/-
  The second kernel region's body obligation, for any float instance.

  The region's two windows move blocks of 48 rows over arrays of 284 rows, so the sixth block of every batch entry
  overhangs its array by four rows: a fetch fills only the rows of the buffer that lie inside the array (44 at the
  last block, all 48 otherwise) and leaves the others at contents nothing names, and a write-back writes only those
  rows. The obligation therefore states each buffer only on the rows the transfers move.

  At a grid point the body finds the input buffer at its block, filled out past the array's end with some contents
  `d` (`before1_0`), and the output buffer at anything (`before1_1`: it was written back at the point before). It
  leaves the input buffer as it was, which on the moved rows is the block (`cut_pad1`), and the output buffer at
  `out1` of the input buffer. Entry (0, r, j, z) of `out1` reads only row `r` of its argument, and the two windows
  move the same rows, so on the moved rows `out1` of the buffer filled out with `d` is `out1` of the buffer filled
  out with the zero word (`cut_out1_fill`): what the proof data name.
-/
import proofs.«110337_j82789789597838_2_alg».proof.Proof.IdealData
import proofs.«110337_j82789789597838_2_alg».proof.Proof.IdealRegion1Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : Entry F)

/-! ## The proof data, field by field -/

theorem A_eq1 (c : Dev nD) (w : Fin cfg1.W) : (datOf1 V (aftOf1 out1 V) c).A w = V c (Pipeline.arrRef spec1 w) := by
  dsimp only [datOf1]

theorem after1_0 (c : Dev nD) (t : Fin cfg1.N) : (datOf1 V (aftOf1 out1 V) c).after 0 t = pad1 V c t := by
  dsimp only [datOf1, aftOf1]
theorem after1_1 (c : Dev nD) (t : Fin cfg1.N) : (datOf1 V (aftOf1 out1 V) c).after 1 t = out1 (pad1 V c t) := by
  dsimp only [datOf1, aftOf1]

/-! ## What the body finds -/

/-- The input window is fetched at every point: its buffer holds the block on the rows inside the array and `d` on
    the others. -/
theorem before1_0 (c : Dev nD) (t : Fin cfg1.N) (d) :
    (datOf1 V (aftOf1 out1 V) c).before 0 t d = win1_0.fill (grid1.coords t) d (iblk1 V c 0 t) := by
  rw [Dat.before_fetched _ 0 t (fetch1_0 t)]
  unfold Dat.fetched Dat.blockOf iblk1
  rfl

/-- The output window is written back at every point: its buffer is found at contents nothing names. -/
theorem before1_1 (c : Dev nD) (t : Fin cfg1.N) (d) : (datOf1 V (aftOf1 out1 V) c).before 1 t d = d :=
  Dat.before_out_reset _ 1 rfl t
    (if h : t.val = 0 then .inl h else .inr ⟨h, flush1_1 _⟩) d

/-! ## The rows the transfers move -/

/-- On the rows inside the array the padded block is the block. -/
theorem cut_pad1 (c : Dev nD) (t : Fin cfg1.N) : win1_0.cut (grid1.coords t) (pad1 V c t) = iblk1 V c 0 t :=
  win1_0.cut_fill _ _ _

/-- An entry of the input buffer in a row that the OUTPUT window's transfer moves is one the INPUT window's transfer
    moves: the two windows cut a block alike along the rows (their row indices and extents are the same), and the input
    window's blocks span the other three axes whole. -/
theorem moved_in (i : grid1.Coords) (k : S1x48x512x32.Idx) (hk : (k 1).val < win1_1.xsize i 1) :
    win1_0.moved i k = true := by
  refine (win1_0.moved_iff i k).mpr fun a => ?_
  match a with
  | ⟨0, _⟩ =>
    have h1 : (k 0).val < 1 := (k 0).isLt
    have hp : 0 < win1_0.xsize i 0 := Pipeline.Clip.extent_pos (win1_0.hclip i 0) Nat.one_pos
    show (k 0).val < win1_0.xsize i 0
    omega
  | ⟨1, _⟩ => exact hk
  | ⟨2, _⟩ => exact (k 2).isLt
  | ⟨3, _⟩ => exact (k 3).isLt

/-- On the rows the output window moves, `out1` does not see what fills the input buffer past the array's end. -/
theorem cut_out1_fill (i : grid1.Coords) (d d' : S1x48x512x32.Idx → Elt F .f32)
    (g : (win1_0.xblock i).Idx → Elt F .f32) :
    win1_1.cut i (out1 (win1_0.fill i d g)) = win1_1.cut i (out1 (win1_0.fill i d' g)) := by
  funext j
  refine out1_congr_rows _ _ (win1_1.xsize i 1) (fun k hk => ?_) (win1_1.xinj i j) (j 1).isLt
  have hm := moved_in i k hk
  unfold Window.fill
  rw [dif_pos hm, dif_pos hm]

/-! ## The body obligation -/

/-- The library's body obligation, at every point: the two buffers as the body finds them, the body's run
    (`sound_kernel1`), and each buffer handed back stated on the rows its transfers move. -/
theorem body_obligation1 (c : Dev nD) :
    BodyObligationLoose (datOf1 V (aftOf1 out1 V) c) (defs₀ (F := F)) Variants.none () Set.univ := fun t => by
  rw [bigSep_W1, bigSep_W1]
  -- no point is idle and both windows state their buffers on the moved rows only (the cases reduce); the invariant
  -- and what the core owes are the same before and after the point
  simp only
  rw [show (datOf1 V (aftOf1 out1 V) c).Φ t.succ = (datOf1 V (aftOf1 out1 V) c).Φ t.castSucc from rfl,
    show (datOf1 V (aftOf1 out1 V) c).owesAt () t.succ = (datOf1 V (aftOf1 out1 V) c).owesAt () t.castSucc from rfl]
  iintro ⟨HΦ, Ho, ⟨%d0, H0⟩, ⟨%d1, H1⟩⟩
  rw [before1_0 V c t d0, before1_1 V c t d1]
  iapply (sound_kernel1 c Set.univ (grid1.coords t) _ _ _ _ (win1_0.fill (grid1.coords t) d0 (iblk1 V c 0 t)) _)
  isplitl [H0]; · iexact H0
  isplitl [H1]; · iexists _; iexact H1
  iintro ⟨H0, H1⟩
  isplitl [HΦ]; · iexact HΦ
  isplitl [Ho]; · iexact Ho
  isplitl [H0]
  · -- the input buffer is as it was found: on the moved rows, the block, as the padded block is
    iexists d0
    change _ ⊢ owns (c : Thread nD τ) (st1_0 t) fullShare
      (win1_0.fill (grid1.coords t) d0 (win1_0.cut (grid1.coords t) (pad1 V c t)))
    rw [cut_pad1]; try iexact H0
  · -- the output buffer holds `out1` of the buffer as found, which on the moved rows is `out1` of the padded block
    iexists out1 (win1_0.fill (grid1.coords t) d0 (iblk1 V c 0 t))
    change _ ⊢ owns (c : Thread nD τ) (st1_1 t) fullShare
      (win1_1.fill (grid1.coords t) (out1 (win1_0.fill (grid1.coords t) d0 (iblk1 V c 0 t)))
        (win1_1.cut (grid1.coords t) (out1 (pad1 V c t))))
    rw [show win1_1.cut (grid1.coords t) (out1 (pad1 V c t))
        = win1_1.cut (grid1.coords t) (out1 (win1_0.fill (grid1.coords t) d0 (iblk1 V c 0 t))) from
      cut_out1_fill (grid1.coords t) _ d0 (iblk1 V c 0 t), win1_1.fill_cut]
    try iexact H1

end Cert.KernelIdeal.Hand

end
-- ==== Proof.IdealRegion1Value.lean ====
/-
  The second kernel's body at the exact instance: entry (0, r, j, z) of what it leaves in the output buffer is the
  mix, with the weights 1, 2, 1 on extended reals, of the input buffer's entries in row `r` at the columns `colOf j`,
  `colOf j + 1`, `colOf j + 2`. At this instance a float word is its exact value and the float product and sum are the
  extended reals', so the statement is the definition read there.
-/
import proofs.«110337_j82789789597838_2_alg».proof.Proof.IdealRegion1Out
import proofs.«110337_j82789789597838_2_alg».proof.Proof.Spec

noncomputable section

namespace Cert.KernelIdeal.Hand

open Cert.KernelIdeal Cert.KernelIdeal.Gen
open Idealize.ShloMosaic Idealize.ShloMosaic.ValueIdx Cert.Stencil

theorem out1_apply (x0 : Vec Ideal S1x48x512x32 .f32) (r : Fin 48) (j : Fin 205) (z : Fin 32) :
    out1 (F := Ideal) x0 (ix4 (0 : Fin 1) r j z)
      = mix3 (x0 (ix4 (0 : Fin 1) r (col j 0) z)) (x0 (ix4 (0 : Fin 1) r (col j 1) z)) (x0 (ix4 (0 : Fin 1) r (col j 2) z)) :=
  rfl

end Cert.KernelIdeal.Hand

end
-- ==== Proof.BitsData.lean ====
/-
  The shared vocabulary of the two kernel regions, for any float instance: the contents of the TensorCore's buffers
  when a region is entered (`Entry`); a window's block at a grid point read off its array (`iblk0`, `iblk1`) — for the
  second region, whose sixth block overhangs the 284 rows by four, the part of the block inside the array —, and that
  block filled out to the buffer's 48 rows with the zero word (`pad1`); what a region's body leaves in its two buffers
  given what it leaves in the output's as a function of the input's (`aftOf0`, `aftOf1`); and each region's proof data
  (`datOf0`, `datOf1`): its arrays as it finds them, nothing of its own kept between points, nothing owed.
-/
import proofs.«110337_j82789789597838_2_alg».proof.Proof.Gen.Kernel.Launch
import proofs.«110337_j82789789597838_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The contents of the TensorCore's buffers when a region is entered. -/
abbrev Entry (F : FTy → Type) [FloatOps F] : Type :=
  (c : Dev nD) → (b : Ref sig .tc) → Buf (Elt F) ((c : Thread nD τ).loc b)

/-- What a region's body leaves in each window's buffer at each grid point, given the entry contents. -/
abbrev After0 (F : FTy → Type) [FloatOps F] : Type :=
  Entry F → (c : Dev nD) → (w : Fin cfg0.W) → Fin cfg0.N → (cfg0.win w).block.Idx → Elt F (cfg0.win w).elt
abbrev After1 (F : FTy → Type) [FloatOps F] : Type :=
  Entry F → (c : Dev nD) → (w : Fin cfg1.W) → Fin cfg1.N → (cfg1.win w).block.Idx → Elt F (cfg1.win w).elt

/-- The first region's proof data: its arrays as it finds them, its buffers after the body as given, nothing of its
    own kept between points, nothing owed. -/
def datOf0 (V : Entry F) (aft : (c : Dev nD) → (w : Fin cfg0.W) → Fin cfg0.N → (cfg0.win w).block.Idx → Elt F (cfg0.win w).elt)
    (c : Dev nD) : Dat τ (Elt F) Unit ℕ (UR sig nD τ) ℕ cfg0 c where
  A w := V c (Pipeline.arrRef spec0 w)
  after := aft c
  Φ _ := Pipeline.ΦA spec0 c
  q _ := fullShare
  owed _ := 0

/-- The second region's, likewise. -/
def datOf1 (V : Entry F) (aft : (c : Dev nD) → (w : Fin cfg1.W) → Fin cfg1.N → (cfg1.win w).block.Idx → Elt F (cfg1.win w).elt)
    (c : Dev nD) : Dat τ (Elt F) Unit ℕ (UR sig nD τ) ℕ cfg1 c where
  A w := V c (Pipeline.arrRef spec1 w)
  after := aft c
  Φ _ := Pipeline.ΦA spec1 c
  q _ := fullShare
  owed _ := 0

/-- A window's block at a grid point, read off its array as the first region finds it. -/
def iblk0 (V : Entry F) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- A window's block at a grid point — its part inside the array — read off its array as the second region finds it. -/
def iblk1 (V : Entry F) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The second region's input block filled out to the buffer's 48 rows with the zero word. -/
def pad1 (V : Entry F) (c : Dev nD) (t : Fin cfg1.N) : Vec F S1x48x512x32 .f32 :=
  win1_0.fill (grid1.coords t) (fun _ => Scalar.ofBits .f32 0#32) (iblk1 V c 0 t)

/-- The first region's buffers after the body: the input's still at its block, the output's at `out0` of that block. -/
def aftOf0 (out0 : Vec F S1x512x32x32 .f32 → Vec F S1x284x32x32 .f32) : After0 F := fun V c w t =>
  match w with
  | ⟨0, _⟩ => iblk0 V c 0 t
  | ⟨1, _⟩ => out0 (iblk0 V c 0 t)

/-- The second region's buffers after the body, stated on the rows inside the array: the input's at its padded block,
    the output's at `out1` of that. -/
def aftOf1 (out1 : Vec F S1x48x512x32 .f32 → Vec F S1x48x205x32 .f32) : After1 F := fun V c w t =>
  match w with
  | ⟨0, _⟩ => pad1 V c t
  | ⟨1, _⟩ => out1 (pad1 V c t)

end Cert.Kernel.Hand

end
-- ==== Proof.BitsRun.lean ====
/-
  The run of the two kernel regions one after the other, for any float instance. The first region reads the image
  through blocks of all 512 rows by 32 columns and writes the row-mixed image through blocks of all 284 rows by 32
  columns; the second reads the row-mixed image through blocks of 48 rows by all 512 columns and writes the result
  through blocks of 48 rows by all 205 columns, the sixth block of each overhanging the 284 rows by four.

  What the body of each region leaves in its buffers is a parameter here (`aft0`, `aft1`), and so is the fact that
  the body does leave it (`hb0`, `hb1`): this module is the composition only. Between the regions the memory is
  described by a valuation of every buffer that is not a staging buffer: at launch the launch contents; after a
  region, that region's arrays at what its write-backs leave (the fold of the blocks written back, point by
  point) and every other buffer unchanged. The conclusion: every weakly fair execution terminates, nothing faults,
  and every such buffer ends at the last valuation — in particular the image unchanged and the result array at the
  second region's fold.
-/
import proofs.«110337_j82789789597838_2_alg».proof.Proof.BitsData
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (aft0 : After0 F) (aft1 : After1 F)

/-! ## The memory between the regions -/

/-- At launch. -/
abbrev W0 : Dev nD → Valuation τ sig (Elt F) := fun c b => m ((c : Dev nD), b)
abbrev E0 : Entry F := fun c b => W0 m c b
/-- The first region's proof data at the launch contents. -/
abbrev d0 (c : Dev nD) : Dat τ (Elt F) Unit ℕ (UR sig nD τ) ℕ cfg0 c := datOf0 (E0 m) (aft0 (E0 m)) c

/-- After the first region: its arrays at what its write-backs leave, the rest as launched. -/
def W1 (c : Dev nD) : Valuation τ sig (Elt F) :=
  Pipeline.withArrays spec0 c (W0 m c) fun w => (d0 m aft0 c).arrAt w cfg0.N
theorem W1_arr (c : Dev nD) (w : Fin cfg0.W) :
    W1 m aft0 c (Proc.devRef .tc (Pipeline.arrRef spec0 w)) = (d0 m aft0 c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m aft0 c (Proc.devRef .tc b) = W0 m c (Proc.devRef .tc b) := by
  unfold W1; exact Pipeline.withArrays_of_ne spec0 c _ _ b hb
abbrev E1 : Entry F := fun c b => W1 m aft0 c b
theorem hF0 (c : Dev nD) (w : Fin cfg0.W) : (d0 m aft0 c).arrAt w cfg0.N = E1 m aft0 c (Pipeline.arrRef spec0 w) :=
  (W1_arr m aft0 c w).symm
theorem hrest0 (c : Dev nD) : ∀ b, b ∉ Finset.univ.image (Pipeline.arrRef spec0) → E1 m aft0 c b = E0 m c b :=
  fun b hb => W1_of_ne m aft0 c b fun w e => hb (Finset.mem_image.mpr ⟨w, Finset.mem_univ _, e⟩)

/-- The second region's proof data at what the first left. -/
abbrev d1 (c : Dev nD) : Dat τ (Elt F) Unit ℕ (UR sig nD τ) ℕ cfg1 c := datOf1 (E1 m aft0) (aft1 (E1 m aft0)) c

/-- After the second region. -/
def W2 (c : Dev nD) : Valuation τ sig (Elt F) :=
  Pipeline.withArrays spec1 c (W1 m aft0 c) fun w => (d1 m aft0 aft1 c).arrAt w cfg1.N
theorem W2_arr (c : Dev nD) (w : Fin cfg1.W) :
    W2 m aft0 aft1 c (Proc.devRef .tc (Pipeline.arrRef spec1 w)) = (d1 m aft0 aft1 c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m aft0 aft1 c (Proc.devRef .tc b) = W1 m aft0 c (Proc.devRef .tc b) := by
  unfold W2; exact Pipeline.withArrays_of_ne spec1 c _ _ b hb
abbrev E2 : Entry F := fun c b => W2 m aft0 aft1 c b
theorem hF1 (c : Dev nD) (w : Fin cfg1.W) : (d1 m aft0 aft1 c).arrAt w cfg1.N = E2 m aft0 aft1 c (Pipeline.arrRef spec1 w) :=
  (W2_arr m aft0 aft1 c w).symm
theorem hrest1 (c : Dev nD) : ∀ b, b ∉ Finset.univ.image (Pipeline.arrRef spec1) → E2 m aft0 aft1 c b = E1 m aft0 c b :=
  fun b hb => W2_of_ne m aft0 aft1 c b fun w e => hb (Finset.mem_image.mpr ⟨w, Finset.mem_univ _, e⟩)

/-- The image ends as launched: the second region does not hold it, the first only reads it. -/
theorem W2_main_arg0 (c : Dev nD) : W2 m aft0 aft1 c (Proc.devRef .tc main_arg0) = m ((c : Thread nD τ).loc main_arg0) :=
  calc W2 m aft0 aft1 c (Proc.devRef .tc main_arg0)
    _ = W1 m aft0 c (Proc.devRef .tc main_arg0) := W2_of_ne m aft0 aft1 c main_arg0 (by decide)
    _ = W0 m c (Proc.devRef .tc main_arg0) := (W1_arr m aft0 c 0).trans ((d0 m aft0 c).arrAt_in 0 rfl _)
    _ = m ((c : Thread nD τ).loc main_arg0) := rfl

/-- The result array ends at the fold of the second region's write-backs. -/
theorem W2_main_v1 (c : Dev nD) : W2 m aft0 aft1 c (Proc.devRef .tc main_v1) = (d1 m aft0 aft1 c).arrAt 1 cfg1.N :=
  W2_arr m aft0 aft1 c 1

/-- The row-mixed image, as the second region finds it, is the fold of the first region's write-backs. -/
theorem E1_main_v0 (c : Dev nD) : E1 m aft0 c main_v0 = (d0 m aft0 c).arrAt 1 cfg0.N :=
  W1_arr m aft0 c 1

/-! ## The proof data family and the thread state -/

/-- No pipeline has a prefetched table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => d0 m aft0 c
  | ⟨1, _⟩ => fun c => d1 m aft0 aft1 c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m aft0 aft1 c) ∗ ∃ r, prngReg c r)

variable (hb0 : ∀ (V : Entry F) (c : Dev nD), BodyObligationLoose (datOf0 V (aft0 V) c) (defs₀ (F := F)) Variants.none () Set.univ)
variable (hb1 : ∀ (V : Entry F) (c : Dev nD), BodyObligationLoose (datOf1 V (aft1 V) c) (defs₀ (F := F)) Variants.none () Set.univ)

/-! ## The regions as segments -/

set_option backward.isDefEq.respectTransparency.types false in
/-- The first region: entered from every unscoped buffer at the launch contents, left at `W1`. -/
def reg0 : Pipeline.RegionSeg (pcfgs (F := F)) adm (pdats m aft0 aft1) () defs₀ 𝒱₀ L lv 0 where
  win := launch0.win.to₀
  block_pos := launch0.block_pos
  stage_whole := launch0.stage_whole
  K := PEmpty
  osem k := k.elim
  ho := Pipeline.OwnSemFacts.none _
  hbody c := hb0 (E0 m) c
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m aft0 c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m aft0 aft1) launch0.win launch0.arr_whole c
      ((pdats m aft0 aft1 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m aft0 aft1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m aft0 aft1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m aft0 aft1) ((pdats m aft0 aft1 0 c).share_full fun _ => rfl)
      (E0 m c) (E1 m aft0 c) ((pdats m aft0 aft1 0 c).arrAt · cfg0.N) (hF0 m aft0 c) (hrest0 m aft0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W1`, left at `W2`. -/
def reg1 : Pipeline.RegionSeg (pcfgs (F := F)) adm (pdats m aft0 aft1) () defs₀ 𝒱₀ L lv 1 where
  win := launch1.win.to₀
  block_pos := launch1.block_pos
  stage_whole := launch1.stage_whole
  K := PEmpty
  osem k := k.elim
  ho := Pipeline.OwnSemFacts.none _
  hbody c := hb1 (E1 m aft0) c
  hwaits := Pipeline.hwaits_of_owed_zero _ _ _ _ L lv 1 fun _ _ => rfl
  pre c := iprop(StableHlo.held (c : Thread nD τ) (Pipeline.ucRefs τ sig) (W1 m aft0 c) ∗ R c)
  post c := iprop(Tₙ m aft0 aft1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m aft0 c)
  hentry c := by
    rw [Pipeline.ownSems0_none]
    have hsplit := Pipeline.arrays_of_unscopedBufs (p := 1) (pcfgs (F := F)) adm (pdats m aft0 aft1) launch1.win launch1.arr_whole c
      ((pdats m aft0 aft1 1 c).share_full fun _ => rfl) (E1 m aft0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m aft0 aft1 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m aft0 aft1 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m aft0 aft1) ((pdats m aft0 aft1 1 c).share_full fun _ => rfl)
      (E1 m aft0 c) (E2 m aft0 aft1 c) ((pdats m aft0 aft1 1 c).arrAt · cfg1.N) (hF1 m aft0 aft1 c) (hrest1 m aft0 aft1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The two segments, and the launch -/

abbrev segs : List (Pipeline.Seg (pcfgs (F := F)) adm (pdats m aft0 aft1) () defs₀ 𝒱₀ L lv) :=
  [ .region (reg0 m aft0 aft1 hb0),
    .region (reg1 m aft0 aft1 hb1) ]
theorem main_run (c : Dev nD) : main (F := F) c = Pipeline.Seg.run (segs m aft0 aft1 hb0 hb1) :=
  (main_chain c).trans (by chain_rfl)

include hb0 hb1 in
set_option backward.isDefEq.respectTransparency.types false in
/-- From any memory with zero counters every weakly fair execution of both regions terminates, nothing faulting,
    and every buffer that is not a staging buffer ends at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m aft0 aft1 c b) :=
  Pipeline.θ_run_regions_kit (pcfgs (F := F)) adm (pdats m aft0 aft1) () cellOf_inj emb₁ defs₀ 𝒱₀ L lv m ρ main (segs m aft0 aft1 hb0 hb1)
    (fun c Q => by rw [main_run m aft0 aft1 hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m aft0 aft1)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m aft0 aft1 c b)
    (hfin := fun c s' => by
      iintro ⟨⟨Hh, -⟩, HSI⟩
      unfold StableHlo.held
      imodintro
      iapply (pointsTo_read_all (Pipeline.ucRefs τ sig) (fun b => (((c : Thread nD τ)).1, b)) (W2 m aft0 aft1 c) s')
      isplitl [Hh] <;> iassumption)
    (hQ := fun s h c => h c)

include hb0 hb1 in
/-- The same read at the image and at the result array. -/
theorem run_main : θ_run defs (onTc (τ := τ) (main (F := F))) ⟨m, fun _ => 0, ρ⟩ (fun r => ∀ c : Dev nD,
      r.2.mem ((c.tc : Thread nD τ).loc main_v1) = (d1 m aft0 aft1 c).arrAt 1 cfg1.N
      ∧ r.2.mem ((c.tc : Thread nD τ).loc main_arg0) = m ((c.tc : Thread nD τ).loc main_arg0)) :=
  (θ_run defs _ _).mono (fun r h c =>
    ⟨(h c _ (mem_uc main_v1 (by decide))).trans (W2_main_v1 m aft0 aft1 c),
     (h c _ (mem_uc main_arg0 (by decide))).trans (W2_main_arg0 m aft0 aft1 c)⟩)
    (run_all m ρ aft0 aft1 hb0 hb1)

end Cert.Kernel.Hand

end
-- ==== Proof.BitsRegion0Out.lean ====
/-
  The first kernel region, for any float instance: what its body leaves in the output window's buffer.

  The body reads the 512 rows of an input block (one batch entry, all rows, 32 columns, all channels) and, for each of
  the 284 output rows `i`, stores into row `i` of the output block the three input rows `rowOf i`, `rowOf i + 1`,
  `rowOf i + 2` mixed with the weights 1, 2, 1: 284 stores, each a whole row of the output block, which together tile
  it.

  `out0` is the output buffer after the body as a function of the input block: the overlay of the 284 stored rows
  (`pieces0`), row `i` being the one arithmetic expression of its three loaded rows that every store computes
  (`rowPay`). The rows cover the block (`cover0`).
-/
import proofs.«110337_j82789789597838_2_alg».proof.Proof.BitsData
import proofs.«110337_j82789789597838_2_alg».proof.Proof.Gen.Kernel.Skeleton
import proofs.«110337_j82789789597838_2_alg».proof.Proof.Spec

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Stencil (rowOf rowOf_add_lt)

variable {F : FTy → Type} [FloatOps F]

local notation "𝕄" => MT nD τ sig Unit (Elt F) ℕ (UR sig nD τ) ℕ

/-! ## The rows the body reads and writes -/

/-- Row `r` of the input block lies inside it. -/
theorem xrow_inb (r : ℕ) (hr : r < 512) :
    ∀ a, (![0, r, 0, 0] : Fin 4 → Nat) a + S1x1x32x32.size a ≤ S1x512x32x32.size a := fun a =>
  match a with
  | ⟨0, _⟩ => Nat.le_refl 1
  | ⟨1, _⟩ => (show r + 1 ≤ 512 from hr)
  | ⟨2, _⟩ => Nat.le_refl 32
  | ⟨3, _⟩ => Nat.le_refl 32

/-- Row `i` of the output block lies inside it. -/
theorem orow_inb (i : ℕ) (hi : i < 284) :
    ∀ a, (![0, i, 0, 0] : Fin 4 → Nat) a + S1x1x32x32.size a ≤ S1x284x32x32.size a := fun a =>
  match a with
  | ⟨0, _⟩ => Nat.le_refl 1
  | ⟨1, _⟩ => (show i + 1 ≤ 284 from hi)
  | ⟨2, _⟩ => Nat.le_refl 32
  | ⟨3, _⟩ => Nat.le_refl 32

/-- Row `r` of the input block, as the rectangle a load reads. -/
def xrow (r : ℕ) (hr : r < 512) : Rect S1x512x32x32 :=
  Rect.unit (s := S1x512x32x32) ![0, r, 0, 0] S1x1x32x32.size (xrow_inb r hr)

/-- Row `i` of the output block, as the rectangle a store writes. -/
def orow (i : ℕ) (hi : i < 284) : Rect S1x284x32x32 :=
  Rect.unit (s := S1x284x32x32) ![0, i, 0, 0] S1x1x32x32.size (orow_inb i hi)

/-! ## What the body leaves in the output window's buffer -/

/-- The one expression every store computes of its three loaded rows: 1·a + 2·b + 1·c, the weights splat over the
    row, the products added left to right (the payload of the first store, whose three loads and whose arithmetic are
    printed together). -/
abbrev rowPay (a b c : Vec F S1x1x32x32 .f32) : FVec F S1x1x32x32 .f32 := k0_pay2 a b c

/-- The store of output row `i`: the rows `rowOf i`, `rowOf i + 1`, `rowOf i + 2` of the input block, mixed. -/
def piece0 (x0 : Vec F S1x512x32x32 .f32) (i : ℕ) (hi : i < 284) : View.Piece (Elt F) S1x284x32x32 .f32 :=
  ⟨orow i hi, rowPay (View.ld x0 (xrow (rowOf i) (rowOf_add_lt (d := 0) hi (by decide))))
    (View.ld x0 (xrow (rowOf i + 1) (rowOf_add_lt hi (by decide))))
    (View.ld x0 (xrow (rowOf i + 2) (rowOf_add_lt hi (by decide))))⟩

/-- The stores of the output rows below `n`, the last first. -/
def pieces0 (x0 : Vec F S1x512x32x32 .f32) : (n : ℕ) → n ≤ 284 → List (View.Piece (Elt F) S1x284x32x32 .f32)
  | 0, _ => []
  | n + 1, h => piece0 x0 n (Nat.lt_of_succ_le h) :: pieces0 x0 n (Nat.le_of_succ_le h)

/-- The output window's buffer after the body, from the input window's block: the 284 stored rows laid over one
    another. -/
def out0 (x0 : Vec F S1x512x32x32 .f32) : Vec F S1x284x32x32 .f32 :=
  View.canon (pieces0 x0 284 (Nat.le_refl 284))

theorem pieces0_succ (x0 : Vec F S1x512x32x32 .f32) (n : ℕ) (h : n + 1 ≤ 284) :
    pieces0 x0 (n + 1) h = piece0 x0 n (Nat.lt_of_succ_le h) :: pieces0 x0 n (Nat.le_of_succ_le h) := rfl

/-- The store of every row below `n` is among the stores below `n`, -/
theorem piece0_mem (x0 : Vec F S1x512x32x32 .f32) :
    ∀ (n : ℕ) (h : n ≤ 284) (i : ℕ) (hi : i < n), piece0 x0 i (Nat.lt_of_lt_of_le hi h) ∈ pieces0 x0 n h
  | 0, _, _, hi => absurd hi (Nat.not_lt_zero _)
  | n + 1, h, i, hi => by
    rw [pieces0_succ]
    rcases Nat.lt_succ_iff_lt_or_eq.mp hi with hlt | rfl
    · exact List.mem_cons_of_mem _ (piece0_mem x0 n (Nat.le_of_succ_le h) i hlt)
    · exact List.mem_cons_self

/-- and every store below `n` is the store of a row below `n`. -/
theorem exists_of_mem_pieces0 (x0 : Vec F S1x512x32x32 .f32) :
    ∀ (n : ℕ) (h : n ≤ 284) (p : View.Piece (Elt F) S1x284x32x32 .f32), p ∈ pieces0 x0 n h →
      ∃ (i : ℕ) (hi : i < 284), p = piece0 x0 i hi
  | 0, _, _, hp => absurd hp List.not_mem_nil
  | n + 1, h, p, hp => by
    rw [pieces0_succ] at hp
    rcases List.mem_cons.mp hp with rfl | hp'
    · exact ⟨n, Nat.lt_of_succ_le h, rfl⟩
    · exact exists_of_mem_pieces0 x0 n (Nat.le_of_succ_le h) p hp'

/-- An index of the output block lies in the row its second coordinate names. -/
theorem mem_orow (y : S1x284x32x32.Idx) : y ∈ (orow (y 1).val (y 1).isLt).set := by
  have h0 : (y 0).val < 1 := (y 0).isLt
  have h2 : (y 2).val < 32 := (y 2).isLt
  have h3 : (y 3).val < 32 := (y 3).isLt
  unfold orow
  rw [Rect.mem_set_unit]
  intro a
  match a with
  | ⟨0, _⟩ => exact ⟨Nat.zero_le _, by show (y 0).val < 0 + 1; omega⟩
  | ⟨1, _⟩ => exact ⟨Nat.le_refl _, by show (y 1).val < (y 1).val + 1; omega⟩
  | ⟨2, _⟩ => exact ⟨Nat.zero_le _, by show (y 2).val < 0 + 32; omega⟩
  | ⟨3, _⟩ => exact ⟨Nat.zero_le _, by show (y 3).val < 0 + 32; omega⟩

/-- The 284 rows cover the output block. -/
theorem cover0 (x0 : Vec F S1x512x32x32 .f32) (y : S1x284x32x32.Idx) :
    ∃ pc ∈ pieces0 x0 284 (Nat.le_refl 284), y ∈ pc.1.set :=
  ⟨piece0 x0 (y 1).val (y 1).isLt, piece0_mem x0 284 (Nat.le_refl 284) (y 1).val (y 1).isLt, mem_orow y⟩

end Cert.Kernel.Hand

end
-- ==== Proof.BitsRegion0Run.lean ====
/-
  The first kernel region, for any float instance: the body's run. On whole staging buffers, the input's reading `x0`
  and the output's holding anything, the body runs to its end leaving the input's as it was and the output's reading
  `out0 x0`: the run leaves the 284 row stores listed over whatever the output buffer held; the rows cover the buffer,
  so it reads as their overlay; and the listed stores are `pieces0` row by row — each store's value, however the
  printed text cuts its arithmetic, unfolds to the one expression `rowPay` of its three loaded rows, and its literal
  rows are `rowOf i`, `rowOf i + 1`, `rowOf i + 2`.
-/
import proofs.«110337_j82789789597838_2_alg».proof.Proof.BitsRegion0Out

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Stencil (rowOf rowOf_add_lt)

variable {F : FTy → Type} [FloatOps F]

local notation "𝕄" => MT nD τ sig Unit (Elt F) ℕ (UR sig nD τ) ℕ

set_option maxHeartbeats 4000000 in
/-- The body's triple. -/
theorem sound_kernel0 (c : Dev nD) (E : Set ℕ) (i : grid0.Coords)
    (arg0 : Memref sig .tc .vmem S1x512x32x32 .f32) (harg0 : arg0.IsWhole)
    (arg1 : Memref sig .tc .vmem S1x284x32x32 .f32) (harg1 : arg1.IsWhole)
    (x0 : Vec F S1x512x32x32 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0 x0)) -∗ K ⟨⟩))
      ⊢ wp frame (wpE (defs₀ (F := F)) Variants.none c none) E (cc0__row_reduce_kernel i arg0 harg0 arg1 harg1) K := by
  simp only [cc0__row_reduce_kernel_eq_skeleton]; unfold cc0__row_reduce_kernel_skel
  unfold owns
  iintro ⟨⟨%f0, %hf0, H0⟩, ⟨%d1, %f1, -, H1⟩, Hk⟩
  subst hf0
  sl_exec_parts
  sl_step
  iapply Hk
  isplitl [H0]
  · iexists f0; isplitr; · ipureintro; rfl
    iexact H0
  iexists _; isplitr
  swap; · iexact H1
  ipureintro
  exact View.read_writes_eq_canon _ _ _ (cover0 _)

end Cert.Kernel.Hand

end
-- ==== Proof.BitsRegion0.lean ====
/-
  The first kernel region, for any float instance: the pipeline's proof data and its body obligation. The region's
  arrays are the entry contents; after the body at a grid point the input window's buffer still holds its block and
  the output window's holds `out0` of that block. The input window is fetched where its block index moves and holds
  its block at every point either way; so the body's run applies at every point, the invariant and the core's debts
  passing through unread.
-/
import proofs.«110337_j82789789597838_2_alg».proof.Proof.BitsRegion0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Stencil (rowOf rowOf_add_lt)

variable {F : FTy → Type} [FloatOps F]

local notation "𝕄" => MT nD τ sig Unit (Elt F) ℕ (UR sig nD τ) ℕ

/-! ## The pipeline's proof data -/

/-- The proof data's arrays are the region-entry contents. -/
theorem A_eq0 (V : Entry F) (c : Dev nD) (w : Fin cfg0.W) :
    (datOf0 V (aftOf0 out0 V) c).A w = V c (Pipeline.arrRef spec0 w) := by
  dsimp only [datOf0]

/-- What the body leaves, window by window. -/
theorem after0_0 (V : Entry F) (c : Dev nD) (t : Fin cfg0.N) :
    (datOf0 V (aftOf0 out0 V) c).after 0 t = iblk0 V c 0 t := by dsimp only [datOf0, aftOf0]
theorem after0_1 (V : Entry F) (c : Dev nD) (t : Fin cfg0.N) :
    (datOf0 V (aftOf0 out0 V) c).after 1 t = out0 (iblk0 V c 0 t) := by dsimp only [datOf0, aftOf0]

/-- The input window's current staging buffer holds its block at every point, fetched there or not, for any proof data
    whose array is the entry contents' and whose body leaves the block in place: unfetched, the block index has not
    moved; the window is uncut and never idle. -/
theorem before0_0_of (V : Entry F) {c : Dev nD} (dat : Dat τ (Elt F) Unit ℕ (UR sig nD τ) ℕ cfg0 c)
    (hA : dat.A 0 = V c (Pipeline.arrRef spec0 0)) (hafter : ∀ t, dat.after 0 t = iblk0 V c 0 t) (t : Fin cfg0.N) (d) :
    dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

theorem before0_0 (V : Entry F) (c : Dev nD) (t : Fin cfg0.N) (d) :
    (datOf0 V (aftOf0 out0 V) c).before 0 t d = iblk0 V c 0 t :=
  before0_0_of V (datOf0 V (aftOf0 out0 V) c) (A_eq0 V c 0) (after0_0 V c) t d

/-! ## The body obligation, at a generic point -/

/-- What the body is called with at point `t`, the windows one by one, -/
def bodyPre0 (V : Entry F) (c : Dev nD) (t : Fin cfg0.N) : sProp 𝕄 :=
  iprop((datOf0 V (aftOf0 out0 V) c).Φ t.castSucc ∗ (datOf0 V (aftOf0 out0 V) c).owesAt () t.castSucc
    ∗ (∃ d, owns (c : Thread nD τ) (st0_0 t) fullShare ((datOf0 V (aftOf0 out0 V) c).before 0 t d))
    ∗ (∃ d, owns (c : Thread nD τ) (st0_1 t) fullShare ((datOf0 V (aftOf0 out0 V) c).before 1 t d)))

/-- and what it returns. -/
def bodyPost0 (V : Entry F) (c : Dev nD) (t : Fin cfg0.N) : sProp 𝕄 :=
  iprop((datOf0 V (aftOf0 out0 V) c).Φ t.succ ∗ (datOf0 V (aftOf0 out0 V) c).owesAt () t.succ
    ∗ owns (c : Thread nD τ) (st0_0 t) fullShare ((datOf0 V (aftOf0 out0 V) c).after 0 t)
    ∗ owns (c : Thread nD τ) (st0_1 t) fullShare ((datOf0 V (aftOf0 out0 V) c).after 1 t))

/-- The body at any point: the input's memref holds its block, so the body's triple applies; the invariant and the
    core's debts pass through unread. -/
theorem sound_body0 (V : Entry F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (datOf0 V (aftOf0 out0 V) c).Φ t.succ = (datOf0 V (aftOf0 out0 V) c).Φ t.castSucc from rfl,
    show (datOf0 V (aftOf0 out0 V) c).owesAt () t.succ = (datOf0 V (aftOf0 out0 V) c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

set_option maxRecDepth 65536 in
/-- The pipeline's body obligation, at every point. -/
theorem body_obligation0 (V : Entry F) (c : Dev nD) :
    BodyObligation (datOf0 V (aftOf0 out0 V) c) (defs₀ (F := F)) Variants.none () Set.univ := fun t => by
  rw [bigSep_W0, bigSep_W0]
  exact sound_body0 V c t

end Cert.Kernel.Hand

end
-- ==== Proof.BitsRegion1Out.lean ====
/-
  What the second kernel's body leaves in its output buffer, as one function of what its input buffer holds, for any
  float instance.

  The input buffer is a block of 48 rows of the row-mixed image, [1, 48, 512, 32]; the output buffer is the same 48 rows
  with 205 columns, [1, 48, 205, 32]. For each output column `j` the body reads the three input columns `colOf j`,
  `colOf j + 1`, `colOf j + 2` (all 48 rows and 32 channels of each at once), multiplies them by the float words of
  1, 2 and 1, adds the three products left to right, and stores the sum as output column `j`. So entry (0, r, j, z) of
  what it leaves is the mix of the input's entries (0, r, colOf j + d, z), d = 0, 1, 2 (`out1`): a function of row `r`
  of the input alone. That is why the four rows of the last block that lie past the array's end do no harm: whatever
  they hold only reaches the same four rows of the output buffer, which are never written back
  (`out1_congr_rows`).

  `piece_col` is the one store of the body read at an index: the value stored for column `j`, computed from three
  loaded columns through the two changes of shape [1, 48, 1, 32] ↔ [48, 32], is `out1` at the index the store writes.
-/
import proofs.«110337_j82789789597838_2_alg».proof.Proof.Gen.Kernel
import proofs.«110337_j82789789597838_2_alg».proof.Proof.Spec
import Idealize.ShloMosaic.Lib.Pipeline.Value

noncomputable section

namespace Cert.Kernel.Hand

open Cert.Kernel Cert.Kernel.Gen
open Idealize.ShloMosaic Idealize.ShloMosaic.ValueIdx Cert.Stencil

variable {F : FTy → Type} [FloatOps F]

/-- Three neighbours mixed with the weights 1, 2, 1, the weights as the float words the kernel carries, the products
    added left to right. -/
def mixW (a b c : F .f32) : F .f32 :=
  FloatOps.addf
    (FloatOps.addf (FloatOps.mulf (Scalar.ofBits .f32 0x3F800000#32) a) (FloatOps.mulf (Scalar.ofBits .f32 0x40000000#32) b))
    (FloatOps.mulf (Scalar.ofBits .f32 0x3F800000#32) c)

/-- What the body leaves in the whole output buffer, from the whole input buffer: entry (0, r, j, z) is the mix of the
    input's row `r` at the columns `colOf j`, `colOf j + 1`, `colOf j + 2`. -/
def out1 (x0 : Vec F S1x48x512x32 .f32) : Vec F S1x48x205x32 .f32 := fun y =>
  mixW (x0 (ix4 (0 : Fin 1) (y 1 : Fin 48) (col (y 2 : Fin 205) 0) (y 3 : Fin 32)))
    (x0 (ix4 (0 : Fin 1) (y 1 : Fin 48) (col (y 2 : Fin 205) 1) (y 3 : Fin 32)))
    (x0 (ix4 (0 : Fin 1) (y 1 : Fin 48) (col (y 2 : Fin 205) 2) (y 3 : Fin 32)))

/-- `out1` at an index given by its coordinates. -/
theorem out1_ix4 (x0 : Vec F S1x48x512x32 .f32) (r : Fin 48) (j : Fin 205) (z : Fin 32) :
    out1 x0 (ix4 (0 : Fin 1) r j z)
      = mixW (x0 (ix4 (0 : Fin 1) r (col j 0) z)) (x0 (ix4 (0 : Fin 1) r (col j 1) z)) (x0 (ix4 (0 : Fin 1) r (col j 2) z)) := rfl

/-- Row `r` of the result reads row `r` of the input and nothing else: inputs that agree on the rows below `n` give
    results that agree on the rows below `n`. -/
theorem out1_congr_rows (X Y : Vec F S1x48x512x32 .f32) (n : ℕ)
    (h : ∀ k : S1x48x512x32.Idx, (k 1).val < n → X k = Y k) (y : S1x48x205x32.Idx) (hy : (y 1).val < n) :
    out1 X y = out1 Y y := by
  unfold out1
  rw [h (ix4 (0 : Fin 1) (y 1 : Fin 48) (col (y 2 : Fin 205) 0) (y 3 : Fin 32)) hy,
    h (ix4 (0 : Fin 1) (y 1 : Fin 48) (col (y 2 : Fin 205) 1) (y 3 : Fin 32)) hy,
    h (ix4 (0 : Fin 1) (y 1 : Fin 48) (col (y 2 : Fin 205) 2) (y 3 : Fin 32)) hy]

/-- The body's arithmetic for one column, read at an index: three loaded columns taken to [48, 32], multiplied by the
    splat weights, added, and taken back to [1, 48, 1, 32], is the mix of the three columns' entries at that index
    (the two changes of shape undo one another, and the arithmetic is entry by entry). -/
theorem pay_apply (a b c : Vec F S1x48x1x32 .f32) (h h' h'' : S1x48x1x32.ShapeCasts S48x32)
    (k : S48x32.ShapeCasts S1x48x1x32) (x : S1x48x1x32.Idx) :
    shapeCast S1x48x1x32
        (addf (addf (mulf (broadcast S48x32 (Scalar.ofBits .f32 0x3F800000#32 : F .f32)) (shapeCast S48x32 a h))
                    (mulf (broadcast S48x32 (Scalar.ofBits .f32 0x40000000#32 : F .f32)) (shapeCast S48x32 b h')))
              (mulf (broadcast S48x32 (Scalar.ofBits .f32 0x3F800000#32 : F .f32)) (shapeCast S48x32 c h''))) k x
      = mixW (a x) (b x) (c x) := by
  show mixW (shapeCast S1x48x1x32 (shapeCast S48x32 a h) k x) (shapeCast S1x48x1x32 (shapeCast S48x32 b h') k x)
      (shapeCast S1x48x1x32 (shapeCast S48x32 c h'') k x) = _
  rw [shapeCast_shapeCast, shapeCast_shapeCast, shapeCast_shapeCast]

/-- The store of output column `j` read at an index of its rectangle: the value the body stores there, computed from
    the loads of the input columns `c0 = colOf j`, `c1 = colOf j + 1`, `c2 = colOf j + 2`, is `out1` of the input
    buffer at the index of the output buffer that the store writes. -/
theorem piece_col (X : Vec F S1x48x512x32 .f32) (j c0 c1 c2 : ℕ)
    (hj : j < 205) (e0 : c0 = colOf j) (e1 : c1 = colOf j + 1) (e2 : c2 = colOf j + 2)
    (inbj : ∀ a, (![0, 0, j, 0] : Fin 4 → ℕ) a + S1x48x1x32.size a ≤ S1x48x205x32.size a)
    (inb0 : ∀ a, (![0, 0, c0, 0] : Fin 4 → ℕ) a + S1x48x1x32.size a ≤ S1x48x512x32.size a)
    (inb1 : ∀ a, (![0, 0, c1, 0] : Fin 4 → ℕ) a + S1x48x1x32.size a ≤ S1x48x512x32.size a)
    (inb2 : ∀ a, (![0, 0, c2, 0] : Fin 4 → ℕ) a + S1x48x1x32.size a ≤ S1x48x512x32.size a)
    (h h' h'' : S1x48x1x32.ShapeCasts S48x32) (k : S48x32.ShapeCasts S1x48x1x32)
    (x : S1x48x1x32.Idx) :
    shapeCast S1x48x1x32
        (addf (addf (mulf (broadcast S48x32 (Scalar.ofBits .f32 0x3F800000#32 : F .f32))
                      (shapeCast S48x32 (View.ld X (Rect.unit (s := S1x48x512x32) ![0, 0, c0, 0] S1x48x1x32.size inb0)) h))
                    (mulf (broadcast S48x32 (Scalar.ofBits .f32 0x40000000#32 : F .f32))
                      (shapeCast S48x32 (View.ld X (Rect.unit (s := S1x48x512x32) ![0, 0, c1, 0] S1x48x1x32.size inb1)) h')))
              (mulf (broadcast S48x32 (Scalar.ofBits .f32 0x3F800000#32 : F .f32))
                (shapeCast S48x32 (View.ld X (Rect.unit (s := S1x48x512x32) ![0, 0, c2, 0] S1x48x1x32.size inb2)) h''))) k x
      = out1 X ((Rect.unit (s := S1x48x205x32) ![0, 0, j, 0] S1x48x1x32.size inbj).emb x) := by
  rw [pay_apply]
  have hx0 : (x 0).val = 0 := by have : (x 0).val < 1 := (x 0).isLt; omega
  have hx2 : (x 2).val = 0 := by have : (x 2).val < 1 := (x 2).isLt; omega
  -- each loaded column at `x` is the input buffer at row `x 1`, channel `x 3` of that column
  have key : ∀ (d : Fin 3) (cd : ℕ) (ed : cd = colOf j + d.val)
      (inbd : ∀ a, (![0, 0, cd, 0] : Fin 4 → ℕ) a + S1x48x1x32.size a ≤ S1x48x512x32.size a),
      View.ld X (Rect.unit (s := S1x48x512x32) ![0, 0, cd, 0] S1x48x1x32.size inbd) x
        = X (ix4 (0 : Fin 1)
            (((Rect.unit (s := S1x48x205x32) ![0, 0, j, 0] S1x48x1x32.size inbj).emb x) 1 : Fin 48)
            (col (((Rect.unit (s := S1x48x205x32) ![0, 0, j, 0] S1x48x1x32.size inbj).emb x) 2 : Fin 205) d)
            (((Rect.unit (s := S1x48x205x32) ![0, 0, j, 0] S1x48x1x32.size inbj).emb x) 3 : Fin 32)) := by
    intro d cd ed inbd
    refine congrArg X (funext fun a => Fin.ext ?_)
    match a with
    | ⟨0, _⟩ => show 0 + 1 * (x 0).val = 0; omega
    | ⟨1, _⟩ => rfl
    | ⟨2, _⟩ =>
      show cd + 1 * (x 2).val = colOf (j + 1 * (x 2).val) + d.val
      rw [hx2, ed]; simp only [Nat.mul_zero, Nat.add_zero]
    | ⟨3, _⟩ => rfl
  unfold out1
  rw [key 0 c0 (by rw [e0]; rfl) inb0, key 1 c1 (by rw [e1]; rfl) inb1, key 2 c2 (by rw [e2]; rfl) inb2]

/-- The rectangle of one column of the input buffer, and of the output buffer, lies inside it. -/
theorem inb_in (c : ℕ) (hc : c < 512) :
    ∀ a, (![0, 0, c, 0] : Fin 4 → ℕ) a + S1x48x1x32.size a ≤ S1x48x512x32.size a := by
  intro a
  match a with
  | ⟨0, _⟩ => show 0 + 1 ≤ 1; omega
  | ⟨1, _⟩ => show 0 + 48 ≤ 48; omega
  | ⟨2, _⟩ => show c + 1 ≤ 512; omega
  | ⟨3, _⟩ => show 0 + 32 ≤ 32; omega
theorem inb_out (j : ℕ) (hj : j < 205) :
    ∀ a, (![0, 0, j, 0] : Fin 4 → ℕ) a + S1x48x1x32.size a ≤ S1x48x205x32.size a := by
  intro a
  match a with
  | ⟨0, _⟩ => show 0 + 1 ≤ 1; omega
  | ⟨1, _⟩ => show 0 + 48 ≤ 48; omega
  | ⟨2, _⟩ => show j + 1 ≤ 205; omega
  | ⟨3, _⟩ => show 0 + 32 ≤ 32; omega

theorem col_lt {j c : ℕ} (hj : j < 205) (d : ℕ) (hd : d < 3) (e : c = colOf j + d) : c < 512 :=
  e ▸ colOf_add_lt hj hd

/-- `piece_col` with the evidence inside the rectangles and casts derived from the three column equations, so that
    the columns are read off the store itself. -/
theorem piece_col' (X : Vec F S1x48x512x32 .f32) (j c0 c1 c2 : ℕ)
    (hj : j < 205) (e0 : c0 = colOf j + 0) (e1 : c1 = colOf j + 1) (e2 : c2 = colOf j + 2) (x : S1x48x1x32.Idx) :
    shapeCast S1x48x1x32
        (addf (addf (mulf (broadcast S48x32 (Scalar.ofBits .f32 0x3F800000#32 : F .f32))
                      (shapeCast S48x32 (View.ld X (Rect.unit (s := S1x48x512x32) ![0, 0, c0, 0] S1x48x1x32.size
                        (inb_in c0 (col_lt hj 0 (by decide) e0)))) shapeCasts_S1x48x1x32_S48x32))
                    (mulf (broadcast S48x32 (Scalar.ofBits .f32 0x40000000#32 : F .f32))
                      (shapeCast S48x32 (View.ld X (Rect.unit (s := S1x48x512x32) ![0, 0, c1, 0] S1x48x1x32.size
                        (inb_in c1 (col_lt hj 1 (by decide) e1)))) shapeCasts_S1x48x1x32_S48x32)))
              (mulf (broadcast S48x32 (Scalar.ofBits .f32 0x3F800000#32 : F .f32))
                (shapeCast S48x32 (View.ld X (Rect.unit (s := S1x48x512x32) ![0, 0, c2, 0] S1x48x1x32.size
                  (inb_in c2 (col_lt hj 2 (by decide) e2)))) shapeCasts_S1x48x1x32_S48x32)))
        shapeCasts_S48x32_S1x48x1x32 x
      = out1 X ((Rect.unit (s := S1x48x205x32) ![0, 0, j, 0] S1x48x1x32.size (inb_out j hj)).emb x) :=
  piece_col X j c0 c1 c2 hj e0 e1 e2 _ _ _ _ _ _ _ _ x

end Cert.Kernel.Hand

end
-- ==== Proof.BitsRegion1Run.lean ====
/-
  The second kernel's body on its two buffers, for any float instance: from the input buffer at any contents `x0` and
  the output buffer at anything, the body runs to its end without a fault, leaves the input buffer as it was and the
  output buffer at `out1 x0`.

  The body is 205 times the same four steps, one per output column `j`: three reads of whole columns of the input
  buffer (the columns `colOf j`, `colOf j + 1`, `colOf j + 2`; a column read once serves the neighbouring output
  columns too), the weighted sum, a read of column `j` of the OUTPUT buffer whose value nothing uses, and the write of
  column `j` of the output buffer. The 205 writes are to the 205 different columns, so together they cover the output
  buffer, each entry written once; the value written for column `j` is `out1 x0` on that column (`piece_col`, with
  the column of every read checked against `colOf j` by evaluation). Hence the buffer ends at `out1 x0`, whatever it
  held before.
-/
import proofs.«110337_j82789789597838_2_alg».proof.Proof.BitsRegion1Out
import proofs.«110337_j82789789597838_2_alg».proof.Proof.Gen.Kernel.Skeleton
import Idealize.ShloMosaic.Lib.Pipeline.Kit
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Stencil

variable {F : FTy → Type} [FloatOps F]

local notation "𝕄" => MT nD τ sig Unit (Elt F) ℕ (UR sig nD τ) ℕ

set_option maxHeartbeats 4000000 in
/-- The body on whole buffers: the input's at read contents `x0`, the output's at anything; it returns with the
    input's as it was and the output's at `out1 x0`. -/
theorem sound_kernel1 (c : Dev nD) (E : Set ℕ) (i : grid1.Coords)
    (arg0 : Memref sig .tc .vmem S1x48x512x32 .f32) (harg0 : arg0.IsWhole)
    (arg1 : Memref sig .tc .vmem S1x48x205x32 .f32) (harg1 : arg1.IsWhole)
    (x0 : Vec F S1x48x512x32 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1 x0)) -∗ K ⟨⟩))
      ⊢ wp frame (wpE (defs₀ (F := F)) Variants.none c none) E (cc1__col_reduce_kernel i arg0 harg0 arg1 harg1) K := by
  simp only [cc1__col_reduce_kernel_eq_skeleton]; unfold cc1__col_reduce_kernel_skel
  unfold owns
  iintro ⟨⟨%f0, %hf0, H0⟩, ⟨%d1, %f1, -, H1⟩, Hk⟩
  subst hf0
  sl_exec_parts
  sl_step
  iapply Hk
  isplitl [H0]
  · iexists f0; isplitr; · ipureintro; rfl
    iexact H0
  iexists _; isplitr
  swap; · iexact H1
  ipureintro
  -- the 205 writes, each `out1` of the input on its column, cover the buffer
  funext y
  refine View.read_writes_apply_of_pieces _ _ (out1 (arg0.view.read (Elt F) f0)) _ ?_ y
    (View.cover_of_tiledL (s := S1x48x205x32) _ S1x48x1x32.size (by sl_kernel_rfl) y)
  sl_unfold_run_names
  repeat' (first | exact List.forall_mem_nil _ | refine List.forall_mem_cons.mpr ⟨?_, ?_⟩)
  all_goals
    intro x
    refine piece_col' _ _ _ _ _ ?_ ?_ ?_ ?_ x
    all_goals first | rfl | decide

end Cert.Kernel.Hand

end
-- ==== Proof.BitsRegion1.lean ====
/-
  The second kernel region's body obligation, for any float instance.

  The region's two windows move blocks of 48 rows over arrays of 284 rows, so the sixth block of every batch entry
  overhangs its array by four rows: a fetch fills only the rows of the buffer that lie inside the array (44 at the
  last block, all 48 otherwise) and leaves the others at contents nothing names, and a write-back writes only those
  rows. The obligation therefore states each buffer only on the rows the transfers move.

  At a grid point the body finds the input buffer at its block, filled out past the array's end with some contents
  `d` (`before1_0`), and the output buffer at anything (`before1_1`: it was written back at the point before). It
  leaves the input buffer as it was, which on the moved rows is the block (`cut_pad1`), and the output buffer at
  `out1` of the input buffer. Entry (0, r, j, z) of `out1` reads only row `r` of its argument, and the two windows
  move the same rows, so on the moved rows `out1` of the buffer filled out with `d` is `out1` of the buffer filled
  out with the zero word (`cut_out1_fill`): what the proof data name.
-/
import proofs.«110337_j82789789597838_2_alg».proof.Proof.BitsData
import proofs.«110337_j82789789597838_2_alg».proof.Proof.BitsRegion1Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : Entry F)

/-! ## The proof data, field by field -/

theorem A_eq1 (c : Dev nD) (w : Fin cfg1.W) : (datOf1 V (aftOf1 out1 V) c).A w = V c (Pipeline.arrRef spec1 w) := by
  dsimp only [datOf1]

theorem after1_0 (c : Dev nD) (t : Fin cfg1.N) : (datOf1 V (aftOf1 out1 V) c).after 0 t = pad1 V c t := by
  dsimp only [datOf1, aftOf1]
theorem after1_1 (c : Dev nD) (t : Fin cfg1.N) : (datOf1 V (aftOf1 out1 V) c).after 1 t = out1 (pad1 V c t) := by
  dsimp only [datOf1, aftOf1]

/-! ## What the body finds -/

/-- The input window is fetched at every point: its buffer holds the block on the rows inside the array and `d` on
    the others. -/
theorem before1_0 (c : Dev nD) (t : Fin cfg1.N) (d) :
    (datOf1 V (aftOf1 out1 V) c).before 0 t d = win1_0.fill (grid1.coords t) d (iblk1 V c 0 t) := by
  rw [Dat.before_fetched _ 0 t (fetch1_0 t)]
  unfold Dat.fetched Dat.blockOf iblk1
  rfl

/-- The output window is written back at every point: its buffer is found at contents nothing names. -/
theorem before1_1 (c : Dev nD) (t : Fin cfg1.N) (d) : (datOf1 V (aftOf1 out1 V) c).before 1 t d = d :=
  Dat.before_out_reset _ 1 rfl t
    (if h : t.val = 0 then .inl h else .inr ⟨h, flush1_1 _⟩) d

/-! ## The rows the transfers move -/

/-- On the rows inside the array the padded block is the block. -/
theorem cut_pad1 (c : Dev nD) (t : Fin cfg1.N) : win1_0.cut (grid1.coords t) (pad1 V c t) = iblk1 V c 0 t :=
  win1_0.cut_fill _ _ _

/-- An entry of the input buffer in a row that the OUTPUT window's transfer moves is one the INPUT window's transfer
    moves: the two windows cut a block alike along the rows (their row indices and extents are the same), and the input
    window's blocks span the other three axes whole. -/
theorem moved_in (i : grid1.Coords) (k : S1x48x512x32.Idx) (hk : (k 1).val < win1_1.xsize i 1) :
    win1_0.moved i k = true := by
  refine (win1_0.moved_iff i k).mpr fun a => ?_
  match a with
  | ⟨0, _⟩ =>
    have h1 : (k 0).val < 1 := (k 0).isLt
    have hp : 0 < win1_0.xsize i 0 := Pipeline.Clip.extent_pos (win1_0.hclip i 0) Nat.one_pos
    show (k 0).val < win1_0.xsize i 0
    omega
  | ⟨1, _⟩ => exact hk
  | ⟨2, _⟩ => exact (k 2).isLt
  | ⟨3, _⟩ => exact (k 3).isLt

/-- On the rows the output window moves, `out1` does not see what fills the input buffer past the array's end. -/
theorem cut_out1_fill (i : grid1.Coords) (d d' : S1x48x512x32.Idx → Elt F .f32)
    (g : (win1_0.xblock i).Idx → Elt F .f32) :
    win1_1.cut i (out1 (win1_0.fill i d g)) = win1_1.cut i (out1 (win1_0.fill i d' g)) := by
  funext j
  refine out1_congr_rows _ _ (win1_1.xsize i 1) (fun k hk => ?_) (win1_1.xinj i j) (j 1).isLt
  have hm := moved_in i k hk
  unfold Window.fill
  rw [dif_pos hm, dif_pos hm]

/-! ## The body obligation -/

/-- The library's body obligation, at every point: the two buffers as the body finds them, the body's run
    (`sound_kernel1`), and each buffer handed back stated on the rows its transfers move. -/
theorem body_obligation1 (c : Dev nD) :
    BodyObligationLoose (datOf1 V (aftOf1 out1 V) c) (defs₀ (F := F)) Variants.none () Set.univ := fun t => by
  rw [bigSep_W1, bigSep_W1]
  -- no point is idle and both windows state their buffers on the moved rows only (the cases reduce); the invariant
  -- and what the core owes are the same before and after the point
  simp only
  rw [show (datOf1 V (aftOf1 out1 V) c).Φ t.succ = (datOf1 V (aftOf1 out1 V) c).Φ t.castSucc from rfl,
    show (datOf1 V (aftOf1 out1 V) c).owesAt () t.succ = (datOf1 V (aftOf1 out1 V) c).owesAt () t.castSucc from rfl]
  iintro ⟨HΦ, Ho, ⟨%d0, H0⟩, ⟨%d1, H1⟩⟩
  rw [before1_0 V c t d0, before1_1 V c t d1]
  iapply (sound_kernel1 c Set.univ (grid1.coords t) _ _ _ _ (win1_0.fill (grid1.coords t) d0 (iblk1 V c 0 t)) _)
  isplitl [H0]; · iexact H0
  isplitl [H1]; · iexists _; iexact H1
  iintro ⟨H0, H1⟩
  isplitl [HΦ]; · iexact HΦ
  isplitl [Ho]; · iexact Ho
  isplitl [H0]
  · -- the input buffer is as it was found: on the moved rows, the block, as the padded block is
    iexists d0
    change _ ⊢ owns (c : Thread nD τ) (st1_0 t) fullShare
      (win1_0.fill (grid1.coords t) d0 (win1_0.cut (grid1.coords t) (pad1 V c t)))
    rw [cut_pad1]; try iexact H0
  · -- the output buffer holds `out1` of the buffer as found, which on the moved rows is `out1` of the padded block
    iexists out1 (win1_0.fill (grid1.coords t) d0 (iblk1 V c 0 t))
    change _ ⊢ owns (c : Thread nD τ) (st1_1 t) fullShare
      (win1_1.fill (grid1.coords t) (out1 (win1_0.fill (grid1.coords t) d0 (iblk1 V c 0 t)))
        (win1_1.cut (grid1.coords t) (out1 (pad1 V c t))))
    rw [show win1_1.cut (grid1.coords t) (out1 (pad1 V c t))
        = win1_1.cut (grid1.coords t) (out1 (win1_0.fill (grid1.coords t) d0 (iblk1 V c 0 t))) from
      cut_out1_fill (grid1.coords t) _ d0 (iblk1 V c 0 t), win1_1.fill_cut]
    try iexact H1

end Cert.Kernel.Hand

end
-- ==== Proof.RefTerm.lean ====
/-
  What the reference computes, as one function of the image.

  The reference holds a 3 × 3 table of weights and twelve tables of integers: for each of the three row neighbours
  d = 0, 1, 2 a table of the 284 input rows `rowOf i + d`, and for each of the nine pairs (d, e) a table of the 205 input
  columns `colOf j + e`. A table becomes the index array of a gather after a step that would add 512 to an entry
  under a mask, the mask being false everywhere, and a reshape to one entry per row of a two-axis array. A row gather
  keeps batch, column and channel and reads the image's row named by the table; a column gather does the same along
  the columns of its result. Each of the nine gathered arrays is multiplied by one entry of the weight table, cut out
  as a 1 × 1 block and reshaped to a scalar, and added to the running sum, which starts as an array of zeros: the
  row neighbour outermost, the column neighbour innermost.

  The composition is stated over ANY weight words and ANY index tables (`termOf`), the reference's own being the
  literal tables of its text (`refTerm`): nothing about what a table holds is used before an entry is read.
-/
import proofs.«110337_j82789789597838_2_alg».proof.Proof.Gen.ReferenceIdeal

noncomputable section

namespace Cert.ReferenceIdeal.Hand

open Cert.ReferenceIdeal Cert.ReferenceIdeal.Gen Idealize.ShloMosaic

variable {F : FTy → Type} [FloatOps F]

/-- Nine float words as a 3 × 3 array, row by row. -/
def weights (wt : Fin 9 → BitVec 32) : FVec F S3x3 .f32 := fun i => FloatOps.ofBits .f32 (wt (S3x3.rowMajor i))

/-- One entry of the weight array as a scalar: the 1 × 1 block at `off`, reshaped to no axes. -/
def weight (wt : Fin 9 → BitVec 32) (off : Fin 2 → Nat) (h : S3x3.Slices off S1x1) : FVec F S_ .f32 :=
  shapeCast S_ (extractStridedSlice S1x1 off (weights (F := F) wt) h) shapeCasts_S1x1_S_

/-- A table of 284 row numbers as a gather's index array: 512 is added to an entry where the mask holds, which is
    nowhere, and entry `i` becomes row `i` of a 284 × 1 array. -/
def rowStarts (tab : Fin 284 → BitVec 32) : IVec S284x1 32 :=
  broadcastInDim S284x1 ![0] bcast_S284_S284x1_0
    (select (constantI S284 1 0#1)
      (addi (fun i => tab (S284.rowMajor i)) (broadcastInDim S284 ![] bcast_S_S284 (constantI S_ 32 512#32)))
      (fun i => tab (S284.rowMajor i)))

/-- The same for a table of 205 column numbers. -/
def colStarts (tab : Fin 205 → BitVec 32) : IVec S205x1 32 :=
  broadcastInDim S205x1 ![0] bcast_S205_S205x1_0
    (select (constantI S205 1 0#1)
      (addi (fun i => tab (S205.rowMajor i)) (broadcastInDim S205 ![] bcast_S_S205 (constantI S_ 32 512#32)))
      (fun i => tab (S205.rowMajor i)))

/-- The image's rows named by a table: batch, column and channel kept. -/
def rowGather (tab : Fin 284 → BitVec 32) (x : FVec F S32x512x512x32 .f32) : FVec F S32x284x512x32 .f32 :=
  Host.gather gather_S32x512x512x32_S284x1_S32x284x512x32_023_1_n_n_1_1_32151232 x (rowStarts tab)

/-- The columns named by a table, of an array whose rows are already sampled: batch, row and channel kept. -/
def colGather (tab : Fin 205 → BitVec 32) (t : FVec F S32x284x512x32 .f32) : FVec F S32x284x205x32 .f32 :=
  Host.gather gather_S32x284x512x32_S205x1_S32x284x205x32_013_2_n_n_2_1_32284132 t (colStarts tab)

/-- The sum's start: zero everywhere. -/
def zeros : FVec F S32x284x205x32 .f32 :=
  broadcastInDim S32x284x205x32 ![] bcast_S_S32x284x205x32 (constant (F := F) S_ .f32 0x00000000#32)

/-- One step of the sum: the running sum plus a scalar weight times a gathered array. -/
def addWeighted (acc : FVec F S32x284x205x32 .f32) (w : FVec F S_ .f32) (g : FVec F S32x284x205x32 .f32) :
    FVec F S32x284x205x32 .f32 :=
  addf acc (mulf (broadcastInDim S32x284x205x32 ![] bcast_S_S32x284x205x32 w) g)

/-- The nine steps over any weight words `wt`, row tables `r0 r1 r2` and column tables `c00 … c22`. -/
def termOf (wt : Fin 9 → BitVec 32) (r0 r1 r2 : Fin 284 → BitVec 32)
    (c00 c01 c02 c10 c11 c12 c20 c21 c22 : Fin 205 → BitVec 32) (x : FVec F S32x512x512x32 .f32) :
    FVec F S32x284x205x32 .f32 :=
  addWeighted (addWeighted (addWeighted (addWeighted (addWeighted (addWeighted (addWeighted (addWeighted (addWeighted
    zeros
    (weight wt ![0, 0] slices_S3x3_S1x1_0_0) (colGather c00 (rowGather r0 x)))
    (weight wt ![0, 1] slices_S3x3_S1x1_0_1) (colGather c01 (rowGather r0 x)))
    (weight wt ![0, 2] slices_S3x3_S1x1_0_2) (colGather c02 (rowGather r0 x)))
    (weight wt ![1, 0] slices_S3x3_S1x1_1_0) (colGather c10 (rowGather r1 x)))
    (weight wt ![1, 1] slices_S3x3_S1x1_1_1) (colGather c11 (rowGather r1 x)))
    (weight wt ![1, 2] slices_S3x3_S1x1_1_2) (colGather c12 (rowGather r1 x)))
    (weight wt ![2, 0] slices_S3x3_S1x1_2_0) (colGather c20 (rowGather r2 x)))
    (weight wt ![2, 1] slices_S3x3_S1x1_2_1) (colGather c21 (rowGather r2 x)))
    (weight wt ![2, 2] slices_S3x3_S1x1_2_2) (colGather c22 (rowGather r2 x))

/-- The reference's result as a function of the image: the nine steps at the weight table and the twelve index
    tables of its own text. -/
def refTerm (x : FVec F S32x512x512x32 .f32) : FVec F S32x284x205x32 .f32 :=
  termOf lit0 lit1 lit5 lit9 lit2 lit3 lit4 lit6 lit7 lit8 lit10 lit11 lit12 x

end Cert.ReferenceIdeal.Hand

end
-- ==== Proof.RefOps.lean ====
/-
  The reference program as a list of operations.

  The program is a straight line of 144 host operations and a return, its text in three parts. Listed in order
  (`ops0`, `ops1`, `ops2`), each part is the run of its list, so the program is the run of the whole list `ops`;
  every operation touches buffers of the TensorCore only, and the signature scopes nothing.
-/
import proofs.«110337_j82789789597838_2_alg».proof.Proof.RefTerm
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 to 60: the constants, the zero array, the first row gather and the steps (0, 0), (0, 1) and the start of (0, 2). -/
abbrev ops0 : List (HloOp τ sig (Elt F)) :=
  [ nullary main_cst (fun i => FloatOps.ofBits .f32 (lit0 (S3x3.rowMajor i))),
    nullary main_c (fun i => lit1 (S284.rowMajor i)),
    nullary main_c_0 (constantI S284 1 0#1),
    nullary main_c_1 (fun i => lit2 (S205.rowMajor i)),
    nullary main_c_2 (constantI S205 1 0#1),
    nullary main_c_3 (fun i => lit3 (S205.rowMajor i)),
    nullary main_c_4 (constantI S205 1 0#1),
    nullary main_c_5 (fun i => lit4 (S205.rowMajor i)),
    nullary main_c_6 (constantI S205 1 0#1),
    nullary main_c_7 (fun i => lit5 (S284.rowMajor i)),
    nullary main_c_8 (constantI S284 1 0#1),
    nullary main_c_9 (fun i => lit6 (S205.rowMajor i)),
    nullary main_c_10 (constantI S205 1 0#1),
    nullary main_c_11 (fun i => lit7 (S205.rowMajor i)),
    nullary main_c_12 (constantI S205 1 0#1),
    nullary main_c_13 (fun i => lit8 (S205.rowMajor i)),
    nullary main_c_14 (constantI S205 1 0#1),
    nullary main_c_15 (fun i => lit9 (S284.rowMajor i)),
    nullary main_c_16 (constantI S284 1 0#1),
    nullary main_c_17 (fun i => lit10 (S205.rowMajor i)),
    nullary main_c_18 (constantI S205 1 0#1),
    nullary main_c_19 (fun i => lit11 (S205.rowMajor i)),
    nullary main_c_20 (constantI S205 1 0#1),
    nullary main_c_21 (fun i => lit12 (S205.rowMajor i)),
    nullary main_c_22 (constantI S205 1 0#1),
    nullary main_cst_23 (constant S_ .f32 0x00000000#32),
    unary main_cst_23 main_v0 (broadcastInDim S32x284x205x32 ![] bcast_S_S32x284x205x32 : (⟨S_, .f32⟩ : BufTy).Contents (Elt F) → (⟨S32x284x205x32, .f32⟩ : BufTy).Contents (Elt F)),
    nullary main_c_24 (constantI S_ 32 512#32),
    unary main_c_24 main_v1 (broadcastInDim S284 ![] bcast_S_S284 : (⟨S_, .i32⟩ : BufTy).Contents (Elt F) → (⟨S284, .i32⟩ : BufTy).Contents (Elt F)),
    binary main_c main_v1 main_v2 (addi : (⟨S284, .i32⟩ : BufTy).Contents (Elt F) → (⟨S284, .i32⟩ : BufTy).Contents (Elt F) → (⟨S284, .i32⟩ : BufTy).Contents (Elt F)),
    ternary main_c_0 main_v2 main_c main_v3 (select : (⟨S284, .i1⟩ : BufTy).Contents (Elt F) → (⟨S284, .i32⟩ : BufTy).Contents (Elt F) → (⟨S284, .i32⟩ : BufTy).Contents (Elt F) → (⟨S284, .i32⟩ : BufTy).Contents (Elt F)),
    unary main_v3 main_v4 (broadcastInDim S284x1 ![0] bcast_S284_S284x1_0 : (⟨S284, .i32⟩ : BufTy).Contents (Elt F) → (⟨S284x1, .i32⟩ : BufTy).Contents (Elt F)),
    binary main_arg0 main_v4 main_v5 ((fun x i => Host.gather gather_S32x512x512x32_S284x1_S32x284x512x32_023_1_n_n_1_1_32151232 x i) : (⟨S32x512x512x32, .f32⟩ : BufTy).Contents (Elt F) → (⟨S284x1, .i32⟩ : BufTy).Contents (Elt F) → (⟨S32x284x512x32, .f32⟩ : BufTy).Contents (Elt F)),
    unary main_cst main_v6 ((extractStridedSlice S1x1 ![0, 0] · slices_S3x3_S1x1_0_0) : (⟨S3x3, .f32⟩ : BufTy).Contents (Elt F) → (⟨S1x1, .f32⟩ : BufTy).Contents (Elt F)),
    reshape main_v6 main_v7 rfl shapeCasts_S1x1_S_,
    nullary main_c_25 (constantI S_ 32 512#32),
    unary main_c_25 main_v8 (broadcastInDim S205 ![] bcast_S_S205 : (⟨S_, .i32⟩ : BufTy).Contents (Elt F) → (⟨S205, .i32⟩ : BufTy).Contents (Elt F)),
    binary main_c_1 main_v8 main_v9 (addi : (⟨S205, .i32⟩ : BufTy).Contents (Elt F) → (⟨S205, .i32⟩ : BufTy).Contents (Elt F) → (⟨S205, .i32⟩ : BufTy).Contents (Elt F)),
    ternary main_c_2 main_v9 main_c_1 main_v10 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v10 main_v11 (broadcastInDim S205x1 ![0] bcast_S205_S205x1_0 : (⟨S205, .i32⟩ : BufTy).Contents (Elt F) → (⟨S205x1, .i32⟩ : BufTy).Contents (Elt F)),
    binary main_v5 main_v11 main_v12 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v7 main_v13 (broadcastInDim S32x284x205x32 ![] bcast_S_S32x284x205x32 : (⟨S_, .f32⟩ : BufTy).Contents (Elt F) → (⟨S32x284x205x32, .f32⟩ : BufTy).Contents (Elt F)),
    binary main_v13 main_v12 main_v14 (mulf : (⟨S32x284x205x32, .f32⟩ : BufTy).Contents (Elt F) → (⟨S32x284x205x32, .f32⟩ : BufTy).Contents (Elt F) → (⟨S32x284x205x32, .f32⟩ : BufTy).Contents (Elt F)),
    binary main_v0 main_v14 main_v15 (addf : (⟨S32x284x205x32, .f32⟩ : BufTy).Contents (Elt F) → (⟨S32x284x205x32, .f32⟩ : BufTy).Contents (Elt F) → (⟨S32x284x205x32, .f32⟩ : BufTy).Contents (Elt F)),
    unary main_cst main_v16 ((extractStridedSlice S1x1 ![0, 1] · slices_S3x3_S1x1_0_1) : (⟨S3x3, .f32⟩ : BufTy).Contents (Elt F) → (⟨S1x1, .f32⟩ : BufTy).Contents (Elt F)),
    reshape main_v16 main_v17 rfl shapeCasts_S1x1_S_,
    nullary main_c_26 (constantI S_ 32 512#32),
    unary main_c_26 main_v18 (broadcastInDim S205 ![] bcast_S_S205 : (⟨S_, .i32⟩ : BufTy).Contents (Elt F) → (⟨S205, .i32⟩ : BufTy).Contents (Elt F)),
    binary main_c_3 main_v18 main_v19 (addi : (⟨S205, .i32⟩ : BufTy).Contents (Elt F) → (⟨S205, .i32⟩ : BufTy).Contents (Elt F) → (⟨S205, .i32⟩ : BufTy).Contents (Elt F)),
    ternary main_c_4 main_v19 main_c_3 main_v20 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v20 main_v21 (broadcastInDim S205x1 ![0] bcast_S205_S205x1_0 : (⟨S205, .i32⟩ : BufTy).Contents (Elt F) → (⟨S205x1, .i32⟩ : BufTy).Contents (Elt F)),
    binary main_v5 main_v21 main_v22 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v17 main_v23 (broadcastInDim S32x284x205x32 ![] bcast_S_S32x284x205x32 : (⟨S_, .f32⟩ : BufTy).Contents (Elt F) → (⟨S32x284x205x32, .f32⟩ : BufTy).Contents (Elt F)),
    binary main_v23 main_v22 main_v24 (mulf : (⟨S32x284x205x32, .f32⟩ : BufTy).Contents (Elt F) → (⟨S32x284x205x32, .f32⟩ : BufTy).Contents (Elt F) → (⟨S32x284x205x32, .f32⟩ : BufTy).Contents (Elt F)),
    binary main_v15 main_v24 main_v25 (addf : (⟨S32x284x205x32, .f32⟩ : BufTy).Contents (Elt F) → (⟨S32x284x205x32, .f32⟩ : BufTy).Contents (Elt F) → (⟨S32x284x205x32, .f32⟩ : BufTy).Contents (Elt F)),
    unary main_cst main_v26 ((extractStridedSlice S1x1 ![0, 2] · slices_S3x3_S1x1_0_2) : (⟨S3x3, .f32⟩ : BufTy).Contents (Elt F) → (⟨S1x1, .f32⟩ : BufTy).Contents (Elt F)),
    reshape main_v26 main_v27 rfl shapeCasts_S1x1_S_,
    nullary main_c_27 (constantI S_ 32 512#32),
    unary main_c_27 main_v28 (broadcastInDim S205 ![] bcast_S_S205 : (⟨S_, .i32⟩ : BufTy).Contents (Elt F) → (⟨S205, .i32⟩ : BufTy).Contents (Elt F)),
    binary main_c_5 main_v28 main_v29 (addi : (⟨S205, .i32⟩ : BufTy).Contents (Elt F) → (⟨S205, .i32⟩ : BufTy).Contents (Elt F) → (⟨S205, .i32⟩ : BufTy).Contents (Elt F)) ]

/-- Operations 61 to 120: the rest of step (0, 2), the second row gather with its three steps, the third row gather and the start of step (2, 0). -/
abbrev ops1 : List (HloOp τ sig (Elt F)) :=
  [ ternary main_c_6 main_v29 main_c_5 main_v30 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v30 main_v31 (broadcastInDim S205x1 ![0] bcast_S205_S205x1_0 : (⟨S205, .i32⟩ : BufTy).Contents (Elt F) → (⟨S205x1, .i32⟩ : BufTy).Contents (Elt F)),
    binary main_v5 main_v31 main_v32 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v27 main_v33 (broadcastInDim S32x284x205x32 ![] bcast_S_S32x284x205x32 : (⟨S_, .f32⟩ : BufTy).Contents (Elt F) → (⟨S32x284x205x32, .f32⟩ : BufTy).Contents (Elt F)),
    binary main_v33 main_v32 main_v34 (mulf : (⟨S32x284x205x32, .f32⟩ : BufTy).Contents (Elt F) → (⟨S32x284x205x32, .f32⟩ : BufTy).Contents (Elt F) → (⟨S32x284x205x32, .f32⟩ : BufTy).Contents (Elt F)),
    binary main_v25 main_v34 main_v35 (addf : (⟨S32x284x205x32, .f32⟩ : BufTy).Contents (Elt F) → (⟨S32x284x205x32, .f32⟩ : BufTy).Contents (Elt F) → (⟨S32x284x205x32, .f32⟩ : BufTy).Contents (Elt F)),
    nullary main_c_28 (constantI S_ 32 512#32),
    unary main_c_28 main_v36 (broadcastInDim S284 ![] bcast_S_S284 : (⟨S_, .i32⟩ : BufTy).Contents (Elt F) → (⟨S284, .i32⟩ : BufTy).Contents (Elt F)),
    binary main_c_7 main_v36 main_v37 (addi : (⟨S284, .i32⟩ : BufTy).Contents (Elt F) → (⟨S284, .i32⟩ : BufTy).Contents (Elt F) → (⟨S284, .i32⟩ : BufTy).Contents (Elt F)),
    ternary main_c_8 main_v37 main_c_7 main_v38 (select : (⟨S284, .i1⟩ : BufTy).Contents (Elt F) → (⟨S284, .i32⟩ : BufTy).Contents (Elt F) → (⟨S284, .i32⟩ : BufTy).Contents (Elt F) → (⟨S284, .i32⟩ : BufTy).Contents (Elt F)),
    unary main_v38 main_v39 (broadcastInDim S284x1 ![0] bcast_S284_S284x1_0 : (⟨S284, .i32⟩ : BufTy).Contents (Elt F) → (⟨S284x1, .i32⟩ : BufTy).Contents (Elt F)),
    binary main_arg0 main_v39 main_v40 ((fun x i => Host.gather gather_S32x512x512x32_S284x1_S32x284x512x32_023_1_n_n_1_1_32151232 x i) : (⟨S32x512x512x32, .f32⟩ : BufTy).Contents (Elt F) → (⟨S284x1, .i32⟩ : BufTy).Contents (Elt F) → (⟨S32x284x512x32, .f32⟩ : BufTy).Contents (Elt F)),
    unary main_cst main_v41 ((extractStridedSlice S1x1 ![1, 0] · slices_S3x3_S1x1_1_0) : (⟨S3x3, .f32⟩ : BufTy).Contents (Elt F) → (⟨S1x1, .f32⟩ : BufTy).Contents (Elt F)),
    reshape main_v41 main_v42 rfl shapeCasts_S1x1_S_,
    nullary main_c_29 (constantI S_ 32 512#32),
    unary main_c_29 main_v43 (broadcastInDim S205 ![] bcast_S_S205 : (⟨S_, .i32⟩ : BufTy).Contents (Elt F) → (⟨S205, .i32⟩ : BufTy).Contents (Elt F)),
    binary main_c_9 main_v43 main_v44 (addi : (⟨S205, .i32⟩ : BufTy).Contents (Elt F) → (⟨S205, .i32⟩ : BufTy).Contents (Elt F) → (⟨S205, .i32⟩ : BufTy).Contents (Elt F)),
    ternary main_c_10 main_v44 main_c_9 main_v45 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v45 main_v46 (broadcastInDim S205x1 ![0] bcast_S205_S205x1_0 : (⟨S205, .i32⟩ : BufTy).Contents (Elt F) → (⟨S205x1, .i32⟩ : BufTy).Contents (Elt F)),
    binary main_v40 main_v46 main_v47 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v42 main_v48 (broadcastInDim S32x284x205x32 ![] bcast_S_S32x284x205x32 : (⟨S_, .f32⟩ : BufTy).Contents (Elt F) → (⟨S32x284x205x32, .f32⟩ : BufTy).Contents (Elt F)),
    binary main_v48 main_v47 main_v49 (mulf : (⟨S32x284x205x32, .f32⟩ : BufTy).Contents (Elt F) → (⟨S32x284x205x32, .f32⟩ : BufTy).Contents (Elt F) → (⟨S32x284x205x32, .f32⟩ : BufTy).Contents (Elt F)),
    binary main_v35 main_v49 main_v50 (addf : (⟨S32x284x205x32, .f32⟩ : BufTy).Contents (Elt F) → (⟨S32x284x205x32, .f32⟩ : BufTy).Contents (Elt F) → (⟨S32x284x205x32, .f32⟩ : BufTy).Contents (Elt F)),
    unary main_cst main_v51 ((extractStridedSlice S1x1 ![1, 1] · slices_S3x3_S1x1_1_1) : (⟨S3x3, .f32⟩ : BufTy).Contents (Elt F) → (⟨S1x1, .f32⟩ : BufTy).Contents (Elt F)),
    reshape main_v51 main_v52 rfl shapeCasts_S1x1_S_,
    nullary main_c_30 (constantI S_ 32 512#32),
    unary main_c_30 main_v53 (broadcastInDim S205 ![] bcast_S_S205 : (⟨S_, .i32⟩ : BufTy).Contents (Elt F) → (⟨S205, .i32⟩ : BufTy).Contents (Elt F)),
    binary main_c_11 main_v53 main_v54 (addi : (⟨S205, .i32⟩ : BufTy).Contents (Elt F) → (⟨S205, .i32⟩ : BufTy).Contents (Elt F) → (⟨S205, .i32⟩ : BufTy).Contents (Elt F)),
    ternary main_c_12 main_v54 main_c_11 main_v55 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v55 main_v56 (broadcastInDim S205x1 ![0] bcast_S205_S205x1_0 : (⟨S205, .i32⟩ : BufTy).Contents (Elt F) → (⟨S205x1, .i32⟩ : BufTy).Contents (Elt F)),
    binary main_v40 main_v56 main_v57 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v52 main_v58 (broadcastInDim S32x284x205x32 ![] bcast_S_S32x284x205x32 : (⟨S_, .f32⟩ : BufTy).Contents (Elt F) → (⟨S32x284x205x32, .f32⟩ : BufTy).Contents (Elt F)),
    binary main_v58 main_v57 main_v59 (mulf : (⟨S32x284x205x32, .f32⟩ : BufTy).Contents (Elt F) → (⟨S32x284x205x32, .f32⟩ : BufTy).Contents (Elt F) → (⟨S32x284x205x32, .f32⟩ : BufTy).Contents (Elt F)),
    binary main_v50 main_v59 main_v60 (addf : (⟨S32x284x205x32, .f32⟩ : BufTy).Contents (Elt F) → (⟨S32x284x205x32, .f32⟩ : BufTy).Contents (Elt F) → (⟨S32x284x205x32, .f32⟩ : BufTy).Contents (Elt F)),
    unary main_cst main_v61 ((extractStridedSlice S1x1 ![1, 2] · slices_S3x3_S1x1_1_2) : (⟨S3x3, .f32⟩ : BufTy).Contents (Elt F) → (⟨S1x1, .f32⟩ : BufTy).Contents (Elt F)),
    reshape main_v61 main_v62 rfl shapeCasts_S1x1_S_,
    nullary main_c_31 (constantI S_ 32 512#32),
    unary main_c_31 main_v63 (broadcastInDim S205 ![] bcast_S_S205 : (⟨S_, .i32⟩ : BufTy).Contents (Elt F) → (⟨S205, .i32⟩ : BufTy).Contents (Elt F)),
    binary main_c_13 main_v63 main_v64 (addi : (⟨S205, .i32⟩ : BufTy).Contents (Elt F) → (⟨S205, .i32⟩ : BufTy).Contents (Elt F) → (⟨S205, .i32⟩ : BufTy).Contents (Elt F)),
    ternary main_c_14 main_v64 main_c_13 main_v65 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v65 main_v66 (broadcastInDim S205x1 ![0] bcast_S205_S205x1_0 : (⟨S205, .i32⟩ : BufTy).Contents (Elt F) → (⟨S205x1, .i32⟩ : BufTy).Contents (Elt F)),
    binary main_v40 main_v66 main_v67 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v62 main_v68 (broadcastInDim S32x284x205x32 ![] bcast_S_S32x284x205x32 : (⟨S_, .f32⟩ : BufTy).Contents (Elt F) → (⟨S32x284x205x32, .f32⟩ : BufTy).Contents (Elt F)),
    binary main_v68 main_v67 main_v69 (mulf : (⟨S32x284x205x32, .f32⟩ : BufTy).Contents (Elt F) → (⟨S32x284x205x32, .f32⟩ : BufTy).Contents (Elt F) → (⟨S32x284x205x32, .f32⟩ : BufTy).Contents (Elt F)),
    binary main_v60 main_v69 main_v70 (addf : (⟨S32x284x205x32, .f32⟩ : BufTy).Contents (Elt F) → (⟨S32x284x205x32, .f32⟩ : BufTy).Contents (Elt F) → (⟨S32x284x205x32, .f32⟩ : BufTy).Contents (Elt F)),
    nullary main_c_32 (constantI S_ 32 512#32),
    unary main_c_32 main_v71 (broadcastInDim S284 ![] bcast_S_S284 : (⟨S_, .i32⟩ : BufTy).Contents (Elt F) → (⟨S284, .i32⟩ : BufTy).Contents (Elt F)),
    binary main_c_15 main_v71 main_v72 (addi : (⟨S284, .i32⟩ : BufTy).Contents (Elt F) → (⟨S284, .i32⟩ : BufTy).Contents (Elt F) → (⟨S284, .i32⟩ : BufTy).Contents (Elt F)),
    ternary main_c_16 main_v72 main_c_15 main_v73 (select : (⟨S284, .i1⟩ : BufTy).Contents (Elt F) → (⟨S284, .i32⟩ : BufTy).Contents (Elt F) → (⟨S284, .i32⟩ : BufTy).Contents (Elt F) → (⟨S284, .i32⟩ : BufTy).Contents (Elt F)),
    unary main_v73 main_v74 (broadcastInDim S284x1 ![0] bcast_S284_S284x1_0 : (⟨S284, .i32⟩ : BufTy).Contents (Elt F) → (⟨S284x1, .i32⟩ : BufTy).Contents (Elt F)),
    binary main_arg0 main_v74 main_v75 ((fun x i => Host.gather gather_S32x512x512x32_S284x1_S32x284x512x32_023_1_n_n_1_1_32151232 x i) : (⟨S32x512x512x32, .f32⟩ : BufTy).Contents (Elt F) → (⟨S284x1, .i32⟩ : BufTy).Contents (Elt F) → (⟨S32x284x512x32, .f32⟩ : BufTy).Contents (Elt F)),
    unary main_cst main_v76 ((extractStridedSlice S1x1 ![2, 0] · slices_S3x3_S1x1_2_0) : (⟨S3x3, .f32⟩ : BufTy).Contents (Elt F) → (⟨S1x1, .f32⟩ : BufTy).Contents (Elt F)),
    reshape main_v76 main_v77 rfl shapeCasts_S1x1_S_,
    nullary main_c_33 (constantI S_ 32 512#32),
    unary main_c_33 main_v78 (broadcastInDim S205 ![] bcast_S_S205 : (⟨S_, .i32⟩ : BufTy).Contents (Elt F) → (⟨S205, .i32⟩ : BufTy).Contents (Elt F)),
    binary main_c_17 main_v78 main_v79 (addi : (⟨S205, .i32⟩ : BufTy).Contents (Elt F) → (⟨S205, .i32⟩ : BufTy).Contents (Elt F) → (⟨S205, .i32⟩ : BufTy).Contents (Elt F)),
    ternary main_c_18 main_v79 main_c_17 main_v80 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v80 main_v81 (broadcastInDim S205x1 ![0] bcast_S205_S205x1_0 : (⟨S205, .i32⟩ : BufTy).Contents (Elt F) → (⟨S205x1, .i32⟩ : BufTy).Contents (Elt F)),
    binary main_v75 main_v81 main_v82 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v77 main_v83 (broadcastInDim S32x284x205x32 ![] bcast_S_S32x284x205x32 : (⟨S_, .f32⟩ : BufTy).Contents (Elt F) → (⟨S32x284x205x32, .f32⟩ : BufTy).Contents (Elt F)) ]

/-- Operations 121 to 144: the rest of step (2, 0) and the steps (2, 1) and (2, 2). -/
abbrev ops2 : List (HloOp τ sig (Elt F)) :=
  [ binary main_v83 main_v82 main_v84 (mulf : (⟨S32x284x205x32, .f32⟩ : BufTy).Contents (Elt F) → (⟨S32x284x205x32, .f32⟩ : BufTy).Contents (Elt F) → (⟨S32x284x205x32, .f32⟩ : BufTy).Contents (Elt F)),
    binary main_v70 main_v84 main_v85 (addf : (⟨S32x284x205x32, .f32⟩ : BufTy).Contents (Elt F) → (⟨S32x284x205x32, .f32⟩ : BufTy).Contents (Elt F) → (⟨S32x284x205x32, .f32⟩ : BufTy).Contents (Elt F)),
    unary main_cst main_v86 ((extractStridedSlice S1x1 ![2, 1] · slices_S3x3_S1x1_2_1) : (⟨S3x3, .f32⟩ : BufTy).Contents (Elt F) → (⟨S1x1, .f32⟩ : BufTy).Contents (Elt F)),
    reshape main_v86 main_v87 rfl shapeCasts_S1x1_S_,
    nullary main_c_34 (constantI S_ 32 512#32),
    unary main_c_34 main_v88 (broadcastInDim S205 ![] bcast_S_S205 : (⟨S_, .i32⟩ : BufTy).Contents (Elt F) → (⟨S205, .i32⟩ : BufTy).Contents (Elt F)),
    binary main_c_19 main_v88 main_v89 (addi : (⟨S205, .i32⟩ : BufTy).Contents (Elt F) → (⟨S205, .i32⟩ : BufTy).Contents (Elt F) → (⟨S205, .i32⟩ : BufTy).Contents (Elt F)),
    ternary main_c_20 main_v89 main_c_19 main_v90 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v90 main_v91 (broadcastInDim S205x1 ![0] bcast_S205_S205x1_0 : (⟨S205, .i32⟩ : BufTy).Contents (Elt F) → (⟨S205x1, .i32⟩ : BufTy).Contents (Elt F)),
    binary main_v75 main_v91 main_v92 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v87 main_v93 (broadcastInDim S32x284x205x32 ![] bcast_S_S32x284x205x32 : (⟨S_, .f32⟩ : BufTy).Contents (Elt F) → (⟨S32x284x205x32, .f32⟩ : BufTy).Contents (Elt F)),
    binary main_v93 main_v92 main_v94 (mulf : (⟨S32x284x205x32, .f32⟩ : BufTy).Contents (Elt F) → (⟨S32x284x205x32, .f32⟩ : BufTy).Contents (Elt F) → (⟨S32x284x205x32, .f32⟩ : BufTy).Contents (Elt F)),
    binary main_v85 main_v94 main_v95 (addf : (⟨S32x284x205x32, .f32⟩ : BufTy).Contents (Elt F) → (⟨S32x284x205x32, .f32⟩ : BufTy).Contents (Elt F) → (⟨S32x284x205x32, .f32⟩ : BufTy).Contents (Elt F)),
    unary main_cst main_v96 ((extractStridedSlice S1x1 ![2, 2] · slices_S3x3_S1x1_2_2) : (⟨S3x3, .f32⟩ : BufTy).Contents (Elt F) → (⟨S1x1, .f32⟩ : BufTy).Contents (Elt F)),
    reshape main_v96 main_v97 rfl shapeCasts_S1x1_S_,
    nullary main_c_35 (constantI S_ 32 512#32),
    unary main_c_35 main_v98 (broadcastInDim S205 ![] bcast_S_S205 : (⟨S_, .i32⟩ : BufTy).Contents (Elt F) → (⟨S205, .i32⟩ : BufTy).Contents (Elt F)),
    binary main_c_21 main_v98 main_v99 (addi : (⟨S205, .i32⟩ : BufTy).Contents (Elt F) → (⟨S205, .i32⟩ : BufTy).Contents (Elt F) → (⟨S205, .i32⟩ : BufTy).Contents (Elt F)),
    ternary main_c_22 main_v99 main_c_21 main_v100 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v100 main_v101 (broadcastInDim S205x1 ![0] bcast_S205_S205x1_0 : (⟨S205, .i32⟩ : BufTy).Contents (Elt F) → (⟨S205x1, .i32⟩ : BufTy).Contents (Elt F)),
    binary main_v75 main_v101 main_v102 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v97 main_v103 (broadcastInDim S32x284x205x32 ![] bcast_S_S32x284x205x32 : (⟨S_, .f32⟩ : BufTy).Contents (Elt F) → (⟨S32x284x205x32, .f32⟩ : BufTy).Contents (Elt F)),
    binary main_v103 main_v102 main_v104 (mulf : (⟨S32x284x205x32, .f32⟩ : BufTy).Contents (Elt F) → (⟨S32x284x205x32, .f32⟩ : BufTy).Contents (Elt F) → (⟨S32x284x205x32, .f32⟩ : BufTy).Contents (Elt F)),
    binary main_v95 main_v104 main_v105 (addf : (⟨S32x284x205x32, .f32⟩ : BufTy).Contents (Elt F) → (⟨S32x284x205x32, .f32⟩ : BufTy).Contents (Elt F) → (⟨S32x284x205x32, .f32⟩ : BufTy).Contents (Elt F)) ]

/-- All 144 operations, in order. -/
abbrev ops : List (HloOp τ sig (Elt F)) := ops0 ++ (ops1 ++ ops2)

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
/-- The program is its operations run in order. -/
theorem main_eq (c : Dev nD) : main (F := F) c = seq ops := by
  simp only [ops, seq_append, ← main_part0_eq c, ← main_part1_eq c, ← main_part2_eq c]
  rfl

/-- The program's signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., nullary_bufs_sub .., unary_bufs_sub .., binary_bufs_sub ..⟩
set_option maxRecDepth 8192 in
theorem ops1_sub : (ops1 : List (HloOp τ sig (Elt F))).Forall fun op => op.bufs ⊆ tcRefs τ sig :=
  ⟨ternary_bufs_sub .., unary_bufs_sub .., binary_bufs_sub .., unary_bufs_sub .., binary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., ternary_bufs_sub .., unary_bufs_sub .., binary_bufs_sub .., unary_bufs_sub ..⟩
set_option maxRecDepth 8192 in
theorem ops2_sub : (ops2 : List (HloOp τ sig (Elt F))).Forall fun op => op.bufs ⊆ tcRefs τ sig :=
  ⟨binary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub ..⟩
/-- Every operation touches buffers of the TensorCore only. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

end Cert.ReferenceIdeal.Hand

end
-- ==== Proof.RefRun.lean ====
/-
  The reference program run to its end.

  Every weakly fair execution of the list of operations terminates with each buffer holding what the operations,
  applied in order to the launch's contents, leave there. Read at the result buffer that is the nine-step sum
  `refTerm` of the image; no operation writes the image's buffer, which keeps its contents.
-/
import proofs.«110337_j82789789597838_2_alg».proof.Proof.RefOps
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- After all the operations the result buffer holds the nine-step sum of the image's launch contents. -/
theorem after_result (V0 : Valuation τ sig (Elt F)) :
    after ops V0 (Proc.devRef .tc main_v105) = refTerm (V0 (Proc.devRef .tc main_arg0)) := by
  simp only [ops, after_append, ops0, ops1, ops2]
  after_results_simp
  rfl

set_option maxRecDepth 8192 in
set_option maxHeartbeats 4000000 in
/-- No operation writes the image's buffer. -/
theorem after_arg (V0 : Valuation τ sig (Elt F)) :
    after ops V0 (Proc.devRef .tc main_arg0) = V0 (Proc.devRef .tc main_arg0) := by
  simp only [ops, after_append, ops0, ops1, ops2]
  after_results_simp

/-- On every device, at any float values, from any memory with zero counters: every weakly fair execution of the
    program terminates with the result buffer at the nine-step sum of the image and the image unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v105).trans (after_result (launchContents m c)),
      (h c main_arg0).trans (after_arg (launchContents m c))⟩)
    (run_seq scopedRefs_eq scopedSems_eq defs main (fun _ => ops) main_eq (fun _ => ops_sub) m ρ)

end Cert.ReferenceIdeal.Hand

end
-- ==== Proof.RefTables.lean ====
/-
  What the reference's literal tables hold.

  The three tables of rows hold, at entry `i`, the input row `rowOf i + d` for d = 0, 1, 2; the nine tables of columns
  hold, at entry `j`, the input column `colOf j + e`, the three tables for e = 0, 1, 2 repeated once per row neighbour.
  Every entry is read as a gather reads a start index, as a signed integer taken as a natural number. The weight table
  holds the words of 1, 2, 1; 2, 4, 2; 1, 2, 1. Each table is checked whole, once, by evaluation.
-/
import proofs.«110337_j82789789597838_2_alg».proof.ReferenceIdeal
import proofs.«110337_j82789789597838_2_alg».proof.Proof.Spec

namespace Cert.ReferenceIdeal.Hand

open Cert.ReferenceIdeal Cert.Stencil

/-- The rows `rowOf i`, `rowOf i + 1`, `rowOf i + 2`. -/
theorem rows_d0 : ∀ i : Fin 284, (lit1 i).toInt.toNat = rowOf i.val + 0 := by decide +kernel
theorem rows_d1 : ∀ i : Fin 284, (lit5 i).toInt.toNat = rowOf i.val + 1 := by decide +kernel
theorem rows_d2 : ∀ i : Fin 284, (lit9 i).toInt.toNat = rowOf i.val + 2 := by decide +kernel

/-- The columns `colOf j + e`, under the first row neighbour … -/
theorem cols_d0_e0 : ∀ j : Fin 205, (lit2 j).toInt.toNat = colOf j.val + 0 := by decide +kernel
theorem cols_d0_e1 : ∀ j : Fin 205, (lit3 j).toInt.toNat = colOf j.val + 1 := by decide +kernel
theorem cols_d0_e2 : ∀ j : Fin 205, (lit4 j).toInt.toNat = colOf j.val + 2 := by decide +kernel
/-- … the second … -/
theorem cols_d1_e0 : ∀ j : Fin 205, (lit6 j).toInt.toNat = colOf j.val + 0 := by decide +kernel
theorem cols_d1_e1 : ∀ j : Fin 205, (lit7 j).toInt.toNat = colOf j.val + 1 := by decide +kernel
theorem cols_d1_e2 : ∀ j : Fin 205, (lit8 j).toInt.toNat = colOf j.val + 2 := by decide +kernel
/-- … and the third. -/
theorem cols_d2_e0 : ∀ j : Fin 205, (lit10 j).toInt.toNat = colOf j.val + 0 := by decide +kernel
theorem cols_d2_e1 : ∀ j : Fin 205, (lit11 j).toInt.toNat = colOf j.val + 1 := by decide +kernel
theorem cols_d2_e2 : ∀ j : Fin 205, (lit12 j).toInt.toNat = colOf j.val + 2 := by decide +kernel

/-- The nine weight words, row by row. -/
theorem weightWords : lit0 0 = 0x3F800000#32 ∧ lit0 1 = 0x40000000#32 ∧ lit0 2 = 0x3F800000#32
    ∧ lit0 3 = 0x40000000#32 ∧ lit0 4 = 0x40800000#32 ∧ lit0 5 = 0x40000000#32
    ∧ lit0 6 = 0x3F800000#32 ∧ lit0 7 = 0x40000000#32 ∧ lit0 8 = 0x3F800000#32 := by decide

end Cert.ReferenceIdeal.Hand
-- ==== Proof.RefGather.lean ====
/-
  The reference's two gathers read at an index.

  Both gathers move along ONE axis of a four-axis array: the start index has one component, for that axis, on which
  the slice is one entry wide; the other three axes are kept whole and are the result's offset axes. So the result at
  (b, i, y, z) of the row gather is the operand at (b, r, y, z), where r is entry (i, 0) of the index array read as
  a signed integer, taken as a natural number and capped at 511, the last row; and the result at (b, i, j, z) of the
  column gather is the operand at (b, i, c, z) with c read in the same way from entry (j, 0).
-/
import proofs.«110337_j82789789597838_2_alg».proof.Proof.Gen.ReferenceIdeal
import Idealize.ShloMosaic.Lib.ValueIdx

namespace Cert.ReferenceIdeal.Hand

open Cert.ReferenceIdeal Cert.ReferenceIdeal.Gen Idealize.ShloMosaic Idealize.ShloMosaic.ValueIdx

variable {α : Type}

local notation "GR" => gather_S32x512x512x32_S284x1_S32x284x512x32_023_1_n_n_1_1_32151232
local notation "GC" => gather_S32x284x512x32_S205x1_S32x284x205x32_013_2_n_n_2_1_32284132

/-- The index array's entry the row gather reads for result row `i`. -/
theorem rowGather_siIdx (b : Fin 32) (i : Fin 284) (y : Fin 512) (z : Fin 32)
    (c : Fin (GatherDims.startIndexMap GR).length) :
    GatherDims.siIdx GR (ix4 b i y z) c = ix2 i (0 : Fin 1) := by
  have hc : c.val < 1 := c.isLt
  funext k; refine Fin.ext ?_
  match k with
  | ⟨0, _⟩ => rfl
  | ⟨1, _⟩ => show c.val = 0; omega

/-- An axis the start index does not name starts at zero (rows). -/
theorem rowGather_start_zero (q : S32x284x512x32.Idx) (idx : IVec S284x1 32) (a : Fin S32x512x512x32.rank) (ha : a.val ≠ 1) :
    GatherDims.start GR q idx a = 0 := by
  unfold GatherDims.start
  exact dif_neg (fun h => ha (congrArg Fin.val (List.mem_singleton.mp h)))

/-- THE ROW GATHER AT (b, i, y, z): the operand at row `r`, the index array's entry (i, 0) read signed and capped at
    511. -/
theorem rowGather_apply (x : S32x512x512x32.Idx → α) (idx : IVec S284x1 32) (b : Fin 32) (i : Fin 284) (y : Fin 512)
    (z : Fin 32) (r : Fin 512) (hr : r.val = min (idx (ix2 i (0 : Fin 1))).toInt.toNat 511) :
    Host.gather GR x idx (ix4 b i y z) = x (ix4 b r y z) := by
  unfold Host.gather
  refine congrArg x (funext fun a => Fin.ext ?_)
  show GatherDims.start GR (ix4 b i y z) idx a + GatherDims.batchCoord GR (ix4 b i y z) a + GatherDims.offCoord GR (ix4 b i y z) a = _
  rw [GatherDims.batchCoord_eq_zero _ _ _ List.not_mem_nil, Nat.add_zero]
  match a with
  | ⟨0, _⟩ => rw [rowGather_start_zero _ _ _ (by show (0 : Nat) ≠ 1; decide), Nat.zero_add]; rfl
  | ⟨1, _⟩ =>
    rw [GatherDims.offCoord_eq_zero _ _ _ (fun h => ((GatherDims.mem_sKept _ _).mp h).1 (List.mem_singleton.mpr rfl)), Nat.add_zero]
    unfold GatherDims.start
    rw [dif_pos (show (⟨1, by decide⟩ : Fin S32x512x512x32.rank) ∈ GatherDims.startIndexMap GR from List.mem_singleton.mpr rfl)]
    rw [rowGather_siIdx]
    exact hr.symm
  | ⟨2, _⟩ => rw [rowGather_start_zero _ _ _ (by show (2 : Nat) ≠ 1; decide), Nat.zero_add]; rfl
  | ⟨3, _⟩ => rw [rowGather_start_zero _ _ _ (by show (3 : Nat) ≠ 1; decide), Nat.zero_add]; rfl

/-- The index array's entry the column gather reads for result column `j`. -/
theorem colGather_siIdx (b : Fin 32) (i : Fin 284) (j : Fin 205) (z : Fin 32)
    (c : Fin (GatherDims.startIndexMap GC).length) :
    GatherDims.siIdx GC (ix4 b i j z) c = ix2 j (0 : Fin 1) := by
  have hc : c.val < 1 := c.isLt
  funext k; refine Fin.ext ?_
  match k with
  | ⟨0, _⟩ => rfl
  | ⟨1, _⟩ => show c.val = 0; omega

/-- An axis the start index does not name starts at zero (columns). -/
theorem colGather_start_zero (q : S32x284x205x32.Idx) (idx : IVec S205x1 32) (a : Fin S32x284x512x32.rank) (ha : a.val ≠ 2) :
    GatherDims.start GC q idx a = 0 := by
  unfold GatherDims.start
  exact dif_neg (fun h => ha (congrArg Fin.val (List.mem_singleton.mp h)))

/-- THE COLUMN GATHER AT (b, i, j, z): the operand at column `c`, the index array's entry (j, 0) read signed and capped
    at 511. -/
theorem colGather_apply (t : S32x284x512x32.Idx → α) (idx : IVec S205x1 32) (b : Fin 32) (i : Fin 284) (j : Fin 205)
    (z : Fin 32) (c : Fin 512) (hc : c.val = min (idx (ix2 j (0 : Fin 1))).toInt.toNat 511) :
    Host.gather GC t idx (ix4 b i j z) = t (ix4 b i c z) := by
  unfold Host.gather
  refine congrArg t (funext fun a => Fin.ext ?_)
  show GatherDims.start GC (ix4 b i j z) idx a + GatherDims.batchCoord GC (ix4 b i j z) a + GatherDims.offCoord GC (ix4 b i j z) a = _
  rw [GatherDims.batchCoord_eq_zero _ _ _ List.not_mem_nil, Nat.add_zero]
  match a with
  | ⟨0, _⟩ => rw [colGather_start_zero _ _ _ (by show (0 : Nat) ≠ 2; decide), Nat.zero_add]; rfl
  | ⟨1, _⟩ => rw [colGather_start_zero _ _ _ (by show (1 : Nat) ≠ 2; decide), Nat.zero_add]; rfl
  | ⟨2, _⟩ =>
    rw [GatherDims.offCoord_eq_zero _ _ _ (fun h => ((GatherDims.mem_sKept _ _).mp h).1 (List.mem_singleton.mpr rfl)), Nat.add_zero]
    unfold GatherDims.start
    rw [dif_pos (show (⟨2, by decide⟩ : Fin S32x284x512x32.rank) ∈ GatherDims.startIndexMap GC from List.mem_singleton.mpr rfl)]
    rw [colGather_siIdx]
    exact hc.symm
  | ⟨3, _⟩ => rw [colGather_start_zero _ _ _ (by show (3 : Nat) ≠ 2; decide), Nat.zero_add]; rfl

end Cert.ReferenceIdeal.Hand
-- ==== Proof.RefRead.lean ====
/-
  The reference's result read at one entry: the nine-term sum.

  Entry (b, i, j, z) of the result is the start value zero plus, for the row neighbours d = 0, 1, 2 and under each the
  column neighbours e = 0, 1, 2, the weight (d, e) times the image at (b, rowOf i + d, colOf j + e, z). An index
  table's entry reaches the gather as it stands, because the mask that would add 512 to it is false; the gather reads
  it as a natural number below 512, so the cap at the last row or column changes nothing; the weight (d, e) is word
  3 d + e of the weight table. The sum is read off step by step over ANY tables with these entries, and the
  reference's own tables have them.
-/
import proofs.«110337_j82789789597838_2_alg».proof.Proof.RefTerm
import proofs.«110337_j82789789597838_2_alg».proof.Proof.RefTables
import proofs.«110337_j82789789597838_2_alg».proof.Proof.RefGather
import Idealize.ShloMosaic.Lib.IdealHost
import Idealize.ShloMosaic.Lib.Pipeline.Value

noncomputable section

namespace Cert.ReferenceIdeal.Hand

open Cert.ReferenceIdeal Cert.ReferenceIdeal.Gen Idealize.ShloMosaic Idealize.ShloMosaic.ValueIdx Cert.Stencil

/-! ## The index arrays -/

/-- Row `i` of the index array made from a table of rows is the table's entry `i`. -/
theorem rowStarts_apply (tab : Fin 284 → BitVec 32) (i : Fin 284) : rowStarts tab (ix2 i (0 : Fin 1)) = tab i := by
  unfold rowStarts
  refine (broadcastInDim_apply _ _ _ (ix2 i (0 : Fin 1)) (ix1 i) (fun a => by match a with | ⟨0, _⟩ => rfl)).trans ?_
  rw [select_apply]
  show Scalar.select 0#1 _ (tab (S284.rowMajor (ix1 i))) = tab i
  rw [select_zero]
  exact congrArg tab (Fin.ext (Shape.rowMajor_val_one (ix1 i)))

/-- The same for a table of columns. -/
theorem colStarts_apply (tab : Fin 205 → BitVec 32) (j : Fin 205) : colStarts tab (ix2 j (0 : Fin 1)) = tab j := by
  unfold colStarts
  refine (broadcastInDim_apply _ _ _ (ix2 j (0 : Fin 1)) (ix1 j) (fun a => by match a with | ⟨0, _⟩ => rfl)).trans ?_
  rw [select_apply]
  show Scalar.select 0#1 _ (tab (S205.rowMajor (ix1 j))) = tab j
  rw [select_zero]
  exact congrArg tab (Fin.ext (Shape.rowMajor_val_one (ix1 j)))

/-! ## One gathered array at an entry -/

/-- Rows gathered by a table holding `rowOf i + d`, then columns by a table holding `colOf j + e`: entry (b, i, j, z)
    is the image at (b, rowOf i + d, colOf j + e, z). -/
theorem gathered_apply {α : Type} (rt : Fin 284 → BitVec 32) (ct : Fin 205 → BitVec 32) (d e : Fin 3)
    (hr : ∀ i : Fin 284, (rt i).toInt.toNat = rowOf i.val + d.val)
    (hc : ∀ j : Fin 205, (ct j).toInt.toNat = colOf j.val + e.val)
    (x : S32x512x512x32.Idx → α) (b : Fin 32) (i : Fin 284) (j : Fin 205) (z : Fin 32) :
    Host.gather gather_S32x284x512x32_S205x1_S32x284x205x32_013_2_n_n_2_1_32284132
        (Host.gather gather_S32x512x512x32_S284x1_S32x284x512x32_023_1_n_n_1_1_32151232 x (rowStarts rt)) (colStarts ct)
        (ix4 b i j z)
      = x (ix4 b (row i d) (col j e) z) := by
  have h1 := rowOf_add_lt i.isLt d.isLt
  have h2 := colOf_add_lt j.isLt e.isLt
  refine (colGather_apply _ _ b i j z (col j e) ?_).trans (rowGather_apply x _ b i (col j e) z (row i d) ?_)
  · rw [colStarts_apply, hc j]; show colOf j.val + e.val = min _ 511; omega
  · rw [rowStarts_apply, hr i]; show rowOf i.val + d.val = min _ 511; omega

/-! ## One weight -/

/-- Entry (d, e) of the weight array, as a scalar, is word 3 d + e. -/
theorem weight_apply (wt : Fin 9 → BitVec 32) (d e : Fin 3) (h : S3x3.Slices ![d.val, e.val] S1x1) :
    weight (F := Ideal) wt ![d.val, e.val] h ix0 = Ideal.ofBits .f32 (wt ⟨3 * d.val + e.val, by omega⟩) := by
  unfold weight
  refine (shapeCast_apply _ _ ix0 (ix2 (0 : Fin 1) (0 : Fin 1)) (by
    rw [Shape.rowMajor_val_two]; show 0 * 1 + 0 = (Shape.rowMajorPi _ _).val; rw [Shape.rowMajorPi_zero])).trans ?_
  refine (extractStridedSlice_apply _ _ h (ix2 (0 : Fin 1) (0 : Fin 1)) (ix2 d e) (fun a => by
    match a with
    | ⟨0, _⟩ => rfl
    | ⟨1, _⟩ => rfl)).trans ?_
  unfold weights
  show Ideal.ofBits .f32 (wt (S3x3.rowMajor (ix2 d e))) = _
  exact congrArg (fun k => Ideal.ofBits .f32 (wt k)) (Fin.ext (by
    rw [Shape.rowMajor_val_two]; show d.val * 3 + e.val = 3 * d.val + e.val; omega))

/-! ## One step of the sum -/

/-- A step at an entry: the running sum's entry plus the scalar times the gathered array's entry. -/
theorem addWeighted_apply (acc g : FVec Ideal S32x284x205x32 .f32) (w : FVec Ideal S_ .f32) (q : S32x284x205x32.Idx) :
    addWeighted acc w g q = acc q + w ix0 * g q := by
  unfold addWeighted
  rw [addf_apply, mulf_apply, broadcastInDim_scalar_apply]

/-- The sum's start at an entry is the zero word. -/
theorem zeros_apply (q : S32x284x205x32.Idx) : zeros (F := Ideal) q = z0 := by
  unfold zeros
  rw [broadcastInDim_scalar_apply, constant_apply]

/-! ## The nine steps -/

/-- The nine steps over any tables that hold the sampled rows and columns and the weights 1, 2, 1; 2, 4, 2; 1, 2, 1:
    the nine-term sum of the specification. -/
theorem termOf_apply (wt : Fin 9 → BitVec 32) (r0 r1 r2 : Fin 284 → BitVec 32)
    (c00 c01 c02 c10 c11 c12 c20 c21 c22 : Fin 205 → BitVec 32)
    (hw : wt 0 = 0x3F800000#32 ∧ wt 1 = 0x40000000#32 ∧ wt 2 = 0x3F800000#32
      ∧ wt 3 = 0x40000000#32 ∧ wt 4 = 0x40800000#32 ∧ wt 5 = 0x40000000#32
      ∧ wt 6 = 0x3F800000#32 ∧ wt 7 = 0x40000000#32 ∧ wt 8 = 0x3F800000#32)
    (hr0 : ∀ i : Fin 284, (r0 i).toInt.toNat = rowOf i.val + 0)
    (hr1 : ∀ i : Fin 284, (r1 i).toInt.toNat = rowOf i.val + 1)
    (hr2 : ∀ i : Fin 284, (r2 i).toInt.toNat = rowOf i.val + 2)
    (h00 : ∀ j : Fin 205, (c00 j).toInt.toNat = colOf j.val + 0)
    (h01 : ∀ j : Fin 205, (c01 j).toInt.toNat = colOf j.val + 1)
    (h02 : ∀ j : Fin 205, (c02 j).toInt.toNat = colOf j.val + 2)
    (h10 : ∀ j : Fin 205, (c10 j).toInt.toNat = colOf j.val + 0)
    (h11 : ∀ j : Fin 205, (c11 j).toInt.toNat = colOf j.val + 1)
    (h12 : ∀ j : Fin 205, (c12 j).toInt.toNat = colOf j.val + 2)
    (h20 : ∀ j : Fin 205, (c20 j).toInt.toNat = colOf j.val + 0)
    (h21 : ∀ j : Fin 205, (c21 j).toInt.toNat = colOf j.val + 1)
    (h22 : ∀ j : Fin 205, (c22 j).toInt.toNat = colOf j.val + 2)
    (x : FVec Ideal S32x512x512x32 .f32) (b : Fin 32) (i : Fin 284) (j : Fin 205) (z : Fin 32) :
    termOf (F := Ideal) wt r0 r1 r2 c00 c01 c02 c10 c11 c12 c20 c21 c22 x (ix4 b i j z) = refAt x b i j z := by
  obtain ⟨hw0, hw1, hw2, hw3, hw4, hw5, hw6, hw7, hw8⟩ := hw
  have e00 : weight (F := Ideal) wt ![0, 0] slices_S3x3_S1x1_0_0 ix0 = Ideal.ofBits .f32 (wt 0) := weight_apply wt 0 0 _
  have e01 : weight (F := Ideal) wt ![0, 1] slices_S3x3_S1x1_0_1 ix0 = Ideal.ofBits .f32 (wt 1) := weight_apply wt 0 1 _
  have e02 : weight (F := Ideal) wt ![0, 2] slices_S3x3_S1x1_0_2 ix0 = Ideal.ofBits .f32 (wt 2) := weight_apply wt 0 2 _
  have e10 : weight (F := Ideal) wt ![1, 0] slices_S3x3_S1x1_1_0 ix0 = Ideal.ofBits .f32 (wt 3) := weight_apply wt 1 0 _
  have e11 : weight (F := Ideal) wt ![1, 1] slices_S3x3_S1x1_1_1 ix0 = Ideal.ofBits .f32 (wt 4) := weight_apply wt 1 1 _
  have e12 : weight (F := Ideal) wt ![1, 2] slices_S3x3_S1x1_1_2 ix0 = Ideal.ofBits .f32 (wt 5) := weight_apply wt 1 2 _
  have e20 : weight (F := Ideal) wt ![2, 0] slices_S3x3_S1x1_2_0 ix0 = Ideal.ofBits .f32 (wt 6) := weight_apply wt 2 0 _
  have e21 : weight (F := Ideal) wt ![2, 1] slices_S3x3_S1x1_2_1 ix0 = Ideal.ofBits .f32 (wt 7) := weight_apply wt 2 1 _
  have e22 : weight (F := Ideal) wt ![2, 2] slices_S3x3_S1x1_2_2 ix0 = Ideal.ofBits .f32 (wt 8) := weight_apply wt 2 2 _
  unfold termOf refAt
  simp only [addWeighted_apply, zeros_apply]
  unfold colGather rowGather
  rw [gathered_apply r0 c00 0 0 hr0 h00, gathered_apply r0 c01 0 1 hr0 h01, gathered_apply r0 c02 0 2 hr0 h02,
    gathered_apply r1 c10 1 0 hr1 h10, gathered_apply r1 c11 1 1 hr1 h11, gathered_apply r1 c12 1 2 hr1 h12,
    gathered_apply r2 c20 2 0 hr2 h20, gathered_apply r2 c21 2 1 hr2 h21, gathered_apply r2 c22 2 2 hr2 h22]
  rw [e00, e01, e02, e10, e11, e12, e20, e21, e22, hw0, hw1, hw2, hw3, hw4, hw5, hw6, hw7, hw8]

/-- THE REFERENCE'S RESULT AT (b, i, j, z) is the nine-term sum. -/
theorem refTerm_apply (x : FVec Ideal S32x512x512x32 .f32) (b : Fin 32) (i : Fin 284) (j : Fin 205) (z : Fin 32) :
    refTerm (F := Ideal) x (ix4 b i j z) = refAt x b i j z :=
  termOf_apply lit0 lit1 lit5 lit9 lit2 lit3 lit4 lit6 lit7 lit8 lit10 lit11 lit12 weightWords
    rows_d0 rows_d1 rows_d2 cols_d0_e0 cols_d0_e1 cols_d0_e2 cols_d1_e0 cols_d1_e1 cols_d1_e2
    cols_d2_e0 cols_d2_e1 cols_d2_e2 x b i j z

end Cert.ReferenceIdeal.Hand

end
-- ==== Proof.lean ====
/-
  The proof of the certificate's claim.

  The kernel is two regions run one after the other (the rows mixed with the weights 1, 2, 1 at the 284 sampled rows,
  then the columns of the result mixed with the same weights at the 205 sampled columns); the reference is nine
  gathers and the nine-term weighted sum. Each program runs to the end without a fault and leaves the image as it
  found it: for the kernel, at the word level and at the extended reals, by the composition of its two regions over
  each body's run; for the reference by the run of its operations. At the extended reals the kernel's result array is
  the column mix of the row mix of the image and the reference's is the nine-term sum; under the precondition every
  entry of the image is a real number, and on real numbers the two are equal by distributivity
  (`Cert.Stencil.colMix_rowMix_eq_ref`).
-/
import proofs.«110337_j82789789597838_2_alg».proof.Defs
import proofs.«110337_j82789789597838_2_alg».proof.Proof.Gen.Kernel
import proofs.«110337_j82789789597838_2_alg».proof.Proof.Gen.KernelIdeal
import proofs.«110337_j82789789597838_2_alg».proof.Proof.Gen.ReferenceIdeal
import proofs.«110337_j82789789597838_2_alg».proof.Proof.Gen.Pre_finite_inputs
import proofs.«110337_j82789789597838_2_alg».proof.Proof.Spec
import proofs.«110337_j82789789597838_2_alg».proof.Proof.Finite
import proofs.«110337_j82789789597838_2_alg».proof.Proof.IdealRun
import proofs.«110337_j82789789597838_2_alg».proof.Proof.IdealFinal
import proofs.«110337_j82789789597838_2_alg».proof.Proof.IdealResult
import proofs.«110337_j82789789597838_2_alg».proof.Proof.IdealRegion0
import proofs.«110337_j82789789597838_2_alg».proof.Proof.IdealRegion0Value
import proofs.«110337_j82789789597838_2_alg».proof.Proof.IdealRegion1
import proofs.«110337_j82789789597838_2_alg».proof.Proof.IdealRegion1Value
import proofs.«110337_j82789789597838_2_alg».proof.Proof.BitsRun
import proofs.«110337_j82789789597838_2_alg».proof.Proof.BitsRegion0
import proofs.«110337_j82789789597838_2_alg».proof.Proof.BitsRegion1
import proofs.«110337_j82789789597838_2_alg».proof.Proof.RefRun
import proofs.«110337_j82789789597838_2_alg».proof.Proof.RefRead
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves the image unchanged: its two regions composed. -/
theorem frame_k : Cert.frame_Kernel := fun m ρ _ =>
  (θ_run Cert.Kernel.defs _ _).mono (fun _ h c => (h c).2)
    (Cert.Kernel.Hand.run_main (F := Bits) m ρ (Cert.Kernel.Hand.aftOf0 Cert.Kernel.Hand.out0) (Cert.Kernel.Hand.aftOf1 Cert.Kernel.Hand.out1)
      (fun V c => (Cert.Kernel.Hand.body_obligation0 V c).loose) Cert.Kernel.Hand.body_obligation1)

/-- The kernel at the extended reals: the same composition, with its result array named. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1)
        = (Cert.KernelIdeal.Hand.d1 m (Cert.KernelIdeal.Hand.aftOf0 Cert.KernelIdeal.Hand.out0) (Cert.KernelIdeal.Hand.aftOf1 Cert.KernelIdeal.Hand.out1) c).arrAt 1 Cert.KernelIdeal.cfg1.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  Cert.KernelIdeal.Hand.run_main (F := Ideal) m ρ (Cert.KernelIdeal.Hand.aftOf0 Cert.KernelIdeal.Hand.out0) (Cert.KernelIdeal.Hand.aftOf1 Cert.KernelIdeal.Hand.out1)
    (fun V c => (Cert.KernelIdeal.Hand.body_obligation0 V c).loose) Cert.KernelIdeal.Hand.body_obligation1

theorem frame_ki : Cert.frame_KernelIdeal := fun m ρ _ =>
  (θ_run Cert.KernelIdeal.defs _ _).mono (fun _ h c => (h c).2) (run_ki m ρ)

/-- The reference runs and leaves the image unchanged. -/
theorem frame_ri : Cert.frame_ReferenceIdeal := fun m ρ _ =>
  (θ_run Cert.ReferenceIdeal.defs _ _).mono (fun _ h c => (h c).2) (Cert.ReferenceIdeal.Hand.run (F := Ideal) m ρ)

/-- Under the precondition the two idealized programs end with equal results. -/
theorem algebraic : Cert.algebraic_KernelIdeal_ReferenceIdeal := by
  intro m ρ m' ρ' hpre hagree
  refine ⟨fun c => Cert.Stencil.ref (m ((c.tc : Thread Cert.KernelIdeal.nD Cert.KernelIdeal.τ).loc Cert.KernelIdeal.main_arg0)), ?_, ?_⟩
  · refine (θ_run Cert.KernelIdeal.defs _ _).mono (fun _ h c => ⟨(h c).1.trans ?_, (h c).2⟩) (run_ki m ρ)
    rw [Cert.KernelIdeal.Hand.result_eq Cert.KernelIdeal.Hand.out0 Cert.KernelIdeal.Hand.out0_apply Cert.KernelIdeal.Hand.out1 Cert.KernelIdeal.Hand.out1_apply m c]
    exact Cert.Stencil.colMix_rowMix_eq_ref _ (fun i => Cert.Finite.real_of_pre _ (hpre c) i)
  · refine (θ_run Cert.ReferenceIdeal.defs _ _).mono (fun _ h c => ⟨(h c).1.trans ?_, (h c).2⟩)
      (Cert.ReferenceIdeal.Hand.run (F := Ideal) m' ρ')
    rw [hagree c]
    funext j
    obtain ⟨b, i, k, z, rfl⟩ : ∃ (b : Fin 32) (i : Fin 284) (k : Fin 205) (z : Fin 32), j = ix4 b i k z :=
      ⟨j 0, j 1, j 2, j 3, eq_ix4 j⟩
    rw [Cert.ReferenceIdeal.Hand.refTerm_apply]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
